-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v247)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v247) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x128 : Shape := ⟨4, ![16, 128, 128, 128]⟩
abbrev S100000x3 : Shape := ⟨2, ![100000, 3]⟩
abbrev S1600000 : Shape := ⟨1, ![1600000]⟩
abbrev S19x32 : Shape := ⟨2, ![19, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S19x32 : S_.BroadcastsInDim S19x32 (![] : Fin 0 → Fin S19x32.rank)
  reducesTo_S19x32_S_d0_1 : S19x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64x3 .f32) (main_arg14 : FVec F S64x3 .f32) (main_arg15 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x3 .f32 := Host.absf main_arg13
  let main_cst_20 : FVec F S_ .f32 := constant S_ .f32 0x7F800000#32
  let main_v55 : FVec F S64x3 .f32 := broadcastInDim S64x3 ![] bcast_S_S64x3 main_cst_20
  let main_v56 : IVec S64x3 1 := cmpf .olt main_v54 main_v55
  let main_c_21 : IVec S_ 1 := constantI S_ 1 1#1
  let main_v57 : IVec S_ 1 := (fun x v => Host.reduce IntOp.andi x v reducesTo_S64x3_S_d0_1 h_S_) main_v56 main_c_21
  let main_v58 : IVec S_ 1 := andi main_v53 main_v57
  let main_v59 : FVec F S64x3 .f32 := Host.absf main_arg14
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S3 .f32 := Host.absf main_arg15
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64x3 .f32) (main_arg14 : FVec F S64x3 .f32) (main_arg15 : FVec F S3 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_v48 main_v49 main_v50

def fn_part1 {F : FTy → Type} [FloatOps F] (main_arg6 : FVec F S32 .f32) (main_arg7 : FVec F S32x64 .f32) (main_arg8 : FVec F S32x64 .f32) (main_arg9 : FVec F S64 .f32) (main_arg10 : FVec F S64x64 .f32) (main_arg11 : FVec F S64x64 .f32) (main_arg12 : FVec F S64 .f32) (main_arg13 : FVec F S64x3 .f32) (main_arg14 : FVec F S64x3 .f32) (main_arg15 : FVec F S3 .f32) (main_v13 : IVec S_ 1) (main_v16 : IVec S19x32 1) : IVec S_ 1 :=
  let main_c_5 : IVec S_ 1 := constantI S_ 1 1#1
  let main_v17 : IVec S_ 1 := (fun x v => Host.reduce IntOp.andi x v reducesTo_S19x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S16x128x128x128 .f32) (main_arg1 : FVec F S100000x3 .f32) (main_arg2 : IVec S1600000 32) (main_arg3 : IVec S1600000 32) (main_arg4 : FVec F S19x32 .f32) (main_arg5 : FVec F S19x32 .f32) (main_arg6 : FVec F S32 .f32) (main_arg7 : FVec F S32x64 .f32) (main_arg8 : FVec F S32x64 .f32) (main_arg9 : FVec F S64 .f32) (main_arg10 : FVec F S64x64 .f32) (main_arg11 : FVec F S64x64 .f32) (main_arg12 : FVec F S64 .f32) (main_arg13 : FVec F S64x3 .f32) (main_arg14 : FVec F S64x3 .f32) (main_arg15 : FVec F S3 .f32) : IVec S_ 1 :=
  let main_v0 : FVec F S16x128x128x128 .f32 := Host.absf main_arg0
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_v0 main_v1
  let main_c : IVec S_ 1 := constantI S_ 1 1#1
  let main_v3 : IVec S_ 1 := (fun x v => Host.reduce IntOp.andi x v reducesTo_S16x128x128x128_S_d0_1_2_3 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S19x32 .f32 := Host.absf main_arg4
  let main_cst_2 : FVec F S_ .f32 := constant S_ .f32 0x7F800000#32
  let main_v10 : FVec F S19x32 .f32 := broadcastInDim S19x32 ![] bcast_S_S19x32 main_cst_2
  let main_v11 : IVec S19x32 1 := cmpf .olt main_v9 main_v10
  let main_c_3 : IVec S_ 1 := constantI S_ 1 1#1
  let main_v12 : IVec S_ 1 := (fun x v => Host.reduce IntOp.andi x v reducesTo_S19x32_S_d0_1 h_S_) main_v11 main_c_3
  let main_v13 : IVec S_ 1 := andi main_v8 main_v12
  let main_v14 : FVec F S19x32 .f32 := Host.absf main_arg5
  let main_cst_4 : FVec F S_ .f32 := constant S_ .f32 0x7F800000#32
  let main_v15 : FVec F S19x32 .f32 := broadcastInDim S19x32 ![] bcast_S_S19x32 main_cst_4
  let main_v16 : IVec S19x32 1 := cmpf .olt main_v14 main_v15
  fn_part1 (F := F) main_arg6 main_arg7 main_arg8 main_arg9 main_arg10 main_arg11 main_arg12 main_arg13 main_arg14 main_arg15 main_v13 main_v16
-- ==== Kernel.lean ====
abbrev S16x128x128x128 : Shape := ⟨4, ![16, 128, 128, 128]⟩
abbrev S100000x3 : Shape := ⟨2, ![100000, 3]⟩
abbrev S1600000 : Shape := ⟨1, ![1600000]⟩
abbrev S19x32 : Shape := ⟨2, ![19, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x128x128x16 : Shape := ⟨4, ![128, 128, 128, 16]⟩
abbrev S2097152x16 : Shape := ⟨2, ![2097152, 16]⟩
abbrev S1x3 : Shape := ⟨2, ![1, 3]⟩
abbrev S100000x16 : Shape := ⟨2, ![100000, 16]⟩
abbrev S100000x19 : Shape := ⟨2, ![100000, 19]⟩
abbrev S1600000x19 : Shape := ⟨2, ![1600000, 19]⟩
abbrev S1x32 : Shape := ⟨2, ![1, 32]⟩
abbrev S100000x32 : Shape := ⟨2, ![100000, 32]⟩
abbrev S4000x19 : Shape := ⟨2, ![4000, 19]⟩
abbrev S4000x1 : Shape := ⟨2, ![4000, 1]⟩
abbrev S4000x32 : Shape := ⟨2, ![4000, 32]⟩
abbrev S1600000x32 : Shape := ⟨2, ![1600000, 32]⟩
abbrev S1x64 : Shape := ⟨2, ![1, 64]⟩
abbrev S100000x64 : Shape := ⟨2, ![100000, 64]⟩
abbrev S4000x64 : Shape := ⟨2, ![4000, 64]⟩
abbrev S1600000x64 : Shape := ⟨2, ![1600000, 64]⟩
abbrev S4000x3 : Shape := ⟨2, ![4000, 3]⟩

abbrev nBuf : Space → Nat
  | .hbm => 328
  | .vmem => 46
  | .smem => 0
  | _ => 0

abbrev hbmTy0_0 (i : Nat) : BufTy := match i % 128 with
  | 0 => ⟨S16x128x128x128, .f32⟩
  | 1 => ⟨S100000x3, .f32⟩
  | 2 => ⟨S1600000, .i32⟩
  | 3 => ⟨S1600000, .i32⟩
  | 4 => ⟨S19x32, .f32⟩
  | 5 => ⟨S19x32, .f32⟩
  | 6 => ⟨S32, .f32⟩
  | 7 => ⟨S32x64, .f32⟩
  | 8 => ⟨S32x64, .f32⟩
  | 9 => ⟨S64, .f32⟩
  | 10 => ⟨S64x64, .f32⟩
  | 11 => ⟨S64x64, .f32⟩
  | 12 => ⟨S64, .f32⟩
  | 13 => ⟨S64x3, .f32⟩
  | 14 => ⟨S64x3, .f32⟩
  | 15 => ⟨S3, .f32⟩
  | 16 => ⟨S3, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S128x128x128x16, .f32⟩
  | 31 => ⟨S2097152x16, .f32⟩
  | 32 => ⟨S_, .f32⟩
  | 33 => ⟨S_, .f32⟩
  | 34 => ⟨S100000x3, .f32⟩
  | 35 => ⟨S100000x3, .f32⟩
  | 36 => ⟨S1x3, .f32⟩
  | 37 => ⟨S100000x3, .f32⟩
  | 38 => ⟨S100000x3, .f32⟩
  | 39 => ⟨S100000x3, .f32⟩
  | 40 => ⟨S100000x3, .i32⟩
  | 41 => ⟨S_, .i32⟩
  | 42 => ⟨S100000x3, .i32⟩
  | 43 => ⟨S100000x3, .i32⟩
  | 44 => ⟨S3, .i32⟩
  | 45 => ⟨S1x3, .i32⟩
  | 46 => ⟨S100000x3, .i32⟩
  | 47 => ⟨S100000x3, .i32⟩
  | 48 => ⟨S100000x3, .f32⟩
  | 49 => ⟨S100000x1, .i32⟩
  | 50 => ⟨S100000, .i32⟩
  | 51 => ⟨S100000x1, .i32⟩
  | 52 => ⟨S100000, .i32⟩
  | 53 => ⟨S100000x1, .i32⟩
  | 54 => ⟨S100000, .i32⟩
  | 55 => ⟨S100000x1, .i32⟩
  | 56 => ⟨S100000, .i32⟩
  | 57 => ⟨S100000x1, .i32⟩
  | 58 => ⟨S100000, .i32⟩
  | 59 => ⟨S100000x1, .i32⟩
  | 60 => ⟨S100000, .i32⟩
  | 61 => ⟨S100000x1, .f32⟩
  | 62 => ⟨S100000x1, .f32⟩
  | 63 => ⟨S100000x1, .f32⟩
  | 64 => ⟨S_, .i32⟩
  | 65 => ⟨S100000, .i32⟩
  | 66 => ⟨S100000, .i32⟩
  | 67 => ⟨S_, .i32⟩
  | 68 => ⟨S100000, .i32⟩
  | 69 => ⟨S100000, .i32⟩
  | 70 => ⟨S100000, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x16, .f32⟩
  | 81 => ⟨S_, .f32⟩
  | 82 => ⟨S100000x1, .f32⟩
  | 83 => ⟨S100000x1, .f32⟩
  | 84 => ⟨S100000x16, .f32⟩
  | 85 => ⟨S100000x16, .f32⟩
  | 86 => ⟨S_, .i32⟩
  | 87 => ⟨S100000, .i32⟩
  | 88 => ⟨S100000, .i32⟩
  | 89 => ⟨S_, .i32⟩
  | 90 => ⟨S100000, .i32⟩
  | 91 => ⟨S100000, .i32⟩
  | 92 => ⟨S100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x16, .f32⟩
  | 103 => ⟨S100000x16, .f32⟩
  | 104 => ⟨S100000x16, .f32⟩
  | 105 => ⟨S100000x16, .f32⟩
  | 106 => ⟨S_, .i32⟩
  | 107 => ⟨S100000, .i32⟩
  | 108 => ⟨S100000, .i32⟩
  | 109 => ⟨S_, .i32⟩
  | 110 => ⟨S100000, .i32⟩
  | 111 => ⟨S100000, .i32⟩
  | 112 => ⟨S100000, .i32⟩
  | 113 => ⟨S100000, .i32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x16, .f32⟩
  | 123 => ⟨S_, .f32⟩
  | 124 => ⟨S100000x1, .f32⟩
  | 125 => ⟨S100000x1, .f32⟩
  | 126 => ⟨S100000x16, .f32⟩
  | 127 => ⟨S100000x16, .f32⟩
  | _ => ⟨S16x128x128x128, .f32⟩

abbrev hbmTy0_1 (i : Nat) : BufTy := match i % 128 with
  | 0 => ⟨S_, .i32⟩
  | 1 => ⟨S100000, .i32⟩
  | 2 => ⟨S100000, .i32⟩
  | 3 => ⟨S_, .i32⟩
  | 4 => ⟨S100000, .i32⟩
  | 5 => ⟨S100000, .i32⟩
  | 6 => ⟨S100000, .i32⟩
  | 7 => ⟨S100000, .i32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x16, .f32⟩
  | 17 => ⟨S100000x16, .f32⟩
  | 18 => ⟨S100000x16, .f32⟩
  | 19 => ⟨S100000x16, .f32⟩
  | 20 => ⟨S_, .i32⟩
  | 21 => ⟨S100000, .i32⟩
  | 22 => ⟨S100000, .i32⟩
  | 23 => ⟨S_, .i32⟩
  | 24 => ⟨S100000, .i32⟩
  | 25 => ⟨S100000, .i32⟩
  | 26 => ⟨S100000, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x16, .f32⟩
  | 37 => ⟨S_, .f32⟩
  | 38 => ⟨S100000x1, .f32⟩
  | 39 => ⟨S100000x1, .f32⟩
  | 40 => ⟨S100000x16, .f32⟩
  | 41 => ⟨S100000x16, .f32⟩
  | 42 => ⟨S_, .i32⟩
  | 43 => ⟨S100000, .i32⟩
  | 44 => ⟨S100000, .i32⟩
  | 45 => ⟨S_, .i32⟩
  | 46 => ⟨S100000, .i32⟩
  | 47 => ⟨S100000, .i32⟩
  | 48 => ⟨S100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x16, .f32⟩
  | 59 => ⟨S100000x16, .f32⟩
  | 60 => ⟨S100000x16, .f32⟩
  | 61 => ⟨S100000x16, .f32⟩
  | 62 => ⟨S_, .i32⟩
  | 63 => ⟨S100000, .i32⟩
  | 64 => ⟨S100000, .i32⟩
  | 65 => ⟨S_, .i32⟩
  | 66 => ⟨S100000, .i32⟩
  | 67 => ⟨S100000, .i32⟩
  | 68 => ⟨S100000, .i32⟩
  | 69 => ⟨S100000, .i32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x16, .f32⟩
  | 79 => ⟨S_, .f32⟩
  | 80 => ⟨S100000x1, .f32⟩
  | 81 => ⟨S100000x1, .f32⟩
  | 82 => ⟨S100000x16, .f32⟩
  | 83 => ⟨S100000x16, .f32⟩
  | 84 => ⟨S_, .i32⟩
  | 85 => ⟨S100000, .i32⟩
  | 86 => ⟨S100000, .i32⟩
  | 87 => ⟨S_, .i32⟩
  | 88 => ⟨S100000, .i32⟩
  | 89 => ⟨S100000, .i32⟩
  | 90 => ⟨S100000, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000x16, .f32⟩
  | 101 => ⟨S100000x16, .f32⟩
  | 102 => ⟨S100000x16, .f32⟩
  | 103 => ⟨S100000x16, .f32⟩
  | 104 => ⟨S_, .f32⟩
  | 105 => ⟨S100000x1, .f32⟩
  | 106 => ⟨S100000x1, .f32⟩
  | 107 => ⟨S100000x16, .f32⟩
  | 108 => ⟨S100000x16, .f32⟩
  | 109 => ⟨S100000x16, .f32⟩
  | 110 => ⟨S100000x16, .f32⟩
  | 111 => ⟨S100000x16, .f32⟩
  | 112 => ⟨S_, .f32⟩
  | 113 => ⟨S100000x1, .f32⟩
  | 114 => ⟨S100000x1, .f32⟩
  | 115 => ⟨S100000x16, .f32⟩
  | 116 => ⟨S100000x16, .f32⟩
  | 117 => ⟨S_, .f32⟩
  | 118 => ⟨S100000x1, .f32⟩
  | 119 => ⟨S100000x1, .f32⟩
  | 120 => ⟨S100000x16, .f32⟩
  | 121 => ⟨S100000x16, .f32⟩
  | 122 => ⟨S100000x16, .f32⟩
  | 123 => ⟨S100000x16, .f32⟩
  | 124 => ⟨S100000x16, .f32⟩
  | 125 => ⟨S100000x16, .f32⟩
  | 126 => ⟨S100000x16, .f32⟩
  | 127 => ⟨S100000x16, .f32⟩
  | _ => ⟨S16x128x128x128, .f32⟩

abbrev hbmTy0_2 (i : Nat) : BufTy := match i % 128 with
  | 0 => ⟨S_, .f32⟩
  | 1 => ⟨S100000x3, .f32⟩
  | 2 => ⟨S100000x3, .f32⟩
  | 3 => ⟨S100000x19, .f32⟩
  | 4 => ⟨S100000x19, .bf16⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x19, .bf16⟩
  | 14 => ⟨S1600000x19, .f32⟩
  | 15 => ⟨S_, .f32⟩
  | 16 => ⟨S100000x19, .f32⟩
  | 17 => ⟨S1600000x1, .i32⟩
  | 18 => ⟨S100000x19, .f32⟩
  | 19 => ⟨S1x32, .f32⟩
  | 20 => ⟨S100000x32, .f32⟩
  | 21 => ⟨S100000x32, .bf16⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .bf16⟩
  | 31 => ⟨S1600000x32, .f32⟩
  | 32 => ⟨S_, .f32⟩
  | 33 => ⟨S100000x32, .f32⟩
  | 34 => ⟨S1600000x1, .i32⟩
  | 35 => ⟨S100000x32, .f32⟩
  | 36 => ⟨S1x64, .f32⟩
  | 37 => ⟨S100000x64, .f32⟩
  | 38 => ⟨S100000x64, .bf16⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .bf16⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S1x64, .f32⟩
  | 54 => ⟨S100000x64, .f32⟩
  | 55 => ⟨S100000x64, .bf16⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .bf16⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S1x3, .f32⟩
  | 71 => ⟨S100000x3, .f32⟩
  | _ => ⟨S16x128x128x128, .f32⟩

abbrev hbmTy (i : Nat) : BufTy := match i / 128 with
  | 0 => hbmTy0_0 i
  | 1 => hbmTy0_1 i
  | 2 => hbmTy0_2 i
  | _ => ⟨S16x128x128x128, .f32⟩

abbrev bufTy : (tb : Table) → Fin (tcTables nBuf tb) → BufTy
  | .hbm, ⟨i, _⟩ => hbmTy i
  | .local _ .vmem, ⟨0, _⟩ => ⟨S4000x19, .f32⟩
  | .local _ .vmem, ⟨1, _⟩ => ⟨S4000x19, .f32⟩
  | .local _ .vmem, ⟨2, _⟩ => ⟨S4000x19, .f32⟩
  | .local _ .vmem, ⟨3, _⟩ => ⟨S4000x19, .f32⟩
  | .local _ .vmem, ⟨4, _⟩ => ⟨S4000x1, .f32⟩
  | .local _ .vmem, ⟨5, _⟩ => ⟨S4000x1, .f32⟩
  | .local _ .vmem, ⟨6, _⟩ => ⟨S19x32, .f32⟩
  | .local _ .vmem, ⟨7, _⟩ => ⟨S19x32, .f32⟩
  | .local _ .vmem, ⟨8, _⟩ => ⟨S1x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x1, .f32⟩
  | .local _ .vmem, ⟨16, _⟩ => ⟨S4000x1, .f32⟩
  | .local _ .vmem, ⟨17, _⟩ => ⟨S32x64, .f32⟩
  | .local _ .vmem, ⟨18, _⟩ => ⟨S32x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x1, .f32⟩
  | .local _ .vmem, ⟨38, _⟩ => ⟨S4000x1, .f32⟩
  | .local _ .vmem, ⟨39, _⟩ => ⟨S64x3, .f32⟩
  | .local _ .vmem, ⟨40, _⟩ => ⟨S64x3, .f32⟩
  | .local _ .vmem, ⟨41, _⟩ => ⟨S1x3, .f32⟩
  | .local _ .vmem, ⟨42, _⟩ => ⟨S4000x3, .f32⟩
  | .local _ .vmem, ⟨43, _⟩ => ⟨S4000x3, .f32⟩
  | .local _ .vmem, ⟨44, _⟩ => ⟨S4000x3, .f32⟩
  | .local _ .vmem, ⟨45, _⟩ => ⟨S4000x3, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_cst_1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_2 : Ref sig .tc := ⟨.hbm, 23, rfl⟩
abbrev main_v4 : Ref sig .tc := ⟨.hbm, 24, rfl⟩
abbrev main_v5 : Ref sig .tc := ⟨.hbm, 25, rfl⟩
abbrev main_cst_3 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_7 : Ref sig .tc := ⟨.hbm, 72, rfl⟩
abbrev main_v42 : Ref sig .tc := ⟨.hbm, 73, rfl⟩
abbrev main_v43 : Ref sig .tc := ⟨.hbm, 74, rfl⟩
abbrev main_c_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_c_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_16 : Ref sig .tc := ⟨.hbm, 114, rfl⟩
abbrev main_v75 : Ref sig .tc := ⟨.hbm, 115, rfl⟩
abbrev main_v76 : Ref sig .tc := ⟨.hbm, 116, rfl⟩
abbrev main_c_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_21 : Ref sig .tc := ⟨.hbm, 136, rfl⟩
abbrev main_v92 : Ref sig .tc := ⟨.hbm, 137, rfl⟩
abbrev main_v93 : Ref sig .tc := ⟨.hbm, 138, rfl⟩
abbrev main_c_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_c_23 : Ref sig .tc := ⟨.hbm, 148, rfl⟩
abbrev main_v102 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_c_25 : Ref sig .tc := ⟨.hbm, 156, rfl⟩
abbrev main_v108 : Ref sig .tc := ⟨.hbm, 157, rfl⟩
abbrev main_v109 : Ref sig .tc := ⟨.hbm, 158, rfl⟩
abbrev main_c_26 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_30 : Ref sig .tc := ⟨.hbm, 178, rfl⟩
abbrev main_v125 : Ref sig .tc := ⟨.hbm, 179, rfl⟩
abbrev main_v126 : Ref sig .tc := ⟨.hbm, 180, rfl⟩
abbrev main_c_31 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_32 : Ref sig .tc := ⟨.hbm, 190, rfl⟩
abbrev main_v135 : Ref sig .tc := ⟨.hbm, 191, rfl⟩
abbrev main_v136 : Ref sig .tc := ⟨.hbm, 192, rfl⟩
abbrev main_c_33 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_34 : Ref sig .tc := ⟨.hbm, 198, rfl⟩
abbrev main_v141 : Ref sig .tc := ⟨.hbm, 199, rfl⟩
abbrev main_v142 : Ref sig .tc := ⟨.hbm, 200, rfl⟩
abbrev main_c_35 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_36 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_37 : Ref sig .tc := ⟨.hbm, 212, rfl⟩
abbrev main_v152 : Ref sig .tc := ⟨.hbm, 213, rfl⟩
abbrev main_v153 : Ref sig .tc := ⟨.hbm, 214, rfl⟩
abbrev main_c_38 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_c_39 : Ref sig .tc := ⟨.hbm, 220, rfl⟩
abbrev main_v158 : Ref sig .tc := ⟨.hbm, 221, rfl⟩
abbrev main_v159 : Ref sig .tc := ⟨.hbm, 222, rfl⟩
abbrev main_c_40 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_41 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_42 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_cst_43 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_cst_44 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_c_45 : Ref sig .tc := ⟨.hbm, 261, rfl⟩
abbrev main_v193 : Ref sig .tc := ⟨.hbm, 262, rfl⟩
abbrev main_v194 : Ref sig .tc := ⟨.hbm, 263, rfl⟩
abbrev main_c_46 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_47 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_c_48 : Ref sig .tc := ⟨.hbm, 278, rfl⟩
abbrev main_v207 : Ref sig .tc := ⟨.hbm, 279, rfl⟩
abbrev main_v208 : Ref sig .tc := ⟨.hbm, 280, rfl⟩
abbrev main_c_49 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_cst_50 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_c_51 : Ref sig .tc := ⟨.hbm, 295, rfl⟩
abbrev main_v221 : Ref sig .tc := ⟨.hbm, 296, rfl⟩
abbrev main_v222 : Ref sig .tc := ⟨.hbm, 297, rfl⟩
abbrev main_c_52 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_cst_53 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_c_54 : Ref sig .tc := ⟨.hbm, 312, rfl⟩
abbrev main_v235 : Ref sig .tc := ⟨.hbm, 313, rfl⟩
abbrev main_v236 : Ref sig .tc := ⟨.hbm, 314, rfl⟩
abbrev main_c_55 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_cst_56 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc3_sem7_0 : DmaSem sig := 44
abbrev cc3_sem7_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S19x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S19x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x3 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x3 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S16x128x128x128_S128x128x128x16_1_2_3_0 : S16x128x128x128.Transposes [1, 2, 3, 0] S128x128x128x16
  shapeCasts_S128x128x128x16_S2097152x16 : S128x128x128x16.ShapeCasts S2097152x16
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  concatenates_S100000x3_S100000x16_S100000x19_d1 : Shape.Concatenates [S100000x3, S100000x16] S100000x19 1
  bitsLt_bf16_f32 : FTy.bits .bf16 < FTy.bits .f32
  bcast_S_S100000x19 : S_.BroadcastsInDim S100000x19 (![] : Fin 0 → Fin S100000x19.rank)
  shapeCasts_S32_S1x32 : S32.ShapeCasts S1x32
  inb_S4000x19_S4000x19_0_0 : ∀ a, (![0, 0] : Fin 2 → Nat) a + S4000x19.size a ≤ S4000x19.size a
  h_S4000x19 : 0 < S4000x19.numel
  shapeCasts_S4000x19_S4000x19 : S4000x19.ShapeCasts S4000x19
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x19 : S4000x1.Broadcasts S4000x19
  inb_S19x32_S19x32_0_0 : ∀ a, (![0, 0] : Fin 2 → Nat) a + S19x32.size a ≤ S19x32.size a
  h_S19x32 : 0 < S19x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S64_S1x64 : S64.ShapeCasts S1x64
  shapeCasts_S4000x32_S4000x32 : S4000x32.ShapeCasts S4000x32
  broadcasts_S4000x1_S4000x32 : S4000x1.Broadcasts S4000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S3_S1x3 : S3.ShapeCasts S1x3
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  scatter_S100000_S1600000x1_S1600000_n_0_0_1_wf : ScatterDims.WF S100000 S1600000x1 S1600000 [] [0] [0] 1
  gather_S2097152x16_S100000x1_S100000x16_1_0_n_n_0_1_116_wf : GatherDims.WF S2097152x16 S100000x1 S100000x16 [1] [0] [] [0] [] 1 ![1, 16]
  gather_S100000x19_S1600000x1_S1600000x19_1_0_n_n_0_1_119_wf : GatherDims.WF S100000x19 S1600000x1 S1600000x19 [1] [0] [] [0] [] 1 ![1, 19]
  scatter_S100000x19_S1600000x1_S1600000x19_1_0_0_1_wf : ScatterDims.WF S100000x19 S1600000x1 S1600000x19 [1] [0] [0] 1
  dot_S4000x19_S19x32_S4000x32_1_0_0_1_n_n_wf : DotDims.WF S4000x19 S19x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x64_S4000x64_1_0_0_1_n_n_wf : DotDims.WF S4000x32 S32x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x3_S4000x3_1_0_0_1_n_n_wf : DotDims.WF S4000x64 S64x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x19.size a ≤ S100000x19.size a
  hwx0_0 : ∀ i : grid0.Coords, EltTy.bits .f32 = 32 ∨ (Rect.block (s := S100000x19) S4000x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x19.size a ≤ S100000x19.size a
  hwx0_1 : ∀ i : grid0.Coords, EltTy.bits .f32 = 32 ∨ (Rect.block (s := S100000x19) S4000x19.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x32.size a ≤ S19x32.size a
  hwx0_3 : ∀ i : grid0.Coords, EltTy.bits .f32 = 32 ∨ (Rect.block (s := S19x32) S19x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S19x32.size a ≤ S19x32.size a
  hwx0_4 : ∀ i : grid0.Coords, EltTy.bits .f32 = 32 ∨ (Rect.block (s := S19x32) S19x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x32.size a ≤ S100000x32.size a
  hwx0_6 : ∀ i : grid0.Coords, EltTy.bits .f32 = 32 ∨ (Rect.block (s := S100000x32) S4000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .f32 = 32 ∨ (Rect.block (s := S100000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x3.size a ≤ S64x3.size a
  hwx3_3 : ∀ i : grid3.Coords, EltTy.bits .f32 = 32 ∨ (Rect.block (s := S64x3) S64x3.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x3.size a ≤ S64x3.size a
  hwx3_4 : ∀ i : grid3.Coords, EltTy.bits .f32 = 32 ∨ (Rect.block (s := S64x3) S64x3.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x3.size a ≤ S1x3.size a
  hwx3_5 : ∀ i : grid3.Coords, EltTy.bits .f32 = 32 ∨ (Rect.block (s := S1x3) S1x3.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x3.size a ≤ S100000x3.size a
  hwx3_6 : ∀ i : grid3.Coords, EltTy.bits .f32 = 32 ∨ (Rect.block (s := S100000x3) S4000x3.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x3.size a ≤ S100000x3.size a
  hwx3_7 : ∀ i : grid3.Coords, EltTy.bits .f32 = 32 ∨ (Rect.block (s := S100000x3) S4000x3.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S2097152x16_S100000x1_S100000x16_1_0_n_n_0_1_116 : GatherDims S2097152x16 S100000x1 S100000x16 where
  offsetDims := [1]
  collapsedSliceDims := [0]
  operandBatchingDims := []
  startIndicesBatchingDims := []
  startIndexMap := [0]
  indexVectorDim := 1
  sliceSizes := ![1, 16]
  wf := gather_S2097152x16_S100000x1_S100000x16_1_0_n_n_0_1_116_wf
def gather_S100000x19_S1600000x1_S1600000x19_1_0_n_n_0_1_119 : GatherDims S100000x19 S1600000x1 S1600000x19 where
  offsetDims := [1]
  collapsedSliceDims := [0]
  operandBatchingDims := []
  startIndicesBatchingDims := []
  startIndexMap := [0]
  indexVectorDim := 1
  sliceSizes := ![1, 19]
  wf := gather_S100000x19_S1600000x1_S1600000x19_1_0_n_n_0_1_119_wf
def scatter_S100000x19_S1600000x1_S1600000x19_1_0_0_1 : ScatterDims S100000x19 S1600000x1 S1600000x19 where
  updateWindowDims := [1]
  insertedWindowDims := [0]
  scatterDimsToOperandDims := [0]
  indexVectorDim := 1
  wf := scatter_S100000x19_S1600000x1_S1600000x19_1_0_0_1_wf
def dot_S4000x19_S19x32_S4000x32_1_0_0_1_n_n : DotDims S4000x19 S19x32 S4000x32 where
  lhsContracting := [1]
  rhsContracting := [0]
  lhsNonContracting := [0]
  rhsNonContracting := [1]
  lhsBatch := []
  rhsBatch := []
  wf := dot_S4000x19_S19x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x3_S4000x3_1_0_0_1_n_n : DotDims S4000x64 S64x3 S4000x3 where
  lhsContracting := [1]
  rhsContracting := [0]
  lhsNonContracting := [0]
  rhsNonContracting := [1]
  lhsBatch := []
  rhsBatch := []
  wf := dot_S4000x64_S64x3_S4000x3_1_0_0_1_n_n_wf

abbrev win0_0 : Pipeline.Window sig grid0 :=
  Pipeline.Window.ofSpec (Memref.whole main_v191) S4000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v203) S4000x19.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S19x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S19x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v204) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v205) S4000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v205) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v217) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v218) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v219) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v219) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v231) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v232) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v233) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v233) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v245) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v246) S1x3.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg1) S4000x3.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v247) S4000x3.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S16x128x128x128 : Shape := ⟨4, ![16, 128, 128, 128]⟩
abbrev S100000x3 : Shape := ⟨2, ![100000, 3]⟩
abbrev S1600000 : Shape := ⟨1, ![1600000]⟩
abbrev S19x32 : Shape := ⟨2, ![19, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x3 : Shape := ⟨2, ![1, 3]⟩
abbrev S16x100000 : Shape := ⟨2, ![16, 100000]⟩
abbrev S100000x16 : Shape := ⟨2, ![100000, 16]⟩
abbrev S100000x19 : Shape := ⟨2, ![100000, 19]⟩
abbrev S1600000x19 : Shape := ⟨2, ![1600000, 19]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 450
  | .vmem => 0
  | .smem => 0
  | _ => 0

abbrev hbmTy0_0 (i : Nat) : BufTy := match i % 128 with
  | 0 => ⟨S16x128x128x128, .f32⟩
  | 1 => ⟨S100000x3, .f32⟩
  | 2 => ⟨S1600000, .i32⟩
  | 3 => ⟨S1600000, .i32⟩
  | 4 => ⟨S19x32, .f32⟩
  | 5 => ⟨S19x32, .f32⟩
  | 6 => ⟨S32, .f32⟩
  | 7 => ⟨S32x64, .f32⟩
  | 8 => ⟨S32x64, .f32⟩
  | 9 => ⟨S64, .f32⟩
  | 10 => ⟨S64x64, .f32⟩
  | 11 => ⟨S64x64, .f32⟩
  | 12 => ⟨S64, .f32⟩
  | 13 => ⟨S64x3, .f32⟩
  | 14 => ⟨S64x3, .f32⟩
  | 15 => ⟨S3, .f32⟩
  | 16 => ⟨S3, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .f32⟩
  | 31 => ⟨S_, .f32⟩
  | 32 => ⟨S100000x3, .f32⟩
  | 33 => ⟨S100000x3, .f32⟩
  | 34 => ⟨S1x3, .f32⟩
  | 35 => ⟨S100000x3, .f32⟩
  | 36 => ⟨S100000x3, .f32⟩
  | 37 => ⟨S100000x3, .f32⟩
  | 38 => ⟨S100000x3, .i32⟩
  | 39 => ⟨S_, .i32⟩
  | 40 => ⟨S100000x3, .i32⟩
  | 41 => ⟨S100000x3, .i32⟩
  | 42 => ⟨S3, .i32⟩
  | 43 => ⟨S1x3, .i32⟩
  | 44 => ⟨S100000x3, .i32⟩
  | 45 => ⟨S100000x3, .i32⟩
  | 46 => ⟨S100000x3, .f32⟩
  | 47 => ⟨S100000x1, .i32⟩
  | 48 => ⟨S100000, .i32⟩
  | 49 => ⟨S100000x1, .i32⟩
  | 50 => ⟨S100000, .i32⟩
  | 51 => ⟨S100000x1, .i32⟩
  | 52 => ⟨S100000, .i32⟩
  | 53 => ⟨S100000x1, .i32⟩
  | 54 => ⟨S100000, .i32⟩
  | 55 => ⟨S100000x1, .i32⟩
  | 56 => ⟨S100000, .i32⟩
  | 57 => ⟨S100000x1, .i32⟩
  | 58 => ⟨S100000, .i32⟩
  | 59 => ⟨S100000x1, .f32⟩
  | 60 => ⟨S100000x1, .f32⟩
  | 61 => ⟨S100000x1, .f32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x1, .i32⟩
  | 85 => ⟨S100000x1, .i32⟩
  | 86 => ⟨S100000x3, .i32⟩
  | 87 => ⟨S16x100000, .f32⟩
  | 88 => ⟨S100000x16, .f32⟩
  | 89 => ⟨S_, .f32⟩
  | 90 => ⟨S100000x1, .f32⟩
  | 91 => ⟨S100000x1, .f32⟩
  | 92 => ⟨S100000x16, .f32⟩
  | 93 => ⟨S100000x16, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x1, .i32⟩
  | 117 => ⟨S100000x1, .i32⟩
  | 118 => ⟨S100000x3, .i32⟩
  | 119 => ⟨S16x100000, .f32⟩
  | 120 => ⟨S100000x16, .f32⟩
  | 121 => ⟨S100000x16, .f32⟩
  | 122 => ⟨S100000x16, .f32⟩
  | 123 => ⟨S100000x16, .f32⟩
  | 124 => ⟨S_, .i32⟩
  | 125 => ⟨S100000, .i32⟩
  | 126 => ⟨S100000, .i1⟩
  | 127 => ⟨S_, .i32⟩
  | _ => ⟨S16x128x128x128, .f32⟩

abbrev hbmTy0_1 (i : Nat) : BufTy := match i % 128 with
  | 0 => ⟨S100000, .i32⟩
  | 1 => ⟨S100000, .i32⟩
  | 2 => ⟨S100000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000x1, .i32⟩
  | 19 => ⟨S100000x1, .i32⟩
  | 20 => ⟨S100000x3, .i32⟩
  | 21 => ⟨S16x100000, .f32⟩
  | 22 => ⟨S100000x16, .f32⟩
  | 23 => ⟨S_, .f32⟩
  | 24 => ⟨S100000x1, .f32⟩
  | 25 => ⟨S100000x1, .f32⟩
  | 26 => ⟨S100000x16, .f32⟩
  | 27 => ⟨S100000x16, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x1, .i32⟩
  | 51 => ⟨S100000x1, .i32⟩
  | 52 => ⟨S100000x3, .i32⟩
  | 53 => ⟨S16x100000, .f32⟩
  | 54 => ⟨S100000x16, .f32⟩
  | 55 => ⟨S100000x16, .f32⟩
  | 56 => ⟨S100000x16, .f32⟩
  | 57 => ⟨S100000x16, .f32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x1, .i32⟩
  | 81 => ⟨S100000x1, .i32⟩
  | 82 => ⟨S100000x3, .i32⟩
  | 83 => ⟨S16x100000, .f32⟩
  | 84 => ⟨S100000x16, .f32⟩
  | 85 => ⟨S_, .f32⟩
  | 86 => ⟨S100000x1, .f32⟩
  | 87 => ⟨S100000x1, .f32⟩
  | 88 => ⟨S100000x16, .f32⟩
  | 89 => ⟨S100000x16, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x1, .i32⟩
  | 113 => ⟨S100000x1, .i32⟩
  | 114 => ⟨S100000x3, .i32⟩
  | 115 => ⟨S16x100000, .f32⟩
  | 116 => ⟨S100000x16, .f32⟩
  | 117 => ⟨S100000x16, .f32⟩
  | 118 => ⟨S100000x16, .f32⟩
  | 119 => ⟨S100000x16, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S_, .i32⟩
  | _ => ⟨S16x128x128x128, .f32⟩

abbrev hbmTy0_2 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x1, .i32⟩
  | 15 => ⟨S100000x1, .i32⟩
  | 16 => ⟨S100000x3, .i32⟩
  | 17 => ⟨S16x100000, .f32⟩
  | 18 => ⟨S100000x16, .f32⟩
  | 19 => ⟨S_, .f32⟩
  | 20 => ⟨S100000x1, .f32⟩
  | 21 => ⟨S100000x1, .f32⟩
  | 22 => ⟨S100000x16, .f32⟩
  | 23 => ⟨S100000x16, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x1, .i32⟩
  | 47 => ⟨S100000x1, .i32⟩
  | 48 => ⟨S100000x3, .i32⟩
  | 49 => ⟨S16x100000, .f32⟩
  | 50 => ⟨S100000x16, .f32⟩
  | 51 => ⟨S100000x16, .f32⟩
  | 52 => ⟨S100000x16, .f32⟩
  | 53 => ⟨S100000x16, .f32⟩
  | 54 => ⟨S_, .f32⟩
  | 55 => ⟨S100000x1, .f32⟩
  | 56 => ⟨S100000x1, .f32⟩
  | 57 => ⟨S100000x16, .f32⟩
  | 58 => ⟨S100000x16, .f32⟩
  | 59 => ⟨S100000x16, .f32⟩
  | 60 => ⟨S100000x16, .f32⟩
  | 61 => ⟨S100000x16, .f32⟩
  | 62 => ⟨S_, .f32⟩
  | 63 => ⟨S100000x1, .f32⟩
  | 64 => ⟨S100000x1, .f32⟩
  | 65 => ⟨S100000x16, .f32⟩
  | 66 => ⟨S100000x16, .f32⟩
  | 67 => ⟨S_, .f32⟩
  | 68 => ⟨S100000x1, .f32⟩
  | 69 => ⟨S100000x1, .f32⟩
  | 70 => ⟨S100000x16, .f32⟩
  | 71 => ⟨S100000x16, .f32⟩
  | 72 => ⟨S100000x16, .f32⟩
  | 73 => ⟨S100000x16, .f32⟩
  | 74 => ⟨S100000x16, .f32⟩
  | 75 => ⟨S100000x16, .f32⟩
  | 76 => ⟨S100000x16, .f32⟩
  | 77 => ⟨S100000x16, .f32⟩
  | 78 => ⟨S_, .f32⟩
  | 79 => ⟨S100000x3, .f32⟩
  | 80 => ⟨S100000x3, .f32⟩
  | 81 => ⟨S100000x19, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x19, .f32⟩
  | 91 => ⟨S_, .f32⟩
  | 92 => ⟨S100000x19, .f32⟩
  | 93 => ⟨S1600000x1, .i32⟩
  | 94 => ⟨S100000x19, .f32⟩
  | 95 => ⟨S100000x19, .f32⟩
  | 96 => ⟨S100000x19, .f32⟩
  | 97 => ⟨S100000x32, .f32⟩
  | 98 => ⟨S100000x32, .f32⟩
  | 99 => ⟨S100000x32, .f32⟩
  | 100 => ⟨S1x32, .f32⟩
  | 101 => ⟨S100000x32, .f32⟩
  | 102 => ⟨S100000x32, .f32⟩
  | 103 => ⟨S_, .f32⟩
  | 104 => ⟨S_, .f32⟩
  | 105 => ⟨S100000x32, .f32⟩
  | 106 => ⟨S100000x32, .i1⟩
  | 107 => ⟨S_, .f32⟩
  | 108 => ⟨S100000x32, .f32⟩
  | 109 => ⟨S100000x32, .f32⟩
  | 110 => ⟨S100000x32, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S_, .f32⟩
  | 121 => ⟨S100000x32, .f32⟩
  | 122 => ⟨S1600000x1, .i32⟩
  | 123 => ⟨S100000x32, .f32⟩
  | 124 => ⟨S100000x32, .f32⟩
  | 125 => ⟨S100000x32, .f32⟩
  | 126 => ⟨S100000x64, .f32⟩
  | 127 => ⟨S100000x64, .f32⟩
  | _ => ⟨S16x128x128x128, .f32⟩

abbrev hbmTy0_3 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S_, .f32⟩
  | 6 => ⟨S100000x64, .f32⟩
  | 7 => ⟨S100000x64, .i1⟩
  | 8 => ⟨S_, .f32⟩
  | 9 => ⟨S100000x64, .f32⟩
  | 10 => ⟨S100000x64, .f32⟩
  | 11 => ⟨S100000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S100000x64, .f32⟩
  | 26 => ⟨S100000x64, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S_, .f32⟩
  | 35 => ⟨S100000x64, .f32⟩
  | 36 => ⟨S100000x64, .i1⟩
  | 37 => ⟨S_, .f32⟩
  | 38 => ⟨S100000x64, .f32⟩
  | 39 => ⟨S100000x64, .f32⟩
  | 40 => ⟨S100000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x64, .f32⟩
  | 55 => ⟨S100000x64, .f32⟩
  | 56 => ⟨S100000x3, .f32⟩
  | 57 => ⟨S100000x3, .f32⟩
  | 58 => ⟨S100000x3, .f32⟩
  | 59 => ⟨S1x3, .f32⟩
  | 60 => ⟨S100000x3, .f32⟩
  | 61 => ⟨S100000x3, .f32⟩
  | 62 => ⟨S_, .f32⟩
  | 63 => ⟨S100000x3, .f32⟩
  | 64 => ⟨S100000x3, .f32⟩
  | 65 => ⟨S100000x3, .f32⟩
  | _ => ⟨S16x128x128x128, .f32⟩

abbrev hbmTy (i : Nat) : BufTy := match i / 128 with
  | 0 => hbmTy0_0 i
  | 1 => hbmTy0_1 i
  | 2 => hbmTy0_2 i
  | 3 => hbmTy0_3 i
  | _ => ⟨S16x128x128x128, .f32⟩

abbrev bufTy : (tb : Table) → Fin (tcTables nBuf tb) → BufTy
  | .hbm, ⟨i, _⟩ => hbmTy i
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_cst_1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_2 : Ref sig .tc := ⟨.hbm, 23, rfl⟩
abbrev main_v4 : Ref sig .tc := ⟨.hbm, 24, rfl⟩
abbrev main_v5 : Ref sig .tc := ⟨.hbm, 25, rfl⟩
abbrev main_cst_3 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_7 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_9 : Ref sig .tc := ⟨.hbm, 76, rfl⟩
abbrev main_v44 : Ref sig .tc := ⟨.hbm, 77, rfl⟩
abbrev main_v45 : Ref sig .tc := ⟨.hbm, 78, rfl⟩
abbrev main_c_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_c_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_c_15 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_c_17 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_18 : Ref sig .tc := ⟨.hbm, 124, rfl⟩
abbrev main_v83 : Ref sig .tc := ⟨.hbm, 125, rfl⟩
abbrev main_v84 : Ref sig .tc := ⟨.hbm, 126, rfl⟩
abbrev main_c_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_c_21 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_22 : Ref sig .tc := ⟨.hbm, 138, rfl⟩
abbrev main_v93 : Ref sig .tc := ⟨.hbm, 139, rfl⟩
abbrev main_v94 : Ref sig .tc := ⟨.hbm, 140, rfl⟩
abbrev main_c_23 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_c_25 : Ref sig .tc := ⟨.hbm, 156, rfl⟩
abbrev main_v108 : Ref sig .tc := ⟨.hbm, 157, rfl⟩
abbrev main_v109 : Ref sig .tc := ⟨.hbm, 158, rfl⟩
abbrev main_c_26 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_c_28 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_c_29 : Ref sig .tc := ⟨.hbm, 170, rfl⟩
abbrev main_v118 : Ref sig .tc := ⟨.hbm, 171, rfl⟩
abbrev main_v119 : Ref sig .tc := ⟨.hbm, 172, rfl⟩
abbrev main_c_30 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_c_31 : Ref sig .tc := ⟨.hbm, 186, rfl⟩
abbrev main_v132 : Ref sig .tc := ⟨.hbm, 187, rfl⟩
abbrev main_v133 : Ref sig .tc := ⟨.hbm, 188, rfl⟩
abbrev main_c_32 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_c_33 : Ref sig .tc := ⟨.hbm, 193, rfl⟩
abbrev main_v137 : Ref sig .tc := ⟨.hbm, 194, rfl⟩
abbrev main_v138 : Ref sig .tc := ⟨.hbm, 195, rfl⟩
abbrev main_c_34 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_c_35 : Ref sig .tc := ⟨.hbm, 200, rfl⟩
abbrev main_v142 : Ref sig .tc := ⟨.hbm, 201, rfl⟩
abbrev main_v143 : Ref sig .tc := ⟨.hbm, 202, rfl⟩
abbrev main_c_36 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_37 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_c_38 : Ref sig .tc := ⟨.hbm, 218, rfl⟩
abbrev main_v157 : Ref sig .tc := ⟨.hbm, 219, rfl⟩
abbrev main_v158 : Ref sig .tc := ⟨.hbm, 220, rfl⟩
abbrev main_c_39 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_c_40 : Ref sig .tc := ⟨.hbm, 225, rfl⟩
abbrev main_v162 : Ref sig .tc := ⟨.hbm, 226, rfl⟩
abbrev main_v163 : Ref sig .tc := ⟨.hbm, 227, rfl⟩
abbrev main_c_41 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_42 : Ref sig .tc := ⟨.hbm, 232, rfl⟩
abbrev main_v167 : Ref sig .tc := ⟨.hbm, 233, rfl⟩
abbrev main_v168 : Ref sig .tc := ⟨.hbm, 234, rfl⟩
abbrev main_c_43 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_c_44 : Ref sig .tc := ⟨.hbm, 248, rfl⟩
abbrev main_v181 : Ref sig .tc := ⟨.hbm, 249, rfl⟩
abbrev main_v182 : Ref sig .tc := ⟨.hbm, 250, rfl⟩
abbrev main_c_45 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_c_46 : Ref sig .tc := ⟨.hbm, 255, rfl⟩
abbrev main_v186 : Ref sig .tc := ⟨.hbm, 256, rfl⟩
abbrev main_v187 : Ref sig .tc := ⟨.hbm, 257, rfl⟩
abbrev main_c_47 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_c_48 : Ref sig .tc := ⟨.hbm, 262, rfl⟩
abbrev main_v191 : Ref sig .tc := ⟨.hbm, 263, rfl⟩
abbrev main_v192 : Ref sig .tc := ⟨.hbm, 264, rfl⟩
abbrev main_c_49 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_cst_50 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_c_51 : Ref sig .tc := ⟨.hbm, 280, rfl⟩
abbrev main_v206 : Ref sig .tc := ⟨.hbm, 281, rfl⟩
abbrev main_v207 : Ref sig .tc := ⟨.hbm, 282, rfl⟩
abbrev main_c_52 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_c_53 : Ref sig .tc := ⟨.hbm, 287, rfl⟩
abbrev main_v211 : Ref sig .tc := ⟨.hbm, 288, rfl⟩
abbrev main_v212 : Ref sig .tc := ⟨.hbm, 289, rfl⟩
abbrev main_c_54 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_c_55 : Ref sig .tc := ⟨.hbm, 294, rfl⟩
abbrev main_v216 : Ref sig .tc := ⟨.hbm, 295, rfl⟩
abbrev main_v217 : Ref sig .tc := ⟨.hbm, 296, rfl⟩
abbrev main_c_56 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_cst_57 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_58 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_cst_59 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_cst_60 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_c_61 : Ref sig .tc := ⟨.hbm, 338, rfl⟩
abbrev main_v254 : Ref sig .tc := ⟨.hbm, 339, rfl⟩
abbrev main_v255 : Ref sig .tc := ⟨.hbm, 340, rfl⟩
abbrev main_c_62 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_cst_63 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_cst_64 : Ref sig .tc := ⟨.hbm, 359, rfl⟩
abbrev main_call1_cst : Ref sig .tc := ⟨.hbm, 360, rfl⟩
abbrev main_call1_v0 : Ref sig .tc := ⟨.hbm, 361, rfl⟩
abbrev main_call1_v1 : Ref sig .tc := ⟨.hbm, 362, rfl⟩
abbrev main_call1_v2 : Ref sig .tc := ⟨.hbm, 363, rfl⟩
abbrev main_call1_v3 : Ref sig .tc := ⟨.hbm, 364, rfl⟩
abbrev main_call1_v4 : Ref sig .tc := ⟨.hbm, 365, rfl⟩
abbrev main_v272 : Ref sig .tc := ⟨.hbm, 366, rfl⟩
abbrev main_c_65 : Ref sig .tc := ⟨.hbm, 367, rfl⟩
abbrev main_v273 : Ref sig .tc := ⟨.hbm, 368, rfl⟩
abbrev main_v274 : Ref sig .tc := ⟨.hbm, 369, rfl⟩
abbrev main_c_66 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_cst_67 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_cst_68 : Ref sig .tc := ⟨.hbm, 388, rfl⟩
abbrev main_call2_cst : Ref sig .tc := ⟨.hbm, 389, rfl⟩
abbrev main_call2_v0 : Ref sig .tc := ⟨.hbm, 390, rfl⟩
abbrev main_call2_v1 : Ref sig .tc := ⟨.hbm, 391, rfl⟩
abbrev main_call2_v2 : Ref sig .tc := ⟨.hbm, 392, rfl⟩
abbrev main_call2_v3 : Ref sig .tc := ⟨.hbm, 393, rfl⟩
abbrev main_call2_v4 : Ref sig .tc := ⟨.hbm, 394, rfl⟩
abbrev main_v291 : Ref sig .tc := ⟨.hbm, 395, rfl⟩
abbrev main_c_69 : Ref sig .tc := ⟨.hbm, 396, rfl⟩
abbrev main_v292 : Ref sig .tc := ⟨.hbm, 397, rfl⟩
abbrev main_v293 : Ref sig .tc := ⟨.hbm, 398, rfl⟩
abbrev main_c_70 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_cst_71 : Ref sig .tc := ⟨.hbm, 405, rfl⟩
abbrev main_v299 : Ref sig .tc := ⟨.hbm, 406, rfl⟩
abbrev main_v300 : Ref sig .tc := ⟨.hbm, 407, rfl⟩
abbrev main_v301 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩
abbrev main_v309 : Ref sig .tc := ⟨.hbm, 416, rfl⟩
abbrev main_cst_72 : Ref sig .tc := ⟨.hbm, 417, rfl⟩
abbrev main_call3_cst : Ref sig .tc := ⟨.hbm, 418, rfl⟩
abbrev main_call3_v0 : Ref sig .tc := ⟨.hbm, 419, rfl⟩
abbrev main_call3_v1 : Ref sig .tc := ⟨.hbm, 420, rfl⟩
abbrev main_call3_v2 : Ref sig .tc := ⟨.hbm, 421, rfl⟩
abbrev main_call3_v3 : Ref sig .tc := ⟨.hbm, 422, rfl⟩
abbrev main_call3_v4 : Ref sig .tc := ⟨.hbm, 423, rfl⟩
abbrev main_v310 : Ref sig .tc := ⟨.hbm, 424, rfl⟩
abbrev main_c_73 : Ref sig .tc := ⟨.hbm, 425, rfl⟩
abbrev main_v311 : Ref sig .tc := ⟨.hbm, 426, rfl⟩
abbrev main_v312 : Ref sig .tc := ⟨.hbm, 427, rfl⟩
abbrev main_c_74 : Ref sig .tc := ⟨.hbm, 428, rfl⟩
abbrev main_v313 : Ref sig .tc := ⟨.hbm, 429, rfl⟩
abbrev main_v314 : Ref sig .tc := ⟨.hbm, 430, rfl⟩
abbrev main_v315 : Ref sig .tc := ⟨.hbm, 431, rfl⟩
abbrev main_v316 : Ref sig .tc := ⟨.hbm, 432, rfl⟩
abbrev main_v317 : Ref sig .tc := ⟨.hbm, 433, rfl⟩
abbrev main_cst_75 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_cst_76 : Ref sig .tc := ⟨.hbm, 446, rfl⟩
abbrev main_v329 : Ref sig .tc := ⟨.hbm, 447, rfl⟩
abbrev main_v330 : Ref sig .tc := ⟨.hbm, 448, rfl⟩
abbrev main_v331 : Ref sig .tc := ⟨.hbm, 449, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  concatenates_S100000x1_S100000x1_S100000x1_S100000x3_d1 : Shape.Concatenates [S100000x1, S100000x1, S100000x1] S100000x3 1
  transposes_S16x100000_S100000x16_1_0 : S16x100000.Transposes [1, 0] S100000x16
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  concatenates_S100000x3_S100000x16_S100000x19_d1 : Shape.Concatenates [S100000x3, S100000x16] S100000x19 1
  bcast_S_S100000x19 : S_.BroadcastsInDim S100000x19 (![] : Fin 0 → Fin S100000x19.rank)
  bcast_S100000x1_S100000x19_0_1 : S100000x1.BroadcastsInDim S100000x19 (![0, 1] : Fin 2 → Fin S100000x19.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S16x128x128x128_S100000x3_S16x100000_0_123_n_n_123_1_16111_wf : GatherDims.WF S16x128x128x128 S100000x3 S16x100000 [0] [1, 2, 3] [] [1, 2, 3] [] 1 ![16, 1, 1, 1]
  gather_S100000x19_S1600000x1_S1600000x19_1_0_n_n_0_1_119_wf : GatherDims.WF S100000x19 S1600000x1 S1600000x19 [1] [0] [] [0] [] 1 ![1, 19]
  scatter_S100000x19_S1600000x1_S1600000x19_1_0_0_1_wf : ScatterDims.WF S100000x19 S1600000x1 S1600000x19 [1] [0] [0] 1
  dot_S100000x19_S19x32_S100000x32_1_0_0_1_n_n_wf : DotDims.WF S100000x19 S19x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S16x128x128x128_S100000x3_S16x100000_0_123_n_n_123_1_16111 : GatherDims S16x128x128x128 S100000x3 S16x100000 where
  offsetDims := [0]
  collapsedSliceDims := [1, 2, 3]
  operandBatchingDims := []
  startIndicesBatchingDims := []
  startIndexMap := [1, 2, 3]
  indexVectorDim := 1
  sliceSizes := ![16, 1, 1, 1]
  wf := gather_S16x128x128x128_S100000x3_S16x100000_0_123_n_n_123_1_16111_wf
def gather_S100000x19_S1600000x1_S1600000x19_1_0_n_n_0_1_119 : GatherDims S100000x19 S1600000x1 S1600000x19 where
  offsetDims := [1]
  collapsedSliceDims := [0]
  operandBatchingDims := []
  startIndicesBatchingDims := []
  startIndexMap := [0]
  indexVectorDim := 1
  sliceSizes := ![1, 19]
  wf := gather_S100000x19_S1600000x1_S1600000x19_1_0_n_n_0_1_119_wf
def scatter_S100000x19_S1600000x1_S1600000x19_1_0_0_1 : ScatterDims S100000x19 S1600000x1 S1600000x19 where
  updateWindowDims := [1]
  insertedWindowDims := [0]
  scatterDimsToOperandDims := [0]
  indexVectorDim := 1
  wf := scatter_S100000x19_S1600000x1_S1600000x19_1_0_0_1_wf
def dot_S100000x19_S19x32_S100000x32_1_0_0_1_n_n : DotDims S100000x19 S19x32 S100000x32 where
  lhsContracting := [1]
  rhsContracting := [0]
  lhsNonContracting := [0]
  rhsNonContracting := [1]
  lhsBatch := []
  rhsBatch := []
  wf := dot_S100000x19_S19x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The idealized kernel program's run with its result named. Every weakly fair execution of the program ends, without a
  fault, with every unscoped TensorCore buffer at the end of the fold of the program's segments over the launch memory:
  the host stretches apply their operations, each of the four regions leaves its arrays at what its 25 grid points wrote
  back. In particular the result array is what the last region's write-backs leave, and the sixteen arguments are as launched.
-/
import proofs.«139037_j17609365914513_2_alg».proof.Proof.FrameIdeal

set_option maxRecDepth 16384

noncomputable section

namespace Cert.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and every
    unscoped TensorCore buffer ends at the fold `W10` of the program's ten segments over the launch memory. -/
theorem run_fold : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelRun

end
-- ==== Proof.Spec.lean ====
/-
  The mathematics both programs compute, stated once on the extended reals and index by index.

  A mesh of 100000 vertices carries a feature row per vertex. One graph-convolution layer sends the
  feature array x (one row per vertex) and the array nb of neighbour sums (row p = the sum of the rows of
  x over the edges that end at vertex p) to

      x · Wself  +  (nb scaled row by row by 1 / max(deg, 1)) · Wnb  +  b,

  followed, in the three hidden layers, by LeakyReLU with slope f32(0.3), and in the last layer by the
  residual step  v + f32(0.1) · (that affine map).  A matrix product is the plain finite sum over the
  contracted channel; on the extended reals nothing here needs more than the definitions.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The number of mesh vertices. -/
abbrev NV : Nat := 100000

/-- LeakyReLU with slope f32(0.3) on an extended real: y itself when 0 ≤ y, otherwise f32(0.3) · y. -/
def lrelu (y : EReal) : EReal :=
  Scalar.select (Ideal.cmp .oge y (Ideal.ofBits .f32 0x00000000#32)) y (Ideal.ofBits .f32 0x3E99999A#32 * y)

/-- The affine part of one layer at vertex p and output channel q:
    Σₖ x[p,k]·Wself[k,q] + Σₖ (nb[p,k]·inv[p,0])·Wnb[k,q] + b[q]. -/
def dense {din dout : Nat} (x nb : FVec Ideal ⟨2, ![NV, din]⟩ .f32) (inv : FVec Ideal ⟨2, ![NV, 1]⟩ .f32)
    (ws wn : FVec Ideal ⟨2, ![din, dout]⟩ .f32) (b : FVec Ideal ⟨1, ![dout]⟩ .f32) (p : Fin NV) (q : Fin dout) : EReal :=
  (∑ k : Fin din, x (ix2 p k) * ws (ix2 k q))
    + (∑ k : Fin din, (nb (ix2 p k) * inv (ix2 p (0 : Fin 1))) * wn (ix2 k q))
    + b (ix1 q)

/-- A hidden layer: the affine part, then LeakyReLU, as one array. -/
def hidden {din dout : Nat} (x nb : FVec Ideal ⟨2, ![NV, din]⟩ .f32) (inv : FVec Ideal ⟨2, ![NV, 1]⟩ .f32)
    (ws wn : FVec Ideal ⟨2, ![din, dout]⟩ .f32) (b : FVec Ideal ⟨1, ![dout]⟩ .f32) : FVec Ideal ⟨2, ![NV, dout]⟩ .f32 :=
  fun i => lrelu (dense x nb inv ws wn b (i 0) (i 1))

/-- The last layer: the vertex positions moved by f32(0.1) times the affine part. -/
def moved {din dout : Nat} (v : FVec Ideal ⟨2, ![NV, dout]⟩ .f32) (x nb : FVec Ideal ⟨2, ![NV, din]⟩ .f32)
    (inv : FVec Ideal ⟨2, ![NV, 1]⟩ .f32) (ws wn : FVec Ideal ⟨2, ![din, dout]⟩ .f32) (b : FVec Ideal ⟨1, ![dout]⟩ .f32) :
    FVec Ideal ⟨2, ![NV, dout]⟩ .f32 :=
  fun i => v i + Ideal.ofBits .f32 0x3DCCCCCD#32 * dense x nb inv ws wn b (i 0) (i 1)

end Cert.Spec

end
-- ==== Proof.KPayload.lean ====
/-
  Each layer's tile computation read at one entry. A tile holds 4000 consecutive vertex rows; the body
  forms  x · Wself + (nb scaled row by row by inv) · Wnb + b  on the tile and, in the hidden layers, applies
  LeakyReLU entry by entry. On the extended reals every operation is exact and the narrowing to bf16 is the
  identity, so entry (p, q) of the tile's result is the finite sums over the contracted channel, as in the
  specification.
-/
import proofs.«139037_j17609365914513_2_alg».proof.Proof.Gen.KernelIdeal.Skeleton
import proofs.«139037_j17609365914513_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KRegion

open Idealize.ShloMosaic Idealize.ShloMosaic.ValueIdx Cert.KernelIdeal Cert.KernelIdeal.Gen

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Layer 0: 19 channels to 32 -/

/-- The tile product of layer 0 at entry `(p, q)`: the sum over the 19 contracted channels. -/
theorem matmul0_apply (A : FVec Ideal S4000x19 .bf16) (B : FVec Ideal S19x32 .bf16) (p : Fin 4000) (q : Fin 32) :
    matmul dot_S4000x19_S19x32_S4000x32_1_0_0_1_n_n none A B (constant (F := Ideal) S4000x32 .f32 0x00000000#32) (ix2 p q)
      = ∑ k : Fin 19, A (ix2 p k) * B (ix2 k q) := by
  refine (Ideal.matmul_constant_zero_apply dot_S4000x19_S19x32_S4000x32_1_0_0_1_n_n none A B (ix2 p q)).trans ?_
  rw [← Equiv.sum_comp (contrEquiv1 dot_S4000x19_S19x32_S4000x32_1_0_0_1_n_n 19 rfl rfl).symm]
  refine Finset.sum_congr rfl fun c _ => ?_
  have c2 := contrEquiv1_symm_val dot_S4000x19_S19x32_S4000x32_1_0_0_1_n_n 19 rfl rfl c
  have l2 : dot_S4000x19_S19x32_S4000x32_1_0_0_1_n_n.lhsIdx (ix2 p q) ((contrEquiv1 _ 19 rfl rfl).symm c) = ix2 p c := by
    funext ax; apply Fin.ext
    match ax with
    | ⟨0, _⟩ => simp [DotDims.lhsIdx, dot_S4000x19_S19x32_S4000x32_1_0_0_1_n_n]; rfl
    | ⟨1, _⟩ => exact (DotDims.lhsIdx_val_of_single _ (cl := (1 : Fin 2)) rfl _ _).trans c2
  have r2 : dot_S4000x19_S19x32_S4000x32_1_0_0_1_n_n.rhsIdx (ix2 p q) ((contrEquiv1 _ 19 rfl rfl).symm c) = ix2 c q := by
    funext ax; apply Fin.ext
    match ax with
    | ⟨0, _⟩ => exact (DotDims.rhsIdx_val_of_single _ (cr := (0 : Fin 2)) rfl _ _).trans c2
    | ⟨1, _⟩ => simp [DotDims.rhsIdx, dot_S4000x19_S19x32_S4000x32_1_0_0_1_n_n]; rfl
  rw [l2, r2]

/-- Layer 0's tile result at entry `(p, q)`. -/
theorem k0_pay1_apply (x0 x1 : Vec Ideal S4000x19 .f32) (x2 : Vec Ideal S4000x1 .f32) (x3 x4 : Vec Ideal S19x32 .f32)
    (x5 : Vec Ideal S1x32 .f32) (p : Fin 4000) (q : Fin 32) :
    k0_pay1 x0 x1 x2 x3 x4 x5 (ix2 p q)
      = Spec.lrelu ((∑ k : Fin 19, x0 (ix2 p k) * x3 (ix2 k q))
          + (∑ k : Fin 19, (x1 (ix2 p k) * x2 (ix2 p (0 : Fin 1))) * x4 (ix2 k q)) + x5 (ix2 (0 : Fin 1) q)) := by
  unfold k0_pay1
  simp only [shapeCast_self]
  show Spec.lrelu
      ((matmul dot_S4000x19_S19x32_S4000x32_1_0_0_1_n_n none (truncf .bf16 x0 bitsLt_bf16_f32) (truncf .bf16 x3 bitsLt_bf16_f32)
            (constant (F := Ideal) S4000x32 .f32 0x00000000#32) (ix2 p q)
          + matmul dot_S4000x19_S19x32_S4000x32_1_0_0_1_n_n none
              (truncf .bf16 (mulf x1 (broadcastTo S4000x19 x2 broadcasts_S4000x1_S4000x19)) bitsLt_bf16_f32) (truncf .bf16 x4 bitsLt_bf16_f32)
              (constant (F := Ideal) S4000x32 .f32 0x00000000#32) (ix2 p q))
        + broadcastTo S4000x32 x5 broadcasts_S1x32_S4000x32 (ix2 p q)) = _
  refine congrArg Spec.lrelu (congrArg₂ (· + ·) (congrArg₂ (· + ·) ?_ ?_) ?_)
  · exact matmul0_apply _ _ p q
  · refine (matmul0_apply _ _ p q).trans (Finset.sum_congr rfl fun k _ => ?_)
    show (x1 (ix2 p k) * broadcastTo S4000x19 x2 broadcasts_S4000x1_S4000x19 (ix2 p k)) * x4 (ix2 k q) = _
    rw [broadcastTo_a1_ab_apply]
  · exact broadcastTo_1b_ab_apply x5 _ p q

/-! ## Layer 1: 32 channels to 64 -/

/-- The tile product of layer 1 at entry `(p, q)`: the sum over the 32 contracted channels. -/
theorem matmul1_apply (A : FVec Ideal S4000x32 .bf16) (B : FVec Ideal S32x64 .bf16) (p : Fin 4000) (q : Fin 64) :
    matmul dot_S4000x32_S32x64_S4000x64_1_0_0_1_n_n none A B (constant (F := Ideal) S4000x64 .f32 0x00000000#32) (ix2 p q)
      = ∑ k : Fin 32, A (ix2 p k) * B (ix2 k q) := by
  refine (Ideal.matmul_constant_zero_apply dot_S4000x32_S32x64_S4000x64_1_0_0_1_n_n none A B (ix2 p q)).trans ?_
  rw [← Equiv.sum_comp (contrEquiv1 dot_S4000x32_S32x64_S4000x64_1_0_0_1_n_n 32 rfl rfl).symm]
  refine Finset.sum_congr rfl fun c _ => ?_
  have c2 := contrEquiv1_symm_val dot_S4000x32_S32x64_S4000x64_1_0_0_1_n_n 32 rfl rfl c
  have l2 : dot_S4000x32_S32x64_S4000x64_1_0_0_1_n_n.lhsIdx (ix2 p q) ((contrEquiv1 _ 32 rfl rfl).symm c) = ix2 p c := by
    funext ax; apply Fin.ext
    match ax with
    | ⟨0, _⟩ => simp [DotDims.lhsIdx, dot_S4000x32_S32x64_S4000x64_1_0_0_1_n_n]; rfl
    | ⟨1, _⟩ => exact (DotDims.lhsIdx_val_of_single _ (cl := (1 : Fin 2)) rfl _ _).trans c2
  have r2 : dot_S4000x32_S32x64_S4000x64_1_0_0_1_n_n.rhsIdx (ix2 p q) ((contrEquiv1 _ 32 rfl rfl).symm c) = ix2 c q := by
    funext ax; apply Fin.ext
    match ax with
    | ⟨0, _⟩ => exact (DotDims.rhsIdx_val_of_single _ (cr := (0 : Fin 2)) rfl _ _).trans c2
    | ⟨1, _⟩ => simp [DotDims.rhsIdx, dot_S4000x32_S32x64_S4000x64_1_0_0_1_n_n]; rfl
  rw [l2, r2]

/-- Layer 1's tile result at entry `(p, q)`. -/
theorem k1_pay1_apply (x0 x1 : Vec Ideal S4000x32 .f32) (x2 : Vec Ideal S4000x1 .f32) (x3 x4 : Vec Ideal S32x64 .f32)
    (x5 : Vec Ideal S1x64 .f32) (p : Fin 4000) (q : Fin 64) :
    k1_pay1 x0 x1 x2 x3 x4 x5 (ix2 p q)
      = Spec.lrelu ((∑ k : Fin 32, x0 (ix2 p k) * x3 (ix2 k q))
          + (∑ k : Fin 32, (x1 (ix2 p k) * x2 (ix2 p (0 : Fin 1))) * x4 (ix2 k q)) + x5 (ix2 (0 : Fin 1) q)) := by
  unfold k1_pay1
  simp only [shapeCast_self]
  show Spec.lrelu
      ((matmul dot_S4000x32_S32x64_S4000x64_1_0_0_1_n_n none (truncf .bf16 x0 bitsLt_bf16_f32) (truncf .bf16 x3 bitsLt_bf16_f32)
            (constant (F := Ideal) S4000x64 .f32 0x00000000#32) (ix2 p q)
          + matmul dot_S4000x32_S32x64_S4000x64_1_0_0_1_n_n none
              (truncf .bf16 (mulf x1 (broadcastTo S4000x32 x2 broadcasts_S4000x1_S4000x32)) bitsLt_bf16_f32) (truncf .bf16 x4 bitsLt_bf16_f32)
              (constant (F := Ideal) S4000x64 .f32 0x00000000#32) (ix2 p q))
        + broadcastTo S4000x64 x5 broadcasts_S1x64_S4000x64 (ix2 p q)) = _
  refine congrArg Spec.lrelu (congrArg₂ (· + ·) (congrArg₂ (· + ·) ?_ ?_) ?_)
  · exact matmul1_apply _ _ p q
  · refine (matmul1_apply _ _ p q).trans (Finset.sum_congr rfl fun k _ => ?_)
    show (x1 (ix2 p k) * broadcastTo S4000x32 x2 broadcasts_S4000x1_S4000x32 (ix2 p k)) * x4 (ix2 k q) = _
    rw [broadcastTo_a1_ab_apply]
  · exact broadcastTo_1b_ab_apply x5 _ p q

/-! ## Layer 2: 64 channels to 64 -/

/-- The tile product of layer 2 at entry `(p, q)`: the sum over the 64 contracted channels. -/
theorem matmul2_apply (A : FVec Ideal S4000x64 .bf16) (B : FVec Ideal S64x64 .bf16) (p : Fin 4000) (q : Fin 64) :
    matmul dot_S4000x64_S64x64_S4000x64_1_0_0_1_n_n none A B (constant (F := Ideal) S4000x64 .f32 0x00000000#32) (ix2 p q)
      = ∑ k : Fin 64, A (ix2 p k) * B (ix2 k q) := by
  refine (Ideal.matmul_constant_zero_apply dot_S4000x64_S64x64_S4000x64_1_0_0_1_n_n none A B (ix2 p q)).trans ?_
  rw [← Equiv.sum_comp (contrEquiv1 dot_S4000x64_S64x64_S4000x64_1_0_0_1_n_n 64 rfl rfl).symm]
  refine Finset.sum_congr rfl fun c _ => ?_
  have c2 := contrEquiv1_symm_val dot_S4000x64_S64x64_S4000x64_1_0_0_1_n_n 64 rfl rfl c
  have l2 : dot_S4000x64_S64x64_S4000x64_1_0_0_1_n_n.lhsIdx (ix2 p q) ((contrEquiv1 _ 64 rfl rfl).symm c) = ix2 p c := by
    funext ax; apply Fin.ext
    match ax with
    | ⟨0, _⟩ => simp [DotDims.lhsIdx, dot_S4000x64_S64x64_S4000x64_1_0_0_1_n_n]; rfl
    | ⟨1, _⟩ => exact (DotDims.lhsIdx_val_of_single _ (cl := (1 : Fin 2)) rfl _ _).trans c2
  have r2 : dot_S4000x64_S64x64_S4000x64_1_0_0_1_n_n.rhsIdx (ix2 p q) ((contrEquiv1 _ 64 rfl rfl).symm c) = ix2 c q := by
    funext ax; apply Fin.ext
    match ax with
    | ⟨0, _⟩ => exact (DotDims.rhsIdx_val_of_single _ (cr := (0 : Fin 2)) rfl _ _).trans c2
    | ⟨1, _⟩ => simp [DotDims.rhsIdx, dot_S4000x64_S64x64_S4000x64_1_0_0_1_n_n]; rfl
  rw [l2, r2]

/-- Layer 2's tile result at entry `(p, q)`. -/
theorem k2_pay1_apply (x0 x1 : Vec Ideal S4000x64 .f32) (x2 : Vec Ideal S4000x1 .f32) (x3 x4 : Vec Ideal S64x64 .f32)
    (x5 : Vec Ideal S1x64 .f32) (p : Fin 4000) (q : Fin 64) :
    k2_pay1 x0 x1 x2 x3 x4 x5 (ix2 p q)
      = Spec.lrelu ((∑ k : Fin 64, x0 (ix2 p k) * x3 (ix2 k q))
          + (∑ k : Fin 64, (x1 (ix2 p k) * x2 (ix2 p (0 : Fin 1))) * x4 (ix2 k q)) + x5 (ix2 (0 : Fin 1) q)) := by
  unfold k2_pay1
  simp only [shapeCast_self]
  show Spec.lrelu
      ((matmul dot_S4000x64_S64x64_S4000x64_1_0_0_1_n_n none (truncf .bf16 x0 bitsLt_bf16_f32) (truncf .bf16 x3 bitsLt_bf16_f32)
            (constant (F := Ideal) S4000x64 .f32 0x00000000#32) (ix2 p q)
          + matmul dot_S4000x64_S64x64_S4000x64_1_0_0_1_n_n none
              (truncf .bf16 (mulf x1 (broadcastTo S4000x64 x2 broadcasts_S4000x1_S4000x64)) bitsLt_bf16_f32) (truncf .bf16 x4 bitsLt_bf16_f32)
              (constant (F := Ideal) S4000x64 .f32 0x00000000#32) (ix2 p q))
        + broadcastTo S4000x64 x5 broadcasts_S1x64_S4000x64 (ix2 p q)) = _
  refine congrArg Spec.lrelu (congrArg₂ (· + ·) (congrArg₂ (· + ·) ?_ ?_) ?_)
  · exact matmul2_apply _ _ p q
  · refine (matmul2_apply _ _ p q).trans (Finset.sum_congr rfl fun k _ => ?_)
    show (x1 (ix2 p k) * broadcastTo S4000x64 x2 broadcasts_S4000x1_S4000x64 (ix2 p k)) * x4 (ix2 k q) = _
    rw [broadcastTo_a1_ab_apply]
  · exact broadcastTo_1b_ab_apply x5 _ p q

/-! ## Layer 3: 64 channels to 3 -/

/-- The tile product of layer 3 at entry `(p, q)`: the sum over the 64 contracted channels. -/
theorem matmul3_apply (A : FVec Ideal S4000x64 .bf16) (B : FVec Ideal S64x3 .bf16) (p : Fin 4000) (q : Fin 3) :
    matmul dot_S4000x64_S64x3_S4000x3_1_0_0_1_n_n none A B (constant (F := Ideal) S4000x3 .f32 0x00000000#32) (ix2 p q)
      = ∑ k : Fin 64, A (ix2 p k) * B (ix2 k q) := by
  refine (Ideal.matmul_constant_zero_apply dot_S4000x64_S64x3_S4000x3_1_0_0_1_n_n none A B (ix2 p q)).trans ?_
  rw [← Equiv.sum_comp (contrEquiv1 dot_S4000x64_S64x3_S4000x3_1_0_0_1_n_n 64 rfl rfl).symm]
  refine Finset.sum_congr rfl fun c _ => ?_
  have c2 := contrEquiv1_symm_val dot_S4000x64_S64x3_S4000x3_1_0_0_1_n_n 64 rfl rfl c
  have l2 : dot_S4000x64_S64x3_S4000x3_1_0_0_1_n_n.lhsIdx (ix2 p q) ((contrEquiv1 _ 64 rfl rfl).symm c) = ix2 p c := by
    funext ax; apply Fin.ext
    match ax with
    | ⟨0, _⟩ => simp [DotDims.lhsIdx, dot_S4000x64_S64x3_S4000x3_1_0_0_1_n_n]; rfl
    | ⟨1, _⟩ => exact (DotDims.lhsIdx_val_of_single _ (cl := (1 : Fin 2)) rfl _ _).trans c2
  have r2 : dot_S4000x64_S64x3_S4000x3_1_0_0_1_n_n.rhsIdx (ix2 p q) ((contrEquiv1 _ 64 rfl rfl).symm c) = ix2 c q := by
    funext ax; apply Fin.ext
    match ax with
    | ⟨0, _⟩ => exact (DotDims.rhsIdx_val_of_single _ (cr := (0 : Fin 2)) rfl _ _).trans c2
    | ⟨1, _⟩ => simp [DotDims.rhsIdx, dot_S4000x64_S64x3_S4000x3_1_0_0_1_n_n]; rfl
  rw [l2, r2]

/-- The last layer's tile result at entry `(p, q)`: the vertex position moved by f32(0.1) times the affine part. -/
theorem k3_pay1_apply (x0 x1 : Vec Ideal S4000x64 .f32) (x2 : Vec Ideal S4000x1 .f32) (x3 x4 : Vec Ideal S64x3 .f32)
    (x5 : Vec Ideal S1x3 .f32) (x6 : Vec Ideal S4000x3 .f32) (p : Fin 4000) (q : Fin 3) :
    k3_pay1 x0 x1 x2 x3 x4 x5 x6 (ix2 p q)
      = x6 (ix2 p q) + Ideal.ofBits .f32 0x3DCCCCCD#32 * ((∑ k : Fin 64, x0 (ix2 p k) * x3 (ix2 k q))
          + (∑ k : Fin 64, (x1 (ix2 p k) * x2 (ix2 p (0 : Fin 1))) * x4 (ix2 k q)) + x5 (ix2 (0 : Fin 1) q)) := by
  unfold k3_pay1
  simp only [shapeCast_self]
  show x6 (ix2 p q) + Ideal.ofBits .f32 0x3DCCCCCD#32 *
      ((matmul dot_S4000x64_S64x3_S4000x3_1_0_0_1_n_n none (truncf .bf16 x0 bitsLt_bf16_f32) (truncf .bf16 x3 bitsLt_bf16_f32)
            (constant (F := Ideal) S4000x3 .f32 0x00000000#32) (ix2 p q)
          + matmul dot_S4000x64_S64x3_S4000x3_1_0_0_1_n_n none
              (truncf .bf16 (mulf x1 (broadcastTo S4000x64 x2 broadcasts_S4000x1_S4000x64)) bitsLt_bf16_f32) (truncf .bf16 x4 bitsLt_bf16_f32)
              (constant (F := Ideal) S4000x3 .f32 0x00000000#32) (ix2 p q))
        + broadcastTo S4000x3 x5 broadcasts_S1x3_S4000x3 (ix2 p q)) = _
  refine congrArg₂ (· + ·) rfl (congrArg₂ (· * ·) rfl (congrArg₂ (· + ·) (congrArg₂ (· + ·) ?_ ?_) ?_))
  · exact matmul3_apply _ _ p q
  · refine (matmul3_apply _ _ p q).trans (Finset.sum_congr rfl fun k _ => ?_)
    show (x1 (ix2 p k) * broadcastTo S4000x64 x2 broadcasts_S4000x1_S4000x64 (ix2 p k)) * x4 (ix2 k q) = _
    rw [broadcastTo_a1_ab_apply]
  · exact broadcastTo_1b_ab_apply x5 _ p q

end Cert.KRegion

end
-- ==== Proof.KRegion0.lean ====
/-
  Layer 0's region, from tiles to the whole array. The grid has 25 points; at point t every row-tiled window
  holds rows 4000·t … 4000·t + 3999 of its array and every weight window holds its whole array, so what point t
  writes back is rows 4000·t … 4000·t + 3999 of one function of the arrays the region finds: the layer of the
  specification. The 25 row blocks cover the 100000 rows (row r lies in block r / 4000), so after the region the
  output array is that function.
-/
import proofs.«139037_j17609365914513_2_alg».proof.Proof.FrameIdeal
import proofs.«139037_j17609365914513_2_alg».proof.Proof.Spec
import proofs.«139037_j17609365914513_2_alg».proof.Proof.KPayload
import Idealize.ShloMosaic.Lib.Pipeline.Value
import Idealize.ShloMosaic.Lib.ValueIdx

set_option maxRecDepth 16384

noncomputable section

namespace Cert.KRegion

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- The zero offsets of a whole-tile access, as a constant function. -/
theorem zero_offsets0 : (![0, 0] : Fin 2 → Nat) = fun _ => 0 := funext fun a => by fin_cases a <;> rfl

/-! ## The block index of each window at each grid point (decided over the 25 points) -/

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = t.val ∧ win0_1.index t (1 : Fin 2) = 0 :=
  (by decide +kernel : ∀ t : Fin grid0.N, _)
theorem index0_2 : ∀ t : Fin cfg0.N, win0_2.index t (0 : Fin 2) = t.val ∧ win0_2.index t (1 : Fin 2) = 0 :=
  (by decide +kernel : ∀ t : Fin grid0.N, _)
theorem index0_6 : ∀ t : Fin cfg0.N, win0_6.index t (0 : Fin 2) = t.val ∧ win0_6.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)

/-! ## Each input block as entries of its array -/

/-- Window 0 (the features) is tiled by rows: entry `(p, k)` of its block at grid point `t` is entry `(4000·t + p, k)` of the array. -/
theorem rows0_0 (V : (c : Dev nD) → (b : Ref sig .tc) → Buf (Elt Ideal) ((c : Thread nD τ).loc b)) (c : Dev nD) (t : Fin cfg0.N) (p : Fin 4000) (k : Fin 19) (r : Fin 100000)
    (hr : r.val = 4000 * t.val + p.val) :
    (iblk0 V c 0 t : S4000x19.Idx → EReal) (ix2 p k) = (V c (Pipeline.arrRef spec0 0) : S100000x19.Idx → EReal) (ix2 r k) := by
  obtain ⟨e0, e1⟩ := index0_0 t
  unfold iblk0
  rw [View.read_apply]
  show (V c (Pipeline.arrRef spec0 0) : S100000x19.Idx → EReal) (((cfg0.win 0).blk t).view.emb (ix2 p k)) = _
  refine congrArg _ (funext fun a => Fin.ext ?_)
  match a with
  | ⟨0, _⟩ => show win0_0.index t (0 : Fin 2) * 4000 + 1 * p.val = r.val; omega
  | ⟨1, _⟩ => show win0_0.index t (1 : Fin 2) * 19 + 1 * k.val = k.val; omega

/-- Window 1 (the neighbour sums) is tiled by rows: entry `(p, k)` of its block at grid point `t` is entry `(4000·t + p, k)` of the array. -/
theorem rows0_1 (V : (c : Dev nD) → (b : Ref sig .tc) → Buf (Elt Ideal) ((c : Thread nD τ).loc b)) (c : Dev nD) (t : Fin cfg0.N) (p : Fin 4000) (k : Fin 19) (r : Fin 100000)
    (hr : r.val = 4000 * t.val + p.val) :
    (iblk0 V c 1 t : S4000x19.Idx → EReal) (ix2 p k) = (V c (Pipeline.arrRef spec0 1) : S100000x19.Idx → EReal) (ix2 r k) := by
  obtain ⟨e0, e1⟩ := index0_1 t
  unfold iblk0
  rw [View.read_apply]
  show (V c (Pipeline.arrRef spec0 1) : S100000x19.Idx → EReal) (((cfg0.win 1).blk t).view.emb (ix2 p k)) = _
  refine congrArg _ (funext fun a => Fin.ext ?_)
  match a with
  | ⟨0, _⟩ => show win0_1.index t (0 : Fin 2) * 4000 + 1 * p.val = r.val; omega
  | ⟨1, _⟩ => show win0_1.index t (1 : Fin 2) * 19 + 1 * k.val = k.val; omega

/-- Window 2 (the inverse degrees) is tiled by rows: entry `(p, k)` of its block at grid point `t` is entry `(4000·t + p, k)` of the array. -/
theorem rows0_2 (V : (c : Dev nD) → (b : Ref sig .tc) → Buf (Elt Ideal) ((c : Thread nD τ).loc b)) (c : Dev nD) (t : Fin cfg0.N) (p : Fin 4000) (k : Fin 1) (r : Fin 100000)
    (hr : r.val = 4000 * t.val + p.val) :
    (iblk0 V c 2 t : S4000x1.Idx → EReal) (ix2 p k) = (V c (Pipeline.arrRef spec0 2) : S100000x1.Idx → EReal) (ix2 r k) := by
  obtain ⟨e0, e1⟩ := index0_2 t
  unfold iblk0
  rw [View.read_apply]
  show (V c (Pipeline.arrRef spec0 2) : S100000x1.Idx → EReal) (((cfg0.win 2).blk t).view.emb (ix2 p k)) = _
  refine congrArg _ (funext fun a => Fin.ext ?_)
  match a with
  | ⟨0, _⟩ => show win0_2.index t (0 : Fin 2) * 4000 + 1 * p.val = r.val; omega
  | ⟨1, _⟩ => show win0_2.index t (1 : Fin 2) * 1 + 1 * k.val = k.val; omega

/-- Window 3 (the self weights) is the whole array at every grid point. -/
theorem whole0_3 (V : (c : Dev nD) → (b : Ref sig .tc) → Buf (Elt Ideal) ((c : Thread nD τ).loc b)) (c : Dev nD) (t : Fin cfg0.N) (k : Fin 19) (q : Fin 32) :
    (iblk0 V c 3 t : S19x32.Idx → EReal) (ix2 k q) = (V c (Pipeline.arrRef spec0 3) : S19x32.Idx → EReal) (ix2 k q) := by
  obtain ⟨e0, e1⟩ := index0_3 t
  unfold iblk0
  rw [View.read_apply]
  show (V c (Pipeline.arrRef spec0 3) : S19x32.Idx → EReal) (((cfg0.win 3).blk t).view.emb (ix2 k q)) = _
  refine congrArg _ (funext fun a => Fin.ext ?_)
  match a with
  | ⟨0, _⟩ => show win0_3.index t (0 : Fin 2) * 19 + 1 * k.val = k.val; omega
  | ⟨1, _⟩ => show win0_3.index t (1 : Fin 2) * 32 + 1 * q.val = q.val; omega

/-- Window 4 (the neighbour weights) is the whole array at every grid point. -/
theorem whole0_4 (V : (c : Dev nD) → (b : Ref sig .tc) → Buf (Elt Ideal) ((c : Thread nD τ).loc b)) (c : Dev nD) (t : Fin cfg0.N) (k : Fin 19) (q : Fin 32) :
    (iblk0 V c 4 t : S19x32.Idx → EReal) (ix2 k q) = (V c (Pipeline.arrRef spec0 4) : S19x32.Idx → EReal) (ix2 k q) := by
  obtain ⟨e0, e1⟩ := index0_4 t
  unfold iblk0
  rw [View.read_apply]
  show (V c (Pipeline.arrRef spec0 4) : S19x32.Idx → EReal) (((cfg0.win 4).blk t).view.emb (ix2 k q)) = _
  refine congrArg _ (funext fun a => Fin.ext ?_)
  match a with
  | ⟨0, _⟩ => show win0_4.index t (0 : Fin 2) * 19 + 1 * k.val = k.val; omega
  | ⟨1, _⟩ => show win0_4.index t (1 : Fin 2) * 32 + 1 * q.val = q.val; omega

/-- Window 5 (the bias row) is the whole array at every grid point. -/
theorem whole0_5 (V : (c : Dev nD) → (b : Ref sig .tc) → Buf (Elt Ideal) ((c : Thread nD τ).loc b)) (c : Dev nD) (t : Fin cfg0.N) (k : Fin 1) (q : Fin 32) :
    (iblk0 V c 5 t : S1x32.Idx → EReal) (ix2 k q) = (V c (Pipeline.arrRef spec0 5) : S1x32.Idx → EReal) (ix2 k q) := by
  obtain ⟨e0, e1⟩ := index0_5 t
  unfold iblk0
  rw [View.read_apply]
  show (V c (Pipeline.arrRef spec0 5) : S1x32.Idx → EReal) (((cfg0.win 5).blk t).view.emb (ix2 k q)) = _
  refine congrArg _ (funext fun a => Fin.ext ?_)
  match a with
  | ⟨0, _⟩ => show win0_5.index t (0 : Fin 2) * 1 + 1 * k.val = k.val; omega
  | ⟨1, _⟩ => show win0_5.index t (1 : Fin 2) * 32 + 1 * q.val = q.val; omega

/-! ## What a grid point writes back -/

/-- The layer as one function of the arrays the region finds. -/
abbrev layer0 (V : (c : Dev nD) → (b : Ref sig .tc) → Buf (Elt Ideal) ((c : Thread nD τ).loc b)) (c : Dev nD) : S100000x32.Idx → EReal :=
  Cert.Spec.hidden (din := 19) (dout := 32) (V c (Pipeline.arrRef spec0 0) : S100000x19.Idx → EReal)
      (V c (Pipeline.arrRef spec0 1) : S100000x19.Idx → EReal)
      (V c (Pipeline.arrRef spec0 2) : S100000x1.Idx → EReal)
      (V c (Pipeline.arrRef spec0 3) : S19x32.Idx → EReal)
      (V c (Pipeline.arrRef spec0 4) : S19x32.Idx → EReal)
      (fun i => (V c (Pipeline.arrRef spec0 5) : S1x32.Idx → EReal) (ix2 (0 : Fin 1) (i 0)))

/-- Grid point `t` writes back rows 4000·t … 4000·t + 3999 of the layer. -/
theorem flushed0 (V : (c : Dev nD) → (b : Ref sig .tc) → Buf (Elt Ideal) ((c : Thread nD τ).loc b)) (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_offsets0]
  simp only [View.ld_unit_zero (S := S4000x19) zero_offsets0, View.ld_unit_zero (S := S4000x1) zero_offsets0, View.ld_unit_zero (S := S19x32) zero_offsets0, View.ld_unit_zero (S := S1x32) zero_offsets0]
  obtain ⟨o0, o1⟩ := index0_6 t
  have ht : t.val < 25 := lt_of_lt_of_eq t.isLt N_0
  refine funext fun (j : S4000x32.Idx) => ?_
  obtain ⟨p, q, rfl⟩ : ∃ (p : Fin 4000) (q : Fin 32), j = ix2 p q := ⟨j 0, j 1, eq_ix2 j⟩
  have hp : p.val < 4000 := p.isLt
  obtain ⟨r, hr⟩ : ∃ r : Fin 100000, r.val = 4000 * t.val + p.val := ⟨⟨4000 * t.val + p.val, by omega⟩, rfl⟩
  have hemb : ((cfg0.win 6).blk t).view.emb (ix2 p q) = (ix2 r q : S100000x32.Idx) := by
    funext a; apply Fin.ext
    match a with
    | ⟨0, _⟩ => show win0_6.index t (0 : Fin 2) * 4000 + 1 * p.val = r.val; omega
    | ⟨1, _⟩ => show win0_6.index t (1 : Fin 2) * 32 + 1 * q.val = q.val; omega
  show k0_pay1 (iblk0 V c 0 t) (iblk0 V c 1 t) (iblk0 V c 2 t) (iblk0 V c 3 t) (iblk0 V c 4 t) (iblk0 V c 5 t) (ix2 p q) = layer0 V c (((cfg0.win 6).blk t).view.emb (ix2 p q))
  rw [hemb]
  refine (k0_pay1_apply (iblk0 V c 0 t) (iblk0 V c 1 t) (iblk0 V c 2 t) (iblk0 V c 3 t) (iblk0 V c 4 t) (iblk0 V c 5 t) p q).trans ?_
  show Spec.lrelu _ = Spec.lrelu (Spec.dense _ _ _ _ _ _ r q)
  unfold Spec.dense
  refine congrArg Spec.lrelu (congrArg₂ (· + ·) (congrArg₂ (· + ·) (Finset.sum_congr rfl fun k _ => ?_) (Finset.sum_congr rfl fun k _ => ?_)) ?_)
  · exact congrArg₂ (· * ·) (rows0_0 V c t p k r hr) (whole0_3 V c t k q)
  · exact congrArg₂ (· * ·) (congrArg₂ (· * ·) (rows0_1 V c t p k r hr) (rows0_2 V c t p (0 : Fin 1) r hr)) (whole0_4 V c t k q)
  · exact whole0_5 V c t (0 : Fin 1) q

/-! ## The cover, and the array after the region -/

/-- A row of the output array lies in grid point `t`'s block iff it is one of rows 4000·t … 4000·t + 3999. -/
theorem mem_block0 (t : Fin cfg0.N) (i : S100000x32.Idx) :
    i ∈ ((cfg0.win 6).blk t).view.set ↔ ∀ a : Fin 2, win0_6.index t a * S4000x32.size a ≤ (i a).val
      ∧ (i a).val < win0_6.index t a * S4000x32.size a + S4000x32.size a := by
  show i ∈ ((View.whole main_v205).slice (win0_6.rect t)).set ↔ _
  rw [View.set_slice_whole, Rect.mem_set_unit]
  exact Iff.rfl

/-- Every entry of the output array is written back by some grid point: row `r` by point `r / 4000`. -/
theorem cover0 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, htv⟩ : ∃ t : Fin cfg0.N, t.val = (i 0).val / 4000 :=
    ⟨⟨(i 0).val / 4000, lt_of_lt_of_eq (by omega) N_0.symm⟩, rfl⟩
  obtain ⟨o0, o1⟩ := index0_6 t
  refine ⟨t, flush0_6 t, ?_⟩
  rw [mem_block0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 32 ≤ (i 1).val ∧ (i 1).val < win0_6.index t (1 : Fin 2) * 32 + 32
    omega

/-- After the region the output array is the layer of the arrays the region found. -/
theorem region0_value (V : (c : Dev nD) → (b : Ref sig .tc) → Buf (Elt Ideal) ((c : Thread nD τ).loc b)) (c : Dev nD) :
    (GenP.dat0 (F := Ideal) V c).arrAt 6 cfg0.N
      = Cert.Spec.hidden (din := 19) (dout := 32) (V c (Pipeline.arrRef spec0 0) : S100000x19.Idx → EReal)
      (V c (Pipeline.arrRef spec0 1) : S100000x19.Idx → EReal)
      (V c (Pipeline.arrRef spec0 2) : S100000x1.Idx → EReal)
      (V c (Pipeline.arrRef spec0 3) : S19x32.Idx → EReal)
      (V c (Pipeline.arrRef spec0 4) : S19x32.Idx → EReal)
      (fun i => (V c (Pipeline.arrRef spec0 5) : S1x32.Idx → EReal) (ix2 (0 : Fin 1) (i 0))) :=
  (dat0 (F := Ideal) V c).arrAt_eq_of_cover 6 (layer0 V c) (fun t _ => flushed0 V c t) cover0

end Cert.KRegion

end
-- ==== Proof.KRegion1.lean ====
/-
  Layer 1's region, from tiles to the whole array. The grid has 25 points; at point t every row-tiled window
  holds rows 4000·t … 4000·t + 3999 of its array and every weight window holds its whole array, so what point t
  writes back is rows 4000·t … 4000·t + 3999 of one function of the arrays the region finds: the layer of the
  specification. The 25 row blocks cover the 100000 rows (row r lies in block r / 4000), so after the region the
  output array is that function.
-/
import proofs.«139037_j17609365914513_2_alg».proof.Proof.FrameIdeal
import proofs.«139037_j17609365914513_2_alg».proof.Proof.Spec
import proofs.«139037_j17609365914513_2_alg».proof.Proof.KPayload
import Idealize.ShloMosaic.Lib.Pipeline.Value
import Idealize.ShloMosaic.Lib.ValueIdx

set_option maxRecDepth 16384

noncomputable section

namespace Cert.KRegion

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- The zero offsets of a whole-tile access, as a constant function. -/
theorem zero_offsets1 : (![0, 0] : Fin 2 → Nat) = fun _ => 0 := funext fun a => by fin_cases a <;> rfl

/-! ## The block index of each window at each grid point (decided over the 25 points) -/

theorem index1_0 : ∀ t : Fin cfg1.N, win1_0.index t (0 : Fin 2) = t.val ∧ win1_0.index t (1 : Fin 2) = 0 :=
  (by decide +kernel : ∀ t : Fin grid1.N, _)
theorem index1_1 : ∀ t : Fin cfg1.N, win1_1.index t (0 : Fin 2) = t.val ∧ win1_1.index t (1 : Fin 2) = 0 :=
  (by decide +kernel : ∀ t : Fin grid1.N, _)
theorem index1_2 : ∀ t : Fin cfg1.N, win1_2.index t (0 : Fin 2) = t.val ∧ win1_2.index t (1 : Fin 2) = 0 :=
  (by decide +kernel : ∀ t : Fin grid1.N, _)
theorem index1_6 : ∀ t : Fin cfg1.N, win1_6.index t (0 : Fin 2) = t.val ∧ win1_6.index t (1 : Fin 2) = 0 :=
  (by decide +kernel : ∀ t : Fin grid1.N, _)
theorem index1_3 : ∀ t : Fin cfg1.N, win1_3.index t (0 : Fin 2) = 0 ∧ win1_3.index t (1 : Fin 2) = 0 :=
  (by decide +kernel : ∀ t : Fin grid1.N, _)
theorem index1_4 : ∀ t : Fin cfg1.N, win1_4.index t (0 : Fin 2) = 0 ∧ win1_4.index t (1 : Fin 2) = 0 :=
  (by decide +kernel : ∀ t : Fin grid1.N, _)
theorem index1_5 : ∀ t : Fin cfg1.N, win1_5.index t (0 : Fin 2) = 0 ∧ win1_5.index t (1 : Fin 2) = 0 :=
  (by decide +kernel : ∀ t : Fin grid1.N, _)

/-! ## Each input block as entries of its array -/

/-- Window 0 (the features) is tiled by rows: entry `(p, k)` of its block at grid point `t` is entry `(4000·t + p, k)` of the array. -/
theorem rows1_0 (V : (c : Dev nD) → (b : Ref sig .tc) → Buf (Elt Ideal) ((c : Thread nD τ).loc b)) (c : Dev nD) (t : Fin cfg1.N) (p : Fin 4000) (k : Fin 32) (r : Fin 100000)
    (hr : r.val = 4000 * t.val + p.val) :
    (iblk1 V c 0 t : S4000x32.Idx → EReal) (ix2 p k) = (V c (Pipeline.arrRef spec1 0) : S100000x32.Idx → EReal) (ix2 r k) := by
  obtain ⟨e0, e1⟩ := index1_0 t
  unfold iblk1
  rw [View.read_apply]
  show (V c (Pipeline.arrRef spec1 0) : S100000x32.Idx → EReal) (((cfg1.win 0).blk t).view.emb (ix2 p k)) = _
  refine congrArg _ (funext fun a => Fin.ext ?_)
  match a with
  | ⟨0, _⟩ => show win1_0.index t (0 : Fin 2) * 4000 + 1 * p.val = r.val; omega
  | ⟨1, _⟩ => show win1_0.index t (1 : Fin 2) * 32 + 1 * k.val = k.val; omega

/-- Window 1 (the neighbour sums) is tiled by rows: entry `(p, k)` of its block at grid point `t` is entry `(4000·t + p, k)` of the array. -/
theorem rows1_1 (V : (c : Dev nD) → (b : Ref sig .tc) → Buf (Elt Ideal) ((c : Thread nD τ).loc b)) (c : Dev nD) (t : Fin cfg1.N) (p : Fin 4000) (k : Fin 32) (r : Fin 100000)
    (hr : r.val = 4000 * t.val + p.val) :
    (iblk1 V c 1 t : S4000x32.Idx → EReal) (ix2 p k) = (V c (Pipeline.arrRef spec1 1) : S100000x32.Idx → EReal) (ix2 r k) := by
  obtain ⟨e0, e1⟩ := index1_1 t
  unfold iblk1
  rw [View.read_apply]
  show (V c (Pipeline.arrRef spec1 1) : S100000x32.Idx → EReal) (((cfg1.win 1).blk t).view.emb (ix2 p k)) = _
  refine congrArg _ (funext fun a => Fin.ext ?_)
  match a with
  | ⟨0, _⟩ => show win1_1.index t (0 : Fin 2) * 4000 + 1 * p.val = r.val; omega
  | ⟨1, _⟩ => show win1_1.index t (1 : Fin 2) * 32 + 1 * k.val = k.val; omega

/-- Window 2 (the inverse degrees) is tiled by rows: entry `(p, k)` of its block at grid point `t` is entry `(4000·t + p, k)` of the array. -/
theorem rows1_2 (V : (c : Dev nD) → (b : Ref sig .tc) → Buf (Elt Ideal) ((c : Thread nD τ).loc b)) (c : Dev nD) (t : Fin cfg1.N) (p : Fin 4000) (k : Fin 1) (r : Fin 100000)
    (hr : r.val = 4000 * t.val + p.val) :
    (iblk1 V c 2 t : S4000x1.Idx → EReal) (ix2 p k) = (V c (Pipeline.arrRef spec1 2) : S100000x1.Idx → EReal) (ix2 r k) := by
  obtain ⟨e0, e1⟩ := index1_2 t
  unfold iblk1
  rw [View.read_apply]
  show (V c (Pipeline.arrRef spec1 2) : S100000x1.Idx → EReal) (((cfg1.win 2).blk t).view.emb (ix2 p k)) = _
  refine congrArg _ (funext fun a => Fin.ext ?_)
  match a with
  | ⟨0, _⟩ => show win1_2.index t (0 : Fin 2) * 4000 + 1 * p.val = r.val; omega
  | ⟨1, _⟩ => show win1_2.index t (1 : Fin 2) * 1 + 1 * k.val = k.val; omega

/-- Window 3 (the self weights) is the whole array at every grid point. -/
theorem whole1_3 (V : (c : Dev nD) → (b : Ref sig .tc) → Buf (Elt Ideal) ((c : Thread nD τ).loc b)) (c : Dev nD) (t : Fin cfg1.N) (k : Fin 32) (q : Fin 64) :
    (iblk1 V c 3 t : S32x64.Idx → EReal) (ix2 k q) = (V c (Pipeline.arrRef spec1 3) : S32x64.Idx → EReal) (ix2 k q) := by
  obtain ⟨e0, e1⟩ := index1_3 t
  unfold iblk1
  rw [View.read_apply]
  show (V c (Pipeline.arrRef spec1 3) : S32x64.Idx → EReal) (((cfg1.win 3).blk t).view.emb (ix2 k q)) = _
  refine congrArg _ (funext fun a => Fin.ext ?_)
  match a with
  | ⟨0, _⟩ => show win1_3.index t (0 : Fin 2) * 32 + 1 * k.val = k.val; omega
  | ⟨1, _⟩ => show win1_3.index t (1 : Fin 2) * 64 + 1 * q.val = q.val; omega

/-- Window 4 (the neighbour weights) is the whole array at every grid point. -/
theorem whole1_4 (V : (c : Dev nD) → (b : Ref sig .tc) → Buf (Elt Ideal) ((c : Thread nD τ).loc b)) (c : Dev nD) (t : Fin cfg1.N) (k : Fin 32) (q : Fin 64) :
    (iblk1 V c 4 t : S32x64.Idx → EReal) (ix2 k q) = (V c (Pipeline.arrRef spec1 4) : S32x64.Idx → EReal) (ix2 k q) := by
  obtain ⟨e0, e1⟩ := index1_4 t
  unfold iblk1
  rw [View.read_apply]
  show (V c (Pipeline.arrRef spec1 4) : S32x64.Idx → EReal) (((cfg1.win 4).blk t).view.emb (ix2 k q)) = _
  refine congrArg _ (funext fun a => Fin.ext ?_)
  match a with
  | ⟨0, _⟩ => show win1_4.index t (0 : Fin 2) * 32 + 1 * k.val = k.val; omega
  | ⟨1, _⟩ => show win1_4.index t (1 : Fin 2) * 64 + 1 * q.val = q.val; omega

/-- Window 5 (the bias row) is the whole array at every grid point. -/
theorem whole1_5 (V : (c : Dev nD) → (b : Ref sig .tc) → Buf (Elt Ideal) ((c : Thread nD τ).loc b)) (c : Dev nD) (t : Fin cfg1.N) (k : Fin 1) (q : Fin 64) :
    (iblk1 V c 5 t : S1x64.Idx → EReal) (ix2 k q) = (V c (Pipeline.arrRef spec1 5) : S1x64.Idx → EReal) (ix2 k q) := by
  obtain ⟨e0, e1⟩ := index1_5 t
  unfold iblk1
  rw [View.read_apply]
  show (V c (Pipeline.arrRef spec1 5) : S1x64.Idx → EReal) (((cfg1.win 5).blk t).view.emb (ix2 k q)) = _
  refine congrArg _ (funext fun a => Fin.ext ?_)
  match a with
  | ⟨0, _⟩ => show win1_5.index t (0 : Fin 2) * 1 + 1 * k.val = k.val; omega
  | ⟨1, _⟩ => show win1_5.index t (1 : Fin 2) * 64 + 1 * q.val = q.val; omega

/-! ## What a grid point writes back -/

/-- The layer as one function of the arrays the region finds. -/
abbrev layer1 (V : (c : Dev nD) → (b : Ref sig .tc) → Buf (Elt Ideal) ((c : Thread nD τ).loc b)) (c : Dev nD) : S100000x64.Idx → EReal :=
  Cert.Spec.hidden (din := 32) (dout := 64) (V c (Pipeline.arrRef spec1 0) : S100000x32.Idx → EReal)
      (V c (Pipeline.arrRef spec1 1) : S100000x32.Idx → EReal)
      (V c (Pipeline.arrRef spec1 2) : S100000x1.Idx → EReal)
      (V c (Pipeline.arrRef spec1 3) : S32x64.Idx → EReal)
      (V c (Pipeline.arrRef spec1 4) : S32x64.Idx → EReal)
      (fun i => (V c (Pipeline.arrRef spec1 5) : S1x64.Idx → EReal) (ix2 (0 : Fin 1) (i 0)))

/-- Grid point `t` writes back rows 4000·t … 4000·t + 3999 of the layer. -/
theorem flushed1 (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal) (layer1 V c) := by
  show (cfg1.win 6).cut (grid1.coords t) ((dat1 V c).after 6 t) = _
  rw [after1_6]
  unfold out1_6
  rw [View.canon_unit_zero zero_offsets1]
  simp only [View.ld_unit_zero (S := S4000x32) zero_offsets1, View.ld_unit_zero (S := S4000x1) zero_offsets1, View.ld_unit_zero (S := S32x64) zero_offsets1, View.ld_unit_zero (S := S1x64) zero_offsets1]
  obtain ⟨o0, o1⟩ := index1_6 t
  have ht : t.val < 25 := lt_of_lt_of_eq t.isLt N_1
  refine funext fun (j : S4000x64.Idx) => ?_
  obtain ⟨p, q, rfl⟩ : ∃ (p : Fin 4000) (q : Fin 64), j = ix2 p q := ⟨j 0, j 1, eq_ix2 j⟩
  have hp : p.val < 4000 := p.isLt
  obtain ⟨r, hr⟩ : ∃ r : Fin 100000, r.val = 4000 * t.val + p.val := ⟨⟨4000 * t.val + p.val, by omega⟩, rfl⟩
  have hemb : ((cfg1.win 6).blk t).view.emb (ix2 p q) = (ix2 r q : S100000x64.Idx) := by
    funext a; apply Fin.ext
    match a with
    | ⟨0, _⟩ => show win1_6.index t (0 : Fin 2) * 4000 + 1 * p.val = r.val; omega
    | ⟨1, _⟩ => show win1_6.index t (1 : Fin 2) * 64 + 1 * q.val = q.val; omega
  show k1_pay1 (iblk1 V c 0 t) (iblk1 V c 1 t) (iblk1 V c 2 t) (iblk1 V c 3 t) (iblk1 V c 4 t) (iblk1 V c 5 t) (ix2 p q) = layer1 V c (((cfg1.win 6).blk t).view.emb (ix2 p q))
  rw [hemb]
  refine (k1_pay1_apply (iblk1 V c 0 t) (iblk1 V c 1 t) (iblk1 V c 2 t) (iblk1 V c 3 t) (iblk1 V c 4 t) (iblk1 V c 5 t) p q).trans ?_
  show Spec.lrelu _ = Spec.lrelu (Spec.dense _ _ _ _ _ _ r q)
  unfold Spec.dense
  refine congrArg Spec.lrelu (congrArg₂ (· + ·) (congrArg₂ (· + ·) (Finset.sum_congr rfl fun k _ => ?_) (Finset.sum_congr rfl fun k _ => ?_)) ?_)
  · exact congrArg₂ (· * ·) (rows1_0 V c t p k r hr) (whole1_3 V c t k q)
  · exact congrArg₂ (· * ·) (congrArg₂ (· * ·) (rows1_1 V c t p k r hr) (rows1_2 V c t p (0 : Fin 1) r hr)) (whole1_4 V c t k q)
  · exact whole1_5 V c t (0 : Fin 1) q

/-! ## The cover, and the array after the region -/

/-- A row of the output array lies in grid point `t`'s block iff it is one of rows 4000·t … 4000·t + 3999. -/
theorem mem_block1 (t : Fin cfg1.N) (i : S100000x64.Idx) :
    i ∈ ((cfg1.win 6).blk t).view.set ↔ ∀ a : Fin 2, win1_6.index t a * S4000x64.size a ≤ (i a).val
      ∧ (i a).val < win1_6.index t a * S4000x64.size a + S4000x64.size a := by
  show i ∈ ((View.whole main_v219).slice (win1_6.rect t)).set ↔ _
  rw [View.set_slice_whole, Rect.mem_set_unit]
  exact Iff.rfl

/-- Every entry of the output array is written back by some grid point: row `r` by point `r / 4000`. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, htv⟩ : ∃ t : Fin cfg1.N, t.val = (i 0).val / 4000 :=
    ⟨⟨(i 0).val / 4000, lt_of_lt_of_eq (by omega) N_1.symm⟩, rfl⟩
  obtain ⟨o0, o1⟩ := index1_6 t
  refine ⟨t, flush1_6 t, ?_⟩
  rw [mem_block1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 64 ≤ (i 1).val ∧ (i 1).val < win1_6.index t (1 : Fin 2) * 64 + 64
    omega

/-- After the region the output array is the layer of the arrays the region found. -/
theorem region1_value (V : (c : Dev nD) → (b : Ref sig .tc) → Buf (Elt Ideal) ((c : Thread nD τ).loc b)) (c : Dev nD) :
    (GenP.dat1 (F := Ideal) V c).arrAt 6 cfg1.N
      = Cert.Spec.hidden (din := 32) (dout := 64) (V c (Pipeline.arrRef spec1 0) : S100000x32.Idx → EReal)
      (V c (Pipeline.arrRef spec1 1) : S100000x32.Idx → EReal)
      (V c (Pipeline.arrRef spec1 2) : S100000x1.Idx → EReal)
      (V c (Pipeline.arrRef spec1 3) : S32x64.Idx → EReal)
      (V c (Pipeline.arrRef spec1 4) : S32x64.Idx → EReal)
      (fun i => (V c (Pipeline.arrRef spec1 5) : S1x64.Idx → EReal) (ix2 (0 : Fin 1) (i 0))) :=
  (dat1 (F := Ideal) V c).arrAt_eq_of_cover 6 (layer1 V c) (fun t _ => flushed1 V c t) cover1

end Cert.KRegion

end
-- ==== Proof.KRegion2.lean ====
/-
  Layer 2's region, from tiles to the whole array. The grid has 25 points; at point t every row-tiled window
  holds rows 4000·t … 4000·t + 3999 of its array and every weight window holds its whole array, so what point t
  writes back is rows 4000·t … 4000·t + 3999 of one function of the arrays the region finds: the layer of the
  specification. The 25 row blocks cover the 100000 rows (row r lies in block r / 4000), so after the region the
  output array is that function.
-/
import proofs.«139037_j17609365914513_2_alg».proof.Proof.FrameIdeal
import proofs.«139037_j17609365914513_2_alg».proof.Proof.Spec
import proofs.«139037_j17609365914513_2_alg».proof.Proof.KPayload
import Idealize.ShloMosaic.Lib.Pipeline.Value
import Idealize.ShloMosaic.Lib.ValueIdx

set_option maxRecDepth 16384

noncomputable section

namespace Cert.KRegion

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- The zero offsets of a whole-tile access, as a constant function. -/
theorem zero_offsets2 : (![0, 0] : Fin 2 → Nat) = fun _ => 0 := funext fun a => by fin_cases a <;> rfl

/-! ## The block index of each window at each grid point (decided over the 25 points) -/

theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = t.val ∧ win2_1.index t (1 : Fin 2) = 0 :=
  (by decide +kernel : ∀ t : Fin grid2.N, _)
theorem index2_2 : ∀ t : Fin cfg2.N, win2_2.index t (0 : Fin 2) = t.val ∧ win2_2.index t (1 : Fin 2) = 0 :=
  (by decide +kernel : ∀ t : Fin grid2.N, _)
theorem index2_6 : ∀ t : Fin cfg2.N, win2_6.index t (0 : Fin 2) = t.val ∧ win2_6.index t (1 : Fin 2) = 0 :=
  (by decide +kernel : ∀ t : Fin grid2.N, _)
theorem index2_3 : ∀ t : Fin cfg2.N, win2_3.index t (0 : Fin 2) = 0 ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)

/-! ## Each input block as entries of its array -/

/-- Window 0 (the features) is tiled by rows: entry `(p, k)` of its block at grid point `t` is entry `(4000·t + p, k)` of the array. -/
theorem rows2_0 (V : (c : Dev nD) → (b : Ref sig .tc) → Buf (Elt Ideal) ((c : Thread nD τ).loc b)) (c : Dev nD) (t : Fin cfg2.N) (p : Fin 4000) (k : Fin 64) (r : Fin 100000)
    (hr : r.val = 4000 * t.val + p.val) :
    (iblk2 V c 0 t : S4000x64.Idx → EReal) (ix2 p k) = (V c (Pipeline.arrRef spec2 0) : S100000x64.Idx → EReal) (ix2 r k) := by
  obtain ⟨e0, e1⟩ := index2_0 t
  unfold iblk2
  rw [View.read_apply]
  show (V c (Pipeline.arrRef spec2 0) : S100000x64.Idx → EReal) (((cfg2.win 0).blk t).view.emb (ix2 p k)) = _
  refine congrArg _ (funext fun a => Fin.ext ?_)
  match a with
  | ⟨0, _⟩ => show win2_0.index t (0 : Fin 2) * 4000 + 1 * p.val = r.val; omega
  | ⟨1, _⟩ => show win2_0.index t (1 : Fin 2) * 64 + 1 * k.val = k.val; omega

/-- Window 1 (the neighbour sums) is tiled by rows: entry `(p, k)` of its block at grid point `t` is entry `(4000·t + p, k)` of the array. -/
theorem rows2_1 (V : (c : Dev nD) → (b : Ref sig .tc) → Buf (Elt Ideal) ((c : Thread nD τ).loc b)) (c : Dev nD) (t : Fin cfg2.N) (p : Fin 4000) (k : Fin 64) (r : Fin 100000)
    (hr : r.val = 4000 * t.val + p.val) :
    (iblk2 V c 1 t : S4000x64.Idx → EReal) (ix2 p k) = (V c (Pipeline.arrRef spec2 1) : S100000x64.Idx → EReal) (ix2 r k) := by
  obtain ⟨e0, e1⟩ := index2_1 t
  unfold iblk2
  rw [View.read_apply]
  show (V c (Pipeline.arrRef spec2 1) : S100000x64.Idx → EReal) (((cfg2.win 1).blk t).view.emb (ix2 p k)) = _
  refine congrArg _ (funext fun a => Fin.ext ?_)
  match a with
  | ⟨0, _⟩ => show win2_1.index t (0 : Fin 2) * 4000 + 1 * p.val = r.val; omega
  | ⟨1, _⟩ => show win2_1.index t (1 : Fin 2) * 64 + 1 * k.val = k.val; omega

/-- Window 2 (the inverse degrees) is tiled by rows: entry `(p, k)` of its block at grid point `t` is entry `(4000·t + p, k)` of the array. -/
theorem rows2_2 (V : (c : Dev nD) → (b : Ref sig .tc) → Buf (Elt Ideal) ((c : Thread nD τ).loc b)) (c : Dev nD) (t : Fin cfg2.N) (p : Fin 4000) (k : Fin 1) (r : Fin 100000)
    (hr : r.val = 4000 * t.val + p.val) :
    (iblk2 V c 2 t : S4000x1.Idx → EReal) (ix2 p k) = (V c (Pipeline.arrRef spec2 2) : S100000x1.Idx → EReal) (ix2 r k) := by
  obtain ⟨e0, e1⟩ := index2_2 t
  unfold iblk2
  rw [View.read_apply]
  show (V c (Pipeline.arrRef spec2 2) : S100000x1.Idx → EReal) (((cfg2.win 2).blk t).view.emb (ix2 p k)) = _
  refine congrArg _ (funext fun a => Fin.ext ?_)
  match a with
  | ⟨0, _⟩ => show win2_2.index t (0 : Fin 2) * 4000 + 1 * p.val = r.val; omega
  | ⟨1, _⟩ => show win2_2.index t (1 : Fin 2) * 1 + 1 * k.val = k.val; omega

/-- Window 3 (the self weights) is the whole array at every grid point. -/
theorem whole2_3 (V : (c : Dev nD) → (b : Ref sig .tc) → Buf (Elt Ideal) ((c : Thread nD τ).loc b)) (c : Dev nD) (t : Fin cfg2.N) (k : Fin 64) (q : Fin 64) :
    (iblk2 V c 3 t : S64x64.Idx → EReal) (ix2 k q) = (V c (Pipeline.arrRef spec2 3) : S64x64.Idx → EReal) (ix2 k q) := by
  obtain ⟨e0, e1⟩ := index2_3 t
  unfold iblk2
  rw [View.read_apply]
  show (V c (Pipeline.arrRef spec2 3) : S64x64.Idx → EReal) (((cfg2.win 3).blk t).view.emb (ix2 k q)) = _
  refine congrArg _ (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- Window 4 (the neighbour weights) is the whole array at every grid point. -/
theorem whole2_4 (V : (c : Dev nD) → (b : Ref sig .tc) → Buf (Elt Ideal) ((c : Thread nD τ).loc b)) (c : Dev nD) (t : Fin cfg2.N) (k : Fin 64) (q : Fin 64) :
    (iblk2 V c 4 t : S64x64.Idx → EReal) (ix2 k q) = (V c (Pipeline.arrRef spec2 4) : S64x64.Idx → EReal) (ix2 k q) := by
  obtain ⟨e0, e1⟩ := index2_4 t
  unfold iblk2
  rw [View.read_apply]
  show (V c (Pipeline.arrRef spec2 4) : S64x64.Idx → EReal) (((cfg2.win 4).blk t).view.emb (ix2 k q)) = _
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

/-- Window 5 (the bias row) is the whole array at every grid point. -/
theorem whole2_5 (V : (c : Dev nD) → (b : Ref sig .tc) → Buf (Elt Ideal) ((c : Thread nD τ).loc b)) (c : Dev nD) (t : Fin cfg2.N) (k : Fin 1) (q : Fin 64) :
    (iblk2 V c 5 t : S1x64.Idx → EReal) (ix2 k q) = (V c (Pipeline.arrRef spec2 5) : S1x64.Idx → EReal) (ix2 k q) := by
  obtain ⟨e0, e1⟩ := index2_5 t
  unfold iblk2
  rw [View.read_apply]
  show (V c (Pipeline.arrRef spec2 5) : S1x64.Idx → EReal) (((cfg2.win 5).blk t).view.emb (ix2 k q)) = _
  refine congrArg _ (funext fun a => Fin.ext ?_)
  match a with
  | ⟨0, _⟩ => show win2_5.index t (0 : Fin 2) * 1 + 1 * k.val = k.val; omega
  | ⟨1, _⟩ => show win2_5.index t (1 : Fin 2) * 64 + 1 * q.val = q.val; omega

/-! ## What a grid point writes back -/

/-- The layer as one function of the arrays the region finds. -/
abbrev layer2 (V : (c : Dev nD) → (b : Ref sig .tc) → Buf (Elt Ideal) ((c : Thread nD τ).loc b)) (c : Dev nD) : S100000x64.Idx → EReal :=
  Cert.Spec.hidden (din := 64) (dout := 64) (V c (Pipeline.arrRef spec2 0) : S100000x64.Idx → EReal)
      (V c (Pipeline.arrRef spec2 1) : S100000x64.Idx → EReal)
      (V c (Pipeline.arrRef spec2 2) : S100000x1.Idx → EReal)
      (V c (Pipeline.arrRef spec2 3) : S64x64.Idx → EReal)
      (V c (Pipeline.arrRef spec2 4) : S64x64.Idx → EReal)
      (fun i => (V c (Pipeline.arrRef spec2 5) : S1x64.Idx → EReal) (ix2 (0 : Fin 1) (i 0)))

/-- Grid point `t` writes back rows 4000·t … 4000·t + 3999 of the layer. -/
theorem flushed2 (V : (c : Dev nD) → (b : Ref sig .tc) → Buf (Elt Ideal) ((c : Thread nD τ).loc b)) (c : Dev nD) (t : Fin cfg2.N) :
    (dat2 (F := Ideal) V c).flushed 6 t = ((cfg2.win 6).blk t).view.read (Elt Ideal) (layer2 V c) := by
  show (cfg2.win 6).cut (grid2.coords t) ((dat2 V c).after 6 t) = _
  rw [after2_6]
  unfold out2_6
  rw [View.canon_unit_zero zero_offsets2]
  simp only [View.ld_unit_zero (S := S4000x64) zero_offsets2, View.ld_unit_zero (S := S4000x1) zero_offsets2, View.ld_unit_zero (S := S64x64) zero_offsets2, View.ld_unit_zero (S := S1x64) zero_offsets2]
  obtain ⟨o0, o1⟩ := index2_6 t
  have ht : t.val < 25 := lt_of_lt_of_eq t.isLt N_2
  refine funext fun (j : S4000x64.Idx) => ?_
  obtain ⟨p, q, rfl⟩ : ∃ (p : Fin 4000) (q : Fin 64), j = ix2 p q := ⟨j 0, j 1, eq_ix2 j⟩
  have hp : p.val < 4000 := p.isLt
  obtain ⟨r, hr⟩ : ∃ r : Fin 100000, r.val = 4000 * t.val + p.val := ⟨⟨4000 * t.val + p.val, by omega⟩, rfl⟩
  have hemb : ((cfg2.win 6).blk t).view.emb (ix2 p q) = (ix2 r q : S100000x64.Idx) := by
    funext a; apply Fin.ext
    match a with
    | ⟨0, _⟩ => show win2_6.index t (0 : Fin 2) * 4000 + 1 * p.val = r.val; omega
    | ⟨1, _⟩ => show win2_6.index t (1 : Fin 2) * 64 + 1 * q.val = q.val; omega
  show k2_pay1 (iblk2 V c 0 t) (iblk2 V c 1 t) (iblk2 V c 2 t) (iblk2 V c 3 t) (iblk2 V c 4 t) (iblk2 V c 5 t) (ix2 p q) = layer2 V c (((cfg2.win 6).blk t).view.emb (ix2 p q))
  rw [hemb]
  refine (k2_pay1_apply (iblk2 V c 0 t) (iblk2 V c 1 t) (iblk2 V c 2 t) (iblk2 V c 3 t) (iblk2 V c 4 t) (iblk2 V c 5 t) p q).trans ?_
  show Spec.lrelu _ = Spec.lrelu (Spec.dense _ _ _ _ _ _ r q)
  unfold Spec.dense
  refine congrArg Spec.lrelu (congrArg₂ (· + ·) (congrArg₂ (· + ·) (Finset.sum_congr rfl fun k _ => ?_) (Finset.sum_congr rfl fun k _ => ?_)) ?_)
  · exact congrArg₂ (· * ·) (rows2_0 V c t p k r hr) (whole2_3 V c t k q)
  · exact congrArg₂ (· * ·) (congrArg₂ (· * ·) (rows2_1 V c t p k r hr) (rows2_2 V c t p (0 : Fin 1) r hr)) (whole2_4 V c t k q)
  · exact whole2_5 V c t (0 : Fin 1) q

/-! ## The cover, and the array after the region -/

/-- A row of the output array lies in grid point `t`'s block iff it is one of rows 4000·t … 4000·t + 3999. -/
theorem mem_block2 (t : Fin cfg2.N) (i : S100000x64.Idx) :
    i ∈ ((cfg2.win 6).blk t).view.set ↔ ∀ a : Fin 2, win2_6.index t a * S4000x64.size a ≤ (i a).val
      ∧ (i a).val < win2_6.index t a * S4000x64.size a + S4000x64.size a := by
  show i ∈ ((View.whole main_v233).slice (win2_6.rect t)).set ↔ _
  rw [View.set_slice_whole, Rect.mem_set_unit]
  exact Iff.rfl

/-- Every entry of the output array is written back by some grid point: row `r` by point `r / 4000`. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, htv⟩ : ∃ t : Fin cfg2.N, t.val = (i 0).val / 4000 :=
    ⟨⟨(i 0).val / 4000, lt_of_lt_of_eq (by omega) N_2.symm⟩, rfl⟩
  obtain ⟨o0, o1⟩ := index2_6 t
  refine ⟨t, flush2_6 t, ?_⟩
  rw [mem_block2]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 64 ≤ (i 1).val ∧ (i 1).val < win2_6.index t (1 : Fin 2) * 64 + 64
    omega

/-- After the region the output array is the layer of the arrays the region found. -/
theorem region2_value (V : (c : Dev nD) → (b : Ref sig .tc) → Buf (Elt Ideal) ((c : Thread nD τ).loc b)) (c : Dev nD) :
    (GenP.dat2 (F := Ideal) V c).arrAt 6 cfg2.N
      = Cert.Spec.hidden (din := 64) (dout := 64) (V c (Pipeline.arrRef spec2 0) : S100000x64.Idx → EReal)
      (V c (Pipeline.arrRef spec2 1) : S100000x64.Idx → EReal)
      (V c (Pipeline.arrRef spec2 2) : S100000x1.Idx → EReal)
      (V c (Pipeline.arrRef spec2 3) : S64x64.Idx → EReal)
      (V c (Pipeline.arrRef spec2 4) : S64x64.Idx → EReal)
      (fun i => (V c (Pipeline.arrRef spec2 5) : S1x64.Idx → EReal) (ix2 (0 : Fin 1) (i 0))) :=
  (dat2 (F := Ideal) V c).arrAt_eq_of_cover 6 (layer2 V c) (fun t _ => flushed2 V c t) cover2

end Cert.KRegion

end
-- ==== Proof.KRegion3.lean ====
/-
  Layer 3's region, from tiles to the whole array. The grid has 25 points; at point t every row-tiled window
  holds rows 4000·t … 4000·t + 3999 of its array and every weight window holds its whole array, so what point t
  writes back is rows 4000·t … 4000·t + 3999 of one function of the arrays the region finds: the layer of the
  specification. The 25 row blocks cover the 100000 rows (row r lies in block r / 4000), so after the region the
  output array is that function.
-/
import proofs.«139037_j17609365914513_2_alg».proof.Proof.FrameIdeal
import proofs.«139037_j17609365914513_2_alg».proof.Proof.Spec
import proofs.«139037_j17609365914513_2_alg».proof.Proof.KPayload
import Idealize.ShloMosaic.Lib.Pipeline.Value
import Idealize.ShloMosaic.Lib.ValueIdx

set_option maxRecDepth 16384

noncomputable section

namespace Cert.KRegion

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- The zero offsets of a whole-tile access, as a constant function. -/
theorem zero_offsets3 : (![0, 0] : Fin 2 → Nat) = fun _ => 0 := funext fun a => by fin_cases a <;> rfl

/-! ## The block index of each window at each grid point (decided over the 25 points) -/

theorem index3_0 : ∀ t : Fin cfg3.N, win3_0.index t (0 : Fin 2) = t.val ∧ win3_0.index t (1 : Fin 2) = 0 :=
  (by decide +kernel : ∀ t : Fin grid3.N, _)
theorem index3_1 : ∀ t : Fin cfg3.N, win3_1.index t (0 : Fin 2) = t.val ∧ win3_1.index t (1 : Fin 2) = 0 :=
  (by decide +kernel : ∀ t : Fin grid3.N, _)
theorem index3_2 : ∀ t : Fin cfg3.N, win3_2.index t (0 : Fin 2) = t.val ∧ win3_2.index t (1 : Fin 2) = 0 :=
  (by decide +kernel : ∀ t : Fin grid3.N, _)
theorem index3_6 : ∀ t : Fin cfg3.N, win3_6.index t (0 : Fin 2) = t.val ∧ win3_6.index t (1 : Fin 2) = 0 :=
  (by decide +kernel : ∀ t : Fin grid3.N, _)
theorem index3_7 : ∀ t : Fin cfg3.N, win3_7.index t (0 : Fin 2) = t.val ∧ win3_7.index t (1 : Fin 2) = 0 :=
  (by decide +kernel : ∀ t : Fin grid3.N, _)
theorem index3_3 : ∀ t : Fin cfg3.N, win3_3.index t (0 : Fin 2) = 0 ∧ win3_3.index t (1 : Fin 2) = 0 :=
  (by decide +kernel : ∀ t : Fin grid3.N, _)
theorem index3_4 : ∀ t : Fin cfg3.N, win3_4.index t (0 : Fin 2) = 0 ∧ win3_4.index t (1 : Fin 2) = 0 :=
  (by decide +kernel : ∀ t : Fin grid3.N, _)
theorem index3_5 : ∀ t : Fin cfg3.N, win3_5.index t (0 : Fin 2) = 0 ∧ win3_5.index t (1 : Fin 2) = 0 :=
  (by decide +kernel : ∀ t : Fin grid3.N, _)

/-! ## Each input block as entries of its array -/

/-- Window 0 (the features) is tiled by rows: entry `(p, k)` of its block at grid point `t` is entry `(4000·t + p, k)` of the array. -/
theorem rows3_0 (V : (c : Dev nD) → (b : Ref sig .tc) → Buf (Elt Ideal) ((c : Thread nD τ).loc b)) (c : Dev nD) (t : Fin cfg3.N) (p : Fin 4000) (k : Fin 64) (r : Fin 100000)
    (hr : r.val = 4000 * t.val + p.val) :
    (iblk3 V c 0 t : S4000x64.Idx → EReal) (ix2 p k) = (V c (Pipeline.arrRef spec3 0) : S100000x64.Idx → EReal) (ix2 r k) := by
  obtain ⟨e0, e1⟩ := index3_0 t
  unfold iblk3
  rw [View.read_apply]
  show (V c (Pipeline.arrRef spec3 0) : S100000x64.Idx → EReal) (((cfg3.win 0).blk t).view.emb (ix2 p k)) = _
  refine congrArg _ (funext fun a => Fin.ext ?_)
  match a with
  | ⟨0, _⟩ => show win3_0.index t (0 : Fin 2) * 4000 + 1 * p.val = r.val; omega
  | ⟨1, _⟩ => show win3_0.index t (1 : Fin 2) * 64 + 1 * k.val = k.val; omega

/-- Window 1 (the neighbour sums) is tiled by rows: entry `(p, k)` of its block at grid point `t` is entry `(4000·t + p, k)` of the array. -/
theorem rows3_1 (V : (c : Dev nD) → (b : Ref sig .tc) → Buf (Elt Ideal) ((c : Thread nD τ).loc b)) (c : Dev nD) (t : Fin cfg3.N) (p : Fin 4000) (k : Fin 64) (r : Fin 100000)
    (hr : r.val = 4000 * t.val + p.val) :
    (iblk3 V c 1 t : S4000x64.Idx → EReal) (ix2 p k) = (V c (Pipeline.arrRef spec3 1) : S100000x64.Idx → EReal) (ix2 r k) := by
  obtain ⟨e0, e1⟩ := index3_1 t
  unfold iblk3
  rw [View.read_apply]
  show (V c (Pipeline.arrRef spec3 1) : S100000x64.Idx → EReal) (((cfg3.win 1).blk t).view.emb (ix2 p k)) = _
  refine congrArg _ (funext fun a => Fin.ext ?_)
  match a with
  | ⟨0, _⟩ => show win3_1.index t (0 : Fin 2) * 4000 + 1 * p.val = r.val; omega
  | ⟨1, _⟩ => show win3_1.index t (1 : Fin 2) * 64 + 1 * k.val = k.val; omega

/-- Window 2 (the inverse degrees) is tiled by rows: entry `(p, k)` of its block at grid point `t` is entry `(4000·t + p, k)` of the array. -/
theorem rows3_2 (V : (c : Dev nD) → (b : Ref sig .tc) → Buf (Elt Ideal) ((c : Thread nD τ).loc b)) (c : Dev nD) (t : Fin cfg3.N) (p : Fin 4000) (k : Fin 1) (r : Fin 100000)
    (hr : r.val = 4000 * t.val + p.val) :
    (iblk3 V c 2 t : S4000x1.Idx → EReal) (ix2 p k) = (V c (Pipeline.arrRef spec3 2) : S100000x1.Idx → EReal) (ix2 r k) := by
  obtain ⟨e0, e1⟩ := index3_2 t
  unfold iblk3
  rw [View.read_apply]
  show (V c (Pipeline.arrRef spec3 2) : S100000x1.Idx → EReal) (((cfg3.win 2).blk t).view.emb (ix2 p k)) = _
  refine congrArg _ (funext fun a => Fin.ext ?_)
  match a with
  | ⟨0, _⟩ => show win3_2.index t (0 : Fin 2) * 4000 + 1 * p.val = r.val; omega
  | ⟨1, _⟩ => show win3_2.index t (1 : Fin 2) * 1 + 1 * k.val = k.val; omega

/-- Window 6 (the vertex positions) is tiled by rows: entry `(p, k)` of its block at grid point `t` is entry `(4000·t + p, k)` of the array. -/
theorem rows3_6 (V : (c : Dev nD) → (b : Ref sig .tc) → Buf (Elt Ideal) ((c : Thread nD τ).loc b)) (c : Dev nD) (t : Fin cfg3.N) (p : Fin 4000) (k : Fin 3) (r : Fin 100000)
    (hr : r.val = 4000 * t.val + p.val) :
    (iblk3 V c 6 t : S4000x3.Idx → EReal) (ix2 p k) = (V c (Pipeline.arrRef spec3 6) : S100000x3.Idx → EReal) (ix2 r k) := by
  obtain ⟨e0, e1⟩ := index3_6 t
  unfold iblk3
  rw [View.read_apply]
  show (V c (Pipeline.arrRef spec3 6) : S100000x3.Idx → EReal) (((cfg3.win 6).blk t).view.emb (ix2 p k)) = _
  refine congrArg _ (funext fun a => Fin.ext ?_)
  match a with
  | ⟨0, _⟩ => show win3_6.index t (0 : Fin 2) * 4000 + 1 * p.val = r.val; omega
  | ⟨1, _⟩ => show win3_6.index t (1 : Fin 2) * 3 + 1 * k.val = k.val; omega

/-- Window 3 (the self weights) is the whole array at every grid point. -/
theorem whole3_3 (V : (c : Dev nD) → (b : Ref sig .tc) → Buf (Elt Ideal) ((c : Thread nD τ).loc b)) (c : Dev nD) (t : Fin cfg3.N) (k : Fin 64) (q : Fin 3) :
    (iblk3 V c 3 t : S64x3.Idx → EReal) (ix2 k q) = (V c (Pipeline.arrRef spec3 3) : S64x3.Idx → EReal) (ix2 k q) := by
  obtain ⟨e0, e1⟩ := index3_3 t
  unfold iblk3
  rw [View.read_apply]
  show (V c (Pipeline.arrRef spec3 3) : S64x3.Idx → EReal) (((cfg3.win 3).blk t).view.emb (ix2 k q)) = _
  refine congrArg _ (funext fun a => Fin.ext ?_)
  match a with
  | ⟨0, _⟩ => show win3_3.index t (0 : Fin 2) * 64 + 1 * k.val = k.val; omega
  | ⟨1, _⟩ => show win3_3.index t (1 : Fin 2) * 3 + 1 * q.val = q.val; omega

/-- Window 4 (the neighbour weights) is the whole array at every grid point. -/
theorem whole3_4 (V : (c : Dev nD) → (b : Ref sig .tc) → Buf (Elt Ideal) ((c : Thread nD τ).loc b)) (c : Dev nD) (t : Fin cfg3.N) (k : Fin 64) (q : Fin 3) :
    (iblk3 V c 4 t : S64x3.Idx → EReal) (ix2 k q) = (V c (Pipeline.arrRef spec3 4) : S64x3.Idx → EReal) (ix2 k q) := by
  obtain ⟨e0, e1⟩ := index3_4 t
  unfold iblk3
  rw [View.read_apply]
  show (V c (Pipeline.arrRef spec3 4) : S64x3.Idx → EReal) (((cfg3.win 4).blk t).view.emb (ix2 k q)) = _
  refine congrArg _ (funext fun a => Fin.ext ?_)
  match a with
  | ⟨0, _⟩ => show win3_4.index t (0 : Fin 2) * 64 + 1 * k.val = k.val; omega
  | ⟨1, _⟩ => show win3_4.index t (1 : Fin 2) * 3 + 1 * q.val = q.val; omega

/-- Window 5 (the bias row) is the whole array at every grid point. -/
theorem whole3_5 (V : (c : Dev nD) → (b : Ref sig .tc) → Buf (Elt Ideal) ((c : Thread nD τ).loc b)) (c : Dev nD) (t : Fin cfg3.N) (k : Fin 1) (q : Fin 3) :
    (iblk3 V c 5 t : S1x3.Idx → EReal) (ix2 k q) = (V c (Pipeline.arrRef spec3 5) : S1x3.Idx → EReal) (ix2 k q) := by
  obtain ⟨e0, e1⟩ := index3_5 t
  unfold iblk3
  rw [View.read_apply]
  show (V c (Pipeline.arrRef spec3 5) : S1x3.Idx → EReal) (((cfg3.win 5).blk t).view.emb (ix2 k q)) = _
  refine congrArg _ (funext fun a => Fin.ext ?_)
  match a with
  | ⟨0, _⟩ => show win3_5.index t (0 : Fin 2) * 1 + 1 * k.val = k.val; omega
  | ⟨1, _⟩ => show win3_5.index t (1 : Fin 2) * 3 + 1 * q.val = q.val; omega

/-! ## What a grid point writes back -/

/-- The layer as one function of the arrays the region finds. -/
abbrev layer3 (V : (c : Dev nD) → (b : Ref sig .tc) → Buf (Elt Ideal) ((c : Thread nD τ).loc b)) (c : Dev nD) : S100000x3.Idx → EReal :=
  Cert.Spec.moved (din := 64) (dout := 3) (V c (Pipeline.arrRef spec3 6) : S100000x3.Idx → EReal)
      (V c (Pipeline.arrRef spec3 0) : S100000x64.Idx → EReal)
      (V c (Pipeline.arrRef spec3 1) : S100000x64.Idx → EReal)
      (V c (Pipeline.arrRef spec3 2) : S100000x1.Idx → EReal)
      (V c (Pipeline.arrRef spec3 3) : S64x3.Idx → EReal)
      (V c (Pipeline.arrRef spec3 4) : S64x3.Idx → EReal)
      (fun i => (V c (Pipeline.arrRef spec3 5) : S1x3.Idx → EReal) (ix2 (0 : Fin 1) (i 0)))

/-- Grid point `t` writes back rows 4000·t … 4000·t + 3999 of the layer. -/
theorem flushed3 (V : (c : Dev nD) → (b : Ref sig .tc) → Buf (Elt Ideal) ((c : Thread nD τ).loc b)) (c : Dev nD) (t : Fin cfg3.N) :
    (dat3 (F := Ideal) V c).flushed 7 t = ((cfg3.win 7).blk t).view.read (Elt Ideal) (layer3 V c) := by
  show (cfg3.win 7).cut (grid3.coords t) ((dat3 V c).after 7 t) = _
  rw [after3_7]
  unfold out3_7
  rw [View.canon_unit_zero zero_offsets3]
  simp only [View.ld_unit_zero (S := S4000x64) zero_offsets3, View.ld_unit_zero (S := S4000x1) zero_offsets3, View.ld_unit_zero (S := S64x3) zero_offsets3, View.ld_unit_zero (S := S1x3) zero_offsets3, View.ld_unit_zero (S := S4000x3) zero_offsets3]
  obtain ⟨o0, o1⟩ := index3_7 t
  have ht : t.val < 25 := lt_of_lt_of_eq t.isLt N_3
  refine funext fun (j : S4000x3.Idx) => ?_
  obtain ⟨p, q, rfl⟩ : ∃ (p : Fin 4000) (q : Fin 3), j = ix2 p q := ⟨j 0, j 1, eq_ix2 j⟩
  have hp : p.val < 4000 := p.isLt
  obtain ⟨r, hr⟩ : ∃ r : Fin 100000, r.val = 4000 * t.val + p.val := ⟨⟨4000 * t.val + p.val, by omega⟩, rfl⟩
  have hemb : ((cfg3.win 7).blk t).view.emb (ix2 p q) = (ix2 r q : S100000x3.Idx) := by
    funext a; apply Fin.ext
    match a with
    | ⟨0, _⟩ => show win3_7.index t (0 : Fin 2) * 4000 + 1 * p.val = r.val; omega
    | ⟨1, _⟩ => show win3_7.index t (1 : Fin 2) * 3 + 1 * q.val = q.val; omega
  show k3_pay1 (iblk3 V c 0 t) (iblk3 V c 1 t) (iblk3 V c 2 t) (iblk3 V c 3 t) (iblk3 V c 4 t) (iblk3 V c 5 t) (iblk3 V c 6 t) (ix2 p q) = layer3 V c (((cfg3.win 7).blk t).view.emb (ix2 p q))
  rw [hemb]
  refine (k3_pay1_apply (iblk3 V c 0 t) (iblk3 V c 1 t) (iblk3 V c 2 t) (iblk3 V c 3 t) (iblk3 V c 4 t) (iblk3 V c 5 t) (iblk3 V c 6 t) p q).trans ?_
  show _ + _ * _ = _ + _ * (Spec.dense _ _ _ _ _ _ r q)
  unfold Spec.dense
  refine congrArg₂ (· + ·) (rows3_6 V c t p q r hr) (congrArg₂ (· * ·) rfl (congrArg₂ (· + ·) (congrArg₂ (· + ·) (Finset.sum_congr rfl fun k _ => ?_) (Finset.sum_congr rfl fun k _ => ?_)) ?_))
  · exact congrArg₂ (· * ·) (rows3_0 V c t p k r hr) (whole3_3 V c t k q)
  · exact congrArg₂ (· * ·) (congrArg₂ (· * ·) (rows3_1 V c t p k r hr) (rows3_2 V c t p (0 : Fin 1) r hr)) (whole3_4 V c t k q)
  · exact whole3_5 V c t (0 : Fin 1) q

/-! ## The cover, and the array after the region -/

/-- A row of the output array lies in grid point `t`'s block iff it is one of rows 4000·t … 4000·t + 3999. -/
theorem mem_block3 (t : Fin cfg3.N) (i : S100000x3.Idx) :
    i ∈ ((cfg3.win 7).blk t).view.set ↔ ∀ a : Fin 2, win3_7.index t a * S4000x3.size a ≤ (i a).val
      ∧ (i a).val < win3_7.index t a * S4000x3.size a + S4000x3.size a := by
  show i ∈ ((View.whole main_v247).slice (win3_7.rect t)).set ↔ _
  rw [View.set_slice_whole, Rect.mem_set_unit]
  exact Iff.rfl

/-- Every entry of the output array is written back by some grid point: row `r` by point `r / 4000`. -/
theorem cover3 (i : S100000x3.Idx) :
    ∃ t : Fin cfg3.N, (cfg3.win 7).flush t = true ∧ i ∈ ((cfg3.win 7).blk t).view.set := by
  have hi0 : (i 0).val < 100000 := (i 0).isLt
  have hi1 : (i 1).val < 3 := (i 1).isLt
  obtain ⟨t, htv⟩ : ∃ t : Fin cfg3.N, t.val = (i 0).val / 4000 :=
    ⟨⟨(i 0).val / 4000, lt_of_lt_of_eq (by omega) N_3.symm⟩, rfl⟩
  obtain ⟨o0, o1⟩ := index3_7 t
  refine ⟨t, flush3_7 t, ?_⟩
  rw [mem_block3]
  intro a
  match a with
  | ⟨0, _⟩ =>
    show win3_7.index t (0 : Fin 2) * 4000 ≤ (i 0).val ∧ (i 0).val < win3_7.index t (0 : Fin 2) * 4000 + 4000
    omega
  | ⟨1, _⟩ =>
    show win3_7.index t (1 : Fin 2) * 3 ≤ (i 1).val ∧ (i 1).val < win3_7.index t (1 : Fin 2) * 3 + 3
    omega

/-- After the region the output array is the layer of the arrays the region found. -/
theorem region3_value (V : (c : Dev nD) → (b : Ref sig .tc) → Buf (Elt Ideal) ((c : Thread nD τ).loc b)) (c : Dev nD) :
    (GenP.dat3 (F := Ideal) V c).arrAt 7 cfg3.N
      = Cert.Spec.moved (din := 64) (dout := 3) (V c (Pipeline.arrRef spec3 6) : S100000x3.Idx → EReal)
      (V c (Pipeline.arrRef spec3 0) : S100000x64.Idx → EReal)
      (V c (Pipeline.arrRef spec3 1) : S100000x64.Idx → EReal)
      (V c (Pipeline.arrRef spec3 2) : S100000x1.Idx → EReal)
      (V c (Pipeline.arrRef spec3 3) : S64x3.Idx → EReal)
      (V c (Pipeline.arrRef spec3 4) : S64x3.Idx → EReal)
      (fun i => (V c (Pipeline.arrRef spec3 5) : S1x3.Idx → EReal) (ix2 (0 : Fin 1) (i 0))) :=
  (dat3 (F := Ideal) V c).arrAt_eq_of_cover 7 (layer3 V c) (fun t _ => flushed3 V c t) cover3

end Cert.KRegion

end
-- ==== Proof.KChains.lean ====
/-
  What the host operations of the idealized kernel program compute between its regions, each value as the composition of
  the operations that produce it, in program order, cut into named stages: the inverse degrees; the clipped positions,
  their integer and fractional parts; one corner's row of the channel-last image; the trilinear mix of eight corners;
  the feature rows; the neighbour sums that feed each layer; each layer's bias as a row.
-/
import proofs.«139037_j17609365914513_2_alg».proof.KernelIdeal

set_option maxRecDepth 16384

noncomputable section

namespace Cert.KChains

open Cert.KernelIdeal Idealize.ShloMosaic
open Cert.KernelIdeal.Facts₀ Cert.KernelIdeal.Facts

variable {F : FTy → Type} [FloatOps F] [Cert.KernelIdeal.Facts]

/-- The reciprocal of each vertex's in-degree (at least one), as a column: 1 / max(Σ over the edges ending at the vertex of 1, 1). -/
def invDeg (dst : (⟨S1600000, .i32⟩ : BufTy).Contents (Elt F)) : (⟨S100000x1, .f32⟩ : BufTy).Contents (Elt F) :=
  ((broadcastInDim S100000x1 ![0] bcast_S100000_S100000x1_0 : (⟨S100000, .f32⟩ : BufTy).Contents (Elt F) → (⟨S100000x1, .f32⟩ : BufTy).Contents (Elt F)) ((Host.divf : (⟨S100000, .f32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x3F800000#32))) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) ((broadcastInDim S1600000 ![] bcast_S_S1600000 : (⟨S_, .f32⟩ : BufTy).Contents (Elt F) → (⟨S1600000, .f32⟩ : BufTy).Contents (Elt F)) ((constant S_ .f32 0x3F800000#32)))) ((broadcastInDim S100000 ![] bcast_S_S100000 : (⟨S_, .f32⟩ : BufTy).Contents (Elt F) → (⟨S100000, .f32⟩ : BufTy).Contents (Elt F)) ((constant S_ .f32 0x3F800000#32))))))

/-- The image with its channel axis last and its three grid axes flattened to one row index: row (a·128 + b)·128 + c, column ch holds img[ch, a, b, c]. -/
def imgLast (img : (⟨S16x128x128x128, .f32⟩ : BufTy).Contents (Elt F)) : (⟨S2097152x16, .f32⟩ : BufTy).Contents (Elt F) :=
  (shapeCast S2097152x16 (((transpose S128x128x128x16 [1, 2, 3, 0] · transposes_S16x128x128x128_S128x128x128x16_1_2_3_0) : (⟨S16x128x128x128, .f32⟩ : BufTy).Contents (Elt F) → (⟨S128x128x128x16, .f32⟩ : BufTy).Contents (Elt F)) img) shapeCasts_S128x128x128x16_S2097152x16)

/-- The vertex positions clipped to the grid: min(127, max(0, v)) coordinate by coordinate. -/
def clip (v : (⟨S100000x3, .f32⟩ : BufTy).Contents (Elt F)) : (⟨S100000x3, .f32⟩ : BufTy).Contents (Elt F) :=
  (minimumf ((broadcastInDim S100000x3 ![0, 1] bcast_S1x3_S100000x3_0_1) ((broadcastInDim S1x3 ![1] bcast_S3_S1x3_1) ((constant S3 .f32 0x42FE0000#32)))) (maximumf ((broadcastInDim S100000x3 ![] bcast_S_S100000x3) (id ((constant S_ .f32 0x00000000#32)))) v))

/-- The integer grid coordinates below a clipped position: the floor, as 32-bit integers. -/
def lowI (p : (⟨S100000x3, .f32⟩ : BufTy).Contents (Elt F)) : (⟨S100000x3, .i32⟩ : BufTy).Contents (Elt F) :=
  ((fptosi 32 : (⟨S100000x3, .f32⟩ : BufTy).Contents (Elt F) → (⟨S100000x3, .i32⟩ : BufTy).Contents (Elt F)) ((Host.floor : (⟨S100000x3, .f32⟩ : BufTy).Contents (Elt F) → (⟨S100000x3, .f32⟩ : BufTy).Contents (Elt F)) p))

/-- The next grid coordinates, capped at the last one: min(i + 1, 127). -/
def highI (i : (⟨S100000x3, .i32⟩ : BufTy).Contents (Elt F)) : (⟨S100000x3, .i32⟩ : BufTy).Contents (Elt F) :=
  ((minsi : (⟨S100000x3, .i32⟩ : BufTy).Contents (Elt F) → (⟨S100000x3, .i32⟩ : BufTy).Contents (Elt F) → (⟨S100000x3, .i32⟩ : BufTy).Contents (Elt F)) ((addi : (⟨S100000x3, .i32⟩ : BufTy).Contents (Elt F) → (⟨S100000x3, .i32⟩ : BufTy).Contents (Elt F) → (⟨S100000x3, .i32⟩ : BufTy).Contents (Elt F)) i ((broadcastInDim S100000x3 ![] bcast_S_S100000x3 : (⟨S_, .i32⟩ : BufTy).Contents (Elt F) → (⟨S100000x3, .i32⟩ : BufTy).Contents (Elt F)) ((constantI S_ 32 1#32)))) ((broadcastInDim S100000x3 ![0, 1] bcast_S1x3_S100000x3_0_1 : (⟨S1x3, .i32⟩ : BufTy).Contents (Elt F) → (⟨S100000x3, .i32⟩ : BufTy).Contents (Elt F)) ((broadcastInDim S1x3 ![1] bcast_S3_S1x3_1 : (⟨S3, .i32⟩ : BufTy).Contents (Elt F) → (⟨S1x3, .i32⟩ : BufTy).Contents (Elt F)) ((fptosi 32 : (⟨S3, .f32⟩ : BufTy).Contents (Elt F) → (⟨S3, .i32⟩ : BufTy).Contents (Elt F)) ((constant S3 .f32 0x42FE0000#32))))))

/-- The fractional parts p − ⌊p⌋: the interpolation weights. -/
def frac (p : (⟨S100000x3, .f32⟩ : BufTy).Contents (Elt F)) : (⟨S100000x3, .f32⟩ : BufTy).Contents (Elt F) :=
  ((subf : (⟨S100000x3, .f32⟩ : BufTy).Contents (Elt F) → (⟨S100000x3, .f32⟩ : BufTy).Contents (Elt F) → (⟨S100000x3, .f32⟩ : BufTy).Contents (Elt F)) p ((Host.floor : (⟨S100000x3, .f32⟩ : BufTy).Contents (Elt F) → (⟨S100000x3, .f32⟩ : BufTy).Contents (Elt F)) p))

/-- The first coordinate of every vertex, as a vector of integers. -/
def colI0 (i : (⟨S100000x3, .i32⟩ : BufTy).Contents (Elt F)) : (⟨S100000, .i32⟩ : BufTy).Contents (Elt F) :=
  (shapeCast S100000 (((extractStridedSlice S100000x1 ![0, 0] · slices_S100000x3_S100000x1_0_0) : (⟨S100000x3, .i32⟩ : BufTy).Contents (Elt F) → (⟨S100000x1, .i32⟩ : BufTy).Contents (Elt F)) i) shapeCasts_S100000x1_S100000)

/-- The second coordinate of every vertex. -/
def colI1 (i : (⟨S100000x3, .i32⟩ : BufTy).Contents (Elt F)) : (⟨S100000, .i32⟩ : BufTy).Contents (Elt F) :=
  (shapeCast S100000 (((extractStridedSlice S100000x1 ![0, 1] · slices_S100000x3_S100000x1_0_1) : (⟨S100000x3, .i32⟩ : BufTy).Contents (Elt F) → (⟨S100000x1, .i32⟩ : BufTy).Contents (Elt F)) i) shapeCasts_S100000x1_S100000)

/-- The third coordinate of every vertex. -/
def colI2 (i : (⟨S100000x3, .i32⟩ : BufTy).Contents (Elt F)) : (⟨S100000, .i32⟩ : BufTy).Contents (Elt F) :=
  (shapeCast S100000 (((extractStridedSlice S100000x1 ![0, 2] · slices_S100000x3_S100000x1_0_2) : (⟨S100000x3, .i32⟩ : BufTy).Contents (Elt F) → (⟨S100000x1, .i32⟩ : BufTy).Contents (Elt F)) i) shapeCasts_S100000x1_S100000)

/-- The first weight of every vertex, as a column. -/
def colF0 (w : (⟨S100000x3, .f32⟩ : BufTy).Contents (Elt F)) : (⟨S100000x1, .f32⟩ : BufTy).Contents (Elt F) :=
  (((extractStridedSlice S100000x1 ![0, 0] · slices_S100000x3_S100000x1_0_0) : (⟨S100000x3, .f32⟩ : BufTy).Contents (Elt F) → (⟨S100000x1, .f32⟩ : BufTy).Contents (Elt F)) w)

/-- The second weight of every vertex. -/
def colF1 (w : (⟨S100000x3, .f32⟩ : BufTy).Contents (Elt F)) : (⟨S100000x1, .f32⟩ : BufTy).Contents (Elt F) :=
  (((extractStridedSlice S100000x1 ![0, 1] · slices_S100000x3_S100000x1_0_1) : (⟨S100000x3, .f32⟩ : BufTy).Contents (Elt F) → (⟨S100000x1, .f32⟩ : BufTy).Contents (Elt F)) w)

/-- The third weight of every vertex. -/
def colF2 (w : (⟨S100000x3, .f32⟩ : BufTy).Contents (Elt F)) : (⟨S100000x1, .f32⟩ : BufTy).Contents (Elt F) :=
  (((extractStridedSlice S100000x1 ![0, 2] · slices_S100000x3_S100000x1_0_2) : (⟨S100000x3, .f32⟩ : BufTy).Contents (Elt F) → (⟨S100000x1, .f32⟩ : BufTy).Contents (Elt F)) w)

/-- The 16 channel values at one corner of every vertex's grid cell: row x·16384 + y·128 + z of the channel-last image (a negative row index wrapped by the number of rows). -/
def corner (L : (⟨S2097152x16, .f32⟩ : BufTy).Contents (Elt F)) (x : (⟨S100000, .i32⟩ : BufTy).Contents (Elt F)) (y : (⟨S100000, .i32⟩ : BufTy).Contents (Elt F)) (z : (⟨S100000, .i32⟩ : BufTy).Contents (Elt F)) : (⟨S100000x16, .f32⟩ : BufTy).Contents (Elt F) :=
  (((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)) L ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) x ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) y ((broadcastInDim S100000 ![] bcast_S_S100000 : (⟨S_, .i32⟩ : BufTy).Contents (Elt F) → (⟨S100000, .i32⟩ : BufTy).Contents (Elt F)) ((constantI S_ 32 128#32))))) z) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) x ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) y ((broadcastInDim S100000 ![] bcast_S_S100000 : (⟨S_, .i32⟩ : BufTy).Contents (Elt F) → (⟨S100000, .i32⟩ : BufTy).Contents (Elt F)) ((constantI S_ 32 128#32))))) z) ((broadcastInDim S100000 ![] bcast_S_S100000 : (⟨S_, .i32⟩ : BufTy).Contents (Elt F) → (⟨S100000, .i32⟩ : BufTy).Contents (Elt F)) ((constantI S_ 32 2097152#32)))) ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) x ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) y ((broadcastInDim S100000 ![] bcast_S_S100000 : (⟨S_, .i32⟩ : BufTy).Contents (Elt F) → (⟨S100000, .i32⟩ : BufTy).Contents (Elt F)) ((constantI S_ 32 128#32))))) z))))

/-- The trilinear interpolation of the eight corner rows by the three weights: along the third axis, then the second, then the first. -/
def mix (c000 : (⟨S100000x16, .f32⟩ : BufTy).Contents (Elt F)) (c001 : (⟨S100000x16, .f32⟩ : BufTy).Contents (Elt F)) (c010 : (⟨S100000x16, .f32⟩ : BufTy).Contents (Elt F)) (c011 : (⟨S100000x16, .f32⟩ : BufTy).Contents (Elt F)) (c100 : (⟨S100000x16, .f32⟩ : BufTy).Contents (Elt F)) (c101 : (⟨S100000x16, .f32⟩ : BufTy).Contents (Elt F)) (c110 : (⟨S100000x16, .f32⟩ : BufTy).Contents (Elt F)) (c111 : (⟨S100000x16, .f32⟩ : BufTy).Contents (Elt F)) (wx : (⟨S100000x1, .f32⟩ : BufTy).Contents (Elt F)) (wy : (⟨S100000x1, .f32⟩ : BufTy).Contents (Elt F)) (wz : (⟨S100000x1, .f32⟩ : BufTy).Contents (Elt F)) : (⟨S100000x16, .f32⟩ : BufTy).Contents (Elt F) :=
  ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c000 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c001 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wy))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c010 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c011 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) wy))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wx))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c100 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c101 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wy))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c110 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c111 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) wy))) ((broadcastInDim S100000x16 ![0, 1] bcast_S100000x1_S100000x16_0_1 : (⟨S100000x1, .f32⟩ : BufTy).Contents (Elt F) → (⟨S100000x16, .f32⟩ : BufTy).Contents (Elt F)) wx)))

/-- The feature rows: the position divided by 128, then the 16 interpolated channels. -/
def join (v : (⟨S100000x3, .f32⟩ : BufTy).Contents (Elt F)) (t : (⟨S100000x16, .f32⟩ : BufTy).Contents (Elt F)) : (⟨S100000x19, .f32⟩ : BufTy).Contents (Elt F) :=
  (((fun a b => concatenate S100000x19 1 [⟨S100000x3, a⟩, ⟨S100000x16, b⟩] concatenates_S100000x3_S100000x16_S100000x19_d1) : (⟨S100000x3, .f32⟩ : BufTy).Contents (Elt F) → (⟨S100000x16, .f32⟩ : BufTy).Contents (Elt F) → (⟨S100000x19, .f32⟩ : BufTy).Contents (Elt F)) ((Host.divf : (⟨S100000x3, .f32⟩ : BufTy).Contents (Elt F) → (⟨S100000x3, .f32⟩ : BufTy).Contents (Elt F) → (⟨S100000x3, .f32⟩ : BufTy).Contents (Elt F)) v ((broadcastInDim S100000x3 ![] bcast_S_S100000x3 : (⟨S_, .f32⟩ : BufTy).Contents (Elt F) → (⟨S100000x3, .f32⟩ : BufTy).Contents (Elt F)) ((constant S_ .f32 0x43000000#32)))) t)

/-- The neighbour sums of a 19-channel feature array: the rows gathered at the edges' sources (negative indices wrapped), summed into the edges' destinations. -/
def agg19 (h : (⟨S100000x19, .f32⟩ : BufTy).Contents (Elt F)) (src : (⟨S1600000, .i32⟩ : BufTy).Contents (Elt F)) (dst : (⟨S1600000, .i32⟩ : BufTy).Contents (Elt F)) : (⟨S100000x19, .f32⟩ : BufTy).Contents (Elt F) :=
  (((fun x i u => Host.scatterAdd scatter_S100000x19_S1600000x1_S1600000x19_1_0_0_1 x i u) : (⟨S100000x19, .f32⟩ : BufTy).Contents (Elt F) → (⟨S1600000x1, .i32⟩ : BufTy).Contents (Elt F) → (⟨S1600000x19, .f32⟩ : BufTy).Contents (Elt F) → (⟨S100000x19, .f32⟩ : BufTy).Contents (Elt F)) ((broadcastInDim S100000x19 ![] bcast_S_S100000x19 : (⟨S_, .f32⟩ : BufTy).Contents (Elt F) → (⟨S100000x19, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) (((extf .f32 · bitsLt_bf16_f32) : (⟨S1600000x19, .bf16⟩ : BufTy).Contents (Elt F) → (⟨S1600000x19, .f32⟩ : BufTy).Contents (Elt F)) (((fun x i => Host.gather gather_S100000x19_S1600000x1_S1600000x19_1_0_n_n_0_1_119 x i) : (⟨S100000x19, .bf16⟩ : BufTy).Contents (Elt F) → (⟨S1600000x1, .i32⟩ : BufTy).Contents (Elt F) → (⟨S1600000x19, .bf16⟩ : BufTy).Contents (Elt F)) (((truncf .bf16 · bitsLt_bf16_f32) : (⟨S100000x19, .f32⟩ : BufTy).Contents (Elt F) → (⟨S100000x19, .bf16⟩ : BufTy).Contents (Elt F)) h) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32)))) src)))))

/-- The neighbour sums of a 32-channel feature array. -/
def agg32 (h : (⟨S100000x32, .f32⟩ : BufTy).Contents (Elt F)) (src : (⟨S1600000, .i32⟩ : BufTy).Contents (Elt F)) (dst : (⟨S1600000, .i32⟩ : BufTy).Contents (Elt F)) : (⟨S100000x32, .f32⟩ : BufTy).Contents (Elt F) :=
  (((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ((broadcastInDim S100000x32 ![] bcast_S_S100000x32 : (⟨S_, .f32⟩ : BufTy).Contents (Elt F) → (⟨S100000x32, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) (((extf .f32 · bitsLt_bf16_f32) : (⟨S1600000x32, .bf16⟩ : BufTy).Contents (Elt F) → (⟨S1600000x32, .f32⟩ : BufTy).Contents (Elt F)) (((fun x i => Host.gather gather_S100000x32_S1600000x1_S1600000x32_1_0_n_n_0_1_132 x i) : (⟨S100000x32, .bf16⟩ : BufTy).Contents (Elt F) → (⟨S1600000x1, .i32⟩ : BufTy).Contents (Elt F) → (⟨S1600000x32, .bf16⟩ : BufTy).Contents (Elt F)) (((truncf .bf16 · bitsLt_bf16_f32) : (⟨S100000x32, .f32⟩ : BufTy).Contents (Elt F) → (⟨S100000x32, .bf16⟩ : BufTy).Contents (Elt F)) h) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32)))) src)))))

/-- The neighbour sums of a 64-channel feature array. -/
def agg64 (h : (⟨S100000x64, .f32⟩ : BufTy).Contents (Elt F)) (src : (⟨S1600000, .i32⟩ : BufTy).Contents (Elt F)) (dst : (⟨S1600000, .i32⟩ : BufTy).Contents (Elt F)) : (⟨S100000x64, .f32⟩ : BufTy).Contents (Elt F) :=
  (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) (((extf .f32 · bitsLt_bf16_f32) : (⟨S1600000x64, .bf16⟩ : BufTy).Contents (Elt F) → (⟨S1600000x64, .f32⟩ : BufTy).Contents (Elt F)) (((fun x i => Host.gather gather_S100000x64_S1600000x1_S1600000x64_1_0_n_n_0_1_164 x i) : (⟨S100000x64, .bf16⟩ : BufTy).Contents (Elt F) → (⟨S1600000x1, .i32⟩ : BufTy).Contents (Elt F) → (⟨S1600000x64, .bf16⟩ : BufTy).Contents (Elt F)) (((truncf .bf16 · bitsLt_bf16_f32) : (⟨S100000x64, .f32⟩ : BufTy).Contents (Elt F) → (⟨S100000x64, .bf16⟩ : BufTy).Contents (Elt F)) h) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32)))) src)))))

/-- The first layer's bias as a one-row array. -/
def bias0 (b : (⟨S32, .f32⟩ : BufTy).Contents (Elt F)) : (⟨S1x32, .f32⟩ : BufTy).Contents (Elt F) :=
  (shapeCast S1x32 b shapeCasts_S32_S1x32)

/-- The second layer's bias as a one-row array. -/
def bias1 (b : (⟨S64, .f32⟩ : BufTy).Contents (Elt F)) : (⟨S1x64, .f32⟩ : BufTy).Contents (Elt F) :=
  (shapeCast S1x64 b shapeCasts_S64_S1x64)

/-- The third layer's bias as a one-row array. -/
def bias2 (b : (⟨S64, .f32⟩ : BufTy).Contents (Elt F)) : (⟨S1x64, .f32⟩ : BufTy).Contents (Elt F) :=
  (shapeCast S1x64 b shapeCasts_S64_S1x64)

/-- The last layer's bias as a one-row array. -/
def bias3 (b : (⟨S3, .f32⟩ : BufTy).Contents (Elt F)) : (⟨S1x3, .f32⟩ : BufTy).Contents (Elt F) :=
  (shapeCast S1x3 b shapeCasts_S3_S1x3)

/-- The feature rows of the whole mesh from the image and the vertex positions. -/
def feats (img : (⟨S16x128x128x128, .f32⟩ : BufTy).Contents (Elt F)) (v : (⟨S100000x3, .f32⟩ : BufTy).Contents (Elt F)) : (⟨S100000x19, .f32⟩ : BufTy).Contents (Elt F) :=
  let L := imgLast img
  let p := clip v
  let lo := lowI p
  let hi := highI lo
  let w := frac p
  join v (mix (corner L (colI0 lo) (colI1 lo) (colI2 lo)) (corner L (colI0 lo) (colI1 lo) (colI2 hi)) (corner L (colI0 lo) (colI1 hi) (colI2 lo)) (corner L (colI0 lo) (colI1 hi) (colI2 hi))
    (corner L (colI0 hi) (colI1 lo) (colI2 lo)) (corner L (colI0 hi) (colI1 lo) (colI2 hi)) (corner L (colI0 hi) (colI1 hi) (colI2 lo)) (corner L (colI0 hi) (colI1 hi) (colI2 hi))
    (colF0 w) (colF1 w) (colF2 w))

end Cert.KChains

end
-- ==== Proof.KReadA.lean ====
/-
  The 260 host operations before the first region of the idealized kernel program, read in windows: the first two
  stretches, then the long third stretch in pieces of 24 operations. After each window every buffer still needed is
  the named stage it computes (Cert.KChains) of the launch contents of the arguments. This module: the pieces, and
  the first four windows (the inverse degrees, the channel-last image, the clipped positions, their integer and
  fractional parts, the first corner rows).
-/
import proofs.«139037_j17609365914513_2_alg».proof.Proof.Gen.KernelIdeal.Launch
import proofs.«139037_j17609365914513_2_alg».proof.Proof.KChains
import Idealize.ShloMosaic.Lib.StableHlo.Run

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

/-- Operations 1 … 24 of the third stretch. -/
abbrev piece0 : List (HloOp τ sig (Elt F)) :=
  [ StableHlo.unary main_v11 main_v12 (Host.floor : (⟨S100000x3, .f32⟩ : BufTy).Contents (Elt F) → (⟨S100000x3, .f32⟩ : BufTy).Contents (Elt F)),
    StableHlo.unary main_v12 main_v13 (fptosi 32 : (⟨S100000x3, .f32⟩ : BufTy).Contents (Elt F) → (⟨S100000x3, .i32⟩ : BufTy).Contents (Elt F)),
    StableHlo.nullary main_c (constantI S_ 32 1#32),
    StableHlo.unary main_c main_v14 (broadcastInDim S100000x3 ![] bcast_S_S100000x3 : (⟨S_, .i32⟩ : BufTy).Contents (Elt F) → (⟨S100000x3, .i32⟩ : BufTy).Contents (Elt F)),
    StableHlo.binary main_v13 main_v14 main_v15 (addi : (⟨S100000x3, .i32⟩ : BufTy).Contents (Elt F) → (⟨S100000x3, .i32⟩ : BufTy).Contents (Elt F) → (⟨S100000x3, .i32⟩ : BufTy).Contents (Elt F)),
    StableHlo.unary main_cst main_v16 (fptosi 32 : (⟨S3, .f32⟩ : BufTy).Contents (Elt F) → (⟨S3, .i32⟩ : BufTy).Contents (Elt F)),
    StableHlo.unary main_v16 main_v17 (broadcastInDim S1x3 ![1] bcast_S3_S1x3_1 : (⟨S3, .i32⟩ : BufTy).Contents (Elt F) → (⟨S1x3, .i32⟩ : BufTy).Contents (Elt F)),
    StableHlo.unary main_v17 main_v18 (broadcastInDim S100000x3 ![0, 1] bcast_S1x3_S100000x3_0_1 : (⟨S1x3, .i32⟩ : BufTy).Contents (Elt F) → (⟨S100000x3, .i32⟩ : BufTy).Contents (Elt F)),
    StableHlo.binary main_v15 main_v18 main_v19 (minsi : (⟨S100000x3, .i32⟩ : BufTy).Contents (Elt F) → (⟨S100000x3, .i32⟩ : BufTy).Contents (Elt F) → (⟨S100000x3, .i32⟩ : BufTy).Contents (Elt F)),
    StableHlo.binary main_v11 main_v12 main_v20 (subf : (⟨S100000x3, .f32⟩ : BufTy).Contents (Elt F) → (⟨S100000x3, .f32⟩ : BufTy).Contents (Elt F) → (⟨S100000x3, .f32⟩ : BufTy).Contents (Elt F)),
    StableHlo.unary main_v13 main_v21 ((extractStridedSlice S100000x1 ![0, 0] · slices_S100000x3_S100000x1_0_0) : (⟨S100000x3, .i32⟩ : BufTy).Contents (Elt F) → (⟨S100000x1, .i32⟩ : BufTy).Contents (Elt F)),
    StableHlo.reshape main_v21 main_v22 rfl shapeCasts_S100000x1_S100000,
    StableHlo.unary main_v13 main_v23 ((extractStridedSlice S100000x1 ![0, 1] · slices_S100000x3_S100000x1_0_1) : (⟨S100000x3, .i32⟩ : BufTy).Contents (Elt F) → (⟨S100000x1, .i32⟩ : BufTy).Contents (Elt F)),
    StableHlo.reshape main_v23 main_v24 rfl shapeCasts_S100000x1_S100000,
    StableHlo.unary main_v13 main_v25 ((extractStridedSlice S100000x1 ![0, 2] · slices_S100000x3_S100000x1_0_2) : (⟨S100000x3, .i32⟩ : BufTy).Contents (Elt F) → (⟨S100000x1, .i32⟩ : BufTy).Contents (Elt F)),
    StableHlo.reshape main_v25 main_v26 rfl shapeCasts_S100000x1_S100000,
    StableHlo.unary main_v19 main_v27 ((extractStridedSlice S100000x1 ![0, 0] · slices_S100000x3_S100000x1_0_0) : (⟨S100000x3, .i32⟩ : BufTy).Contents (Elt F) → (⟨S100000x1, .i32⟩ : BufTy).Contents (Elt F)),
    StableHlo.reshape main_v27 main_v28 rfl shapeCasts_S100000x1_S100000,
    StableHlo.unary main_v19 main_v29 ((extractStridedSlice S100000x1 ![0, 1] · slices_S100000x3_S100000x1_0_1) : (⟨S100000x3, .i32⟩ : BufTy).Contents (Elt F) → (⟨S100000x1, .i32⟩ : BufTy).Contents (Elt F)),
    StableHlo.reshape main_v29 main_v30 rfl shapeCasts_S100000x1_S100000,
    StableHlo.unary main_v19 main_v31 ((extractStridedSlice S100000x1 ![0, 2] · slices_S100000x3_S100000x1_0_2) : (⟨S100000x3, .i32⟩ : BufTy).Contents (Elt F) → (⟨S100000x1, .i32⟩ : BufTy).Contents (Elt F)),
    StableHlo.reshape main_v31 main_v32 rfl shapeCasts_S100000x1_S100000,
    StableHlo.unary main_v20 main_v33 ((extractStridedSlice S100000x1 ![0, 0] · slices_S100000x3_S100000x1_0_0) : (⟨S100000x3, .f32⟩ : BufTy).Contents (Elt F) → (⟨S100000x1, .f32⟩ : BufTy).Contents (Elt F)),
    StableHlo.unary main_v20 main_v34 ((extractStridedSlice S100000x1 ![0, 1] · slices_S100000x3_S100000x1_0_1) : (⟨S100000x3, .f32⟩ : BufTy).Contents (Elt F) → (⟨S100000x1, .f32⟩ : BufTy).Contents (Elt F)) ]

/-- Operations 25 … 48 of the third stretch. -/
abbrev piece1 : List (HloOp τ sig (Elt F)) :=
  [ StableHlo.unary main_v20 main_v35 ((extractStridedSlice S100000x1 ![0, 2] · slices_S100000x3_S100000x1_0_2) : (⟨S100000x3, .f32⟩ : BufTy).Contents (Elt F) → (⟨S100000x1, .f32⟩ : BufTy).Contents (Elt F)),
    StableHlo.nullary main_c_5 (constantI S_ 32 16384#32),
    StableHlo.unary main_c_5 main_v36 (broadcastInDim S100000 ![] bcast_S_S100000 : (⟨S_, .i32⟩ : BufTy).Contents (Elt F) → (⟨S100000, .i32⟩ : BufTy).Contents (Elt F)),
    StableHlo.binary main_v22 main_v36 main_v37 (muli : (⟨S100000, .i32⟩ : BufTy).Contents (Elt F) → (⟨S100000, .i32⟩ : BufTy).Contents (Elt F) → (⟨S100000, .i32⟩ : BufTy).Contents (Elt F)),
    StableHlo.nullary main_c_6 (constantI S_ 32 128#32),
    StableHlo.unary main_c_6 main_v38 (broadcastInDim S100000 ![] bcast_S_S100000 : (⟨S_, .i32⟩ : BufTy).Contents (Elt F) → (⟨S100000, .i32⟩ : BufTy).Contents (Elt F)),
    StableHlo.binary main_v24 main_v38 main_v39 (muli : (⟨S100000, .i32⟩ : BufTy).Contents (Elt F) → (⟨S100000, .i32⟩ : BufTy).Contents (Elt F) → (⟨S100000, .i32⟩ : BufTy).Contents (Elt F)),
    StableHlo.binary main_v37 main_v39 main_v40 (addi : (⟨S100000, .i32⟩ : BufTy).Contents (Elt F) → (⟨S100000, .i32⟩ : BufTy).Contents (Elt F) → (⟨S100000, .i32⟩ : BufTy).Contents (Elt F)),
    StableHlo.binary main_v40 main_v26 main_v41 (addi : (⟨S100000, .i32⟩ : BufTy).Contents (Elt F) → (⟨S100000, .i32⟩ : BufTy).Contents (Elt F) → (⟨S100000, .i32⟩ : BufTy).Contents (Elt F)),
    StableHlo.nullary main_c_7 (constantI S_ 32 0#32),
    StableHlo.unary main_c_7 main_v42 (broadcastInDim S100000 ![] bcast_S_S100000 : (⟨S_, .i32⟩ : BufTy).Contents (Elt F) → (⟨S100000, .i32⟩ : BufTy).Contents (Elt F)),
    StableHlo.binary main_v41 main_v42 main_v43 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 2097152#32),
    StableHlo.unary main_c_8 main_v44 (broadcastInDim S100000 ![] bcast_S_S100000 : (⟨S_, .i32⟩ : BufTy).Contents (Elt F) → (⟨S100000, .i32⟩ : BufTy).Contents (Elt F)),
    StableHlo.binary main_v41 main_v44 main_v45 (addi : (⟨S100000, .i32⟩ : BufTy).Contents (Elt F) → (⟨S100000, .i32⟩ : BufTy).Contents (Elt F) → (⟨S100000, .i32⟩ : BufTy).Contents (Elt F)),
    StableHlo.ternary main_v43 main_v45 main_v41 main_v46 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v46 main_v47 (broadcastInDim S100000x1 ![0] bcast_S100000_S100000x1_0 : (⟨S100000, .i32⟩ : BufTy).Contents (Elt F) → (⟨S100000x1, .i32⟩ : BufTy).Contents (Elt F)),
    StableHlo.binary main_v10 main_v47 main_v48 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.nullary main_cst_9 (constant S_ .f32 0x3F800000#32),
    StableHlo.unary main_cst_9 main_v49 (broadcastInDim S100000x1 ![] bcast_S_S100000x1 : (⟨S_, .f32⟩ : BufTy).Contents (Elt F) → (⟨S100000x1, .f32⟩ : BufTy).Contents (Elt F)),
    StableHlo.binary main_v49 main_v35 main_v50 (subf : (⟨S100000x1, .f32⟩ : BufTy).Contents (Elt F) → (⟨S100000x1, .f32⟩ : BufTy).Contents (Elt F) → (⟨S100000x1, .f32⟩ : BufTy).Contents (Elt F)),
    StableHlo.unary main_v50 main_v51 (broadcastInDim S100000x16 ![0, 1] bcast_S100000x1_S100000x16_0_1 : (⟨S100000x1, .f32⟩ : BufTy).Contents (Elt F) → (⟨S100000x16, .f32⟩ : BufTy).Contents (Elt F)),
    StableHlo.binary main_v48 main_v51 main_v52 (mulf : (⟨S100000x16, .f32⟩ : BufTy).Contents (Elt F) → (⟨S100000x16, .f32⟩ : BufTy).Contents (Elt F) → (⟨S100000x16, .f32⟩ : BufTy).Contents (Elt F)),
    StableHlo.nullary main_c_10 (constantI S_ 32 16384#32) ]

/-- Operations 49 … 72 of the third stretch. -/
abbrev piece2 : List (HloOp τ sig (Elt F)) :=
  [ StableHlo.unary main_c_10 main_v53 (broadcastInDim S100000 ![] bcast_S_S100000 : (⟨S_, .i32⟩ : BufTy).Contents (Elt F) → (⟨S100000, .i32⟩ : BufTy).Contents (Elt F)),
    StableHlo.binary main_v22 main_v53 main_v54 (muli : (⟨S100000, .i32⟩ : BufTy).Contents (Elt F) → (⟨S100000, .i32⟩ : BufTy).Contents (Elt F) → (⟨S100000, .i32⟩ : BufTy).Contents (Elt F)),
    StableHlo.nullary main_c_11 (constantI S_ 32 128#32),
    StableHlo.unary main_c_11 main_v55 (broadcastInDim S100000 ![] bcast_S_S100000 : (⟨S_, .i32⟩ : BufTy).Contents (Elt F) → (⟨S100000, .i32⟩ : BufTy).Contents (Elt F)),
    StableHlo.binary main_v24 main_v55 main_v56 (muli : (⟨S100000, .i32⟩ : BufTy).Contents (Elt F) → (⟨S100000, .i32⟩ : BufTy).Contents (Elt F) → (⟨S100000, .i32⟩ : BufTy).Contents (Elt F)),
    StableHlo.binary main_v54 main_v56 main_v57 (addi : (⟨S100000, .i32⟩ : BufTy).Contents (Elt F) → (⟨S100000, .i32⟩ : BufTy).Contents (Elt F) → (⟨S100000, .i32⟩ : BufTy).Contents (Elt F)),
    StableHlo.binary main_v57 main_v32 main_v58 (addi : (⟨S100000, .i32⟩ : BufTy).Contents (Elt F) → (⟨S100000, .i32⟩ : BufTy).Contents (Elt F) → (⟨S100000, .i32⟩ : BufTy).Contents (Elt F)),
    StableHlo.nullary main_c_12 (constantI S_ 32 0#32),
    StableHlo.unary main_c_12 main_v59 (broadcastInDim S100000 ![] bcast_S_S100000 : (⟨S_, .i32⟩ : BufTy).Contents (Elt F) → (⟨S100000, .i32⟩ : BufTy).Contents (Elt F)),
    StableHlo.binary main_v58 main_v59 main_v60 (cmpi .slt : (⟨S100000, .i32⟩ : BufTy).Contents (Elt F) → (⟨S100000, .i32⟩ : BufTy).Contents (Elt F) → (⟨S100000, .i1⟩ : BufTy).Contents (Elt F)),
    StableHlo.nullary main_c_13 (constantI S_ 32 2097152#32),
    StableHlo.unary main_c_13 main_v61 (broadcastInDim S100000 ![] bcast_S_S100000 : (⟨S_, .i32⟩ : BufTy).Contents (Elt F) → (⟨S100000, .i32⟩ : BufTy).Contents (Elt F)),
    StableHlo.binary main_v58 main_v61 main_v62 (addi : (⟨S100000, .i32⟩ : BufTy).Contents (Elt F) → (⟨S100000, .i32⟩ : BufTy).Contents (Elt F) → (⟨S100000, .i32⟩ : BufTy).Contents (Elt F)),
    StableHlo.ternary main_v60 main_v62 main_v58 main_v63 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v63 main_v64 (broadcastInDim S100000x1 ![0] bcast_S100000_S100000x1_0 : (⟨S100000, .i32⟩ : BufTy).Contents (Elt F) → (⟨S100000x1, .i32⟩ : BufTy).Contents (Elt F)),
    StableHlo.binary main_v10 main_v64 main_v65 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.unary main_v35 main_v66 (broadcastInDim S100000x16 ![0, 1] bcast_S100000x1_S100000x16_0_1 : (⟨S100000x1, .f32⟩ : BufTy).Contents (Elt F) → (⟨S100000x16, .f32⟩ : BufTy).Contents (Elt F)),
    StableHlo.binary main_v65 main_v66 main_v67 (mulf : (⟨S100000x16, .f32⟩ : BufTy).Contents (Elt F) → (⟨S100000x16, .f32⟩ : BufTy).Contents (Elt F) → (⟨S100000x16, .f32⟩ : BufTy).Contents (Elt F)),
    StableHlo.binary main_v52 main_v67 main_v68 (addf : (⟨S100000x16, .f32⟩ : BufTy).Contents (Elt F) → (⟨S100000x16, .f32⟩ : BufTy).Contents (Elt F) → (⟨S100000x16, .f32⟩ : BufTy).Contents (Elt F)),
    StableHlo.nullary main_c_14 (constantI S_ 32 16384#32),
    StableHlo.unary main_c_14 main_v69 (broadcastInDim S100000 ![] bcast_S_S100000 : (⟨S_, .i32⟩ : BufTy).Contents (Elt F) → (⟨S100000, .i32⟩ : BufTy).Contents (Elt F)),
    StableHlo.binary main_v22 main_v69 main_v70 (muli : (⟨S100000, .i32⟩ : BufTy).Contents (Elt F) → (⟨S100000, .i32⟩ : BufTy).Contents (Elt F) → (⟨S100000, .i32⟩ : BufTy).Contents (Elt F)),
    StableHlo.nullary main_c_15 (constantI S_ 32 128#32),
    StableHlo.unary main_c_15 main_v71 (broadcastInDim S100000 ![] bcast_S_S100000 : (⟨S_, .i32⟩ : BufTy).Contents (Elt F) → (⟨S100000, .i32⟩ : BufTy).Contents (Elt F)) ]

/-- Operations 73 … 96 of the third stretch. -/
abbrev piece3 : List (HloOp τ sig (Elt F)) :=
  [ StableHlo.binary main_v30 main_v71 main_v72 (muli : (⟨S100000, .i32⟩ : BufTy).Contents (Elt F) → (⟨S100000, .i32⟩ : BufTy).Contents (Elt F) → (⟨S100000, .i32⟩ : BufTy).Contents (Elt F)),
    StableHlo.binary main_v70 main_v72 main_v73 (addi : (⟨S100000, .i32⟩ : BufTy).Contents (Elt F) → (⟨S100000, .i32⟩ : BufTy).Contents (Elt F) → (⟨S100000, .i32⟩ : BufTy).Contents (Elt F)),
    StableHlo.binary main_v73 main_v26 main_v74 (addi : (⟨S100000, .i32⟩ : BufTy).Contents (Elt F) → (⟨S100000, .i32⟩ : BufTy).Contents (Elt F) → (⟨S100000, .i32⟩ : BufTy).Contents (Elt F)),
    StableHlo.nullary main_c_16 (constantI S_ 32 0#32),
    StableHlo.unary main_c_16 main_v75 (broadcastInDim S100000 ![] bcast_S_S100000 : (⟨S_, .i32⟩ : BufTy).Contents (Elt F) → (⟨S100000, .i32⟩ : BufTy).Contents (Elt F)),
    StableHlo.binary main_v74 main_v75 main_v76 (cmpi .slt : (⟨S100000, .i32⟩ : BufTy).Contents (Elt F) → (⟨S100000, .i32⟩ : BufTy).Contents (Elt F) → (⟨S100000, .i1⟩ : BufTy).Contents (Elt F)),
    StableHlo.nullary main_c_17 (constantI S_ 32 2097152#32),
    StableHlo.unary main_c_17 main_v77 (broadcastInDim S100000 ![] bcast_S_S100000 : (⟨S_, .i32⟩ : BufTy).Contents (Elt F) → (⟨S100000, .i32⟩ : BufTy).Contents (Elt F)),
    StableHlo.binary main_v74 main_v77 main_v78 (addi : (⟨S100000, .i32⟩ : BufTy).Contents (Elt F) → (⟨S100000, .i32⟩ : BufTy).Contents (Elt F) → (⟨S100000, .i32⟩ : BufTy).Contents (Elt F)),
    StableHlo.ternary main_v76 main_v78 main_v74 main_v79 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v79 main_v80 (broadcastInDim S100000x1 ![0] bcast_S100000_S100000x1_0 : (⟨S100000, .i32⟩ : BufTy).Contents (Elt F) → (⟨S100000x1, .i32⟩ : BufTy).Contents (Elt F)),
    StableHlo.binary main_v10 main_v80 main_v81 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.nullary main_cst_18 (constant S_ .f32 0x3F800000#32),
    StableHlo.unary main_cst_18 main_v82 (broadcastInDim S100000x1 ![] bcast_S_S100000x1 : (⟨S_, .f32⟩ : BufTy).Contents (Elt F) → (⟨S100000x1, .f32⟩ : BufTy).Contents (Elt F)),
    StableHlo.binary main_v82 main_v35 main_v83 (subf : (⟨S100000x1, .f32⟩ : BufTy).Contents (Elt F) → (⟨S100000x1, .f32⟩ : BufTy).Contents (Elt F) → (⟨S100000x1, .f32⟩ : BufTy).Contents (Elt F)),
    StableHlo.unary main_v83 main_v84 (broadcastInDim S100000x16 ![0, 1] bcast_S100000x1_S100000x16_0_1 : (⟨S100000x1, .f32⟩ : BufTy).Contents (Elt F) → (⟨S100000x16, .f32⟩ : BufTy).Contents (Elt F)),
    StableHlo.binary main_v81 main_v84 main_v85 (mulf : (⟨S100000x16, .f32⟩ : BufTy).Contents (Elt F) → (⟨S100000x16, .f32⟩ : BufTy).Contents (Elt F) → (⟨S100000x16, .f32⟩ : BufTy).Contents (Elt F)),
    StableHlo.nullary main_c_19 (constantI S_ 32 16384#32),
    StableHlo.unary main_c_19 main_v86 (broadcastInDim S100000 ![] bcast_S_S100000 : (⟨S_, .i32⟩ : BufTy).Contents (Elt F) → (⟨S100000, .i32⟩ : BufTy).Contents (Elt F)),
    StableHlo.binary main_v22 main_v86 main_v87 (muli : (⟨S100000, .i32⟩ : BufTy).Contents (Elt F) → (⟨S100000, .i32⟩ : BufTy).Contents (Elt F) → (⟨S100000, .i32⟩ : BufTy).Contents (Elt F)),
    StableHlo.nullary main_c_20 (constantI S_ 32 128#32),
    StableHlo.unary main_c_20 main_v88 (broadcastInDim S100000 ![] bcast_S_S100000 : (⟨S_, .i32⟩ : BufTy).Contents (Elt F) → (⟨S100000, .i32⟩ : BufTy).Contents (Elt F)),
    StableHlo.binary main_v30 main_v88 main_v89 (muli : (⟨S100000, .i32⟩ : BufTy).Contents (Elt F) → (⟨S100000, .i32⟩ : BufTy).Contents (Elt F) → (⟨S100000, .i32⟩ : BufTy).Contents (Elt F)),
    StableHlo.binary main_v87 main_v89 main_v90 (addi : (⟨S100000, .i32⟩ : BufTy).Contents (Elt F) → (⟨S100000, .i32⟩ : BufTy).Contents (Elt F) → (⟨S100000, .i32⟩ : BufTy).Contents (Elt F)) ]

/-- Operations 97 … 120 of the third stretch. -/
abbrev piece4 : List (HloOp τ sig (Elt F)) :=
  [ StableHlo.binary main_v90 main_v32 main_v91 (addi : (⟨S100000, .i32⟩ : BufTy).Contents (Elt F) → (⟨S100000, .i32⟩ : BufTy).Contents (Elt F) → (⟨S100000, .i32⟩ : BufTy).Contents (Elt F)),
    StableHlo.nullary main_c_21 (constantI S_ 32 0#32),
    StableHlo.unary main_c_21 main_v92 (broadcastInDim S100000 ![] bcast_S_S100000 : (⟨S_, .i32⟩ : BufTy).Contents (Elt F) → (⟨S100000, .i32⟩ : BufTy).Contents (Elt F)),
    StableHlo.binary main_v91 main_v92 main_v93 (cmpi .slt : (⟨S100000, .i32⟩ : BufTy).Contents (Elt F) → (⟨S100000, .i32⟩ : BufTy).Contents (Elt F) → (⟨S100000, .i1⟩ : BufTy).Contents (Elt F)),
    StableHlo.nullary main_c_22 (constantI S_ 32 2097152#32),
    StableHlo.unary main_c_22 main_v94 (broadcastInDim S100000 ![] bcast_S_S100000 : (⟨S_, .i32⟩ : BufTy).Contents (Elt F) → (⟨S100000, .i32⟩ : BufTy).Contents (Elt F)),
    StableHlo.binary main_v91 main_v94 main_v95 (addi : (⟨S100000, .i32⟩ : BufTy).Contents (Elt F) → (⟨S100000, .i32⟩ : BufTy).Contents (Elt F) → (⟨S100000, .i32⟩ : BufTy).Contents (Elt F)),
    StableHlo.ternary main_v93 main_v95 main_v91 main_v96 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v96 main_v97 (broadcastInDim S100000x1 ![0] bcast_S100000_S100000x1_0 : (⟨S100000, .i32⟩ : BufTy).Contents (Elt F) → (⟨S100000x1, .i32⟩ : BufTy).Contents (Elt F)),
    StableHlo.binary main_v10 main_v97 main_v98 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.unary main_v35 main_v99 (broadcastInDim S100000x16 ![0, 1] bcast_S100000x1_S100000x16_0_1 : (⟨S100000x1, .f32⟩ : BufTy).Contents (Elt F) → (⟨S100000x16, .f32⟩ : BufTy).Contents (Elt F)),
    StableHlo.binary main_v98 main_v99 main_v100 (mulf : (⟨S100000x16, .f32⟩ : BufTy).Contents (Elt F) → (⟨S100000x16, .f32⟩ : BufTy).Contents (Elt F) → (⟨S100000x16, .f32⟩ : BufTy).Contents (Elt F)),
    StableHlo.binary main_v85 main_v100 main_v101 (addf : (⟨S100000x16, .f32⟩ : BufTy).Contents (Elt F) → (⟨S100000x16, .f32⟩ : BufTy).Contents (Elt F) → (⟨S100000x16, .f32⟩ : BufTy).Contents (Elt F)),
    StableHlo.nullary main_c_23 (constantI S_ 32 16384#32),
    StableHlo.unary main_c_23 main_v102 (broadcastInDim S100000 ![] bcast_S_S100000 : (⟨S_, .i32⟩ : BufTy).Contents (Elt F) → (⟨S100000, .i32⟩ : BufTy).Contents (Elt F)),
    StableHlo.binary main_v28 main_v102 main_v103 (muli : (⟨S100000, .i32⟩ : BufTy).Contents (Elt F) → (⟨S100000, .i32⟩ : BufTy).Contents (Elt F) → (⟨S100000, .i32⟩ : BufTy).Contents (Elt F)),
    StableHlo.nullary main_c_24 (constantI S_ 32 128#32),
    StableHlo.unary main_c_24 main_v104 (broadcastInDim S100000 ![] bcast_S_S100000 : (⟨S_, .i32⟩ : BufTy).Contents (Elt F) → (⟨S100000, .i32⟩ : BufTy).Contents (Elt F)),
    StableHlo.binary main_v24 main_v104 main_v105 (muli : (⟨S100000, .i32⟩ : BufTy).Contents (Elt F) → (⟨S100000, .i32⟩ : BufTy).Contents (Elt F) → (⟨S100000, .i32⟩ : BufTy).Contents (Elt F)),
    StableHlo.binary main_v103 main_v105 main_v106 (addi : (⟨S100000, .i32⟩ : BufTy).Contents (Elt F) → (⟨S100000, .i32⟩ : BufTy).Contents (Elt F) → (⟨S100000, .i32⟩ : BufTy).Contents (Elt F)),
    StableHlo.binary main_v106 main_v26 main_v107 (addi : (⟨S100000, .i32⟩ : BufTy).Contents (Elt F) → (⟨S100000, .i32⟩ : BufTy).Contents (Elt F) → (⟨S100000, .i32⟩ : BufTy).Contents (Elt F)),
    StableHlo.nullary main_c_25 (constantI S_ 32 0#32),
    StableHlo.unary main_c_25 main_v108 (broadcastInDim S100000 ![] bcast_S_S100000 : (⟨S_, .i32⟩ : BufTy).Contents (Elt F) → (⟨S100000, .i32⟩ : BufTy).Contents (Elt F)),
    StableHlo.binary main_v107 main_v108 main_v109 (cmpi .slt : (⟨S100000, .i32⟩ : BufTy).Contents (Elt F) → (⟨S100000, .i32⟩ : BufTy).Contents (Elt F) → (⟨S100000, .i1⟩ : BufTy).Contents (Elt F)) ]

/-- Operations 121 … 144 of the third stretch. -/
abbrev piece5 : List (HloOp τ sig (Elt F)) :=
  [ StableHlo.nullary main_c_26 (constantI S_ 32 2097152#32),
    StableHlo.unary main_c_26 main_v110 (broadcastInDim S100000 ![] bcast_S_S100000 : (⟨S_, .i32⟩ : BufTy).Contents (Elt F) → (⟨S100000, .i32⟩ : BufTy).Contents (Elt F)),
    StableHlo.binary main_v107 main_v110 main_v111 (addi : (⟨S100000, .i32⟩ : BufTy).Contents (Elt F) → (⟨S100000, .i32⟩ : BufTy).Contents (Elt F) → (⟨S100000, .i32⟩ : BufTy).Contents (Elt F)),
    StableHlo.ternary main_v109 main_v111 main_v107 main_v112 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v112 main_v113 (broadcastInDim S100000x1 ![0] bcast_S100000_S100000x1_0 : (⟨S100000, .i32⟩ : BufTy).Contents (Elt F) → (⟨S100000x1, .i32⟩ : BufTy).Contents (Elt F)),
    StableHlo.binary main_v10 main_v113 main_v114 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.nullary main_cst_27 (constant S_ .f32 0x3F800000#32),
    StableHlo.unary main_cst_27 main_v115 (broadcastInDim S100000x1 ![] bcast_S_S100000x1 : (⟨S_, .f32⟩ : BufTy).Contents (Elt F) → (⟨S100000x1, .f32⟩ : BufTy).Contents (Elt F)),
    StableHlo.binary main_v115 main_v35 main_v116 (subf : (⟨S100000x1, .f32⟩ : BufTy).Contents (Elt F) → (⟨S100000x1, .f32⟩ : BufTy).Contents (Elt F) → (⟨S100000x1, .f32⟩ : BufTy).Contents (Elt F)),
    StableHlo.unary main_v116 main_v117 (broadcastInDim S100000x16 ![0, 1] bcast_S100000x1_S100000x16_0_1 : (⟨S100000x1, .f32⟩ : BufTy).Contents (Elt F) → (⟨S100000x16, .f32⟩ : BufTy).Contents (Elt F)),
    StableHlo.binary main_v114 main_v117 main_v118 (mulf : (⟨S100000x16, .f32⟩ : BufTy).Contents (Elt F) → (⟨S100000x16, .f32⟩ : BufTy).Contents (Elt F) → (⟨S100000x16, .f32⟩ : BufTy).Contents (Elt F)),
    StableHlo.nullary main_c_28 (constantI S_ 32 16384#32),
    StableHlo.unary main_c_28 main_v119 (broadcastInDim S100000 ![] bcast_S_S100000 : (⟨S_, .i32⟩ : BufTy).Contents (Elt F) → (⟨S100000, .i32⟩ : BufTy).Contents (Elt F)),
    StableHlo.binary main_v28 main_v119 main_v120 (muli : (⟨S100000, .i32⟩ : BufTy).Contents (Elt F) → (⟨S100000, .i32⟩ : BufTy).Contents (Elt F) → (⟨S100000, .i32⟩ : BufTy).Contents (Elt F)),
    StableHlo.nullary main_c_29 (constantI S_ 32 128#32),
    StableHlo.unary main_c_29 main_v121 (broadcastInDim S100000 ![] bcast_S_S100000 : (⟨S_, .i32⟩ : BufTy).Contents (Elt F) → (⟨S100000, .i32⟩ : BufTy).Contents (Elt F)),
    StableHlo.binary main_v24 main_v121 main_v122 (muli : (⟨S100000, .i32⟩ : BufTy).Contents (Elt F) → (⟨S100000, .i32⟩ : BufTy).Contents (Elt F) → (⟨S100000, .i32⟩ : BufTy).Contents (Elt F)),
    StableHlo.binary main_v120 main_v122 main_v123 (addi : (⟨S100000, .i32⟩ : BufTy).Contents (Elt F) → (⟨S100000, .i32⟩ : BufTy).Contents (Elt F) → (⟨S100000, .i32⟩ : BufTy).Contents (Elt F)),
    StableHlo.binary main_v123 main_v32 main_v124 (addi : (⟨S100000, .i32⟩ : BufTy).Contents (Elt F) → (⟨S100000, .i32⟩ : BufTy).Contents (Elt F) → (⟨S100000, .i32⟩ : BufTy).Contents (Elt F)),
    StableHlo.nullary main_c_30 (constantI S_ 32 0#32),
    StableHlo.unary main_c_30 main_v125 (broadcastInDim S100000 ![] bcast_S_S100000 : (⟨S_, .i32⟩ : BufTy).Contents (Elt F) → (⟨S100000, .i32⟩ : BufTy).Contents (Elt F)),
    StableHlo.binary main_v124 main_v125 main_v126 (cmpi .slt : (⟨S100000, .i32⟩ : BufTy).Contents (Elt F) → (⟨S100000, .i32⟩ : BufTy).Contents (Elt F) → (⟨S100000, .i1⟩ : BufTy).Contents (Elt F)),
    StableHlo.nullary main_c_31 (constantI S_ 32 2097152#32),
    StableHlo.unary main_c_31 main_v127 (broadcastInDim S100000 ![] bcast_S_S100000 : (⟨S_, .i32⟩ : BufTy).Contents (Elt F) → (⟨S100000, .i32⟩ : BufTy).Contents (Elt F)) ]

/-- Operations 145 … 168 of the third stretch. -/
abbrev piece6 : List (HloOp τ sig (Elt F)) :=
  [ StableHlo.binary main_v124 main_v127 main_v128 (addi : (⟨S100000, .i32⟩ : BufTy).Contents (Elt F) → (⟨S100000, .i32⟩ : BufTy).Contents (Elt F) → (⟨S100000, .i32⟩ : BufTy).Contents (Elt F)),
    StableHlo.ternary main_v126 main_v128 main_v124 main_v129 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v129 main_v130 (broadcastInDim S100000x1 ![0] bcast_S100000_S100000x1_0 : (⟨S100000, .i32⟩ : BufTy).Contents (Elt F) → (⟨S100000x1, .i32⟩ : BufTy).Contents (Elt F)),
    StableHlo.binary main_v10 main_v130 main_v131 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.unary main_v35 main_v132 (broadcastInDim S100000x16 ![0, 1] bcast_S100000x1_S100000x16_0_1 : (⟨S100000x1, .f32⟩ : BufTy).Contents (Elt F) → (⟨S100000x16, .f32⟩ : BufTy).Contents (Elt F)),
    StableHlo.binary main_v131 main_v132 main_v133 (mulf : (⟨S100000x16, .f32⟩ : BufTy).Contents (Elt F) → (⟨S100000x16, .f32⟩ : BufTy).Contents (Elt F) → (⟨S100000x16, .f32⟩ : BufTy).Contents (Elt F)),
    StableHlo.binary main_v118 main_v133 main_v134 (addf : (⟨S100000x16, .f32⟩ : BufTy).Contents (Elt F) → (⟨S100000x16, .f32⟩ : BufTy).Contents (Elt F) → (⟨S100000x16, .f32⟩ : BufTy).Contents (Elt F)),
    StableHlo.nullary main_c_32 (constantI S_ 32 16384#32),
    StableHlo.unary main_c_32 main_v135 (broadcastInDim S100000 ![] bcast_S_S100000 : (⟨S_, .i32⟩ : BufTy).Contents (Elt F) → (⟨S100000, .i32⟩ : BufTy).Contents (Elt F)),
    StableHlo.binary main_v28 main_v135 main_v136 (muli : (⟨S100000, .i32⟩ : BufTy).Contents (Elt F) → (⟨S100000, .i32⟩ : BufTy).Contents (Elt F) → (⟨S100000, .i32⟩ : BufTy).Contents (Elt F)),
    StableHlo.nullary main_c_33 (constantI S_ 32 128#32),
    StableHlo.unary main_c_33 main_v137 (broadcastInDim S100000 ![] bcast_S_S100000 : (⟨S_, .i32⟩ : BufTy).Contents (Elt F) → (⟨S100000, .i32⟩ : BufTy).Contents (Elt F)),
    StableHlo.binary main_v30 main_v137 main_v138 (muli : (⟨S100000, .i32⟩ : BufTy).Contents (Elt F) → (⟨S100000, .i32⟩ : BufTy).Contents (Elt F) → (⟨S100000, .i32⟩ : BufTy).Contents (Elt F)),
    StableHlo.binary main_v136 main_v138 main_v139 (addi : (⟨S100000, .i32⟩ : BufTy).Contents (Elt F) → (⟨S100000, .i32⟩ : BufTy).Contents (Elt F) → (⟨S100000, .i32⟩ : BufTy).Contents (Elt F)),
    StableHlo.binary main_v139 main_v26 main_v140 (addi : (⟨S100000, .i32⟩ : BufTy).Contents (Elt F) → (⟨S100000, .i32⟩ : BufTy).Contents (Elt F) → (⟨S100000, .i32⟩ : BufTy).Contents (Elt F)),
    StableHlo.nullary main_c_34 (constantI S_ 32 0#32),
    StableHlo.unary main_c_34 main_v141 (broadcastInDim S100000 ![] bcast_S_S100000 : (⟨S_, .i32⟩ : BufTy).Contents (Elt F) → (⟨S100000, .i32⟩ : BufTy).Contents (Elt F)),
    StableHlo.binary main_v140 main_v141 main_v142 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 2097152#32),
    StableHlo.unary main_c_35 main_v143 (broadcastInDim S100000 ![] bcast_S_S100000 : (⟨S_, .i32⟩ : BufTy).Contents (Elt F) → (⟨S100000, .i32⟩ : BufTy).Contents (Elt F)),
    StableHlo.binary main_v140 main_v143 main_v144 (addi : (⟨S100000, .i32⟩ : BufTy).Contents (Elt F) → (⟨S100000, .i32⟩ : BufTy).Contents (Elt F) → (⟨S100000, .i32⟩ : BufTy).Contents (Elt F)),
    StableHlo.ternary main_v142 main_v144 main_v140 main_v145 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v145 main_v146 (broadcastInDim S100000x1 ![0] bcast_S100000_S100000x1_0 : (⟨S100000, .i32⟩ : BufTy).Contents (Elt F) → (⟨S100000x1, .i32⟩ : BufTy).Contents (Elt F)),
    StableHlo.binary main_v10 main_v146 main_v147 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)) ]

/-- Operations 169 … 192 of the third stretch. -/
abbrev piece7 : List (HloOp τ sig (Elt F)) :=
  [ StableHlo.nullary main_cst_36 (constant S_ .f32 0x3F800000#32),
    StableHlo.unary main_cst_36 main_v148 (broadcastInDim S100000x1 ![] bcast_S_S100000x1 : (⟨S_, .f32⟩ : BufTy).Contents (Elt F) → (⟨S100000x1, .f32⟩ : BufTy).Contents (Elt F)),
    StableHlo.binary main_v148 main_v35 main_v149 (subf : (⟨S100000x1, .f32⟩ : BufTy).Contents (Elt F) → (⟨S100000x1, .f32⟩ : BufTy).Contents (Elt F) → (⟨S100000x1, .f32⟩ : BufTy).Contents (Elt F)),
    StableHlo.unary main_v149 main_v150 (broadcastInDim S100000x16 ![0, 1] bcast_S100000x1_S100000x16_0_1 : (⟨S100000x1, .f32⟩ : BufTy).Contents (Elt F) → (⟨S100000x16, .f32⟩ : BufTy).Contents (Elt F)),
    StableHlo.binary main_v147 main_v150 main_v151 (mulf : (⟨S100000x16, .f32⟩ : BufTy).Contents (Elt F) → (⟨S100000x16, .f32⟩ : BufTy).Contents (Elt F) → (⟨S100000x16, .f32⟩ : BufTy).Contents (Elt F)),
    StableHlo.nullary main_c_37 (constantI S_ 32 16384#32),
    StableHlo.unary main_c_37 main_v152 (broadcastInDim S100000 ![] bcast_S_S100000 : (⟨S_, .i32⟩ : BufTy).Contents (Elt F) → (⟨S100000, .i32⟩ : BufTy).Contents (Elt F)),
    StableHlo.binary main_v28 main_v152 main_v153 (muli : (⟨S100000, .i32⟩ : BufTy).Contents (Elt F) → (⟨S100000, .i32⟩ : BufTy).Contents (Elt F) → (⟨S100000, .i32⟩ : BufTy).Contents (Elt F)),
    StableHlo.nullary main_c_38 (constantI S_ 32 128#32),
    StableHlo.unary main_c_38 main_v154 (broadcastInDim S100000 ![] bcast_S_S100000 : (⟨S_, .i32⟩ : BufTy).Contents (Elt F) → (⟨S100000, .i32⟩ : BufTy).Contents (Elt F)),
    StableHlo.binary main_v30 main_v154 main_v155 (muli : (⟨S100000, .i32⟩ : BufTy).Contents (Elt F) → (⟨S100000, .i32⟩ : BufTy).Contents (Elt F) → (⟨S100000, .i32⟩ : BufTy).Contents (Elt F)),
    StableHlo.binary main_v153 main_v155 main_v156 (addi : (⟨S100000, .i32⟩ : BufTy).Contents (Elt F) → (⟨S100000, .i32⟩ : BufTy).Contents (Elt F) → (⟨S100000, .i32⟩ : BufTy).Contents (Elt F)),
    StableHlo.binary main_v156 main_v32 main_v157 (addi : (⟨S100000, .i32⟩ : BufTy).Contents (Elt F) → (⟨S100000, .i32⟩ : BufTy).Contents (Elt F) → (⟨S100000, .i32⟩ : BufTy).Contents (Elt F)),
    StableHlo.nullary main_c_39 (constantI S_ 32 0#32),
    StableHlo.unary main_c_39 main_v158 (broadcastInDim S100000 ![] bcast_S_S100000 : (⟨S_, .i32⟩ : BufTy).Contents (Elt F) → (⟨S100000, .i32⟩ : BufTy).Contents (Elt F)),
    StableHlo.binary main_v157 main_v158 main_v159 (cmpi .slt : (⟨S100000, .i32⟩ : BufTy).Contents (Elt F) → (⟨S100000, .i32⟩ : BufTy).Contents (Elt F) → (⟨S100000, .i1⟩ : BufTy).Contents (Elt F)),
    StableHlo.nullary main_c_40 (constantI S_ 32 2097152#32),
    StableHlo.unary main_c_40 main_v160 (broadcastInDim S100000 ![] bcast_S_S100000 : (⟨S_, .i32⟩ : BufTy).Contents (Elt F) → (⟨S100000, .i32⟩ : BufTy).Contents (Elt F)),
    StableHlo.binary main_v157 main_v160 main_v161 (addi : (⟨S100000, .i32⟩ : BufTy).Contents (Elt F) → (⟨S100000, .i32⟩ : BufTy).Contents (Elt F) → (⟨S100000, .i32⟩ : BufTy).Contents (Elt F)),
    StableHlo.ternary main_v159 main_v161 main_v157 main_v162 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v162 main_v163 (broadcastInDim S100000x1 ![0] bcast_S100000_S100000x1_0 : (⟨S100000, .i32⟩ : BufTy).Contents (Elt F) → (⟨S100000x1, .i32⟩ : BufTy).Contents (Elt F)),
    StableHlo.binary main_v10 main_v163 main_v164 ((fun x i => Host.gather gather_S2097152x16_S100000x1_S100000x16_1_0_n_n_0_1_116 x i) : (⟨S2097152x16, .f32⟩ : BufTy).Contents (Elt F) → (⟨S100000x1, .i32⟩ : BufTy).Contents (Elt F) → (⟨S100000x16, .f32⟩ : BufTy).Contents (Elt F)),
    StableHlo.unary main_v35 main_v165 (broadcastInDim S100000x16 ![0, 1] bcast_S100000x1_S100000x16_0_1 : (⟨S100000x1, .f32⟩ : BufTy).Contents (Elt F) → (⟨S100000x16, .f32⟩ : BufTy).Contents (Elt F)),
    StableHlo.binary main_v164 main_v165 main_v166 (mulf : (⟨S100000x16, .f32⟩ : BufTy).Contents (Elt F) → (⟨S100000x16, .f32⟩ : BufTy).Contents (Elt F) → (⟨S100000x16, .f32⟩ : BufTy).Contents (Elt F)) ]

/-- Operations 193 … 216 of the third stretch. -/
abbrev piece8 : List (HloOp τ sig (Elt F)) :=
  [ StableHlo.binary main_v151 main_v166 main_v167 (addf : (⟨S100000x16, .f32⟩ : BufTy).Contents (Elt F) → (⟨S100000x16, .f32⟩ : BufTy).Contents (Elt F) → (⟨S100000x16, .f32⟩ : BufTy).Contents (Elt F)),
    StableHlo.nullary main_cst_41 (constant S_ .f32 0x3F800000#32),
    StableHlo.unary main_cst_41 main_v168 (broadcastInDim S100000x1 ![] bcast_S_S100000x1 : (⟨S_, .f32⟩ : BufTy).Contents (Elt F) → (⟨S100000x1, .f32⟩ : BufTy).Contents (Elt F)),
    StableHlo.binary main_v168 main_v34 main_v169 (subf : (⟨S100000x1, .f32⟩ : BufTy).Contents (Elt F) → (⟨S100000x1, .f32⟩ : BufTy).Contents (Elt F) → (⟨S100000x1, .f32⟩ : BufTy).Contents (Elt F)),
    StableHlo.unary main_v169 main_v170 (broadcastInDim S100000x16 ![0, 1] bcast_S100000x1_S100000x16_0_1 : (⟨S100000x1, .f32⟩ : BufTy).Contents (Elt F) → (⟨S100000x16, .f32⟩ : BufTy).Contents (Elt F)),
    StableHlo.binary main_v68 main_v170 main_v171 (mulf : (⟨S100000x16, .f32⟩ : BufTy).Contents (Elt F) → (⟨S100000x16, .f32⟩ : BufTy).Contents (Elt F) → (⟨S100000x16, .f32⟩ : BufTy).Contents (Elt F)),
    StableHlo.unary main_v34 main_v172 (broadcastInDim S100000x16 ![0, 1] bcast_S100000x1_S100000x16_0_1 : (⟨S100000x1, .f32⟩ : BufTy).Contents (Elt F) → (⟨S100000x16, .f32⟩ : BufTy).Contents (Elt F)),
    StableHlo.binary main_v101 main_v172 main_v173 (mulf : (⟨S100000x16, .f32⟩ : BufTy).Contents (Elt F) → (⟨S100000x16, .f32⟩ : BufTy).Contents (Elt F) → (⟨S100000x16, .f32⟩ : BufTy).Contents (Elt F)),
    StableHlo.binary main_v171 main_v173 main_v174 (addf : (⟨S100000x16, .f32⟩ : BufTy).Contents (Elt F) → (⟨S100000x16, .f32⟩ : BufTy).Contents (Elt F) → (⟨S100000x16, .f32⟩ : BufTy).Contents (Elt F)),
    StableHlo.nullary main_cst_42 (constant S_ .f32 0x3F800000#32),
    StableHlo.unary main_cst_42 main_v175 (broadcastInDim S100000x1 ![] bcast_S_S100000x1 : (⟨S_, .f32⟩ : BufTy).Contents (Elt F) → (⟨S100000x1, .f32⟩ : BufTy).Contents (Elt F)),
    StableHlo.binary main_v175 main_v33 main_v176 (subf : (⟨S100000x1, .f32⟩ : BufTy).Contents (Elt F) → (⟨S100000x1, .f32⟩ : BufTy).Contents (Elt F) → (⟨S100000x1, .f32⟩ : BufTy).Contents (Elt F)),
    StableHlo.unary main_v176 main_v177 (broadcastInDim S100000x16 ![0, 1] bcast_S100000x1_S100000x16_0_1 : (⟨S100000x1, .f32⟩ : BufTy).Contents (Elt F) → (⟨S100000x16, .f32⟩ : BufTy).Contents (Elt F)),
    StableHlo.binary main_v174 main_v177 main_v178 (mulf : (⟨S100000x16, .f32⟩ : BufTy).Contents (Elt F) → (⟨S100000x16, .f32⟩ : BufTy).Contents (Elt F) → (⟨S100000x16, .f32⟩ : BufTy).Contents (Elt F)),
    StableHlo.nullary main_cst_43 (constant S_ .f32 0x3F800000#32),
    StableHlo.unary main_cst_43 main_v179 (broadcastInDim S100000x1 ![] bcast_S_S100000x1 : (⟨S_, .f32⟩ : BufTy).Contents (Elt F) → (⟨S100000x1, .f32⟩ : BufTy).Contents (Elt F)),
    StableHlo.binary main_v179 main_v34 main_v180 (subf : (⟨S100000x1, .f32⟩ : BufTy).Contents (Elt F) → (⟨S100000x1, .f32⟩ : BufTy).Contents (Elt F) → (⟨S100000x1, .f32⟩ : BufTy).Contents (Elt F)),
    StableHlo.unary main_v180 main_v181 (broadcastInDim S100000x16 ![0, 1] bcast_S100000x1_S100000x16_0_1 : (⟨S100000x1, .f32⟩ : BufTy).Contents (Elt F) → (⟨S100000x16, .f32⟩ : BufTy).Contents (Elt F)),
    StableHlo.binary main_v134 main_v181 main_v182 (mulf : (⟨S100000x16, .f32⟩ : BufTy).Contents (Elt F) → (⟨S100000x16, .f32⟩ : BufTy).Contents (Elt F) → (⟨S100000x16, .f32⟩ : BufTy).Contents (Elt F)),
    StableHlo.unary main_v34 main_v183 (broadcastInDim S100000x16 ![0, 1] bcast_S100000x1_S100000x16_0_1 : (⟨S100000x1, .f32⟩ : BufTy).Contents (Elt F) → (⟨S100000x16, .f32⟩ : BufTy).Contents (Elt F)),
    StableHlo.binary main_v167 main_v183 main_v184 (mulf : (⟨S100000x16, .f32⟩ : BufTy).Contents (Elt F) → (⟨S100000x16, .f32⟩ : BufTy).Contents (Elt F) → (⟨S100000x16, .f32⟩ : BufTy).Contents (Elt F)),
    StableHlo.binary main_v182 main_v184 main_v185 (addf : (⟨S100000x16, .f32⟩ : BufTy).Contents (Elt F) → (⟨S100000x16, .f32⟩ : BufTy).Contents (Elt F) → (⟨S100000x16, .f32⟩ : BufTy).Contents (Elt F)),
    StableHlo.unary main_v33 main_v186 (broadcastInDim S100000x16 ![0, 1] bcast_S100000x1_S100000x16_0_1 : (⟨S100000x1, .f32⟩ : BufTy).Contents (Elt F) → (⟨S100000x16, .f32⟩ : BufTy).Contents (Elt F)),
    StableHlo.binary main_v185 main_v186 main_v187 (mulf : (⟨S100000x16, .f32⟩ : BufTy).Contents (Elt F) → (⟨S100000x16, .f32⟩ : BufTy).Contents (Elt F) → (⟨S100000x16, .f32⟩ : BufTy).Contents (Elt F)) ]

/-- Operations 217 … 237 of the third stretch. -/
abbrev piece9 : List (HloOp τ sig (Elt F)) :=
  [ StableHlo.binary main_v178 main_v187 main_v188 (addf : (⟨S100000x16, .f32⟩ : BufTy).Contents (Elt F) → (⟨S100000x16, .f32⟩ : BufTy).Contents (Elt F) → (⟨S100000x16, .f32⟩ : BufTy).Contents (Elt F)),
    StableHlo.nullary main_cst_44 (constant S_ .f32 0x43000000#32),
    StableHlo.unary main_cst_44 main_v189 (broadcastInDim S100000x3 ![] bcast_S_S100000x3 : (⟨S_, .f32⟩ : BufTy).Contents (Elt F) → (⟨S100000x3, .f32⟩ : BufTy).Contents (Elt F)),
    StableHlo.binary main_arg1 main_v189 main_v190 (Host.divf : (⟨S100000x3, .f32⟩ : BufTy).Contents (Elt F) → (⟨S100000x3, .f32⟩ : BufTy).Contents (Elt F) → (⟨S100000x3, .f32⟩ : BufTy).Contents (Elt F)),
    StableHlo.binary main_v190 main_v188 main_v191 ((fun a b => concatenate S100000x19 1 [⟨S100000x3, a⟩, ⟨S100000x16, b⟩] concatenates_S100000x3_S100000x16_S100000x19_d1) : (⟨S100000x3, .f32⟩ : BufTy).Contents (Elt F) → (⟨S100000x16, .f32⟩ : BufTy).Contents (Elt F) → (⟨S100000x19, .f32⟩ : BufTy).Contents (Elt F)),
    StableHlo.unary main_v191 main_v192 ((truncf .bf16 · bitsLt_bf16_f32) : (⟨S100000x19, .f32⟩ : BufTy).Contents (Elt F) → (⟨S100000x19, .bf16⟩ : BufTy).Contents (Elt F)),
    StableHlo.nullary main_c_45 (constantI S_ 32 0#32),
    StableHlo.unary main_c_45 main_v193 (broadcastInDim S1600000 ![] bcast_S_S1600000 : (⟨S_, .i32⟩ : BufTy).Contents (Elt F) → (⟨S1600000, .i32⟩ : BufTy).Contents (Elt F)),
    StableHlo.binary main_arg2 main_v193 main_v194 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v195 (broadcastInDim S1600000 ![] bcast_S_S1600000 : (⟨S_, .i32⟩ : BufTy).Contents (Elt F) → (⟨S1600000, .i32⟩ : BufTy).Contents (Elt F)),
    StableHlo.binary main_arg2 main_v195 main_v196 (addi : (⟨S1600000, .i32⟩ : BufTy).Contents (Elt F) → (⟨S1600000, .i32⟩ : BufTy).Contents (Elt F) → (⟨S1600000, .i32⟩ : BufTy).Contents (Elt F)),
    StableHlo.ternary main_v194 main_v196 main_arg2 main_v197 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v197 main_v198 (broadcastInDim S1600000x1 ![0] bcast_S1600000_S1600000x1_0 : (⟨S1600000, .i32⟩ : BufTy).Contents (Elt F) → (⟨S1600000x1, .i32⟩ : BufTy).Contents (Elt F)),
    StableHlo.binary main_v192 main_v198 main_v199 ((fun x i => Host.gather gather_S100000x19_S1600000x1_S1600000x19_1_0_n_n_0_1_119 x i) : (⟨S100000x19, .bf16⟩ : BufTy).Contents (Elt F) → (⟨S1600000x1, .i32⟩ : BufTy).Contents (Elt F) → (⟨S1600000x19, .bf16⟩ : BufTy).Contents (Elt F)),
    StableHlo.unary main_v199 main_v200 ((extf .f32 · bitsLt_bf16_f32) : (⟨S1600000x19, .bf16⟩ : BufTy).Contents (Elt F) → (⟨S1600000x19, .f32⟩ : BufTy).Contents (Elt F)),
    StableHlo.nullary main_cst_47 (constant S_ .f32 0x00000000#32),
    StableHlo.unary main_cst_47 main_v201 (broadcastInDim S100000x19 ![] bcast_S_S100000x19 : (⟨S_, .f32⟩ : BufTy).Contents (Elt F) → (⟨S100000x19, .f32⟩ : BufTy).Contents (Elt F)),
    StableHlo.unary main_arg3 main_v202 (broadcastInDim S1600000x1 ![0] bcast_S1600000_S1600000x1_0 : (⟨S1600000, .i32⟩ : BufTy).Contents (Elt F) → (⟨S1600000x1, .i32⟩ : BufTy).Contents (Elt F)),
    StableHlo.ternary main_v201 main_v202 main_v200 main_v203 ((fun x i u => Host.scatterAdd scatter_S100000x19_S1600000x1_S1600000x19_1_0_0_1 x i u) : (⟨S100000x19, .f32⟩ : BufTy).Contents (Elt F) → (⟨S1600000x1, .i32⟩ : BufTy).Contents (Elt F) → (⟨S1600000x19, .f32⟩ : BufTy).Contents (Elt F) → (⟨S100000x19, .f32⟩ : BufTy).Contents (Elt F)),
    StableHlo.reshape main_arg6 main_v204 rfl shapeCasts_S32_S1x32 ]

set_option maxRecDepth 16384 in
set_option maxHeartbeats 4000000 in
/-- The third stretch is its pieces in order. -/
theorem hostOps0_2_pieces : (hostOps0_2 : List (HloOp τ sig (Elt F))) = piece0 ++ (piece1 ++ (piece2 ++ (piece3 ++ (piece4 ++ (piece5 ++ (piece6 ++ (piece7 ++ (piece8 ++ (piece9))))))))) := rfl

/-- The buffer contents before the first window. -/
def pval0 (V0 : Valuation τ sig (Elt F)) : Valuation τ sig (Elt F) := V0
theorem pval0_main_arg0 (V0 : Valuation τ sig (Elt F)) : pval0 V0 (no_index (Proc.devRef .tc main_arg0)) = (V0 (Proc.devRef .tc main_arg0)) := rfl
theorem pval0_main_arg1 (V0 : Valuation τ sig (Elt F)) : pval0 V0 (no_index (Proc.devRef .tc main_arg1)) = (V0 (Proc.devRef .tc main_arg1)) := rfl
theorem pval0_main_arg2 (V0 : Valuation τ sig (Elt F)) : pval0 V0 (no_index (Proc.devRef .tc main_arg2)) = (V0 (Proc.devRef .tc main_arg2)) := rfl
theorem pval0_main_arg3 (V0 : Valuation τ sig (Elt F)) : pval0 V0 (no_index (Proc.devRef .tc main_arg3)) = (V0 (Proc.devRef .tc main_arg3)) := rfl
theorem pval0_main_arg4 (V0 : Valuation τ sig (Elt F)) : pval0 V0 (no_index (Proc.devRef .tc main_arg4)) = (V0 (Proc.devRef .tc main_arg4)) := rfl
theorem pval0_main_arg5 (V0 : Valuation τ sig (Elt F)) : pval0 V0 (no_index (Proc.devRef .tc main_arg5)) = (V0 (Proc.devRef .tc main_arg5)) := rfl
theorem pval0_main_arg6 (V0 : Valuation τ sig (Elt F)) : pval0 V0 (no_index (Proc.devRef .tc main_arg6)) = (V0 (Proc.devRef .tc main_arg6)) := rfl

/-- The buffer contents after the first 1 window. -/
def pval1 (V0 : Valuation τ sig (Elt F)) : Valuation τ sig (Elt F) := StableHlo.after hostOps0 (pval0 V0)
/-- The buffers the window's operations write. -/
abbrev pW1 : List (Ref sig .tc) := [main_cst, main_cst_0, main_v0, main_cst_1, main_v1, main_v2, main_v3, main_cst_2, main_v4, main_v5, main_cst_3, main_v6, main_v7, main_v8, main_v9, main_v10, main_cst_4]
set_option maxRecDepth 8192 in
theorem pwrites1 : (hostOps0 : List (HloOp τ sig (Elt F))).Forall fun op => op.writes ⊆ (pW1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval1_keep (V0 : Valuation τ sig (Elt F)) (r : Ref sig .tc) (h : r ∉ pW1) :
    pval1 V0 (Proc.devRef .tc r) = pval0 V0 (Proc.devRef .tc r) :=
  StableHlo.after_of_writes_sub hostOps0 _ pwrites1 h
theorem pval1_main_arg1 (V0 : Valuation τ sig (Elt F)) : pval1 V0 (no_index (Proc.devRef .tc main_arg1)) = (V0 (Proc.devRef .tc main_arg1)) :=
  (pval1_keep V0 main_arg1 (by decide)).trans (pval0_main_arg1 V0)
theorem pval1_main_arg2 (V0 : Valuation τ sig (Elt F)) : pval1 V0 (no_index (Proc.devRef .tc main_arg2)) = (V0 (Proc.devRef .tc main_arg2)) :=
  (pval1_keep V0 main_arg2 (by decide)).trans (pval0_main_arg2 V0)
theorem pval1_main_arg3 (V0 : Valuation τ sig (Elt F)) : pval1 V0 (no_index (Proc.devRef .tc main_arg3)) = (V0 (Proc.devRef .tc main_arg3)) :=
  (pval1_keep V0 main_arg3 (by decide)).trans (pval0_main_arg3 V0)
theorem pval1_main_arg4 (V0 : Valuation τ sig (Elt F)) : pval1 V0 (no_index (Proc.devRef .tc main_arg4)) = (V0 (Proc.devRef .tc main_arg4)) :=
  (pval1_keep V0 main_arg4 (by decide)).trans (pval0_main_arg4 V0)
theorem pval1_main_arg5 (V0 : Valuation τ sig (Elt F)) : pval1 V0 (no_index (Proc.devRef .tc main_arg5)) = (V0 (Proc.devRef .tc main_arg5)) :=
  (pval1_keep V0 main_arg5 (by decide)).trans (pval0_main_arg5 V0)
theorem pval1_main_arg6 (V0 : Valuation τ sig (Elt F)) : pval1 V0 (no_index (Proc.devRef .tc main_arg6)) = (V0 (Proc.devRef .tc main_arg6)) :=
  (pval1_keep V0 main_arg6 (by decide)).trans (pval0_main_arg6 V0)
set_option maxRecDepth 16384 in
set_option maxHeartbeats 4000000 in
theorem pval1_main_cst (V0 : Valuation τ sig (Elt F)) : pval1 V0 (no_index (Proc.devRef .tc main_cst)) = ((constant S3 .f32 0x42FE0000#32)) := by
  unfold pval1
  simp only [hostOps0]
  after_results_simp
  all_goals rfl
set_option maxRecDepth 16384 in
set_option maxHeartbeats 4000000 in
theorem pval1_main_v8 (V0 : Valuation τ sig (Elt F)) : pval1 V0 (no_index (Proc.devRef .tc main_v8)) = (KChains.invDeg (V0 (Proc.devRef .tc main_arg3))) := by
  unfold pval1
  simp only [hostOps0]
  after_results_simp
  simp only [pval0_main_arg3] <;> rfl
set_option maxRecDepth 16384 in
set_option maxHeartbeats 4000000 in
theorem pval1_main_v10 (V0 : Valuation τ sig (Elt F)) : pval1 V0 (no_index (Proc.devRef .tc main_v10)) = (KChains.imgLast (V0 (Proc.devRef .tc main_arg0))) := by
  unfold pval1
  simp only [hostOps0]
  after_results_simp
  simp only [pval0_main_arg0] <;> rfl
set_option maxRecDepth 16384 in
set_option maxHeartbeats 4000000 in
theorem pval1_main_cst_4 (V0 : Valuation τ sig (Elt F)) : pval1 V0 (no_index (Proc.devRef .tc main_cst_4)) = ((constant S_ .f32 0x00000000#32)) := by
  unfold pval1
  simp only [hostOps0]
  after_results_simp
  all_goals rfl

/-- The buffer contents after the first 2 windows. -/
def pval2 (V0 : Valuation τ sig (Elt F)) : Valuation τ sig (Elt F) := StableHlo.after hostOps0_1 (pval1 V0)
/-- The buffers the window's operations write. -/
abbrev pW2 : List (Ref sig .tc) := [main_call0_v0, main_call0_v1, main_call0_v2, main_call0_v3, main_call0_v4, main_v11]
set_option maxRecDepth 8192 in
theorem pwrites2 : (hostOps0_1 : List (HloOp τ sig (Elt F))).Forall fun op => op.writes ⊆ (pW2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval2_keep (V0 : Valuation τ sig (Elt F)) (r : Ref sig .tc) (h : r ∉ pW2) :
    pval2 V0 (Proc.devRef .tc r) = pval1 V0 (Proc.devRef .tc r) :=
  StableHlo.after_of_writes_sub hostOps0_1 _ pwrites2 h
theorem pval2_main_arg1 (V0 : Valuation τ sig (Elt F)) : pval2 V0 (no_index (Proc.devRef .tc main_arg1)) = (V0 (Proc.devRef .tc main_arg1)) :=
  (pval2_keep V0 main_arg1 (by decide)).trans (pval1_main_arg1 V0)
theorem pval2_main_arg2 (V0 : Valuation τ sig (Elt F)) : pval2 V0 (no_index (Proc.devRef .tc main_arg2)) = (V0 (Proc.devRef .tc main_arg2)) :=
  (pval2_keep V0 main_arg2 (by decide)).trans (pval1_main_arg2 V0)
theorem pval2_main_arg3 (V0 : Valuation τ sig (Elt F)) : pval2 V0 (no_index (Proc.devRef .tc main_arg3)) = (V0 (Proc.devRef .tc main_arg3)) :=
  (pval2_keep V0 main_arg3 (by decide)).trans (pval1_main_arg3 V0)
theorem pval2_main_arg4 (V0 : Valuation τ sig (Elt F)) : pval2 V0 (no_index (Proc.devRef .tc main_arg4)) = (V0 (Proc.devRef .tc main_arg4)) :=
  (pval2_keep V0 main_arg4 (by decide)).trans (pval1_main_arg4 V0)
theorem pval2_main_arg5 (V0 : Valuation τ sig (Elt F)) : pval2 V0 (no_index (Proc.devRef .tc main_arg5)) = (V0 (Proc.devRef .tc main_arg5)) :=
  (pval2_keep V0 main_arg5 (by decide)).trans (pval1_main_arg5 V0)
theorem pval2_main_arg6 (V0 : Valuation τ sig (Elt F)) : pval2 V0 (no_index (Proc.devRef .tc main_arg6)) = (V0 (Proc.devRef .tc main_arg6)) :=
  (pval2_keep V0 main_arg6 (by decide)).trans (pval1_main_arg6 V0)
theorem pval2_main_cst (V0 : Valuation τ sig (Elt F)) : pval2 V0 (no_index (Proc.devRef .tc main_cst)) = ((constant S3 .f32 0x42FE0000#32)) :=
  (pval2_keep V0 main_cst (by decide)).trans (pval1_main_cst V0)
theorem pval2_main_v8 (V0 : Valuation τ sig (Elt F)) : pval2 V0 (no_index (Proc.devRef .tc main_v8)) = (KChains.invDeg (V0 (Proc.devRef .tc main_arg3))) :=
  (pval2_keep V0 main_v8 (by decide)).trans (pval1_main_v8 V0)
theorem pval2_main_v10 (V0 : Valuation τ sig (Elt F)) : pval2 V0 (no_index (Proc.devRef .tc main_v10)) = (KChains.imgLast (V0 (Proc.devRef .tc main_arg0))) :=
  (pval2_keep V0 main_v10 (by decide)).trans (pval1_main_v10 V0)
set_option maxRecDepth 16384 in
set_option maxHeartbeats 4000000 in
theorem pval2_main_v11 (V0 : Valuation τ sig (Elt F)) : pval2 V0 (no_index (Proc.devRef .tc main_v11)) = (KChains.clip (V0 (Proc.devRef .tc main_arg1))) := by
  unfold pval2
  simp only [hostOps0_1]
  after_results_simp
  simp only [pval1_main_cst, pval1_main_cst_4, pval1_main_arg1] <;> rfl

/-- The buffer contents after the first 3 windows. -/
def pval3 (V0 : Valuation τ sig (Elt F)) : Valuation τ sig (Elt F) := StableHlo.after piece0 (pval2 V0)
/-- The buffers the window's operations write. -/
abbrev pW3 : List (Ref sig .tc) := [main_v12, main_v13, main_c, main_v14, main_v15, main_v16, main_v17, main_v18, main_v19, main_v20, main_v21, main_v22, main_v23, main_v24, main_v25, main_v26, main_v27, main_v28, main_v29, main_v30, main_v31, main_v32, main_v33, main_v34]
set_option maxRecDepth 8192 in
theorem pwrites3 : (piece0 : List (HloOp τ sig (Elt F))).Forall fun op => op.writes ⊆ (pW3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval3_keep (V0 : Valuation τ sig (Elt F)) (r : Ref sig .tc) (h : r ∉ pW3) :
    pval3 V0 (Proc.devRef .tc r) = pval2 V0 (Proc.devRef .tc r) :=
  StableHlo.after_of_writes_sub piece0 _ pwrites3 h
theorem pval3_main_arg1 (V0 : Valuation τ sig (Elt F)) : pval3 V0 (no_index (Proc.devRef .tc main_arg1)) = (V0 (Proc.devRef .tc main_arg1)) :=
  (pval3_keep V0 main_arg1 (by decide)).trans (pval2_main_arg1 V0)
theorem pval3_main_arg2 (V0 : Valuation τ sig (Elt F)) : pval3 V0 (no_index (Proc.devRef .tc main_arg2)) = (V0 (Proc.devRef .tc main_arg2)) :=
  (pval3_keep V0 main_arg2 (by decide)).trans (pval2_main_arg2 V0)
theorem pval3_main_arg3 (V0 : Valuation τ sig (Elt F)) : pval3 V0 (no_index (Proc.devRef .tc main_arg3)) = (V0 (Proc.devRef .tc main_arg3)) :=
  (pval3_keep V0 main_arg3 (by decide)).trans (pval2_main_arg3 V0)
theorem pval3_main_arg4 (V0 : Valuation τ sig (Elt F)) : pval3 V0 (no_index (Proc.devRef .tc main_arg4)) = (V0 (Proc.devRef .tc main_arg4)) :=
  (pval3_keep V0 main_arg4 (by decide)).trans (pval2_main_arg4 V0)
theorem pval3_main_arg5 (V0 : Valuation τ sig (Elt F)) : pval3 V0 (no_index (Proc.devRef .tc main_arg5)) = (V0 (Proc.devRef .tc main_arg5)) :=
  (pval3_keep V0 main_arg5 (by decide)).trans (pval2_main_arg5 V0)
theorem pval3_main_arg6 (V0 : Valuation τ sig (Elt F)) : pval3 V0 (no_index (Proc.devRef .tc main_arg6)) = (V0 (Proc.devRef .tc main_arg6)) :=
  (pval3_keep V0 main_arg6 (by decide)).trans (pval2_main_arg6 V0)
theorem pval3_main_v8 (V0 : Valuation τ sig (Elt F)) : pval3 V0 (no_index (Proc.devRef .tc main_v8)) = (KChains.invDeg (V0 (Proc.devRef .tc main_arg3))) :=
  (pval3_keep V0 main_v8 (by decide)).trans (pval2_main_v8 V0)
theorem pval3_main_v10 (V0 : Valuation τ sig (Elt F)) : pval3 V0 (no_index (Proc.devRef .tc main_v10)) = (KChains.imgLast (V0 (Proc.devRef .tc main_arg0))) :=
  (pval3_keep V0 main_v10 (by decide)).trans (pval2_main_v10 V0)
set_option maxRecDepth 16384 in
set_option maxHeartbeats 4000000 in
theorem pval3_main_v20 (V0 : Valuation τ sig (Elt F)) : pval3 V0 (no_index (Proc.devRef .tc main_v20)) = (KChains.frac (KChains.clip (V0 (Proc.devRef .tc main_arg1)))) := by
  unfold pval3
  simp only [piece0]
  after_results_simp
  simp only [pval2_main_v11] <;> rfl
set_option maxRecDepth 16384 in
set_option maxHeartbeats 4000000 in
theorem pval3_main_v22 (V0 : Valuation τ sig (Elt F)) : pval3 V0 (no_index (Proc.devRef .tc main_v22)) = (KChains.colI0 (KChains.lowI (KChains.clip (V0 (Proc.devRef .tc main_arg1))))) := by
  unfold pval3
  simp only [piece0]
  after_results_simp
  simp only [pval2_main_v11] <;> rfl
set_option maxRecDepth 16384 in
set_option maxHeartbeats 4000000 in
theorem pval3_main_v24 (V0 : Valuation τ sig (Elt F)) : pval3 V0 (no_index (Proc.devRef .tc main_v24)) = (KChains.colI1 (KChains.lowI (KChains.clip (V0 (Proc.devRef .tc main_arg1))))) := by
  unfold pval3
  simp only [piece0]
  after_results_simp
  simp only [pval2_main_v11] <;> rfl
set_option maxRecDepth 16384 in
set_option maxHeartbeats 4000000 in
theorem pval3_main_v26 (V0 : Valuation τ sig (Elt F)) : pval3 V0 (no_index (Proc.devRef .tc main_v26)) = (KChains.colI2 (KChains.lowI (KChains.clip (V0 (Proc.devRef .tc main_arg1))))) := by
  unfold pval3
  simp only [piece0]
  after_results_simp
  simp only [pval2_main_v11] <;> rfl
set_option maxRecDepth 16384 in
set_option maxHeartbeats 4000000 in
theorem pval3_main_v28 (V0 : Valuation τ sig (Elt F)) : pval3 V0 (no_index (Proc.devRef .tc main_v28)) = (KChains.colI0 (KChains.highI (KChains.lowI (KChains.clip (V0 (Proc.devRef .tc main_arg1)))))) := by
  unfold pval3
  simp only [piece0]
  after_results_simp
  simp only [pval2_main_v11, pval2_main_cst] <;> rfl
set_option maxRecDepth 16384 in
set_option maxHeartbeats 4000000 in
theorem pval3_main_v30 (V0 : Valuation τ sig (Elt F)) : pval3 V0 (no_index (Proc.devRef .tc main_v30)) = (KChains.colI1 (KChains.highI (KChains.lowI (KChains.clip (V0 (Proc.devRef .tc main_arg1)))))) := by
  unfold pval3
  simp only [piece0]
  after_results_simp
  simp only [pval2_main_v11, pval2_main_cst] <;> rfl
set_option maxRecDepth 16384 in
set_option maxHeartbeats 4000000 in
theorem pval3_main_v32 (V0 : Valuation τ sig (Elt F)) : pval3 V0 (no_index (Proc.devRef .tc main_v32)) = (KChains.colI2 (KChains.highI (KChains.lowI (KChains.clip (V0 (Proc.devRef .tc main_arg1)))))) := by
  unfold pval3
  simp only [piece0]
  after_results_simp
  simp only [pval2_main_v11, pval2_main_cst] <;> rfl
set_option maxRecDepth 16384 in
set_option maxHeartbeats 4000000 in
theorem pval3_main_v33 (V0 : Valuation τ sig (Elt F)) : pval3 V0 (no_index (Proc.devRef .tc main_v33)) = (KChains.colF0 (KChains.frac (KChains.clip (V0 (Proc.devRef .tc main_arg1))))) := by
  unfold pval3
  simp only [piece0]
  after_results_simp
  simp only [pval2_main_v11] <;> rfl
set_option maxRecDepth 16384 in
set_option maxHeartbeats 4000000 in
theorem pval3_main_v34 (V0 : Valuation τ sig (Elt F)) : pval3 V0 (no_index (Proc.devRef .tc main_v34)) = (KChains.colF1 (KChains.frac (KChains.clip (V0 (Proc.devRef .tc main_arg1))))) := by
  unfold pval3
  simp only [piece0]
  after_results_simp
  simp only [pval2_main_v11] <;> rfl

/-- The buffer contents after the first 4 windows. -/
def pval4 (V0 : Valuation τ sig (Elt F)) : Valuation τ sig (Elt F) := StableHlo.after piece1 (pval3 V0)
/-- The buffers the window's operations write. -/
abbrev pW4 : List (Ref sig .tc) := [main_v35, main_c_5, main_v36, main_v37, main_c_6, main_v38, main_v39, main_v40, main_v41, main_c_7, main_v42, main_v43, main_c_8, main_v44, main_v45, main_v46, main_v47, main_v48, main_cst_9, main_v49, main_v50, main_v51, main_v52, main_c_10]
set_option maxRecDepth 8192 in
theorem pwrites4 : (piece1 : List (HloOp τ sig (Elt F))).Forall fun op => op.writes ⊆ (pW4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval4_keep (V0 : Valuation τ sig (Elt F)) (r : Ref sig .tc) (h : r ∉ pW4) :
    pval4 V0 (Proc.devRef .tc r) = pval3 V0 (Proc.devRef .tc r) :=
  StableHlo.after_of_writes_sub piece1 _ pwrites4 h
theorem pval4_main_arg1 (V0 : Valuation τ sig (Elt F)) : pval4 V0 (no_index (Proc.devRef .tc main_arg1)) = (V0 (Proc.devRef .tc main_arg1)) :=
  (pval4_keep V0 main_arg1 (by decide)).trans (pval3_main_arg1 V0)
theorem pval4_main_arg2 (V0 : Valuation τ sig (Elt F)) : pval4 V0 (no_index (Proc.devRef .tc main_arg2)) = (V0 (Proc.devRef .tc main_arg2)) :=
  (pval4_keep V0 main_arg2 (by decide)).trans (pval3_main_arg2 V0)
theorem pval4_main_arg3 (V0 : Valuation τ sig (Elt F)) : pval4 V0 (no_index (Proc.devRef .tc main_arg3)) = (V0 (Proc.devRef .tc main_arg3)) :=
  (pval4_keep V0 main_arg3 (by decide)).trans (pval3_main_arg3 V0)
theorem pval4_main_arg4 (V0 : Valuation τ sig (Elt F)) : pval4 V0 (no_index (Proc.devRef .tc main_arg4)) = (V0 (Proc.devRef .tc main_arg4)) :=
  (pval4_keep V0 main_arg4 (by decide)).trans (pval3_main_arg4 V0)
theorem pval4_main_arg5 (V0 : Valuation τ sig (Elt F)) : pval4 V0 (no_index (Proc.devRef .tc main_arg5)) = (V0 (Proc.devRef .tc main_arg5)) :=
  (pval4_keep V0 main_arg5 (by decide)).trans (pval3_main_arg5 V0)
theorem pval4_main_arg6 (V0 : Valuation τ sig (Elt F)) : pval4 V0 (no_index (Proc.devRef .tc main_arg6)) = (V0 (Proc.devRef .tc main_arg6)) :=
  (pval4_keep V0 main_arg6 (by decide)).trans (pval3_main_arg6 V0)
theorem pval4_main_v8 (V0 : Valuation τ sig (Elt F)) : pval4 V0 (no_index (Proc.devRef .tc main_v8)) = (KChains.invDeg (V0 (Proc.devRef .tc main_arg3))) :=
  (pval4_keep V0 main_v8 (by decide)).trans (pval3_main_v8 V0)
theorem pval4_main_v10 (V0 : Valuation τ sig (Elt F)) : pval4 V0 (no_index (Proc.devRef .tc main_v10)) = (KChains.imgLast (V0 (Proc.devRef .tc main_arg0))) :=
  (pval4_keep V0 main_v10 (by decide)).trans (pval3_main_v10 V0)
theorem pval4_main_v22 (V0 : Valuation τ sig (Elt F)) : pval4 V0 (no_index (Proc.devRef .tc main_v22)) = (KChains.colI0 (KChains.lowI (KChains.clip (V0 (Proc.devRef .tc main_arg1))))) :=
  (pval4_keep V0 main_v22 (by decide)).trans (pval3_main_v22 V0)
theorem pval4_main_v24 (V0 : Valuation τ sig (Elt F)) : pval4 V0 (no_index (Proc.devRef .tc main_v24)) = (KChains.colI1 (KChains.lowI (KChains.clip (V0 (Proc.devRef .tc main_arg1))))) :=
  (pval4_keep V0 main_v24 (by decide)).trans (pval3_main_v24 V0)
theorem pval4_main_v26 (V0 : Valuation τ sig (Elt F)) : pval4 V0 (no_index (Proc.devRef .tc main_v26)) = (KChains.colI2 (KChains.lowI (KChains.clip (V0 (Proc.devRef .tc main_arg1))))) :=
  (pval4_keep V0 main_v26 (by decide)).trans (pval3_main_v26 V0)
theorem pval4_main_v28 (V0 : Valuation τ sig (Elt F)) : pval4 V0 (no_index (Proc.devRef .tc main_v28)) = (KChains.colI0 (KChains.highI (KChains.lowI (KChains.clip (V0 (Proc.devRef .tc main_arg1)))))) :=
  (pval4_keep V0 main_v28 (by decide)).trans (pval3_main_v28 V0)
theorem pval4_main_v30 (V0 : Valuation τ sig (Elt F)) : pval4 V0 (no_index (Proc.devRef .tc main_v30)) = (KChains.colI1 (KChains.highI (KChains.lowI (KChains.clip (V0 (Proc.devRef .tc main_arg1)))))) :=
  (pval4_keep V0 main_v30 (by decide)).trans (pval3_main_v30 V0)
theorem pval4_main_v32 (V0 : Valuation τ sig (Elt F)) : pval4 V0 (no_index (Proc.devRef .tc main_v32)) = (KChains.colI2 (KChains.highI (KChains.lowI (KChains.clip (V0 (Proc.devRef .tc main_arg1)))))) :=
  (pval4_keep V0 main_v32 (by decide)).trans (pval3_main_v32 V0)
theorem pval4_main_v33 (V0 : Valuation τ sig (Elt F)) : pval4 V0 (no_index (Proc.devRef .tc main_v33)) = (KChains.colF0 (KChains.frac (KChains.clip (V0 (Proc.devRef .tc main_arg1))))) :=
  (pval4_keep V0 main_v33 (by decide)).trans (pval3_main_v33 V0)
theorem pval4_main_v34 (V0 : Valuation τ sig (Elt F)) : pval4 V0 (no_index (Proc.devRef .tc main_v34)) = (KChains.colF1 (KChains.frac (KChains.clip (V0 (Proc.devRef .tc main_arg1))))) :=
  (pval4_keep V0 main_v34 (by decide)).trans (pval3_main_v34 V0)
set_option maxRecDepth 16384 in
set_option maxHeartbeats 4000000 in
theorem pval4_main_v35 (V0 : Valuation τ sig (Elt F)) : pval4 V0 (no_index (Proc.devRef .tc main_v35)) = (KChains.colF2 (KChains.frac (KChains.clip (V0 (Proc.devRef .tc main_arg1))))) := by
  unfold pval4
  simp only [piece1]
  after_results_simp
  simp only [pval3_main_v20] <;> rfl
set_option maxRecDepth 16384 in
set_option maxHeartbeats 4000000 in
theorem pval4_main_v52 (V0 : Valuation τ sig (Elt F)) : pval4 V0 (no_index (Proc.devRef .tc main_v52)) = ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) := by
  unfold pval4
  simp only [piece1]
  after_results_simp
  simp only [pval3_main_v10, pval3_main_v22, pval3_main_v24, pval3_main_v26, pval3_main_v20] <;> rfl
set_option maxRecDepth 16384 in
set_option maxHeartbeats 4000000 in
theorem pval4_main_c_10 (V0 : Valuation τ sig (Elt F)) : pval4 V0 (no_index (Proc.devRef .tc main_c_10)) = ((constantI S_ 32 16384#32)) := by
  unfold pval4
  simp only [piece1]
  after_results_simp
  all_goals rfl

end Cert.KRead

end
-- ==== Proof.KReadB.lean ====
/-
  The host operations before the first region, continued: windows five to eight (corner rows and their weighted sums).
-/
import proofs.«139037_j17609365914513_2_alg».proof.Proof.KReadA

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

/-- The buffer contents after the first 5 windows. -/
def pval5 (V0 : Valuation τ sig (Elt F)) : Valuation τ sig (Elt F) := StableHlo.after piece2 (pval4 V0)
/-- The buffers the window's operations write. -/
abbrev pW5 : List (Ref sig .tc) := [main_v53, main_v54, main_c_11, main_v55, main_v56, main_v57, main_v58, main_c_12, main_v59, main_v60, main_c_13, main_v61, main_v62, main_v63, main_v64, main_v65, main_v66, main_v67, main_v68, main_c_14, main_v69, main_v70, main_c_15, main_v71]
set_option maxRecDepth 8192 in
theorem pwrites5 : (piece2 : List (HloOp τ sig (Elt F))).Forall fun op => op.writes ⊆ (pW5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval5_keep (V0 : Valuation τ sig (Elt F)) (r : Ref sig .tc) (h : r ∉ pW5) :
    pval5 V0 (Proc.devRef .tc r) = pval4 V0 (Proc.devRef .tc r) :=
  StableHlo.after_of_writes_sub piece2 _ pwrites5 h
theorem pval5_main_arg1 (V0 : Valuation τ sig (Elt F)) : pval5 V0 (no_index (Proc.devRef .tc main_arg1)) = (V0 (Proc.devRef .tc main_arg1)) :=
  (pval5_keep V0 main_arg1 (by decide)).trans (pval4_main_arg1 V0)
theorem pval5_main_arg2 (V0 : Valuation τ sig (Elt F)) : pval5 V0 (no_index (Proc.devRef .tc main_arg2)) = (V0 (Proc.devRef .tc main_arg2)) :=
  (pval5_keep V0 main_arg2 (by decide)).trans (pval4_main_arg2 V0)
theorem pval5_main_arg3 (V0 : Valuation τ sig (Elt F)) : pval5 V0 (no_index (Proc.devRef .tc main_arg3)) = (V0 (Proc.devRef .tc main_arg3)) :=
  (pval5_keep V0 main_arg3 (by decide)).trans (pval4_main_arg3 V0)
theorem pval5_main_arg4 (V0 : Valuation τ sig (Elt F)) : pval5 V0 (no_index (Proc.devRef .tc main_arg4)) = (V0 (Proc.devRef .tc main_arg4)) :=
  (pval5_keep V0 main_arg4 (by decide)).trans (pval4_main_arg4 V0)
theorem pval5_main_arg5 (V0 : Valuation τ sig (Elt F)) : pval5 V0 (no_index (Proc.devRef .tc main_arg5)) = (V0 (Proc.devRef .tc main_arg5)) :=
  (pval5_keep V0 main_arg5 (by decide)).trans (pval4_main_arg5 V0)
theorem pval5_main_arg6 (V0 : Valuation τ sig (Elt F)) : pval5 V0 (no_index (Proc.devRef .tc main_arg6)) = (V0 (Proc.devRef .tc main_arg6)) :=
  (pval5_keep V0 main_arg6 (by decide)).trans (pval4_main_arg6 V0)
theorem pval5_main_v8 (V0 : Valuation τ sig (Elt F)) : pval5 V0 (no_index (Proc.devRef .tc main_v8)) = (KChains.invDeg (V0 (Proc.devRef .tc main_arg3))) :=
  (pval5_keep V0 main_v8 (by decide)).trans (pval4_main_v8 V0)
theorem pval5_main_v10 (V0 : Valuation τ sig (Elt F)) : pval5 V0 (no_index (Proc.devRef .tc main_v10)) = (KChains.imgLast (V0 (Proc.devRef .tc main_arg0))) :=
  (pval5_keep V0 main_v10 (by decide)).trans (pval4_main_v10 V0)
theorem pval5_main_v22 (V0 : Valuation τ sig (Elt F)) : pval5 V0 (no_index (Proc.devRef .tc main_v22)) = (KChains.colI0 (KChains.lowI (KChains.clip (V0 (Proc.devRef .tc main_arg1))))) :=
  (pval5_keep V0 main_v22 (by decide)).trans (pval4_main_v22 V0)
theorem pval5_main_v24 (V0 : Valuation τ sig (Elt F)) : pval5 V0 (no_index (Proc.devRef .tc main_v24)) = (KChains.colI1 (KChains.lowI (KChains.clip (V0 (Proc.devRef .tc main_arg1))))) :=
  (pval5_keep V0 main_v24 (by decide)).trans (pval4_main_v24 V0)
theorem pval5_main_v26 (V0 : Valuation τ sig (Elt F)) : pval5 V0 (no_index (Proc.devRef .tc main_v26)) = (KChains.colI2 (KChains.lowI (KChains.clip (V0 (Proc.devRef .tc main_arg1))))) :=
  (pval5_keep V0 main_v26 (by decide)).trans (pval4_main_v26 V0)
theorem pval5_main_v28 (V0 : Valuation τ sig (Elt F)) : pval5 V0 (no_index (Proc.devRef .tc main_v28)) = (KChains.colI0 (KChains.highI (KChains.lowI (KChains.clip (V0 (Proc.devRef .tc main_arg1)))))) :=
  (pval5_keep V0 main_v28 (by decide)).trans (pval4_main_v28 V0)
theorem pval5_main_v30 (V0 : Valuation τ sig (Elt F)) : pval5 V0 (no_index (Proc.devRef .tc main_v30)) = (KChains.colI1 (KChains.highI (KChains.lowI (KChains.clip (V0 (Proc.devRef .tc main_arg1)))))) :=
  (pval5_keep V0 main_v30 (by decide)).trans (pval4_main_v30 V0)
theorem pval5_main_v32 (V0 : Valuation τ sig (Elt F)) : pval5 V0 (no_index (Proc.devRef .tc main_v32)) = (KChains.colI2 (KChains.highI (KChains.lowI (KChains.clip (V0 (Proc.devRef .tc main_arg1)))))) :=
  (pval5_keep V0 main_v32 (by decide)).trans (pval4_main_v32 V0)
theorem pval5_main_v33 (V0 : Valuation τ sig (Elt F)) : pval5 V0 (no_index (Proc.devRef .tc main_v33)) = (KChains.colF0 (KChains.frac (KChains.clip (V0 (Proc.devRef .tc main_arg1))))) :=
  (pval5_keep V0 main_v33 (by decide)).trans (pval4_main_v33 V0)
theorem pval5_main_v34 (V0 : Valuation τ sig (Elt F)) : pval5 V0 (no_index (Proc.devRef .tc main_v34)) = (KChains.colF1 (KChains.frac (KChains.clip (V0 (Proc.devRef .tc main_arg1))))) :=
  (pval5_keep V0 main_v34 (by decide)).trans (pval4_main_v34 V0)
theorem pval5_main_v35 (V0 : Valuation τ sig (Elt F)) : pval5 V0 (no_index (Proc.devRef .tc main_v35)) = (KChains.colF2 (KChains.frac (KChains.clip (V0 (Proc.devRef .tc main_arg1))))) :=
  (pval5_keep V0 main_v35 (by decide)).trans (pval4_main_v35 V0)
set_option maxRecDepth 16384 in
set_option maxHeartbeats 4000000 in
theorem pval5_main_v68 (V0 : Valuation τ sig (Elt F)) : pval5 V0 (no_index (Proc.devRef .tc main_v68)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) := by
  unfold pval5
  simp only [piece2]
  after_results_simp
  simp only [pval4_main_v52, pval4_main_v10, pval4_main_v22, pval4_main_c_10, pval4_main_v24, pval4_main_v32, pval4_main_v35] <;> rfl
set_option maxRecDepth 16384 in
set_option maxHeartbeats 4000000 in
theorem pval5_main_v70 (V0 : Valuation τ sig (Elt F)) : pval5 V0 (no_index (Proc.devRef .tc main_v70)) = ((muli : (⟨S100000, .i32⟩ : BufTy).Contents (Elt F) → (⟨S100000, .i32⟩ : BufTy).Contents (Elt F) → (⟨S100000, .i32⟩ : BufTy).Contents (Elt F)) (KChains.colI0 (KChains.lowI (KChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 16384#32)))) := by
  unfold pval5
  simp only [piece2]
  after_results_simp
  simp only [pval4_main_v22] <;> rfl
set_option maxRecDepth 16384 in
set_option maxHeartbeats 4000000 in
theorem pval5_main_v71 (V0 : Valuation τ sig (Elt F)) : pval5 V0 (no_index (Proc.devRef .tc main_v71)) = ((broadcastInDim S100000 ![] bcast_S_S100000 : (⟨S_, .i32⟩ : BufTy).Contents (Elt F) → (⟨S100000, .i32⟩ : BufTy).Contents (Elt F)) ((constantI S_ 32 128#32))) := by
  unfold pval5
  simp only [piece2]
  after_results_simp
  all_goals rfl

/-- The buffer contents after the first 6 windows. -/
def pval6 (V0 : Valuation τ sig (Elt F)) : Valuation τ sig (Elt F) := StableHlo.after piece3 (pval5 V0)
/-- The buffers the window's operations write. -/
abbrev pW6 : List (Ref sig .tc) := [main_v72, main_v73, main_v74, main_c_16, main_v75, main_v76, main_c_17, main_v77, main_v78, main_v79, main_v80, main_v81, main_cst_18, main_v82, main_v83, main_v84, main_v85, main_c_19, main_v86, main_v87, main_c_20, main_v88, main_v89, main_v90]
set_option maxRecDepth 8192 in
theorem pwrites6 : (piece3 : List (HloOp τ sig (Elt F))).Forall fun op => op.writes ⊆ (pW6.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval6_keep (V0 : Valuation τ sig (Elt F)) (r : Ref sig .tc) (h : r ∉ pW6) :
    pval6 V0 (Proc.devRef .tc r) = pval5 V0 (Proc.devRef .tc r) :=
  StableHlo.after_of_writes_sub piece3 _ pwrites6 h
theorem pval6_main_arg1 (V0 : Valuation τ sig (Elt F)) : pval6 V0 (no_index (Proc.devRef .tc main_arg1)) = (V0 (Proc.devRef .tc main_arg1)) :=
  (pval6_keep V0 main_arg1 (by decide)).trans (pval5_main_arg1 V0)
theorem pval6_main_arg2 (V0 : Valuation τ sig (Elt F)) : pval6 V0 (no_index (Proc.devRef .tc main_arg2)) = (V0 (Proc.devRef .tc main_arg2)) :=
  (pval6_keep V0 main_arg2 (by decide)).trans (pval5_main_arg2 V0)
theorem pval6_main_arg3 (V0 : Valuation τ sig (Elt F)) : pval6 V0 (no_index (Proc.devRef .tc main_arg3)) = (V0 (Proc.devRef .tc main_arg3)) :=
  (pval6_keep V0 main_arg3 (by decide)).trans (pval5_main_arg3 V0)
theorem pval6_main_arg4 (V0 : Valuation τ sig (Elt F)) : pval6 V0 (no_index (Proc.devRef .tc main_arg4)) = (V0 (Proc.devRef .tc main_arg4)) :=
  (pval6_keep V0 main_arg4 (by decide)).trans (pval5_main_arg4 V0)
theorem pval6_main_arg5 (V0 : Valuation τ sig (Elt F)) : pval6 V0 (no_index (Proc.devRef .tc main_arg5)) = (V0 (Proc.devRef .tc main_arg5)) :=
  (pval6_keep V0 main_arg5 (by decide)).trans (pval5_main_arg5 V0)
theorem pval6_main_arg6 (V0 : Valuation τ sig (Elt F)) : pval6 V0 (no_index (Proc.devRef .tc main_arg6)) = (V0 (Proc.devRef .tc main_arg6)) :=
  (pval6_keep V0 main_arg6 (by decide)).trans (pval5_main_arg6 V0)
theorem pval6_main_v8 (V0 : Valuation τ sig (Elt F)) : pval6 V0 (no_index (Proc.devRef .tc main_v8)) = (KChains.invDeg (V0 (Proc.devRef .tc main_arg3))) :=
  (pval6_keep V0 main_v8 (by decide)).trans (pval5_main_v8 V0)
theorem pval6_main_v10 (V0 : Valuation τ sig (Elt F)) : pval6 V0 (no_index (Proc.devRef .tc main_v10)) = (KChains.imgLast (V0 (Proc.devRef .tc main_arg0))) :=
  (pval6_keep V0 main_v10 (by decide)).trans (pval5_main_v10 V0)
theorem pval6_main_v24 (V0 : Valuation τ sig (Elt F)) : pval6 V0 (no_index (Proc.devRef .tc main_v24)) = (KChains.colI1 (KChains.lowI (KChains.clip (V0 (Proc.devRef .tc main_arg1))))) :=
  (pval6_keep V0 main_v24 (by decide)).trans (pval5_main_v24 V0)
theorem pval6_main_v26 (V0 : Valuation τ sig (Elt F)) : pval6 V0 (no_index (Proc.devRef .tc main_v26)) = (KChains.colI2 (KChains.lowI (KChains.clip (V0 (Proc.devRef .tc main_arg1))))) :=
  (pval6_keep V0 main_v26 (by decide)).trans (pval5_main_v26 V0)
theorem pval6_main_v28 (V0 : Valuation τ sig (Elt F)) : pval6 V0 (no_index (Proc.devRef .tc main_v28)) = (KChains.colI0 (KChains.highI (KChains.lowI (KChains.clip (V0 (Proc.devRef .tc main_arg1)))))) :=
  (pval6_keep V0 main_v28 (by decide)).trans (pval5_main_v28 V0)
theorem pval6_main_v30 (V0 : Valuation τ sig (Elt F)) : pval6 V0 (no_index (Proc.devRef .tc main_v30)) = (KChains.colI1 (KChains.highI (KChains.lowI (KChains.clip (V0 (Proc.devRef .tc main_arg1)))))) :=
  (pval6_keep V0 main_v30 (by decide)).trans (pval5_main_v30 V0)
theorem pval6_main_v32 (V0 : Valuation τ sig (Elt F)) : pval6 V0 (no_index (Proc.devRef .tc main_v32)) = (KChains.colI2 (KChains.highI (KChains.lowI (KChains.clip (V0 (Proc.devRef .tc main_arg1)))))) :=
  (pval6_keep V0 main_v32 (by decide)).trans (pval5_main_v32 V0)
theorem pval6_main_v33 (V0 : Valuation τ sig (Elt F)) : pval6 V0 (no_index (Proc.devRef .tc main_v33)) = (KChains.colF0 (KChains.frac (KChains.clip (V0 (Proc.devRef .tc main_arg1))))) :=
  (pval6_keep V0 main_v33 (by decide)).trans (pval5_main_v33 V0)
theorem pval6_main_v34 (V0 : Valuation τ sig (Elt F)) : pval6 V0 (no_index (Proc.devRef .tc main_v34)) = (KChains.colF1 (KChains.frac (KChains.clip (V0 (Proc.devRef .tc main_arg1))))) :=
  (pval6_keep V0 main_v34 (by decide)).trans (pval5_main_v34 V0)
theorem pval6_main_v35 (V0 : Valuation τ sig (Elt F)) : pval6 V0 (no_index (Proc.devRef .tc main_v35)) = (KChains.colF2 (KChains.frac (KChains.clip (V0 (Proc.devRef .tc main_arg1))))) :=
  (pval6_keep V0 main_v35 (by decide)).trans (pval5_main_v35 V0)
theorem pval6_main_v68 (V0 : Valuation τ sig (Elt F)) : pval6 V0 (no_index (Proc.devRef .tc main_v68)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval6_keep V0 main_v68 (by decide)).trans (pval5_main_v68 V0)
set_option maxRecDepth 16384 in
set_option maxHeartbeats 4000000 in
theorem pval6_main_v85 (V0 : Valuation τ sig (Elt F)) : pval6 V0 (no_index (Proc.devRef .tc main_v85)) = ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) := by
  unfold pval6
  simp only [piece3]
  after_results_simp
  simp only [pval5_main_v10, pval5_main_v70, pval5_main_v30, pval5_main_v71, pval5_main_v26, pval5_main_v35] <;> rfl
set_option maxRecDepth 16384 in
set_option maxHeartbeats 4000000 in
theorem pval6_main_v90 (V0 : Valuation τ sig (Elt F)) : pval6 V0 (no_index (Proc.devRef .tc main_v90)) = ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) (KChains.colI0 (KChains.lowI (KChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) (KChains.colI1 (KChains.highI (KChains.lowI (KChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 128#32))))) := by
  unfold pval6
  simp only [piece3]
  after_results_simp
  simp only [pval5_main_v22, pval5_main_v30] <;> rfl

/-- The buffer contents after the first 7 windows. -/
def pval7 (V0 : Valuation τ sig (Elt F)) : Valuation τ sig (Elt F) := StableHlo.after piece4 (pval6 V0)
/-- The buffers the window's operations write. -/
abbrev pW7 : List (Ref sig .tc) := [main_v91, main_c_21, main_v92, main_v93, main_c_22, main_v94, main_v95, main_v96, main_v97, main_v98, main_v99, main_v100, main_v101, main_c_23, main_v102, main_v103, main_c_24, main_v104, main_v105, main_v106, main_v107, main_c_25, main_v108, main_v109]
set_option maxRecDepth 8192 in
theorem pwrites7 : (piece4 : List (HloOp τ sig (Elt F))).Forall fun op => op.writes ⊆ (pW7.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval7_keep (V0 : Valuation τ sig (Elt F)) (r : Ref sig .tc) (h : r ∉ pW7) :
    pval7 V0 (Proc.devRef .tc r) = pval6 V0 (Proc.devRef .tc r) :=
  StableHlo.after_of_writes_sub piece4 _ pwrites7 h
theorem pval7_main_arg1 (V0 : Valuation τ sig (Elt F)) : pval7 V0 (no_index (Proc.devRef .tc main_arg1)) = (V0 (Proc.devRef .tc main_arg1)) :=
  (pval7_keep V0 main_arg1 (by decide)).trans (pval6_main_arg1 V0)
theorem pval7_main_arg2 (V0 : Valuation τ sig (Elt F)) : pval7 V0 (no_index (Proc.devRef .tc main_arg2)) = (V0 (Proc.devRef .tc main_arg2)) :=
  (pval7_keep V0 main_arg2 (by decide)).trans (pval6_main_arg2 V0)
theorem pval7_main_arg3 (V0 : Valuation τ sig (Elt F)) : pval7 V0 (no_index (Proc.devRef .tc main_arg3)) = (V0 (Proc.devRef .tc main_arg3)) :=
  (pval7_keep V0 main_arg3 (by decide)).trans (pval6_main_arg3 V0)
theorem pval7_main_arg4 (V0 : Valuation τ sig (Elt F)) : pval7 V0 (no_index (Proc.devRef .tc main_arg4)) = (V0 (Proc.devRef .tc main_arg4)) :=
  (pval7_keep V0 main_arg4 (by decide)).trans (pval6_main_arg4 V0)
theorem pval7_main_arg5 (V0 : Valuation τ sig (Elt F)) : pval7 V0 (no_index (Proc.devRef .tc main_arg5)) = (V0 (Proc.devRef .tc main_arg5)) :=
  (pval7_keep V0 main_arg5 (by decide)).trans (pval6_main_arg5 V0)
theorem pval7_main_arg6 (V0 : Valuation τ sig (Elt F)) : pval7 V0 (no_index (Proc.devRef .tc main_arg6)) = (V0 (Proc.devRef .tc main_arg6)) :=
  (pval7_keep V0 main_arg6 (by decide)).trans (pval6_main_arg6 V0)
theorem pval7_main_v8 (V0 : Valuation τ sig (Elt F)) : pval7 V0 (no_index (Proc.devRef .tc main_v8)) = (KChains.invDeg (V0 (Proc.devRef .tc main_arg3))) :=
  (pval7_keep V0 main_v8 (by decide)).trans (pval6_main_v8 V0)
theorem pval7_main_v10 (V0 : Valuation τ sig (Elt F)) : pval7 V0 (no_index (Proc.devRef .tc main_v10)) = (KChains.imgLast (V0 (Proc.devRef .tc main_arg0))) :=
  (pval7_keep V0 main_v10 (by decide)).trans (pval6_main_v10 V0)
theorem pval7_main_v24 (V0 : Valuation τ sig (Elt F)) : pval7 V0 (no_index (Proc.devRef .tc main_v24)) = (KChains.colI1 (KChains.lowI (KChains.clip (V0 (Proc.devRef .tc main_arg1))))) :=
  (pval7_keep V0 main_v24 (by decide)).trans (pval6_main_v24 V0)
theorem pval7_main_v26 (V0 : Valuation τ sig (Elt F)) : pval7 V0 (no_index (Proc.devRef .tc main_v26)) = (KChains.colI2 (KChains.lowI (KChains.clip (V0 (Proc.devRef .tc main_arg1))))) :=
  (pval7_keep V0 main_v26 (by decide)).trans (pval6_main_v26 V0)
theorem pval7_main_v28 (V0 : Valuation τ sig (Elt F)) : pval7 V0 (no_index (Proc.devRef .tc main_v28)) = (KChains.colI0 (KChains.highI (KChains.lowI (KChains.clip (V0 (Proc.devRef .tc main_arg1)))))) :=
  (pval7_keep V0 main_v28 (by decide)).trans (pval6_main_v28 V0)
theorem pval7_main_v30 (V0 : Valuation τ sig (Elt F)) : pval7 V0 (no_index (Proc.devRef .tc main_v30)) = (KChains.colI1 (KChains.highI (KChains.lowI (KChains.clip (V0 (Proc.devRef .tc main_arg1)))))) :=
  (pval7_keep V0 main_v30 (by decide)).trans (pval6_main_v30 V0)
theorem pval7_main_v32 (V0 : Valuation τ sig (Elt F)) : pval7 V0 (no_index (Proc.devRef .tc main_v32)) = (KChains.colI2 (KChains.highI (KChains.lowI (KChains.clip (V0 (Proc.devRef .tc main_arg1)))))) :=
  (pval7_keep V0 main_v32 (by decide)).trans (pval6_main_v32 V0)
theorem pval7_main_v33 (V0 : Valuation τ sig (Elt F)) : pval7 V0 (no_index (Proc.devRef .tc main_v33)) = (KChains.colF0 (KChains.frac (KChains.clip (V0 (Proc.devRef .tc main_arg1))))) :=
  (pval7_keep V0 main_v33 (by decide)).trans (pval6_main_v33 V0)
theorem pval7_main_v34 (V0 : Valuation τ sig (Elt F)) : pval7 V0 (no_index (Proc.devRef .tc main_v34)) = (KChains.colF1 (KChains.frac (KChains.clip (V0 (Proc.devRef .tc main_arg1))))) :=
  (pval7_keep V0 main_v34 (by decide)).trans (pval6_main_v34 V0)
theorem pval7_main_v35 (V0 : Valuation τ sig (Elt F)) : pval7 V0 (no_index (Proc.devRef .tc main_v35)) = (KChains.colF2 (KChains.frac (KChains.clip (V0 (Proc.devRef .tc main_arg1))))) :=
  (pval7_keep V0 main_v35 (by decide)).trans (pval6_main_v35 V0)
theorem pval7_main_v68 (V0 : Valuation τ sig (Elt F)) : pval7 V0 (no_index (Proc.devRef .tc main_v68)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval7_keep V0 main_v68 (by decide)).trans (pval6_main_v68 V0)
set_option maxRecDepth 16384 in
set_option maxHeartbeats 4000000 in
theorem pval7_main_v101 (V0 : Valuation τ sig (Elt F)) : pval7 V0 (no_index (Proc.devRef .tc main_v101)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) := by
  unfold pval7
  simp only [piece4]
  after_results_simp
  simp only [pval6_main_v85, pval6_main_v10, pval6_main_v90, pval6_main_v32, pval6_main_v35] <;> rfl
set_option maxRecDepth 16384 in
set_option maxHeartbeats 4000000 in
theorem pval7_main_v107 (V0 : Valuation τ sig (Elt F)) : pval7 V0 (no_index (Proc.devRef .tc main_v107)) = ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) (KChains.colI0 (KChains.highI (KChains.lowI (KChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) (KChains.colI1 (KChains.lowI (KChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32))))) (KChains.colI2 (KChains.lowI (KChains.clip (V0 (Proc.devRef .tc main_arg1)))))) := by
  unfold pval7
  simp only [piece4]
  after_results_simp
  simp only [pval6_main_v28, pval6_main_v24, pval6_main_v26] <;> rfl
set_option maxRecDepth 16384 in
set_option maxHeartbeats 4000000 in
theorem pval7_main_v109 (V0 : Valuation τ sig (Elt F)) : pval7 V0 (no_index (Proc.devRef .tc main_v109)) = ((cmpi .slt : (⟨S100000, .i32⟩ : BufTy).Contents (Elt F) → (⟨S100000, .i32⟩ : BufTy).Contents (Elt F) → (⟨S100000, .i1⟩ : BufTy).Contents (Elt F)) ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) (KChains.colI0 (KChains.highI (KChains.lowI (KChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) (KChains.colI1 (KChains.lowI (KChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32))))) (KChains.colI2 (KChains.lowI (KChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 0#32)))) := by
  unfold pval7
  simp only [piece4]
  after_results_simp
  simp only [pval6_main_v28, pval6_main_v24, pval6_main_v26] <;> rfl

/-- The buffer contents after the first 8 windows. -/
def pval8 (V0 : Valuation τ sig (Elt F)) : Valuation τ sig (Elt F) := StableHlo.after piece5 (pval7 V0)
/-- The buffers the window's operations write. -/
abbrev pW8 : List (Ref sig .tc) := [main_c_26, main_v110, main_v111, main_v112, main_v113, main_v114, main_cst_27, main_v115, main_v116, main_v117, main_v118, main_c_28, main_v119, main_v120, main_c_29, main_v121, main_v122, main_v123, main_v124, main_c_30, main_v125, main_v126, main_c_31, main_v127]
set_option maxRecDepth 8192 in
theorem pwrites8 : (piece5 : List (HloOp τ sig (Elt F))).Forall fun op => op.writes ⊆ (pW8.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval8_keep (V0 : Valuation τ sig (Elt F)) (r : Ref sig .tc) (h : r ∉ pW8) :
    pval8 V0 (Proc.devRef .tc r) = pval7 V0 (Proc.devRef .tc r) :=
  StableHlo.after_of_writes_sub piece5 _ pwrites8 h
theorem pval8_main_arg1 (V0 : Valuation τ sig (Elt F)) : pval8 V0 (no_index (Proc.devRef .tc main_arg1)) = (V0 (Proc.devRef .tc main_arg1)) :=
  (pval8_keep V0 main_arg1 (by decide)).trans (pval7_main_arg1 V0)
theorem pval8_main_arg2 (V0 : Valuation τ sig (Elt F)) : pval8 V0 (no_index (Proc.devRef .tc main_arg2)) = (V0 (Proc.devRef .tc main_arg2)) :=
  (pval8_keep V0 main_arg2 (by decide)).trans (pval7_main_arg2 V0)
theorem pval8_main_arg3 (V0 : Valuation τ sig (Elt F)) : pval8 V0 (no_index (Proc.devRef .tc main_arg3)) = (V0 (Proc.devRef .tc main_arg3)) :=
  (pval8_keep V0 main_arg3 (by decide)).trans (pval7_main_arg3 V0)
theorem pval8_main_arg4 (V0 : Valuation τ sig (Elt F)) : pval8 V0 (no_index (Proc.devRef .tc main_arg4)) = (V0 (Proc.devRef .tc main_arg4)) :=
  (pval8_keep V0 main_arg4 (by decide)).trans (pval7_main_arg4 V0)
theorem pval8_main_arg5 (V0 : Valuation τ sig (Elt F)) : pval8 V0 (no_index (Proc.devRef .tc main_arg5)) = (V0 (Proc.devRef .tc main_arg5)) :=
  (pval8_keep V0 main_arg5 (by decide)).trans (pval7_main_arg5 V0)
theorem pval8_main_arg6 (V0 : Valuation τ sig (Elt F)) : pval8 V0 (no_index (Proc.devRef .tc main_arg6)) = (V0 (Proc.devRef .tc main_arg6)) :=
  (pval8_keep V0 main_arg6 (by decide)).trans (pval7_main_arg6 V0)
theorem pval8_main_v8 (V0 : Valuation τ sig (Elt F)) : pval8 V0 (no_index (Proc.devRef .tc main_v8)) = (KChains.invDeg (V0 (Proc.devRef .tc main_arg3))) :=
  (pval8_keep V0 main_v8 (by decide)).trans (pval7_main_v8 V0)
theorem pval8_main_v10 (V0 : Valuation τ sig (Elt F)) : pval8 V0 (no_index (Proc.devRef .tc main_v10)) = (KChains.imgLast (V0 (Proc.devRef .tc main_arg0))) :=
  (pval8_keep V0 main_v10 (by decide)).trans (pval7_main_v10 V0)
theorem pval8_main_v26 (V0 : Valuation τ sig (Elt F)) : pval8 V0 (no_index (Proc.devRef .tc main_v26)) = (KChains.colI2 (KChains.lowI (KChains.clip (V0 (Proc.devRef .tc main_arg1))))) :=
  (pval8_keep V0 main_v26 (by decide)).trans (pval7_main_v26 V0)
theorem pval8_main_v28 (V0 : Valuation τ sig (Elt F)) : pval8 V0 (no_index (Proc.devRef .tc main_v28)) = (KChains.colI0 (KChains.highI (KChains.lowI (KChains.clip (V0 (Proc.devRef .tc main_arg1)))))) :=
  (pval8_keep V0 main_v28 (by decide)).trans (pval7_main_v28 V0)
theorem pval8_main_v30 (V0 : Valuation τ sig (Elt F)) : pval8 V0 (no_index (Proc.devRef .tc main_v30)) = (KChains.colI1 (KChains.highI (KChains.lowI (KChains.clip (V0 (Proc.devRef .tc main_arg1)))))) :=
  (pval8_keep V0 main_v30 (by decide)).trans (pval7_main_v30 V0)
theorem pval8_main_v32 (V0 : Valuation τ sig (Elt F)) : pval8 V0 (no_index (Proc.devRef .tc main_v32)) = (KChains.colI2 (KChains.highI (KChains.lowI (KChains.clip (V0 (Proc.devRef .tc main_arg1)))))) :=
  (pval8_keep V0 main_v32 (by decide)).trans (pval7_main_v32 V0)
theorem pval8_main_v33 (V0 : Valuation τ sig (Elt F)) : pval8 V0 (no_index (Proc.devRef .tc main_v33)) = (KChains.colF0 (KChains.frac (KChains.clip (V0 (Proc.devRef .tc main_arg1))))) :=
  (pval8_keep V0 main_v33 (by decide)).trans (pval7_main_v33 V0)
theorem pval8_main_v34 (V0 : Valuation τ sig (Elt F)) : pval8 V0 (no_index (Proc.devRef .tc main_v34)) = (KChains.colF1 (KChains.frac (KChains.clip (V0 (Proc.devRef .tc main_arg1))))) :=
  (pval8_keep V0 main_v34 (by decide)).trans (pval7_main_v34 V0)
theorem pval8_main_v35 (V0 : Valuation τ sig (Elt F)) : pval8 V0 (no_index (Proc.devRef .tc main_v35)) = (KChains.colF2 (KChains.frac (KChains.clip (V0 (Proc.devRef .tc main_arg1))))) :=
  (pval8_keep V0 main_v35 (by decide)).trans (pval7_main_v35 V0)
theorem pval8_main_v68 (V0 : Valuation τ sig (Elt F)) : pval8 V0 (no_index (Proc.devRef .tc main_v68)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval8_keep V0 main_v68 (by decide)).trans (pval7_main_v68 V0)
theorem pval8_main_v101 (V0 : Valuation τ sig (Elt F)) : pval8 V0 (no_index (Proc.devRef .tc main_v101)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval8_keep V0 main_v101 (by decide)).trans (pval7_main_v101 V0)
set_option maxRecDepth 16384 in
set_option maxHeartbeats 4000000 in
theorem pval8_main_v118 (V0 : Valuation τ sig (Elt F)) : pval8 V0 (no_index (Proc.devRef .tc main_v118)) = ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) := by
  unfold pval8
  simp only [piece5]
  after_results_simp
  simp only [pval7_main_v10, pval7_main_v109, pval7_main_v107, pval7_main_v35] <;> rfl
set_option maxRecDepth 16384 in
set_option maxHeartbeats 4000000 in
theorem pval8_main_v124 (V0 : Valuation τ sig (Elt F)) : pval8 V0 (no_index (Proc.devRef .tc main_v124)) = ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) (KChains.colI0 (KChains.highI (KChains.lowI (KChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) (KChains.colI1 (KChains.lowI (KChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32))))) (KChains.colI2 (KChains.highI (KChains.lowI (KChains.clip (V0 (Proc.devRef .tc main_arg1))))))) := by
  unfold pval8
  simp only [piece5]
  after_results_simp
  simp only [pval7_main_v28, pval7_main_v24, pval7_main_v32] <;> rfl
set_option maxRecDepth 16384 in
set_option maxHeartbeats 4000000 in
theorem pval8_main_v126 (V0 : Valuation τ sig (Elt F)) : pval8 V0 (no_index (Proc.devRef .tc main_v126)) = ((cmpi .slt : (⟨S100000, .i32⟩ : BufTy).Contents (Elt F) → (⟨S100000, .i32⟩ : BufTy).Contents (Elt F) → (⟨S100000, .i1⟩ : BufTy).Contents (Elt F)) ((addi : (⟨S100000, .i32⟩ : BufTy).Contents (Elt F) → (⟨S100000, .i32⟩ : BufTy).Contents (Elt F) → (⟨S100000, .i32⟩ : BufTy).Contents (Elt F)) ((addi : (⟨S100000, .i32⟩ : BufTy).Contents (Elt F) → (⟨S100000, .i32⟩ : BufTy).Contents (Elt F) → (⟨S100000, .i32⟩ : BufTy).Contents (Elt F)) ((muli : (⟨S100000, .i32⟩ : BufTy).Contents (Elt F) → (⟨S100000, .i32⟩ : BufTy).Contents (Elt F) → (⟨S100000, .i32⟩ : BufTy).Contents (Elt F)) (KChains.colI0 (KChains.highI (KChains.lowI (KChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 16384#32)))) ((muli : (⟨S100000, .i32⟩ : BufTy).Contents (Elt F) → (⟨S100000, .i32⟩ : BufTy).Contents (Elt F) → (⟨S100000, .i32⟩ : BufTy).Contents (Elt F)) (KChains.colI1 (KChains.lowI (KChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32))))) (KChains.colI2 (KChains.highI (KChains.lowI (KChains.clip (V0 (Proc.devRef .tc main_arg1))))))) ((broadcastInDim S100000 ![] bcast_S_S100000 : (⟨S_, .i32⟩ : BufTy).Contents (Elt F) → (⟨S100000, .i32⟩ : BufTy).Contents (Elt F)) ((constantI S_ 32 0#32)))) := by
  unfold pval8
  simp only [piece5]
  after_results_simp
  simp only [pval7_main_v28, pval7_main_v24, pval7_main_v32] <;> rfl
set_option maxRecDepth 16384 in
set_option maxHeartbeats 4000000 in
theorem pval8_main_v127 (V0 : Valuation τ sig (Elt F)) : pval8 V0 (no_index (Proc.devRef .tc main_v127)) = ((broadcastInDim S100000 ![] bcast_S_S100000 : (⟨S_, .i32⟩ : BufTy).Contents (Elt F) → (⟨S100000, .i32⟩ : BufTy).Contents (Elt F)) ((constantI S_ 32 2097152#32))) := by
  unfold pval8
  simp only [piece5]
  after_results_simp
  all_goals rfl

end Cert.KRead

end
-- ==== Proof.KReadC.lean ====
/-
  The host operations before the first region, continued: window nine.
-/
import proofs.«139037_j17609365914513_2_alg».proof.Proof.KReadB

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

/-- The buffer contents after the first 9 windows. -/
def pval9 (V0 : Valuation τ sig (Elt F)) : Valuation τ sig (Elt F) := StableHlo.after piece6 (pval8 V0)
/-- The buffers the window's operations write. -/
abbrev pW9 : List (Ref sig .tc) := [main_v128, main_v129, main_v130, main_v131, main_v132, main_v133, main_v134, main_c_32, main_v135, main_v136, main_c_33, main_v137, main_v138, main_v139, main_v140, main_c_34, main_v141, main_v142, main_c_35, main_v143, main_v144, main_v145, main_v146, main_v147]
set_option maxRecDepth 8192 in
theorem pwrites9 : (piece6 : List (HloOp τ sig (Elt F))).Forall fun op => op.writes ⊆ (pW9.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval9_keep (V0 : Valuation τ sig (Elt F)) (r : Ref sig .tc) (h : r ∉ pW9) :
    pval9 V0 (Proc.devRef .tc r) = pval8 V0 (Proc.devRef .tc r) :=
  StableHlo.after_of_writes_sub piece6 _ pwrites9 h
theorem pval9_main_arg1 (V0 : Valuation τ sig (Elt F)) : pval9 V0 (no_index (Proc.devRef .tc main_arg1)) = (V0 (Proc.devRef .tc main_arg1)) :=
  (pval9_keep V0 main_arg1 (by decide)).trans (pval8_main_arg1 V0)
theorem pval9_main_arg2 (V0 : Valuation τ sig (Elt F)) : pval9 V0 (no_index (Proc.devRef .tc main_arg2)) = (V0 (Proc.devRef .tc main_arg2)) :=
  (pval9_keep V0 main_arg2 (by decide)).trans (pval8_main_arg2 V0)
theorem pval9_main_arg3 (V0 : Valuation τ sig (Elt F)) : pval9 V0 (no_index (Proc.devRef .tc main_arg3)) = (V0 (Proc.devRef .tc main_arg3)) :=
  (pval9_keep V0 main_arg3 (by decide)).trans (pval8_main_arg3 V0)
theorem pval9_main_arg4 (V0 : Valuation τ sig (Elt F)) : pval9 V0 (no_index (Proc.devRef .tc main_arg4)) = (V0 (Proc.devRef .tc main_arg4)) :=
  (pval9_keep V0 main_arg4 (by decide)).trans (pval8_main_arg4 V0)
theorem pval9_main_arg5 (V0 : Valuation τ sig (Elt F)) : pval9 V0 (no_index (Proc.devRef .tc main_arg5)) = (V0 (Proc.devRef .tc main_arg5)) :=
  (pval9_keep V0 main_arg5 (by decide)).trans (pval8_main_arg5 V0)
theorem pval9_main_arg6 (V0 : Valuation τ sig (Elt F)) : pval9 V0 (no_index (Proc.devRef .tc main_arg6)) = (V0 (Proc.devRef .tc main_arg6)) :=
  (pval9_keep V0 main_arg6 (by decide)).trans (pval8_main_arg6 V0)
theorem pval9_main_v8 (V0 : Valuation τ sig (Elt F)) : pval9 V0 (no_index (Proc.devRef .tc main_v8)) = (KChains.invDeg (V0 (Proc.devRef .tc main_arg3))) :=
  (pval9_keep V0 main_v8 (by decide)).trans (pval8_main_v8 V0)
theorem pval9_main_v10 (V0 : Valuation τ sig (Elt F)) : pval9 V0 (no_index (Proc.devRef .tc main_v10)) = (KChains.imgLast (V0 (Proc.devRef .tc main_arg0))) :=
  (pval9_keep V0 main_v10 (by decide)).trans (pval8_main_v10 V0)
theorem pval9_main_v28 (V0 : Valuation τ sig (Elt F)) : pval9 V0 (no_index (Proc.devRef .tc main_v28)) = (KChains.colI0 (KChains.highI (KChains.lowI (KChains.clip (V0 (Proc.devRef .tc main_arg1)))))) :=
  (pval9_keep V0 main_v28 (by decide)).trans (pval8_main_v28 V0)
theorem pval9_main_v30 (V0 : Valuation τ sig (Elt F)) : pval9 V0 (no_index (Proc.devRef .tc main_v30)) = (KChains.colI1 (KChains.highI (KChains.lowI (KChains.clip (V0 (Proc.devRef .tc main_arg1)))))) :=
  (pval9_keep V0 main_v30 (by decide)).trans (pval8_main_v30 V0)
theorem pval9_main_v32 (V0 : Valuation τ sig (Elt F)) : pval9 V0 (no_index (Proc.devRef .tc main_v32)) = (KChains.colI2 (KChains.highI (KChains.lowI (KChains.clip (V0 (Proc.devRef .tc main_arg1)))))) :=
  (pval9_keep V0 main_v32 (by decide)).trans (pval8_main_v32 V0)
theorem pval9_main_v33 (V0 : Valuation τ sig (Elt F)) : pval9 V0 (no_index (Proc.devRef .tc main_v33)) = (KChains.colF0 (KChains.frac (KChains.clip (V0 (Proc.devRef .tc main_arg1))))) :=
  (pval9_keep V0 main_v33 (by decide)).trans (pval8_main_v33 V0)
theorem pval9_main_v34 (V0 : Valuation τ sig (Elt F)) : pval9 V0 (no_index (Proc.devRef .tc main_v34)) = (KChains.colF1 (KChains.frac (KChains.clip (V0 (Proc.devRef .tc main_arg1))))) :=
  (pval9_keep V0 main_v34 (by decide)).trans (pval8_main_v34 V0)
theorem pval9_main_v35 (V0 : Valuation τ sig (Elt F)) : pval9 V0 (no_index (Proc.devRef .tc main_v35)) = (KChains.colF2 (KChains.frac (KChains.clip (V0 (Proc.devRef .tc main_arg1))))) :=
  (pval9_keep V0 main_v35 (by decide)).trans (pval8_main_v35 V0)
theorem pval9_main_v68 (V0 : Valuation τ sig (Elt F)) : pval9 V0 (no_index (Proc.devRef .tc main_v68)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval9_keep V0 main_v68 (by decide)).trans (pval8_main_v68 V0)
theorem pval9_main_v101 (V0 : Valuation τ sig (Elt F)) : pval9 V0 (no_index (Proc.devRef .tc main_v101)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval9_keep V0 main_v101 (by decide)).trans (pval8_main_v101 V0)
set_option maxRecDepth 16384 in
set_option maxHeartbeats 4000000 in
theorem pval9_main_v134 (V0 : Valuation τ sig (Elt F)) : pval9 V0 (no_index (Proc.devRef .tc main_v134)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) := by
  unfold pval9
  simp only [piece6]
  after_results_simp
  simp only [pval8_main_v118, pval8_main_v10, pval8_main_v126, pval8_main_v124, pval8_main_v127, pval8_main_v35] <;> rfl
set_option maxRecDepth 16384 in
set_option maxHeartbeats 4000000 in
theorem pval9_main_v147 (V0 : Valuation τ sig (Elt F)) : pval9 V0 (no_index (Proc.devRef .tc main_v147)) = (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.lowI (KChains.clip (V0 (Proc.devRef .tc main_arg1)))))) := by
  unfold pval9
  simp only [piece6]
  after_results_simp
  simp only [pval8_main_v10, pval8_main_v28, pval8_main_v30, pval8_main_v26] <;> rfl

end Cert.KRead

end
-- ==== Proof.KReadD.lean ====
/-
  The host operations before the first region, continued: window ten.
-/
import proofs.«139037_j17609365914513_2_alg».proof.Proof.KReadC

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

/-- The buffer contents after the first 10 windows. -/
def pval10 (V0 : Valuation τ sig (Elt F)) : Valuation τ sig (Elt F) := StableHlo.after piece7 (pval9 V0)
/-- The buffers the window's operations write. -/
abbrev pW10 : List (Ref sig .tc) := [main_cst_36, main_v148, main_v149, main_v150, main_v151, main_c_37, main_v152, main_v153, main_c_38, main_v154, main_v155, main_v156, main_v157, main_c_39, main_v158, main_v159, main_c_40, main_v160, main_v161, main_v162, main_v163, main_v164, main_v165, main_v166]
set_option maxRecDepth 8192 in
theorem pwrites10 : (piece7 : List (HloOp τ sig (Elt F))).Forall fun op => op.writes ⊆ (pW10.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval10_keep (V0 : Valuation τ sig (Elt F)) (r : Ref sig .tc) (h : r ∉ pW10) :
    pval10 V0 (Proc.devRef .tc r) = pval9 V0 (Proc.devRef .tc r) :=
  StableHlo.after_of_writes_sub piece7 _ pwrites10 h
theorem pval10_main_arg1 (V0 : Valuation τ sig (Elt F)) : pval10 V0 (no_index (Proc.devRef .tc main_arg1)) = (V0 (Proc.devRef .tc main_arg1)) :=
  (pval10_keep V0 main_arg1 (by decide)).trans (pval9_main_arg1 V0)
theorem pval10_main_arg2 (V0 : Valuation τ sig (Elt F)) : pval10 V0 (no_index (Proc.devRef .tc main_arg2)) = (V0 (Proc.devRef .tc main_arg2)) :=
  (pval10_keep V0 main_arg2 (by decide)).trans (pval9_main_arg2 V0)
theorem pval10_main_arg3 (V0 : Valuation τ sig (Elt F)) : pval10 V0 (no_index (Proc.devRef .tc main_arg3)) = (V0 (Proc.devRef .tc main_arg3)) :=
  (pval10_keep V0 main_arg3 (by decide)).trans (pval9_main_arg3 V0)
theorem pval10_main_arg4 (V0 : Valuation τ sig (Elt F)) : pval10 V0 (no_index (Proc.devRef .tc main_arg4)) = (V0 (Proc.devRef .tc main_arg4)) :=
  (pval10_keep V0 main_arg4 (by decide)).trans (pval9_main_arg4 V0)
theorem pval10_main_arg5 (V0 : Valuation τ sig (Elt F)) : pval10 V0 (no_index (Proc.devRef .tc main_arg5)) = (V0 (Proc.devRef .tc main_arg5)) :=
  (pval10_keep V0 main_arg5 (by decide)).trans (pval9_main_arg5 V0)
theorem pval10_main_arg6 (V0 : Valuation τ sig (Elt F)) : pval10 V0 (no_index (Proc.devRef .tc main_arg6)) = (V0 (Proc.devRef .tc main_arg6)) :=
  (pval10_keep V0 main_arg6 (by decide)).trans (pval9_main_arg6 V0)
theorem pval10_main_v8 (V0 : Valuation τ sig (Elt F)) : pval10 V0 (no_index (Proc.devRef .tc main_v8)) = (KChains.invDeg (V0 (Proc.devRef .tc main_arg3))) :=
  (pval10_keep V0 main_v8 (by decide)).trans (pval9_main_v8 V0)
theorem pval10_main_v33 (V0 : Valuation τ sig (Elt F)) : pval10 V0 (no_index (Proc.devRef .tc main_v33)) = (KChains.colF0 (KChains.frac (KChains.clip (V0 (Proc.devRef .tc main_arg1))))) :=
  (pval10_keep V0 main_v33 (by decide)).trans (pval9_main_v33 V0)
theorem pval10_main_v34 (V0 : Valuation τ sig (Elt F)) : pval10 V0 (no_index (Proc.devRef .tc main_v34)) = (KChains.colF1 (KChains.frac (KChains.clip (V0 (Proc.devRef .tc main_arg1))))) :=
  (pval10_keep V0 main_v34 (by decide)).trans (pval9_main_v34 V0)
theorem pval10_main_v68 (V0 : Valuation τ sig (Elt F)) : pval10 V0 (no_index (Proc.devRef .tc main_v68)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval10_keep V0 main_v68 (by decide)).trans (pval9_main_v68 V0)
theorem pval10_main_v101 (V0 : Valuation τ sig (Elt F)) : pval10 V0 (no_index (Proc.devRef .tc main_v101)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval10_keep V0 main_v101 (by decide)).trans (pval9_main_v101 V0)
theorem pval10_main_v134 (V0 : Valuation τ sig (Elt F)) : pval10 V0 (no_index (Proc.devRef .tc main_v134)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) :=
  (pval10_keep V0 main_v134 (by decide)).trans (pval9_main_v134 V0)
set_option maxRecDepth 16384 in
set_option maxHeartbeats 4000000 in
theorem pval10_main_v151 (V0 : Valuation τ sig (Elt F)) : pval10 V0 (no_index (Proc.devRef .tc main_v151)) = ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) := by
  unfold pval10
  simp only [piece7]
  after_results_simp
  simp only [pval9_main_v147, pval9_main_v35] <;> rfl
set_option maxRecDepth 16384 in
set_option maxHeartbeats 4000000 in
theorem pval10_main_v166 (V0 : Valuation τ sig (Elt F)) : pval10 V0 (no_index (Proc.devRef .tc main_v166)) = ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1))))))) := by
  unfold pval10
  simp only [piece7]
  after_results_simp
  simp only [pval9_main_v10, pval9_main_v28, pval9_main_v30, pval9_main_v32, pval9_main_v35] <;> rfl

end Cert.KRead

end
-- ==== Proof.KReadE.lean ====
/-
  The host operations before the first region, continued: window eleven.
-/
import proofs.«139037_j17609365914513_2_alg».proof.Proof.KReadD

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

/-- The buffer contents after the first 11 windows. -/
def pval11 (V0 : Valuation τ sig (Elt F)) : Valuation τ sig (Elt F) := StableHlo.after piece8 (pval10 V0)
/-- The buffers the window's operations write. -/
abbrev pW11 : List (Ref sig .tc) := [main_v167, main_cst_41, main_v168, main_v169, main_v170, main_v171, main_v172, main_v173, main_v174, main_cst_42, main_v175, main_v176, main_v177, main_v178, main_cst_43, main_v179, main_v180, main_v181, main_v182, main_v183, main_v184, main_v185, main_v186, main_v187]
set_option maxRecDepth 8192 in
theorem pwrites11 : (piece8 : List (HloOp τ sig (Elt F))).Forall fun op => op.writes ⊆ (pW11.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval11_keep (V0 : Valuation τ sig (Elt F)) (r : Ref sig .tc) (h : r ∉ pW11) :
    pval11 V0 (Proc.devRef .tc r) = pval10 V0 (Proc.devRef .tc r) :=
  StableHlo.after_of_writes_sub piece8 _ pwrites11 h
theorem pval11_main_arg1 (V0 : Valuation τ sig (Elt F)) : pval11 V0 (no_index (Proc.devRef .tc main_arg1)) = (V0 (Proc.devRef .tc main_arg1)) :=
  (pval11_keep V0 main_arg1 (by decide)).trans (pval10_main_arg1 V0)
theorem pval11_main_arg2 (V0 : Valuation τ sig (Elt F)) : pval11 V0 (no_index (Proc.devRef .tc main_arg2)) = (V0 (Proc.devRef .tc main_arg2)) :=
  (pval11_keep V0 main_arg2 (by decide)).trans (pval10_main_arg2 V0)
theorem pval11_main_arg3 (V0 : Valuation τ sig (Elt F)) : pval11 V0 (no_index (Proc.devRef .tc main_arg3)) = (V0 (Proc.devRef .tc main_arg3)) :=
  (pval11_keep V0 main_arg3 (by decide)).trans (pval10_main_arg3 V0)
theorem pval11_main_arg4 (V0 : Valuation τ sig (Elt F)) : pval11 V0 (no_index (Proc.devRef .tc main_arg4)) = (V0 (Proc.devRef .tc main_arg4)) :=
  (pval11_keep V0 main_arg4 (by decide)).trans (pval10_main_arg4 V0)
theorem pval11_main_arg5 (V0 : Valuation τ sig (Elt F)) : pval11 V0 (no_index (Proc.devRef .tc main_arg5)) = (V0 (Proc.devRef .tc main_arg5)) :=
  (pval11_keep V0 main_arg5 (by decide)).trans (pval10_main_arg5 V0)
theorem pval11_main_arg6 (V0 : Valuation τ sig (Elt F)) : pval11 V0 (no_index (Proc.devRef .tc main_arg6)) = (V0 (Proc.devRef .tc main_arg6)) :=
  (pval11_keep V0 main_arg6 (by decide)).trans (pval10_main_arg6 V0)
theorem pval11_main_v8 (V0 : Valuation τ sig (Elt F)) : pval11 V0 (no_index (Proc.devRef .tc main_v8)) = (KChains.invDeg (V0 (Proc.devRef .tc main_arg3))) :=
  (pval11_keep V0 main_v8 (by decide)).trans (pval10_main_v8 V0)
set_option maxRecDepth 16384 in
set_option maxHeartbeats 4000000 in
theorem pval11_main_v178 (V0 : Valuation τ sig (Elt F)) : pval11 V0 (no_index (Proc.devRef .tc main_v178)) = ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF1 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) (KChains.colF1 (KChains.frac (KChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF0 (KChains.frac (KChains.clip (V0 (Proc.devRef .tc main_arg1)))))))) := by
  unfold pval11
  simp only [piece8]
  after_results_simp
  simp only [pval10_main_v68, pval10_main_v34, pval10_main_v101, pval10_main_v33] <;> rfl
set_option maxRecDepth 16384 in
set_option maxHeartbeats 4000000 in
theorem pval11_main_v187 (V0 : Valuation τ sig (Elt F)) : pval11 V0 (no_index (Proc.devRef .tc main_v187)) = ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF1 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.lowI (KChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (KChains.colF2 (KChains.frac (KChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.highI (KChains.lowI (KChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (KChains.colF2 (KChains.frac (KChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) (KChains.colF1 (KChains.frac (KChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) (KChains.colF0 (KChains.frac (KChains.clip (V0 (Proc.devRef .tc main_arg1))))))) := by
  unfold pval11
  simp only [piece8]
  after_results_simp
  simp only [pval10_main_v134, pval10_main_v34, pval10_main_v151, pval10_main_v166, pval10_main_v33] <;> rfl

end Cert.KRead

end
-- ==== Proof.KReadF.lean ====
/-
  The host operations before the first region, concluded: window twelve (the first layer's neighbour sums and its bias row).
-/
import proofs.«139037_j17609365914513_2_alg».proof.Proof.KReadE

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

/-- Two arrays side by side along the channel axis. -/
def pcat_main_v191 : (⟨S100000x3, .f32⟩ : BufTy).Contents (Elt F) → (⟨S100000x16, .f32⟩ : BufTy).Contents (Elt F) → (⟨S100000x19, .f32⟩ : BufTy).Contents (Elt F) :=
  fun a b => concatenate S100000x19 1 [⟨S100000x3, a⟩, ⟨S100000x16, b⟩] concatenates_S100000x3_S100000x16_S100000x19_d1
/-- The window's operations, the join spelt by its name. -/
abbrev piece9c : List (HloOp τ sig (Elt F)) :=
  [ StableHlo.binary main_v178 main_v187 main_v188 (addf : (⟨S100000x16, .f32⟩ : BufTy).Contents (Elt F) → (⟨S100000x16, .f32⟩ : BufTy).Contents (Elt F) → (⟨S100000x16, .f32⟩ : BufTy).Contents (Elt F)),
    StableHlo.nullary main_cst_44 (constant S_ .f32 0x43000000#32),
    StableHlo.unary main_cst_44 main_v189 (broadcastInDim S100000x3 ![] bcast_S_S100000x3 : (⟨S_, .f32⟩ : BufTy).Contents (Elt F) → (⟨S100000x3, .f32⟩ : BufTy).Contents (Elt F)),
    StableHlo.binary main_arg1 main_v189 main_v190 (Host.divf : (⟨S100000x3, .f32⟩ : BufTy).Contents (Elt F) → (⟨S100000x3, .f32⟩ : BufTy).Contents (Elt F) → (⟨S100000x3, .f32⟩ : BufTy).Contents (Elt F)),
    StableHlo.binary main_v190 main_v188 main_v191 (pcat_main_v191 : (⟨S100000x3, .f32⟩ : BufTy).Contents (Elt F) → (⟨S100000x16, .f32⟩ : BufTy).Contents (Elt F) → (⟨S100000x19, .f32⟩ : BufTy).Contents (Elt F)),
    StableHlo.unary main_v191 main_v192 ((truncf .bf16 · bitsLt_bf16_f32) : (⟨S100000x19, .f32⟩ : BufTy).Contents (Elt F) → (⟨S100000x19, .bf16⟩ : BufTy).Contents (Elt F)),
    StableHlo.nullary main_c_45 (constantI S_ 32 0#32),
    StableHlo.unary main_c_45 main_v193 (broadcastInDim S1600000 ![] bcast_S_S1600000 : (⟨S_, .i32⟩ : BufTy).Contents (Elt F) → (⟨S1600000, .i32⟩ : BufTy).Contents (Elt F)),
    StableHlo.binary main_arg2 main_v193 main_v194 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v195 (broadcastInDim S1600000 ![] bcast_S_S1600000 : (⟨S_, .i32⟩ : BufTy).Contents (Elt F) → (⟨S1600000, .i32⟩ : BufTy).Contents (Elt F)),
    StableHlo.binary main_arg2 main_v195 main_v196 (addi : (⟨S1600000, .i32⟩ : BufTy).Contents (Elt F) → (⟨S1600000, .i32⟩ : BufTy).Contents (Elt F) → (⟨S1600000, .i32⟩ : BufTy).Contents (Elt F)),
    StableHlo.ternary main_v194 main_v196 main_arg2 main_v197 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v197 main_v198 (broadcastInDim S1600000x1 ![0] bcast_S1600000_S1600000x1_0 : (⟨S1600000, .i32⟩ : BufTy).Contents (Elt F) → (⟨S1600000x1, .i32⟩ : BufTy).Contents (Elt F)),
    StableHlo.binary main_v192 main_v198 main_v199 ((fun x i => Host.gather gather_S100000x19_S1600000x1_S1600000x19_1_0_n_n_0_1_119 x i) : (⟨S100000x19, .bf16⟩ : BufTy).Contents (Elt F) → (⟨S1600000x1, .i32⟩ : BufTy).Contents (Elt F) → (⟨S1600000x19, .bf16⟩ : BufTy).Contents (Elt F)),
    StableHlo.unary main_v199 main_v200 ((extf .f32 · bitsLt_bf16_f32) : (⟨S1600000x19, .bf16⟩ : BufTy).Contents (Elt F) → (⟨S1600000x19, .f32⟩ : BufTy).Contents (Elt F)),
    StableHlo.nullary main_cst_47 (constant S_ .f32 0x00000000#32),
    StableHlo.unary main_cst_47 main_v201 (broadcastInDim S100000x19 ![] bcast_S_S100000x19 : (⟨S_, .f32⟩ : BufTy).Contents (Elt F) → (⟨S100000x19, .f32⟩ : BufTy).Contents (Elt F)),
    StableHlo.unary main_arg3 main_v202 (broadcastInDim S1600000x1 ![0] bcast_S1600000_S1600000x1_0 : (⟨S1600000, .i32⟩ : BufTy).Contents (Elt F) → (⟨S1600000x1, .i32⟩ : BufTy).Contents (Elt F)),
    StableHlo.ternary main_v201 main_v202 main_v200 main_v203 ((fun x i u => Host.scatterAdd scatter_S100000x19_S1600000x1_S1600000x19_1_0_0_1 x i u) : (⟨S100000x19, .f32⟩ : BufTy).Contents (Elt F) → (⟨S1600000x1, .i32⟩ : BufTy).Contents (Elt F) → (⟨S1600000x19, .f32⟩ : BufTy).Contents (Elt F) → (⟨S100000x19, .f32⟩ : BufTy).Contents (Elt F)),
    StableHlo.reshape main_arg6 main_v204 rfl shapeCasts_S32_S1x32 ]
theorem piece9c_eq : (piece9 : List (HloOp τ sig (Elt F))) = piece9c := rfl

/-- The buffer contents after the first 12 windows. -/
def pval12 (V0 : Valuation τ sig (Elt F)) : Valuation τ sig (Elt F) := StableHlo.after piece9 (pval11 V0)
/-- The buffers the window's operations write. -/
abbrev pW12 : List (Ref sig .tc) := [main_v188, main_cst_44, main_v189, main_v190, main_v191, main_v192, main_c_45, main_v193, main_v194, main_c_46, main_v195, main_v196, main_v197, main_v198, main_v199, main_v200, main_cst_47, main_v201, main_v202, main_v203, main_v204]
set_option maxRecDepth 8192 in
theorem pwrites12 : (piece9 : List (HloOp τ sig (Elt F))).Forall fun op => op.writes ⊆ (pW12.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer the window does not write keeps its contents through it. -/
theorem pval12_keep (V0 : Valuation τ sig (Elt F)) (r : Ref sig .tc) (h : r ∉ pW12) :
    pval12 V0 (Proc.devRef .tc r) = pval11 V0 (Proc.devRef .tc r) :=
  StableHlo.after_of_writes_sub piece9 _ pwrites12 h
theorem pval12_main_arg4 (V0 : Valuation τ sig (Elt F)) : pval12 V0 (no_index (Proc.devRef .tc main_arg4)) = (V0 (Proc.devRef .tc main_arg4)) :=
  (pval12_keep V0 main_arg4 (by decide)).trans (pval11_main_arg4 V0)
theorem pval12_main_arg5 (V0 : Valuation τ sig (Elt F)) : pval12 V0 (no_index (Proc.devRef .tc main_arg5)) = (V0 (Proc.devRef .tc main_arg5)) :=
  (pval12_keep V0 main_arg5 (by decide)).trans (pval11_main_arg5 V0)
theorem pval12_main_v8 (V0 : Valuation τ sig (Elt F)) : pval12 V0 (no_index (Proc.devRef .tc main_v8)) = (KChains.invDeg (V0 (Proc.devRef .tc main_arg3))) :=
  (pval12_keep V0 main_v8 (by decide)).trans (pval11_main_v8 V0)
set_option maxRecDepth 16384 in
set_option maxHeartbeats 4000000 in
theorem pval12_main_v191 (V0 : Valuation τ sig (Elt F)) : pval12 V0 (no_index (Proc.devRef .tc main_v191)) = (KChains.join (V0 (Proc.devRef .tc main_arg1)) (KChains.mix (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.lowI (KChains.clip (V0 (Proc.devRef .tc main_arg1)))))) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.highI (KChains.lowI (KChains.clip (V0 (Proc.devRef .tc main_arg1))))))) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.lowI (KChains.clip (V0 (Proc.devRef .tc main_arg1)))))) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.highI (KChains.lowI (KChains.clip (V0 (Proc.devRef .tc main_arg1))))))) (KChains.colF0 (KChains.frac (KChains.clip (V0 (Proc.devRef .tc main_arg1))))) (KChains.colF1 (KChains.frac (KChains.clip (V0 (Proc.devRef .tc main_arg1))))) (KChains.colF2 (KChains.frac (KChains.clip (V0 (Proc.devRef .tc main_arg1))))))) := by
  unfold pval12
  rw [piece9c_eq]
  simp only [piece9c]
  after_results_simp
  simp only [pval11_main_arg1, pval11_main_v178, pval11_main_v187] <;> rfl
set_option maxRecDepth 16384 in
set_option maxHeartbeats 4000000 in
theorem pval12_main_v203 (V0 : Valuation τ sig (Elt F)) : pval12 V0 (no_index (Proc.devRef .tc main_v203)) = (KChains.agg19 (KChains.join (V0 (Proc.devRef .tc main_arg1)) (KChains.mix (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.lowI (KChains.clip (V0 (Proc.devRef .tc main_arg1)))))) (KChains.corner (KChains.imgLast (V0 (Proc.devRef .tc main_arg0))) (KChains.colI0 (KChains.lowI (KChains.clip (V0 (Proc.devRef .tc main_arg1))))) (KChains.colI1 (KChains.lowI (KChains.clip (V0 (Proc.devRef .tc main_arg1))))) (KChains.colI2 (KChains.highI (KChains.lowI (KChains.clip (V0 (Proc.devRef .tc main_arg1))))))) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.lowI (KChains.clip (V0 (Proc.devRef .tc main_arg1)))))) (KChains.corner (KChains.imgLast (V0 (Proc.devRef .tc main_arg0))) (KChains.colI0 (KChains.lowI (KChains.clip (V0 (Proc.devRef .tc main_arg1))))) (KChains.colI1 (KChains.highI (KChains.lowI (KChains.clip (V0 (Proc.devRef .tc main_arg1)))))) (KChains.colI2 (KChains.highI (KChains.lowI (KChains.clip (V0 (Proc.devRef .tc main_arg1))))))) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.lowI (KChains.clip (V0 (Proc.devRef .tc main_arg1)))))) (KChains.corner (KChains.imgLast (V0 (Proc.devRef .tc main_arg0))) (KChains.colI0 (KChains.highI (KChains.lowI (KChains.clip (V0 (Proc.devRef .tc main_arg1)))))) (KChains.colI1 (KChains.lowI (KChains.clip (V0 (Proc.devRef .tc main_arg1))))) (KChains.colI2 (KChains.highI (KChains.lowI (KChains.clip (V0 (Proc.devRef .tc main_arg1))))))) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.lowI (KChains.clip (V0 (Proc.devRef .tc main_arg1)))))) (KChains.corner (KChains.imgLast (V0 (Proc.devRef .tc main_arg0))) (KChains.colI0 (KChains.highI (KChains.lowI (KChains.clip (V0 (Proc.devRef .tc main_arg1)))))) (KChains.colI1 (KChains.highI (KChains.lowI (KChains.clip (V0 (Proc.devRef .tc main_arg1)))))) (KChains.colI2 (KChains.highI (KChains.lowI (KChains.clip (V0 (Proc.devRef .tc main_arg1))))))) (KChains.colF0 (KChains.frac (KChains.clip (V0 (Proc.devRef .tc main_arg1))))) (KChains.colF1 (KChains.frac (KChains.clip (V0 (Proc.devRef .tc main_arg1))))) (KChains.colF2 (KChains.frac (KChains.clip (V0 (Proc.devRef .tc main_arg1))))))) (V0 (Proc.devRef .tc main_arg2)) (V0 (Proc.devRef .tc main_arg3))) := by
  unfold pval12
  rw [piece9c_eq]
  simp only [piece9c]
  after_results_simp
  simp only [pval11_main_arg3, pval11_main_arg1, pval11_main_v178, pval11_main_v187, pval11_main_arg2] <;> rfl
set_option maxRecDepth 16384 in
set_option maxHeartbeats 4000000 in
theorem pval12_main_v204 (V0 : Valuation τ sig (Elt F)) : pval12 V0 (no_index (Proc.devRef .tc main_v204)) = (KChains.bias0 (V0 (Proc.devRef .tc main_arg6))) := by
  unfold pval12
  rw [piece9c_eq]
  simp only [piece9c]
  after_results_simp
  simp only [pval11_main_arg6] <;> rfl

end Cert.KRead

end
-- ==== Proof.KReadS.lean ====
/-
  The three short stretches of host operations between the regions of the idealized kernel program, read whole: each
  computes the next layer's neighbour sums from the previous region's output, and reshapes the next bias to a row.
-/
import proofs.«139037_j17609365914513_2_alg».proof.Proof.Gen.KernelIdeal.Launch
import proofs.«139037_j17609365914513_2_alg».proof.Proof.KChains
import Idealize.ShloMosaic.Lib.StableHlo.Run

noncomputable section

namespace Cert.KRead

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- After the stretch, the neighbour sums of the previous region's output. -/
theorem hostOps1_main_v217 (V : Valuation τ sig (Elt F)) : StableHlo.after hostOps1 V (no_index (Proc.devRef .tc main_v217)) = KChains.agg32 (V (Proc.devRef .tc main_v205)) (V (Proc.devRef .tc main_arg2)) (V (Proc.devRef .tc main_arg3)) := by
  simp only [hostOps1]
  after_results_simp
  all_goals rfl
set_option maxRecDepth 16384 in
set_option maxHeartbeats 4000000 in
/-- After the stretch, the next bias as a one-row array. -/
theorem hostOps1_main_v218 (V : Valuation τ sig (Elt F)) : StableHlo.after hostOps1 V (no_index (Proc.devRef .tc main_v218)) = KChains.bias1 (V (Proc.devRef .tc main_arg9)) := by
  simp only [hostOps1]
  after_results_simp
  all_goals rfl

set_option maxRecDepth 16384 in
set_option maxHeartbeats 4000000 in
/-- After the stretch, the neighbour sums of the previous region's output. -/
theorem hostOps2_main_v231 (V : Valuation τ sig (Elt F)) : StableHlo.after hostOps2 V (no_index (Proc.devRef .tc main_v231)) = KChains.agg64 (V (Proc.devRef .tc main_v219)) (V (Proc.devRef .tc main_arg2)) (V (Proc.devRef .tc main_arg3)) := by
  simp only [hostOps2]
  after_results_simp
  all_goals rfl
set_option maxRecDepth 16384 in
set_option maxHeartbeats 4000000 in
/-- After the stretch, the next bias as a one-row array. -/
theorem hostOps2_main_v232 (V : Valuation τ sig (Elt F)) : StableHlo.after hostOps2 V (no_index (Proc.devRef .tc main_v232)) = KChains.bias2 (V (Proc.devRef .tc main_arg12)) := by
  simp only [hostOps2]
  after_results_simp
  all_goals rfl

set_option maxRecDepth 16384 in
set_option maxHeartbeats 4000000 in
/-- After the stretch, the neighbour sums of the previous region's output. -/
theorem hostOps3_main_v245 (V : Valuation τ sig (Elt F)) : StableHlo.after hostOps3 V (no_index (Proc.devRef .tc main_v245)) = KChains.agg64 (V (Proc.devRef .tc main_v233)) (V (Proc.devRef .tc main_arg2)) (V (Proc.devRef .tc main_arg3)) := by
  simp only [hostOps3]
  after_results_simp
  all_goals rfl
set_option maxRecDepth 16384 in
set_option maxHeartbeats 4000000 in
/-- After the stretch, the next bias as a one-row array. -/
theorem hostOps3_main_v246 (V : Valuation τ sig (Elt F)) : StableHlo.after hostOps3 V (no_index (Proc.devRef .tc main_v246)) = KChains.bias3 (V (Proc.devRef .tc main_arg15)) := by
  simp only [hostOps3]
  after_results_simp
  all_goals rfl

end Cert.KRead

end
-- ==== Proof.KKeep.lean ====
/-
  Which buffers the later segments of the program leave alone. After the first region the program alternates a short
  stretch of host operations (the neighbour sums and the bias row of the next layer) with a region. A buffer that no
  operation of a stretch writes is the same before and after it; an input array of a region is the same before and
  after the region (only the output array is written back).
-/
import proofs.«139037_j17609365914513_2_alg».proof.Proof.FrameIdeal
import Idealize.ShloMosaic.Lib.StableHlo.Run

set_option maxRecDepth 16384

noncomputable section

namespace Cert.KValue

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]

/-- The buffers the host operations between regions 0 and 1 write. -/
abbrev written1 : List (Ref sig .tc) := [main_v206, main_c_48, main_v207, main_v208, main_c_49, main_v209, main_v210, main_v211, main_v212, main_v213, main_v214, main_cst_50, main_v215, main_v216, main_v217, main_v218]

theorem writes1 : (hostOps1 : List (HloOp τ sig (Elt F))).Forall fun op => op.writes ⊆ (written1.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer those operations do not write is the same before and after them. -/
theorem keep1 (V : Valuation τ sig (Elt F)) (r : Ref sig .tc) (h : r ∉ written1) :
    StableHlo.after hostOps1 V (Proc.devRef .tc r) = V (Proc.devRef .tc r) :=
  StableHlo.after_of_writes_sub hostOps1 V writes1 h

/-- The buffers the host operations between regions 1 and 2 write. -/
abbrev written2 : List (Ref sig .tc) := [main_v220, main_c_51, main_v221, main_v222, main_c_52, main_v223, main_v224, main_v225, main_v226, main_v227, main_v228, main_cst_53, main_v229, main_v230, main_v231, main_v232]

theorem writes2 : (hostOps2 : List (HloOp τ sig (Elt F))).Forall fun op => op.writes ⊆ (written2.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer those operations do not write is the same before and after them. -/
theorem keep2 (V : Valuation τ sig (Elt F)) (r : Ref sig .tc) (h : r ∉ written2) :
    StableHlo.after hostOps2 V (Proc.devRef .tc r) = V (Proc.devRef .tc r) :=
  StableHlo.after_of_writes_sub hostOps2 V writes2 h

/-- The buffers the host operations between regions 2 and 3 write. -/
abbrev written3 : List (Ref sig .tc) := [main_v234, main_c_54, main_v235, main_v236, main_c_55, main_v237, main_v238, main_v239, main_v240, main_v241, main_v242, main_cst_56, main_v243, main_v244, main_v245, main_v246]

theorem writes3 : (hostOps3 : List (HloOp τ sig (Elt F))).Forall fun op => op.writes ⊆ (written3.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer those operations do not write is the same before and after them. -/
theorem keep3 (V : Valuation τ sig (Elt F)) (r : Ref sig .tc) (h : r ∉ written3) :
    StableHlo.after hostOps3 V (Proc.devRef .tc r) = V (Proc.devRef .tc r) :=
  StableHlo.after_of_writes_sub hostOps3 V writes3 h

variable (m : (ℓ : Loc nD τ sig) → Buf (Elt F) ℓ) (ρ : Dev nD → PrngReg)

/-- An input array of region 0 is the same before and after the region. -/
theorem input0 (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))

/-- An input array of region 1 is the same before and after the region. -/
theorem input1 (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))

/-- An input array of region 2 is the same before and after the region. -/
theorem input2 (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-- An input array of region 3 is the same before and after the region. -/
theorem input3 (c : Dev nD) (w : Fin cfg3.W) (hin : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hin _).trans (A_eq3 (V9 m ρ) c w))

end Cert.KValue

end
-- ==== Proof.RChains.lean ====
/-
  What the reference program computes, each value as the composition of the operations that produce it, in program
  order, cut into named stages: the inverse degrees; the clipped positions, their integer and fractional parts; one
  corner's channel values read straight off the four-axis image; the trilinear mix of eight corners; the feature rows;
  the neighbour sums that feed each layer; each layer.
-/
import proofs.«139037_j17609365914513_2_alg».proof.ReferenceIdeal

set_option maxRecDepth 16384

noncomputable section

namespace Cert.RChains

open Cert.ReferenceIdeal Idealize.ShloMosaic
open Cert.ReferenceIdeal.Facts₀ Cert.ReferenceIdeal.Facts

variable {F : FTy → Type} [FloatOps F] [Cert.ReferenceIdeal.Facts]

/-- The reciprocal of each vertex's in-degree (at least one), as a column: 1 / max(Σ over the edges ending at the vertex of 1, 1). -/
def invDeg (dst : (⟨S1600000, .i32⟩ : BufTy).Contents (Elt F)) : (⟨S100000x1, .f32⟩ : BufTy).Contents (Elt F) :=
  ((broadcastInDim S100000x1 ![0] bcast_S100000_S100000x1_0 : (⟨S100000, .f32⟩ : BufTy).Contents (Elt F) → (⟨S100000x1, .f32⟩ : BufTy).Contents (Elt F)) ((Host.divf : (⟨S100000, .f32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x3F800000#32))) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) ((broadcastInDim S1600000 ![] bcast_S_S1600000 : (⟨S_, .f32⟩ : BufTy).Contents (Elt F) → (⟨S1600000, .f32⟩ : BufTy).Contents (Elt F)) ((constant S_ .f32 0x3F800000#32)))) ((broadcastInDim S100000 ![] bcast_S_S100000 : (⟨S_, .f32⟩ : BufTy).Contents (Elt F) → (⟨S100000, .f32⟩ : BufTy).Contents (Elt F)) ((constant S_ .f32 0x3F800000#32))))))

/-- The vertex positions clipped to the grid: min(127, max(0, v)) coordinate by coordinate. -/
def clip (v : (⟨S100000x3, .f32⟩ : BufTy).Contents (Elt F)) : (⟨S100000x3, .f32⟩ : BufTy).Contents (Elt F) :=
  (minimumf ((broadcastInDim S100000x3 ![0, 1] bcast_S1x3_S100000x3_0_1) ((broadcastInDim S1x3 ![1] bcast_S3_S1x3_1) ((constant S3 .f32 0x42FE0000#32)))) (maximumf ((broadcastInDim S100000x3 ![] bcast_S_S100000x3) (id ((constant S_ .f32 0x00000000#32)))) v))

/-- The integer grid coordinates below a clipped position: the floor, as 32-bit integers. -/
def lowI (p : (⟨S100000x3, .f32⟩ : BufTy).Contents (Elt F)) : (⟨S100000x3, .i32⟩ : BufTy).Contents (Elt F) :=
  ((fptosi 32 : (⟨S100000x3, .f32⟩ : BufTy).Contents (Elt F) → (⟨S100000x3, .i32⟩ : BufTy).Contents (Elt F)) ((Host.floor : (⟨S100000x3, .f32⟩ : BufTy).Contents (Elt F) → (⟨S100000x3, .f32⟩ : BufTy).Contents (Elt F)) p))

/-- The next grid coordinates, capped at the last one: min(i + 1, 127). -/
def highI (i : (⟨S100000x3, .i32⟩ : BufTy).Contents (Elt F)) : (⟨S100000x3, .i32⟩ : BufTy).Contents (Elt F) :=
  ((minsi : (⟨S100000x3, .i32⟩ : BufTy).Contents (Elt F) → (⟨S100000x3, .i32⟩ : BufTy).Contents (Elt F) → (⟨S100000x3, .i32⟩ : BufTy).Contents (Elt F)) ((addi : (⟨S100000x3, .i32⟩ : BufTy).Contents (Elt F) → (⟨S100000x3, .i32⟩ : BufTy).Contents (Elt F) → (⟨S100000x3, .i32⟩ : BufTy).Contents (Elt F)) i ((broadcastInDim S100000x3 ![] bcast_S_S100000x3 : (⟨S_, .i32⟩ : BufTy).Contents (Elt F) → (⟨S100000x3, .i32⟩ : BufTy).Contents (Elt F)) ((constantI S_ 32 1#32)))) ((broadcastInDim S100000x3 ![0, 1] bcast_S1x3_S100000x3_0_1 : (⟨S1x3, .i32⟩ : BufTy).Contents (Elt F) → (⟨S100000x3, .i32⟩ : BufTy).Contents (Elt F)) ((broadcastInDim S1x3 ![1] bcast_S3_S1x3_1 : (⟨S3, .i32⟩ : BufTy).Contents (Elt F) → (⟨S1x3, .i32⟩ : BufTy).Contents (Elt F)) ((fptosi 32 : (⟨S3, .f32⟩ : BufTy).Contents (Elt F) → (⟨S3, .i32⟩ : BufTy).Contents (Elt F)) ((constant S3 .f32 0x42FE0000#32))))))

/-- The fractional parts p − ⌊p⌋: the interpolation weights. -/
def frac (p : (⟨S100000x3, .f32⟩ : BufTy).Contents (Elt F)) : (⟨S100000x3, .f32⟩ : BufTy).Contents (Elt F) :=
  ((subf : (⟨S100000x3, .f32⟩ : BufTy).Contents (Elt F) → (⟨S100000x3, .f32⟩ : BufTy).Contents (Elt F) → (⟨S100000x3, .f32⟩ : BufTy).Contents (Elt F)) p ((Host.floor : (⟨S100000x3, .f32⟩ : BufTy).Contents (Elt F) → (⟨S100000x3, .f32⟩ : BufTy).Contents (Elt F)) p))

/-- The first coordinate of every vertex, as a vector of integers. -/
def colI0 (i : (⟨S100000x3, .i32⟩ : BufTy).Contents (Elt F)) : (⟨S100000, .i32⟩ : BufTy).Contents (Elt F) :=
  (shapeCast S100000 (((extractStridedSlice S100000x1 ![0, 0] · slices_S100000x3_S100000x1_0_0) : (⟨S100000x3, .i32⟩ : BufTy).Contents (Elt F) → (⟨S100000x1, .i32⟩ : BufTy).Contents (Elt F)) i) shapeCasts_S100000x1_S100000)

/-- The second coordinate of every vertex. -/
def colI1 (i : (⟨S100000x3, .i32⟩ : BufTy).Contents (Elt F)) : (⟨S100000, .i32⟩ : BufTy).Contents (Elt F) :=
  (shapeCast S100000 (((extractStridedSlice S100000x1 ![0, 1] · slices_S100000x3_S100000x1_0_1) : (⟨S100000x3, .i32⟩ : BufTy).Contents (Elt F) → (⟨S100000x1, .i32⟩ : BufTy).Contents (Elt F)) i) shapeCasts_S100000x1_S100000)

/-- The third coordinate of every vertex. -/
def colI2 (i : (⟨S100000x3, .i32⟩ : BufTy).Contents (Elt F)) : (⟨S100000, .i32⟩ : BufTy).Contents (Elt F) :=
  (shapeCast S100000 (((extractStridedSlice S100000x1 ![0, 2] · slices_S100000x3_S100000x1_0_2) : (⟨S100000x3, .i32⟩ : BufTy).Contents (Elt F) → (⟨S100000x1, .i32⟩ : BufTy).Contents (Elt F)) i) shapeCasts_S100000x1_S100000)

/-- The first weight of every vertex, as a column. -/
def colF0 (w : (⟨S100000x3, .f32⟩ : BufTy).Contents (Elt F)) : (⟨S100000x1, .f32⟩ : BufTy).Contents (Elt F) :=
  (((extractStridedSlice S100000x1 ![0, 0] · slices_S100000x3_S100000x1_0_0) : (⟨S100000x3, .f32⟩ : BufTy).Contents (Elt F) → (⟨S100000x1, .f32⟩ : BufTy).Contents (Elt F)) w)

/-- The second weight of every vertex. -/
def colF1 (w : (⟨S100000x3, .f32⟩ : BufTy).Contents (Elt F)) : (⟨S100000x1, .f32⟩ : BufTy).Contents (Elt F) :=
  (((extractStridedSlice S100000x1 ![0, 1] · slices_S100000x3_S100000x1_0_1) : (⟨S100000x3, .f32⟩ : BufTy).Contents (Elt F) → (⟨S100000x1, .f32⟩ : BufTy).Contents (Elt F)) w)

/-- The third weight of every vertex. -/
def colF2 (w : (⟨S100000x3, .f32⟩ : BufTy).Contents (Elt F)) : (⟨S100000x1, .f32⟩ : BufTy).Contents (Elt F) :=
  (((extractStridedSlice S100000x1 ![0, 2] · slices_S100000x3_S100000x1_0_2) : (⟨S100000x3, .f32⟩ : BufTy).Contents (Elt F) → (⟨S100000x1, .f32⟩ : BufTy).Contents (Elt F)) w)

/-- The 16 channel values at one corner of every vertex's grid cell: img[·, x, y, z] (each negative coordinate wrapped by 128), one row per vertex. -/
def corner (img : (⟨S16x128x128x128, .f32⟩ : BufTy).Contents (Elt F)) (x : (⟨S100000, .i32⟩ : BufTy).Contents (Elt F)) (y : (⟨S100000, .i32⟩ : BufTy).Contents (Elt F)) (z : (⟨S100000, .i32⟩ : BufTy).Contents (Elt F)) : (⟨S100000x16, .f32⟩ : BufTy).Contents (Elt F) :=
  (((transpose S100000x16 [1, 0] · transposes_S16x100000_S100000x16_1_0) : (⟨S16x100000, .f32⟩ : BufTy).Contents (Elt F) → (⟨S100000x16, .f32⟩ : BufTy).Contents (Elt F)) (((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)) img (concatenate S100000x3 1 [⟨S100000x1, ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) x ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) x ((broadcastInDim S100000 ![] bcast_S_S100000 : (⟨S_, .i32⟩ : BufTy).Contents (Elt F) → (⟨S100000, .i32⟩ : BufTy).Contents (Elt F)) ((constantI S_ 32 128#32)))) x))⟩, ⟨S100000x1, ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) y ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) y ((broadcastInDim S100000 ![] bcast_S_S100000 : (⟨S_, .i32⟩ : BufTy).Contents (Elt F) → (⟨S100000, .i32⟩ : BufTy).Contents (Elt F)) ((constantI S_ 32 128#32)))) y))⟩, ⟨S100000x1, ((broadcastInDim S100000x1 ![0] bcast_S100000_S100000x1_0 : (⟨S100000, .i32⟩ : BufTy).Contents (Elt F) → (⟨S100000x1, .i32⟩ : BufTy).Contents (Elt F)) ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) z ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) z ((broadcastInDim S100000 ![] bcast_S_S100000 : (⟨S_, .i32⟩ : BufTy).Contents (Elt F) → (⟨S100000, .i32⟩ : BufTy).Contents (Elt F)) ((constantI S_ 32 128#32)))) z))⟩] concatenates_S100000x1_S100000x1_S100000x1_S100000x3_d1)))

/-- The trilinear interpolation of the eight corner rows by the three weights: along the third axis, then the second, then the first. -/
def mix (c000 : (⟨S100000x16, .f32⟩ : BufTy).Contents (Elt F)) (c001 : (⟨S100000x16, .f32⟩ : BufTy).Contents (Elt F)) (c010 : (⟨S100000x16, .f32⟩ : BufTy).Contents (Elt F)) (c011 : (⟨S100000x16, .f32⟩ : BufTy).Contents (Elt F)) (c100 : (⟨S100000x16, .f32⟩ : BufTy).Contents (Elt F)) (c101 : (⟨S100000x16, .f32⟩ : BufTy).Contents (Elt F)) (c110 : (⟨S100000x16, .f32⟩ : BufTy).Contents (Elt F)) (c111 : (⟨S100000x16, .f32⟩ : BufTy).Contents (Elt F)) (wx : (⟨S100000x1, .f32⟩ : BufTy).Contents (Elt F)) (wy : (⟨S100000x1, .f32⟩ : BufTy).Contents (Elt F)) (wz : (⟨S100000x1, .f32⟩ : BufTy).Contents (Elt F)) : (⟨S100000x16, .f32⟩ : BufTy).Contents (Elt F) :=
  ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c000 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c001 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wy))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c010 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c011 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) wy))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wx))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c100 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c101 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wy))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) c110 ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) wz))) ((mulf : (⟨S100000x16, .f32⟩ : BufTy).Contents (Elt F) → (⟨S100000x16, .f32⟩ : BufTy).Contents (Elt F) → (⟨S100000x16, .f32⟩ : BufTy).Contents (Elt F)) c111 ((broadcastInDim S100000x16 ![0, 1] bcast_S100000x1_S100000x16_0_1 : (⟨S100000x1, .f32⟩ : BufTy).Contents (Elt F) → (⟨S100000x16, .f32⟩ : BufTy).Contents (Elt F)) wz))) ((broadcastInDim S100000x16 ![0, 1] bcast_S100000x1_S100000x16_0_1 : (⟨S100000x1, .f32⟩ : BufTy).Contents (Elt F) → (⟨S100000x16, .f32⟩ : BufTy).Contents (Elt F)) wy))) ((broadcastInDim S100000x16 ![0, 1] bcast_S100000x1_S100000x16_0_1 : (⟨S100000x1, .f32⟩ : BufTy).Contents (Elt F) → (⟨S100000x16, .f32⟩ : BufTy).Contents (Elt F)) wx)))

/-- The feature rows: the position divided by 128, then the 16 interpolated channels. -/
def join (v : (⟨S100000x3, .f32⟩ : BufTy).Contents (Elt F)) (t : (⟨S100000x16, .f32⟩ : BufTy).Contents (Elt F)) : (⟨S100000x19, .f32⟩ : BufTy).Contents (Elt F) :=
  (((fun a b => concatenate S100000x19 1 [⟨S100000x3, a⟩, ⟨S100000x16, b⟩] concatenates_S100000x3_S100000x16_S100000x19_d1) : (⟨S100000x3, .f32⟩ : BufTy).Contents (Elt F) → (⟨S100000x16, .f32⟩ : BufTy).Contents (Elt F) → (⟨S100000x19, .f32⟩ : BufTy).Contents (Elt F)) ((Host.divf : (⟨S100000x3, .f32⟩ : BufTy).Contents (Elt F) → (⟨S100000x3, .f32⟩ : BufTy).Contents (Elt F) → (⟨S100000x3, .f32⟩ : BufTy).Contents (Elt F)) v ((broadcastInDim S100000x3 ![] bcast_S_S100000x3 : (⟨S_, .f32⟩ : BufTy).Contents (Elt F) → (⟨S100000x3, .f32⟩ : BufTy).Contents (Elt F)) ((constant S_ .f32 0x43000000#32)))) t)

/-- The neighbour sums of a 19-channel feature array: the rows gathered at the edges' sources (negative indices wrapped), summed into the edges' destinations. -/
def agg19 (h : (⟨S100000x19, .f32⟩ : BufTy).Contents (Elt F)) (src : (⟨S1600000, .i32⟩ : BufTy).Contents (Elt F)) (dst : (⟨S1600000, .i32⟩ : BufTy).Contents (Elt F)) : (⟨S100000x19, .f32⟩ : BufTy).Contents (Elt F) :=
  (((fun x i u => Host.scatterAdd scatter_S100000x19_S1600000x1_S1600000x19_1_0_0_1 x i u) : (⟨S100000x19, .f32⟩ : BufTy).Contents (Elt F) → (⟨S1600000x1, .i32⟩ : BufTy).Contents (Elt F) → (⟨S1600000x19, .f32⟩ : BufTy).Contents (Elt F) → (⟨S100000x19, .f32⟩ : BufTy).Contents (Elt F)) ((broadcastInDim S100000x19 ![] bcast_S_S100000x19 : (⟨S_, .f32⟩ : BufTy).Contents (Elt F) → (⟨S100000x19, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) (((fun x i => Host.gather gather_S100000x19_S1600000x1_S1600000x19_1_0_n_n_0_1_119 x i) : (⟨S100000x19, .f32⟩ : BufTy).Contents (Elt F) → (⟨S1600000x1, .i32⟩ : BufTy).Contents (Elt F) → (⟨S1600000x19, .f32⟩ : BufTy).Contents (Elt F)) h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32)))) src))))

/-- The neighbour sums of a 32-channel feature array. -/
def agg32 (h : (⟨S100000x32, .f32⟩ : BufTy).Contents (Elt F)) (src : (⟨S1600000, .i32⟩ : BufTy).Contents (Elt F)) (dst : (⟨S1600000, .i32⟩ : BufTy).Contents (Elt F)) : (⟨S100000x32, .f32⟩ : BufTy).Contents (Elt F) :=
  (((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ((broadcastInDim S100000x32 ![] bcast_S_S100000x32 : (⟨S_, .f32⟩ : BufTy).Contents (Elt F) → (⟨S100000x32, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) (((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32)))) src))))

/-- The neighbour sums of a 64-channel feature array. -/
def agg64 (h : (⟨S100000x64, .f32⟩ : BufTy).Contents (Elt F)) (src : (⟨S1600000, .i32⟩ : BufTy).Contents (Elt F)) (dst : (⟨S1600000, .i32⟩ : BufTy).Contents (Elt F)) : (⟨S100000x64, .f32⟩ : BufTy).Contents (Elt F) :=
  (((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) ((constant S_ .f32 0x00000000#32))) ((broadcastInDim S1600000x1 ![0] bcast_S1600000_S1600000x1_0 : (⟨S1600000, .i32⟩ : BufTy).Contents (Elt F) → (⟨S1600000x1, .i32⟩ : BufTy).Contents (Elt F)) dst) (((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) src ((broadcastInDim S1600000 ![] bcast_S_S1600000 : (⟨S_, .i32⟩ : BufTy).Contents (Elt F) → (⟨S1600000, .i32⟩ : BufTy).Contents (Elt F)) ((constantI S_ 32 0#32)))) ((addi : (⟨S1600000, .i32⟩ : BufTy).Contents (Elt F) → (⟨S1600000, .i32⟩ : BufTy).Contents (Elt F) → (⟨S1600000, .i32⟩ : BufTy).Contents (Elt F)) src ((broadcastInDim S1600000 ![] bcast_S_S1600000 : (⟨S_, .i32⟩ : BufTy).Contents (Elt F) → (⟨S1600000, .i32⟩ : BufTy).Contents (Elt F)) ((constantI S_ 32 100000#32)))) src))))

/-- The first hidden layer: the affine map of the features and their scaled neighbour sums, then LeakyReLU. -/
def layer0 (h : (⟨S100000x19, .f32⟩ : BufTy).Contents (Elt F)) (agg : (⟨S100000x19, .f32⟩ : BufTy).Contents (Elt F)) (inv : (⟨S100000x1, .f32⟩ : BufTy).Contents (Elt F)) (ws : (⟨S19x32, .f32⟩ : BufTy).Contents (Elt F)) (wn : (⟨S19x32, .f32⟩ : BufTy).Contents (Elt F)) (b : (⟨S32, .f32⟩ : BufTy).Contents (Elt F)) : (⟨S100000x32, .f32⟩ : BufTy).Contents (Elt F) :=
  (select ((cmpf .oge) ((addf : (⟨S100000x32, .f32⟩ : BufTy).Contents (Elt F) → (⟨S100000x32, .f32⟩ : BufTy).Contents (Elt F) → (⟨S100000x32, .f32⟩ : BufTy).Contents (Elt F)) ((addf : (⟨S100000x32, .f32⟩ : BufTy).Contents (Elt F) → (⟨S100000x32, .f32⟩ : BufTy).Contents (Elt F) → (⟨S100000x32, .f32⟩ : BufTy).Contents (Elt F)) (((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)) h ws) (((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)) ((mulf : (⟨S100000x19, .f32⟩ : BufTy).Contents (Elt F) → (⟨S100000x19, .f32⟩ : BufTy).Contents (Elt F) → (⟨S100000x19, .f32⟩ : BufTy).Contents (Elt F)) agg ((broadcastInDim S100000x19 ![0, 1] bcast_S100000x1_S100000x19_0_1 : (⟨S100000x1, .f32⟩ : BufTy).Contents (Elt F) → (⟨S100000x19, .f32⟩ : BufTy).Contents (Elt F)) inv)) wn)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) b))) ((broadcastInDim S100000x32 ![] bcast_S_S100000x32) ((constant S_ .f32 0x00000000#32)))) ((addf : (⟨S100000x32, .f32⟩ : BufTy).Contents (Elt F) → (⟨S100000x32, .f32⟩ : BufTy).Contents (Elt F) → (⟨S100000x32, .f32⟩ : BufTy).Contents (Elt F)) ((addf : (⟨S100000x32, .f32⟩ : BufTy).Contents (Elt F) → (⟨S100000x32, .f32⟩ : BufTy).Contents (Elt F) → (⟨S100000x32, .f32⟩ : BufTy).Contents (Elt F)) (((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)) h ws) (((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)) ((mulf : (⟨S100000x19, .f32⟩ : BufTy).Contents (Elt F) → (⟨S100000x19, .f32⟩ : BufTy).Contents (Elt F) → (⟨S100000x19, .f32⟩ : BufTy).Contents (Elt F)) agg ((broadcastInDim S100000x19 ![0, 1] bcast_S100000x1_S100000x19_0_1 : (⟨S100000x1, .f32⟩ : BufTy).Contents (Elt F) → (⟨S100000x19, .f32⟩ : BufTy).Contents (Elt F)) inv)) wn)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) b))) (mulf ((broadcastInDim S100000x32 ![] bcast_S_S100000x32) (id ((constant S_ .f32 0x3E99999A#32)))) ((addf : (⟨S100000x32, .f32⟩ : BufTy).Contents (Elt F) → (⟨S100000x32, .f32⟩ : BufTy).Contents (Elt F) → (⟨S100000x32, .f32⟩ : BufTy).Contents (Elt F)) ((addf : (⟨S100000x32, .f32⟩ : BufTy).Contents (Elt F) → (⟨S100000x32, .f32⟩ : BufTy).Contents (Elt F) → (⟨S100000x32, .f32⟩ : BufTy).Contents (Elt F)) (((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)) h ws) (((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)) ((mulf : (⟨S100000x19, .f32⟩ : BufTy).Contents (Elt F) → (⟨S100000x19, .f32⟩ : BufTy).Contents (Elt F) → (⟨S100000x19, .f32⟩ : BufTy).Contents (Elt F)) agg ((broadcastInDim S100000x19 ![0, 1] bcast_S100000x1_S100000x19_0_1 : (⟨S100000x1, .f32⟩ : BufTy).Contents (Elt F) → (⟨S100000x19, .f32⟩ : BufTy).Contents (Elt F)) inv)) wn)) ((broadcastInDim S100000x32 ![0, 1] bcast_S1x32_S100000x32_0_1 : (⟨S1x32, .f32⟩ : BufTy).Contents (Elt F) → (⟨S100000x32, .f32⟩ : BufTy).Contents (Elt F)) ((broadcastInDim S1x32 ![1] bcast_S32_S1x32_1 : (⟨S32, .f32⟩ : BufTy).Contents (Elt F) → (⟨S1x32, .f32⟩ : BufTy).Contents (Elt F)) b)))))

/-- The second hidden layer. -/
def layer1 (h : (⟨S100000x32, .f32⟩ : BufTy).Contents (Elt F)) (agg : (⟨S100000x32, .f32⟩ : BufTy).Contents (Elt F)) (inv : (⟨S100000x1, .f32⟩ : BufTy).Contents (Elt F)) (ws : (⟨S32x64, .f32⟩ : BufTy).Contents (Elt F)) (wn : (⟨S32x64, .f32⟩ : BufTy).Contents (Elt F)) (b : (⟨S64, .f32⟩ : BufTy).Contents (Elt F)) : (⟨S100000x64, .f32⟩ : BufTy).Contents (Elt F) :=
  (select ((cmpf .oge) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) h ws) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) agg ((broadcastInDim S100000x32 ![0, 1] bcast_S100000x1_S100000x32_0_1 : (⟨S100000x1, .f32⟩ : BufTy).Contents (Elt F) → (⟨S100000x32, .f32⟩ : BufTy).Contents (Elt F)) inv)) wn)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S100000x64 ![] bcast_S_S100000x64) ((constant S_ .f32 0x00000000#32)))) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) h ws) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) agg ((broadcastInDim S100000x32 ![0, 1] bcast_S100000x1_S100000x32_0_1 : (⟨S100000x1, .f32⟩ : BufTy).Contents (Elt F) → (⟨S100000x32, .f32⟩ : BufTy).Contents (Elt F)) inv)) wn)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) (mulf ((broadcastInDim S100000x64 ![] bcast_S_S100000x64) (id ((constant S_ .f32 0x3E99999A#32)))) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) h ws) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) agg ((broadcastInDim S100000x32 ![0, 1] bcast_S100000x1_S100000x32_0_1 : (⟨S100000x1, .f32⟩ : BufTy).Contents (Elt F) → (⟨S100000x32, .f32⟩ : BufTy).Contents (Elt F)) inv)) wn)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))))

/-- The third hidden layer. -/
def layer2 (h : (⟨S100000x64, .f32⟩ : BufTy).Contents (Elt F)) (agg : (⟨S100000x64, .f32⟩ : BufTy).Contents (Elt F)) (inv : (⟨S100000x1, .f32⟩ : BufTy).Contents (Elt F)) (ws : (⟨S64x64, .f32⟩ : BufTy).Contents (Elt F)) (wn : (⟨S64x64, .f32⟩ : BufTy).Contents (Elt F)) (b : (⟨S64, .f32⟩ : BufTy).Contents (Elt F)) : (⟨S100000x64, .f32⟩ : BufTy).Contents (Elt F) :=
  (select ((cmpf .oge) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) h ws) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) agg ((broadcastInDim S100000x64 ![0, 1] bcast_S100000x1_S100000x64_0_1 : (⟨S100000x1, .f32⟩ : BufTy).Contents (Elt F) → (⟨S100000x64, .f32⟩ : BufTy).Contents (Elt F)) inv)) wn)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S100000x64 ![] bcast_S_S100000x64) ((constant S_ .f32 0x00000000#32)))) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) h ws) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) agg ((broadcastInDim S100000x64 ![0, 1] bcast_S100000x1_S100000x64_0_1 : (⟨S100000x1, .f32⟩ : BufTy).Contents (Elt F) → (⟨S100000x64, .f32⟩ : BufTy).Contents (Elt F)) inv)) wn)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) (mulf ((broadcastInDim S100000x64 ![] bcast_S_S100000x64) (id ((constant S_ .f32 0x3E99999A#32)))) ((addf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) h ws) (((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) agg ((broadcastInDim S100000x64 ![0, 1] bcast_S100000x1_S100000x64_0_1 : (⟨S100000x1, .f32⟩ : BufTy).Contents (Elt F) → (⟨S100000x64, .f32⟩ : BufTy).Contents (Elt F)) inv)) wn)) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))))

/-- The last layer: the positions moved by f32(0.1) times the affine map. -/
def last (v : (⟨S100000x3, .f32⟩ : BufTy).Contents (Elt F)) (h : (⟨S100000x64, .f32⟩ : BufTy).Contents (Elt F)) (agg : (⟨S100000x64, .f32⟩ : BufTy).Contents (Elt F)) (inv : (⟨S100000x1, .f32⟩ : BufTy).Contents (Elt F)) (ws : (⟨S64x3, .f32⟩ : BufTy).Contents (Elt F)) (wn : (⟨S64x3, .f32⟩ : BufTy).Contents (Elt F)) (b : (⟨S3, .f32⟩ : BufTy).Contents (Elt F)) : (⟨S100000x3, .f32⟩ : BufTy).Contents (Elt F) :=
  ((addf : (⟨S100000x3, .f32⟩ : BufTy).Contents (Elt F) → (⟨S100000x3, .f32⟩ : BufTy).Contents (Elt F) → (⟨S100000x3, .f32⟩ : BufTy).Contents (Elt F)) v ((mulf : (⟨S100000x3, .f32⟩ : BufTy).Contents (Elt F) → (⟨S100000x3, .f32⟩ : BufTy).Contents (Elt F) → (⟨S100000x3, .f32⟩ : BufTy).Contents (Elt F)) ((broadcastInDim S100000x3 ![] bcast_S_S100000x3 : (⟨S_, .f32⟩ : BufTy).Contents (Elt F) → (⟨S100000x3, .f32⟩ : BufTy).Contents (Elt F)) ((constant S_ .f32 0x3DCCCCCD#32))) ((addf : (⟨S100000x3, .f32⟩ : BufTy).Contents (Elt F) → (⟨S100000x3, .f32⟩ : BufTy).Contents (Elt F) → (⟨S100000x3, .f32⟩ : BufTy).Contents (Elt F)) ((addf : (⟨S100000x3, .f32⟩ : BufTy).Contents (Elt F) → (⟨S100000x3, .f32⟩ : BufTy).Contents (Elt F) → (⟨S100000x3, .f32⟩ : BufTy).Contents (Elt F)) (((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)) h ws) (((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) agg ((broadcastInDim S100000x64 ![0, 1] bcast_S100000x1_S100000x64_0_1 : (⟨S100000x1, .f32⟩ : BufTy).Contents (Elt F) → (⟨S100000x64, .f32⟩ : BufTy).Contents (Elt F)) inv)) wn)) ((broadcastInDim S100000x3 ![0, 1] bcast_S1x3_S100000x3_0_1 : (⟨S1x3, .f32⟩ : BufTy).Contents (Elt F) → (⟨S100000x3, .f32⟩ : BufTy).Contents (Elt F)) ((broadcastInDim S1x3 ![1] bcast_S3_S1x3_1 : (⟨S3, .f32⟩ : BufTy).Contents (Elt F) → (⟨S1x3, .f32⟩ : BufTy).Contents (Elt F)) b)))))

/-- The feature rows of the whole mesh from the image and the vertex positions. -/
def feats (img : (⟨S16x128x128x128, .f32⟩ : BufTy).Contents (Elt F)) (v : (⟨S100000x3, .f32⟩ : BufTy).Contents (Elt F)) : (⟨S100000x19, .f32⟩ : BufTy).Contents (Elt F) :=
  let p := clip v
  let lo := lowI p
  let hi := highI lo
  let w := frac p
  join v (mix (corner img (colI0 lo) (colI1 lo) (colI2 lo)) (corner img (colI0 lo) (colI1 lo) (colI2 hi)) (corner img (colI0 lo) (colI1 hi) (colI2 lo)) (corner img (colI0 lo) (colI1 hi) (colI2 hi))
    (corner img (colI0 hi) (colI1 lo) (colI2 lo)) (corner img (colI0 hi) (colI1 lo) (colI2 hi)) (corner img (colI0 hi) (colI1 hi) (colI2 lo)) (corner img (colI0 hi) (colI1 hi) (colI2 hi))
    (colF0 w) (colF1 w) (colF2 w))

end Cert.RChains

end
-- ==== Proof.Bridge.lean ====
/-
  Where the two programs do the same thing. The inverse degrees are the same operations in both. The neighbour sums differ
  only in that the kernel program rounds the gathered rows to bf16 and widens them again on the way — on the extended
  reals a change of float format is the identity, so the two are one function.
-/
import Idealize.ShloMosaic.PureOps.Ideal
import proofs.«139037_j17609365914513_2_alg».proof.Proof.KChains
import proofs.«139037_j17609365914513_2_alg».proof.Proof.RChains

noncomputable section

namespace Cert.Bridge

open Idealize.ShloMosaic

variable [Cert.KernelIdeal.Facts] [Cert.ReferenceIdeal.Facts]

/-- The inverse degrees: the same composition in both programs. -/
theorem invDeg_eq (dst : IVec Cert.ReferenceIdeal.S1600000 32) :
    Cert.KChains.invDeg (F := Ideal) dst = Cert.RChains.invDeg (F := Ideal) dst := rfl

/-- The neighbour sums of a 19-channel array: the format changes around the gather are the identity. -/
theorem agg19_eq (h : FVec Ideal Cert.ReferenceIdeal.S100000x19 .f32) (src dst : IVec Cert.ReferenceIdeal.S1600000 32) :
    Cert.KChains.agg19 (F := Ideal) h src dst = Cert.RChains.agg19 (F := Ideal) h src dst := rfl

/-- The neighbour sums of a 32-channel array. -/
theorem agg32_eq (h : FVec Ideal Cert.ReferenceIdeal.S100000x32 .f32) (src dst : IVec Cert.ReferenceIdeal.S1600000 32) :
    Cert.KChains.agg32 (F := Ideal) h src dst = Cert.RChains.agg32 (F := Ideal) h src dst := rfl

/-- The neighbour sums of a 64-channel array. -/
theorem agg64_eq (h : FVec Ideal Cert.ReferenceIdeal.S100000x64 .f32) (src dst : IVec Cert.ReferenceIdeal.S1600000 32) :
    Cert.KChains.agg64 (F := Ideal) h src dst = Cert.RChains.agg64 (F := Ideal) h src dst := rfl

end Cert.Bridge

end
-- ==== Proof.TriGather.lean ====
/-
  Reading the two gathers of the trilinear sampling at an index.

  The reference fetches, for a vertex and a channel, the image element at a triple of integer coordinates:
  a gather of the [16,128,128,128] image whose start index is the triple, the channel axis kept whole.
  The other program first lays the image out with the channel last and the three space axes flattened
  into one row number, and gathers whole rows of that [2097152,16] array by a single flat row index.
  Each gather reads its start index signed and clamps it into the operand's extent.
-/
import proofs.«139037_j17609365914513_2_alg».proof.KernelIdeal
import proofs.«139037_j17609365914513_2_alg».proof.ReferenceIdeal
import Idealize.ShloMosaic.Lib.ValueIdx
import Idealize.ShloMosaic.Lib.Pipeline.Value
import Idealize.ShloMosaic.Lib.IdealHost

namespace Cert.Tri

open Idealize.ShloMosaic Idealize.ShloMosaic.ValueIdx

section Reference
variable [Cert.ReferenceIdeal.Facts₀]

/-- The reference's gather at channel ch and vertex p: the image at the channel and at the three start
    coordinates of row p, each read signed and clamped into [0, 127]. -/
theorem gatherR_apply {α : Type} (img : Cert.ReferenceIdeal.S16x128x128x128.Idx → α)
    (idx : IVec Cert.ReferenceIdeal.S100000x3 32) (ch : Fin 16) (p : Fin 100000) :
    Host.gather Cert.ReferenceIdeal.gather_S16x128x128x128_S100000x3_S16x100000_0_123_n_n_123_1_16111 img idx (ix2 ch p)
      = img (ix4 ch ⟨min (idx (ix2 p (0 : Fin 3))).toInt.toNat 127, by omega⟩
                    ⟨min (idx (ix2 p (1 : Fin 3))).toInt.toNat 127, by omega⟩
                    ⟨min (idx (ix2 p (2 : Fin 3))).toInt.toNat 127, by omega⟩) := by
  unfold Host.gather
  congr 1
  funext a
  refine Fin.ext ?_
  let d := Cert.ReferenceIdeal.gather_S16x128x128x128_S100000x3_S16x100000_0_123_n_n_123_1_16111
  have hb : ∀ a : Fin 4, d.batchCoord (ix2 ch p) a = 0 := fun a => GatherDims.batchCoord_eq_zero _ _ _ List.not_mem_nil
  match a with
  | ⟨0, _⟩ =>
    show d.start (ix2 ch p) idx 0 + d.batchCoord (ix2 ch p) 0 + d.offCoord (ix2 ch p) 0 = ch.val
    rw [hb]
    have h0 : d.start (ix2 ch p) idx 0 = 0 := by
      unfold GatherDims.start
      rw [dif_neg (show (0 : Fin 4) ∉ d.startIndexMap from (show (0 : Fin 4) ∉ ([1, 2, 3] : List (Fin 4)) by decide))]
    rw [h0]
    simp only [Nat.zero_add, Nat.add_zero]
    rfl
  | ⟨1, _⟩ =>
    show d.start (ix2 ch p) idx 1 + d.batchCoord (ix2 ch p) 1 + d.offCoord (ix2 ch p) 1 = _
    rw [hb, GatherDims.offCoord_eq_zero _ _ _ (fun h => ((GatherDims.mem_sKept _ _).mp h).1 (show (1 : Fin 4) ∈ ([1, 2, 3] : List (Fin 4)) by decide))]
    simp only [Nat.add_zero]
    have hm : (1 : Fin 4) ∈ d.startIndexMap := (show (1 : Fin 4) ∈ ([1, 2, 3] : List (Fin 4)) by decide)
    have hsi : d.siIdx (ix2 ch p) ⟨List.idxOf (1 : Fin 4) d.startIndexMap, List.idxOf_lt_length_iff.2 hm⟩ = ix2 p (0 : Fin 3) := by
      funext b; refine Fin.ext ?_
      match b with
      | ⟨0, _⟩ => rfl
      | ⟨1, _⟩ => rfl
    unfold GatherDims.start
    rw [dif_pos hm]
    exact congrArg (fun k => min (idx k).toInt.toNat 127) hsi
  | ⟨2, _⟩ =>
    show d.start (ix2 ch p) idx 2 + d.batchCoord (ix2 ch p) 2 + d.offCoord (ix2 ch p) 2 = _
    rw [hb, GatherDims.offCoord_eq_zero _ _ _ (fun h => ((GatherDims.mem_sKept _ _).mp h).1 (show (2 : Fin 4) ∈ ([1, 2, 3] : List (Fin 4)) by decide))]
    simp only [Nat.add_zero]
    have hm : (2 : Fin 4) ∈ d.startIndexMap := (show (2 : Fin 4) ∈ ([1, 2, 3] : List (Fin 4)) by decide)
    have hsi : d.siIdx (ix2 ch p) ⟨List.idxOf (2 : Fin 4) d.startIndexMap, List.idxOf_lt_length_iff.2 hm⟩ = ix2 p (1 : Fin 3) := by
      funext b; refine Fin.ext ?_
      match b with
      | ⟨0, _⟩ => rfl
      | ⟨1, _⟩ => rfl
    unfold GatherDims.start
    rw [dif_pos hm]
    exact congrArg (fun k => min (idx k).toInt.toNat 127) hsi
  | ⟨3, _⟩ =>
    show d.start (ix2 ch p) idx 3 + d.batchCoord (ix2 ch p) 3 + d.offCoord (ix2 ch p) 3 = _
    rw [hb, GatherDims.offCoord_eq_zero _ _ _ (fun h => ((GatherDims.mem_sKept _ _).mp h).1 (show (3 : Fin 4) ∈ ([1, 2, 3] : List (Fin 4)) by decide))]
    simp only [Nat.add_zero]
    have hm : (3 : Fin 4) ∈ d.startIndexMap := (show (3 : Fin 4) ∈ ([1, 2, 3] : List (Fin 4)) by decide)
    have hsi : d.siIdx (ix2 ch p) ⟨List.idxOf (3 : Fin 4) d.startIndexMap, List.idxOf_lt_length_iff.2 hm⟩ = ix2 p (2 : Fin 3) := by
      funext b; refine Fin.ext ?_
      match b with
      | ⟨0, _⟩ => rfl
      | ⟨1, _⟩ => rfl
    unfold GatherDims.start
    rw [dif_pos hm]
    exact congrArg (fun k => min (idx k).toInt.toNat 127) hsi

end Reference

section Kernel
variable [Cert.KernelIdeal.Facts₀]

/-- The row gather at vertex p and channel ch: the [2097152,16] array at the row the start index of
    row p names, read signed and clamped into [0, 2097151], and at the channel. -/
theorem gatherK_apply {α : Type} (x : Cert.KernelIdeal.S2097152x16.Idx → α)
    (idx : IVec Cert.KernelIdeal.S100000x1 32) (p : Fin 100000) (ch : Fin 16) :
    Host.gather Cert.KernelIdeal.gather_S2097152x16_S100000x1_S100000x16_1_0_n_n_0_1_116 x idx (ix2 p ch)
      = x (ix2 ⟨min (idx (ix2 p (0 : Fin 1))).toInt.toNat 2097151, by omega⟩ ch) := by
  unfold Host.gather
  congr 1
  funext a
  refine Fin.ext ?_
  let d := Cert.KernelIdeal.gather_S2097152x16_S100000x1_S100000x16_1_0_n_n_0_1_116
  have hb : ∀ a : Fin 2, d.batchCoord (ix2 p ch) a = 0 := fun a => GatherDims.batchCoord_eq_zero _ _ _ List.not_mem_nil
  match a with
  | ⟨0, _⟩ =>
    show d.start (ix2 p ch) idx 0 + d.batchCoord (ix2 p ch) 0 + d.offCoord (ix2 p ch) 0 = _
    rw [hb, GatherDims.offCoord_eq_zero _ _ _ (fun h => ((GatherDims.mem_sKept _ _).mp h).1 (show (0 : Fin 2) ∈ ([0] : List (Fin 2)) by decide))]
    simp only [Nat.add_zero]
    have hm : (0 : Fin 2) ∈ d.startIndexMap := (show (0 : Fin 2) ∈ ([0] : List (Fin 2)) by decide)
    have hsi : d.siIdx (ix2 p ch) ⟨List.idxOf (0 : Fin 2) d.startIndexMap, List.idxOf_lt_length_iff.2 hm⟩ = ix2 p (0 : Fin 1) := by
      funext b; refine Fin.ext ?_
      match b with
      | ⟨0, _⟩ => rfl
      | ⟨1, _⟩ => rfl
    unfold GatherDims.start
    rw [dif_pos hm]
    exact congrArg (fun k => min (idx k).toInt.toNat 2097151) hsi
  | ⟨1, _⟩ =>
    show d.start (ix2 p ch) idx 1 + d.batchCoord (ix2 p ch) 1 + d.offCoord (ix2 p ch) 1 = ch.val
    rw [hb]
    have h0 : d.start (ix2 p ch) idx 1 = 0 := by
      unfold GatherDims.start
      rw [dif_neg (show (1 : Fin 2) ∉ d.startIndexMap from (show (1 : Fin 2) ∉ ([0] : List (Fin 2)) by decide))]
    rw [h0]
    simp only [Nat.zero_add, Nat.add_zero]
    rfl

end Kernel

end Cert.Tri
-- ==== Proof.TriCorner.lean ====
/-
  One corner of the trilinear interpolation, fetched two ways.

  For integer coordinate vectors x, y, z whose entries lie in [0, 127], the reference gathers the 16
  channel values at (x p, y p, z p) straight from the [16,128,128,128] image, while the other program
  gathers row (x p · 128 + y p) · 128 + z p of the image laid out as [2097152,16]. Both are, at vertex p
  and channel ch, the image element (ch, x p, y p, z p). The negative-index wrap each program applies
  first (add the extent when the index is below zero) does nothing on entries in range, and neither does
  the gather's clamp.
-/
import proofs.«139037_j17609365914513_2_alg».proof.Proof.TriGather

namespace Cert.Tri

open Idealize.ShloMosaic Idealize.ShloMosaic.ValueIdx

/-! ## Words -/

/-- A 32-bit word below 2³¹ reads the same signed and unsigned. -/
theorem toInt_of_small (a : BitVec 32) (h : a.toNat < 2 ^ 31) : a.toInt = (a.toNat : Int) := by
  rw [BitVec.toInt_eq_toNat_cond]
  split <;> omega

/-- The wrap of a possibly negative index, on a word that is not negative: the word itself. -/
theorem wrap_small (a c : BitVec 32) (h : a.toNat < 2 ^ 31) :
    Scalar.select (IntOp.cmpi .slt a 0#32) (IntOp.addi a c) a = a := by
  have hs : a.slt 0#32 = false := by
    rw [BitVec.slt_eq_decide, toInt_of_small a h]
    simp
  show Scalar.select (BitVec.ofBool (a.slt 0#32)) (IntOp.addi a c) a = a
  rw [hs]
  exact select_zero _ _

/-- The gather's signed read and clamp of a word below the extent: its value. -/
theorem clamp_small (a : BitVec 32) (n : Nat) (hn : n < 2 ^ 31) (h : a.toNat ≤ n) : min a.toInt.toNat n = a.toNat := by
  rw [toInt_of_small a (by omega), Int.toNat_natCast]
  omega

/-- The flat row number of three coordinates below 128, computed in 32-bit words, does not wrap. -/
theorem flat_toNat (a b c : BitVec 32) (ha : a.toNat < 128) (hb : b.toNat < 128) (hc : c.toNat < 128) :
    (IntOp.addi (IntOp.addi (IntOp.muli a 16384#32) (IntOp.muli b 128#32)) c).toNat = (a.toNat * 128 + b.toNat) * 128 + c.toNat := by
  show ((a * 16384#32 + b * 128#32) + c).toNat = _
  rw [BitVec.toNat_add, BitVec.toNat_add, BitVec.toNat_mul, BitVec.toNat_mul]
  simp only [BitVec.toNat_ofNat]
  omega

/-! ## The reference's corner -/

section Reference
variable [Cert.ReferenceIdeal.Facts₀]
open Cert.ReferenceIdeal Cert.ReferenceIdeal.Facts₀

/-- The reference's wrap of one coordinate vector: add 128 where the entry is negative. -/
abbrev wrapR (x : IVec S100000 32) : IVec S100000 32 :=
  select (cmpi .slt x (broadcastInDim S100000 ![] bcast_S_S100000 (constantI S_ 32 0#32)))
    (addi x (broadcastInDim S100000 ![] bcast_S_S100000 (constantI S_ 32 128#32))) x

/-- The reference's start indices of one corner: the three wrapped coordinate vectors side by side. -/
abbrev idxR (x y z : IVec S100000 32) : IVec S100000x3 32 :=
  concatenate S100000x3 1 [⟨S100000x1, broadcastInDim S100000x1 ![0] bcast_S100000_S100000x1_0 (wrapR x)⟩,
    ⟨S100000x1, broadcastInDim S100000x1 ![0] bcast_S100000_S100000x1_0 (wrapR y)⟩,
    ⟨S100000x1, broadcastInDim S100000x1 ![0] bcast_S100000_S100000x1_0 (wrapR z)⟩]
    concatenates_S100000x1_S100000x1_S100000x1_S100000x3_d1

/-- The reference's corner: gather the channels at the start indices, vertices first. -/
abbrev cornerR {α : Type} (img : S16x128x128x128.Idx → α) (x y z : IVec S100000 32) : S100000x16.Idx → α :=
  transpose S100000x16 [1, 0]
    (Host.gather gather_S16x128x128x128_S100000x3_S16x100000_0_123_n_n_123_1_16111 img (idxR x y z))
    transposes_S16x100000_S100000x16_1_0

theorem wrapR_apply (x : IVec S100000 32) (p : Fin 100000) (h : (x (ix1 p)).toNat < 128) :
    wrapR x (ix1 p) = x (ix1 p) :=
  wrap_small (x (ix1 p)) 128#32 (by omega)

theorem bcast1_apply (w : IVec S100000 32) (p : Fin 100000) :
    broadcastInDim S100000x1 ![0] bcast_S100000_S100000x1_0 w (ix2 p (0 : Fin 1)) = w (ix1 p) :=
  broadcastInDim_apply _ _ w (ix2 p (0 : Fin 1)) (ix1 p) (fun a => match a with | ⟨0, _⟩ => rfl)

theorem cat3_apply0 {w : Nat} (a b c : IVec S100000x1 w) (p : Fin 100000) :
    concatenate S100000x3 1 [⟨S100000x1, a⟩, ⟨S100000x1, b⟩, ⟨S100000x1, c⟩]
      concatenates_S100000x1_S100000x1_S100000x1_S100000x3_d1 (ix2 p (0 : Fin 3)) = a (ix2 p (0 : Fin 1)) :=
  concatenate_apply_piece (t := S100000x3) (1 : Fin 2) [⟨S100000x1, a⟩, ⟨S100000x1, b⟩, ⟨S100000x1, c⟩]
    concatenates_S100000x1_S100000x1_S100000x1_S100000x3_d1 (ix2 p (0 : Fin 3)) 0 (by show (0 : Nat) < 3; omega)
    S100000x1 a rfl rfl 0 rfl (ix2 p (0 : Fin 1))
    (fun b hb => match b, hb with | ⟨0, _⟩, _ => rfl | ⟨1, _⟩, hb => absurd rfl hb) rfl

theorem cat3_apply1 {w : Nat} (a b c : IVec S100000x1 w) (p : Fin 100000) :
    concatenate S100000x3 1 [⟨S100000x1, a⟩, ⟨S100000x1, b⟩, ⟨S100000x1, c⟩]
      concatenates_S100000x1_S100000x1_S100000x1_S100000x3_d1 (ix2 p (1 : Fin 3)) = b (ix2 p (0 : Fin 1)) :=
  concatenate_apply_piece (t := S100000x3) (1 : Fin 2) [⟨S100000x1, a⟩, ⟨S100000x1, b⟩, ⟨S100000x1, c⟩]
    concatenates_S100000x1_S100000x1_S100000x1_S100000x3_d1 (ix2 p (1 : Fin 3)) 1 (by show (1 : Nat) < 3; omega)
    S100000x1 b rfl rfl 1 rfl (ix2 p (0 : Fin 1))
    (fun b hb => match b, hb with | ⟨0, _⟩, _ => rfl | ⟨1, _⟩, hb => absurd rfl hb) rfl

theorem cat3_apply2 {w : Nat} (a b c : IVec S100000x1 w) (p : Fin 100000) :
    concatenate S100000x3 1 [⟨S100000x1, a⟩, ⟨S100000x1, b⟩, ⟨S100000x1, c⟩]
      concatenates_S100000x1_S100000x1_S100000x1_S100000x3_d1 (ix2 p (2 : Fin 3)) = c (ix2 p (0 : Fin 1)) :=
  concatenate_apply_piece (t := S100000x3) (1 : Fin 2) [⟨S100000x1, a⟩, ⟨S100000x1, b⟩, ⟨S100000x1, c⟩]
    concatenates_S100000x1_S100000x1_S100000x1_S100000x3_d1 (ix2 p (2 : Fin 3)) 2 (by show (2 : Nat) < 3; omega)
    S100000x1 c rfl rfl 2 rfl (ix2 p (0 : Fin 1))
    (fun b hb => match b, hb with | ⟨0, _⟩, _ => rfl | ⟨1, _⟩, hb => absurd rfl hb) rfl

theorem idxR_apply0 (x y z : IVec S100000 32) (p : Fin 100000) : idxR x y z (ix2 p (0 : Fin 3)) = wrapR x (ix1 p) :=
  (cat3_apply0 _ _ _ p).trans (bcast1_apply _ p)

theorem idxR_apply1 (x y z : IVec S100000 32) (p : Fin 100000) : idxR x y z (ix2 p (1 : Fin 3)) = wrapR y (ix1 p) :=
  (cat3_apply1 _ _ _ p).trans (bcast1_apply _ p)

theorem idxR_apply2 (x y z : IVec S100000 32) (p : Fin 100000) : idxR x y z (ix2 p (2 : Fin 3)) = wrapR z (ix1 p) :=
  (cat3_apply2 _ _ _ p).trans (bcast1_apply _ p)

/-- THE REFERENCE'S CORNER AT VERTEX p AND CHANNEL ch: the image at (ch, x p, y p, z p). -/
theorem cornerR_apply {α : Type} (img : S16x128x128x128.Idx → α) (x y z : IVec S100000 32)
    (hx : ∀ p, (x (ix1 p)).toNat < 128) (hy : ∀ p, (y (ix1 p)).toNat < 128) (hz : ∀ p, (z (ix1 p)).toNat < 128)
    (p : Fin 100000) (ch : Fin 16) :
    cornerR img x y z (ix2 p ch) = img (ix4 ch ⟨(x (ix1 p)).toNat, hx p⟩ ⟨(y (ix1 p)).toNat, hy p⟩ ⟨(z (ix1 p)).toNat, hz p⟩) := by
  refine (transpose_apply [1, 0] _ transposes_S16x100000_S100000x16_1_0 (ix2 p ch) (ix2 ch p)
    (fun b => match b with | ⟨0, _⟩ => rfl | ⟨1, _⟩ => rfl)).trans ?_
  refine (gatherR_apply img (idxR x y z) ch p).trans ?_
  have e0 : min (idxR x y z (ix2 p (0 : Fin 3))).toInt.toNat 127 = (x (ix1 p)).toNat := by
    rw [idxR_apply0, wrapR_apply x p (hx p)]; exact clamp_small _ 127 (by omega) (by have := hx p; omega)
  have e1 : min (idxR x y z (ix2 p (1 : Fin 3))).toInt.toNat 127 = (y (ix1 p)).toNat := by
    rw [idxR_apply1, wrapR_apply y p (hy p)]; exact clamp_small _ 127 (by omega) (by have := hy p; omega)
  have e2 : min (idxR x y z (ix2 p (2 : Fin 3))).toInt.toNat 127 = (z (ix1 p)).toNat := by
    rw [idxR_apply2, wrapR_apply z p (hz p)]; exact clamp_small _ 127 (by omega) (by have := hz p; omega)
  refine congrArg img (funext fun a => Fin.ext ?_)
  match a with
  | ⟨0, _⟩ => rfl
  | ⟨1, _⟩ => exact e0
  | ⟨2, _⟩ => exact e1
  | ⟨3, _⟩ => exact e2

end Reference

/-! ## The other program's corner -/

section Kernel
variable [Cert.KernelIdeal.Facts₀]
open Cert.KernelIdeal Cert.KernelIdeal.Facts₀

/-- The flat row number of three coordinate vectors, in 32-bit words: x · 16384 + y · 128 + z. -/
abbrev flatK (x y z : IVec S100000 32) : IVec S100000 32 :=
  addi (addi (muli x (broadcastInDim S100000 ![] bcast_S_S100000 (constantI S_ 32 16384#32)))
    (muli y (broadcastInDim S100000 ![] bcast_S_S100000 (constantI S_ 32 128#32)))) z

/-- The wrap of the flat row number: add 2097152 where it is negative. -/
abbrev wrapK (f : IVec S100000 32) : IVec S100000 32 :=
  select (cmpi .slt f (broadcastInDim S100000 ![] bcast_S_S100000 (constantI S_ 32 0#32)))
    (addi f (broadcastInDim S100000 ![] bcast_S_S100000 (constantI S_ 32 2097152#32))) f

/-- The image with the channel last and the three space axes flattened into one row number. -/
abbrev rowsK {α : Type} (img : S16x128x128x128.Idx → α) : S2097152x16.Idx → α :=
  shapeCast S2097152x16 (transpose S128x128x128x16 [1, 2, 3, 0] img transposes_S16x128x128x128_S128x128x128x16_1_2_3_0)
    shapeCasts_S128x128x128x16_S2097152x16

/-- The other program's corner: gather whole rows of the flattened image by the wrapped flat row number. -/
abbrev cornerK {α : Type} (img : S16x128x128x128.Idx → α) (x y z : IVec S100000 32) : S100000x16.Idx → α :=
  Host.gather gather_S2097152x16_S100000x1_S100000x16_1_0_n_n_0_1_116 (rowsK img)
    (broadcastInDim S100000x1 ![0] bcast_S100000_S100000x1_0 (wrapK (flatK x y z)))

/-- Row (a · 128 + b) · 128 + c of the flattened image at channel ch is the image at (ch, a, b, c). -/
theorem rowsK_apply {α : Type} (img : S16x128x128x128.Idx → α) (a b c : Fin 128) (ch : Fin 16) (r : Fin 2097152)
    (hr : r.val = (a.val * 128 + b.val) * 128 + c.val) :
    rowsK img (ix2 r ch) = img (ix4 ch a b c) := by
  refine (shapeCast_apply _ shapeCasts_S128x128x128x16_S2097152x16 (ix2 r ch) (ix4 a b c ch) ?_).trans ?_
  · rw [Shape.rowMajor_val_four, Shape.rowMajor_val_two]
    show ((a.val * 128 + b.val) * 128 + c.val) * 16 + ch.val = r.val * 16 + ch.val
    rw [hr]
  · exact transpose_apply [1, 2, 3, 0] img transposes_S16x128x128x128_S128x128x128x16_1_2_3_0 (ix4 a b c ch) (ix4 ch a b c)
      (fun b' => match b' with | ⟨0, _⟩ => rfl | ⟨1, _⟩ => rfl | ⟨2, _⟩ => rfl | ⟨3, _⟩ => rfl)

theorem bcast1K_apply (w : IVec S100000 32) (p : Fin 100000) :
    broadcastInDim S100000x1 ![0] bcast_S100000_S100000x1_0 w (ix2 p (0 : Fin 1)) = w (ix1 p) :=
  broadcastInDim_apply _ _ w (ix2 p (0 : Fin 1)) (ix1 p) (fun a => match a with | ⟨0, _⟩ => rfl)

/-- The wrapped flat row number at vertex p, for coordinates in range: (x p · 128 + y p) · 128 + z p. -/
theorem wrapK_flatK_toNat (x y z : IVec S100000 32) (p : Fin 100000)
    (hx : (x (ix1 p)).toNat < 128) (hy : (y (ix1 p)).toNat < 128) (hz : (z (ix1 p)).toNat < 128) :
    (wrapK (flatK x y z) (ix1 p)).toNat = ((x (ix1 p)).toNat * 128 + (y (ix1 p)).toNat) * 128 + (z (ix1 p)).toNat := by
  have hf := flat_toNat (x (ix1 p)) (y (ix1 p)) (z (ix1 p)) hx hy hz
  have hw : wrapK (flatK x y z) (ix1 p) = flatK x y z (ix1 p) :=
    wrap_small (flatK x y z (ix1 p)) 2097152#32 (by
      show (IntOp.addi (IntOp.addi (IntOp.muli (x (ix1 p)) 16384#32) (IntOp.muli (y (ix1 p)) 128#32)) (z (ix1 p))).toNat < 2 ^ 31
      rw [hf]; omega)
  rw [hw]
  exact hf

/-- THE OTHER PROGRAM'S CORNER AT VERTEX p AND CHANNEL ch: the image at (ch, x p, y p, z p). -/
theorem cornerK_apply {α : Type} (img : S16x128x128x128.Idx → α) (x y z : IVec S100000 32)
    (hx : ∀ p, (x (ix1 p)).toNat < 128) (hy : ∀ p, (y (ix1 p)).toNat < 128) (hz : ∀ p, (z (ix1 p)).toNat < 128)
    (p : Fin 100000) (ch : Fin 16) :
    cornerK img x y z (ix2 p ch) = img (ix4 ch ⟨(x (ix1 p)).toNat, hx p⟩ ⟨(y (ix1 p)).toNat, hy p⟩ ⟨(z (ix1 p)).toNat, hz p⟩) := by
  refine (gatherK_apply (rowsK img) _ p ch).trans ?_
  have hn := wrapK_flatK_toNat x y z p (hx p) (hy p) (hz p)
  have hxp := hx p
  have hyp := hy p
  have hzp := hz p
  refine rowsK_apply img ⟨(x (ix1 p)).toNat, hx p⟩ ⟨(y (ix1 p)).toNat, hy p⟩ ⟨(z (ix1 p)).toNat, hz p⟩ ch _ ?_
  show min (broadcastInDim S100000x1 ![0] bcast_S100000_S100000x1_0 (wrapK (flatK x y z)) (ix2 p (0 : Fin 1))).toInt.toNat 2097151 = _
  rw [bcast1K_apply, clamp_small _ 2097151 (by omega) (by rw [hn]; omega), hn]

end Kernel

/-! ## The two corners agree -/

section Both
variable [Cert.KernelIdeal.Facts₀] [Cert.ReferenceIdeal.Facts₀]

/-- THE CORNER LEMMA: for coordinate vectors with entries in [0, 127] the two programs fetch the same
    [100000,16] array of channel values. -/
theorem corner_eq {α : Type} (img : Cert.ReferenceIdeal.S16x128x128x128.Idx → α) (x y z : IVec Cert.ReferenceIdeal.S100000 32)
    (hx : ∀ p, (x (ix1 p)).toNat < 128) (hy : ∀ p, (y (ix1 p)).toNat < 128) (hz : ∀ p, (z (ix1 p)).toNat < 128) :
    cornerK img x y z = cornerR img x y z := by
  funext j
  obtain ⟨p, ch, rfl⟩ : ∃ (p : Fin 100000) (ch : Fin 16), j = ix2 p ch := ⟨j 0, j 1, eq_ix2 j⟩
  exact (cornerK_apply img x y z hx hy hz p ch).trans (cornerR_apply img x y z hx hy hz p ch).symm

end Both

end Cert.Tri
-- ==== Proof.TriFeats.lean ====
/-
  The per-vertex image features of the two programs are the same array.

  Both programs clip the vertex positions to [0, 127], take the floor as the low grid coordinates and
  min(low + 1, 127) as the high ones, fetch the 16 channel values at the eight corners of the grid cell and
  mix them by the fractional parts; they differ only in how a corner is fetched. The clip puts every
  coordinate in [0, 127] whatever the position (an infinite one included), so every grid coordinate is an
  integer in [0, 127]; on such coordinates the two ways of fetching a corner agree.
-/
import proofs.«139037_j17609365914513_2_alg».proof.Proof.KChains
import proofs.«139037_j17609365914513_2_alg».proof.Proof.RChains
import proofs.«139037_j17609365914513_2_alg».proof.Proof.TriCorner
import Idealize.ShloMosaic.PureOps.Ideal.Laws
import Idealize.ShloMosaic.Lib.WordArith

namespace Cert.Tri

open Idealize.ShloMosaic Idealize.ShloMosaic.ValueIdx

/-! ## Scalars: the clip, the floor, the conversion to a 32-bit integer -/

/-- The f32 pattern 0x42FE0000 is the real 127. -/
theorem ofBits_127 : Ideal.ofBits .f32 0x42FE0000#32 = ((127 : ℝ) : EReal) := by
  simp [Ideal.ofBits, Ideal.ieee, -EReal.coe_mul]; norm_num

/-- Clipping any extended real to [0, 127] leaves a real number in that interval. -/
theorem clip_real (e : EReal) : ∃ r : ℝ, 0 ≤ r ∧ r ≤ 127 ∧ min ((127 : ℝ) : EReal) (max 0 e) = (r : EReal) := by
  have h0 : (0 : EReal) ≤ min ((127 : ℝ) : EReal) (max 0 e) :=
    le_min (by exact_mod_cast (by norm_num : (0 : ℝ) ≤ 127)) (le_max_left _ _)
  have h1 : min ((127 : ℝ) : EReal) (max 0 e) ≤ ((127 : ℝ) : EReal) := min_le_left _ _
  have hbot : min ((127 : ℝ) : EReal) (max 0 e) ≠ ⊥ := fun h => by
    rw [h] at h0; exact absurd h0 (by simp)
  have htop : min ((127 : ℝ) : EReal) (max 0 e) ≠ ⊤ := fun h => by
    rw [h] at h1; exact absurd h1 (by simp)
  refine ⟨(min ((127 : ℝ) : EReal) (max 0 e)).toReal, ?_, ?_, (EReal.coe_toReal htop hbot).symm⟩
  · have := EReal.toReal_le_toReal h0 (by simp) htop
    simpa using this
  · have := EReal.toReal_le_toReal h1 hbot (by simp)
    simpa using this

/-- The floor of a real in [0, 127], converted to a 32-bit integer, is a word below 128. -/
theorem fptosi_floor_lt (r : ℝ) (h0 : 0 ≤ r) (h1 : r ≤ 127) :
    (Ideal.fptosi 32 (Ideal.liftRound Int.floor (r : EReal))).toNat < 128 := by
  have hn0 : 0 ≤ ⌊r⌋ := Int.floor_nonneg.mpr h0
  have hn1 : ⌊r⌋ ≤ 127 := by
    have : ⌊r⌋ ≤ ⌊(127 : ℝ)⌋ := Int.floor_le_floor h1
    simpa using this
  show (BitVec.ofInt 32 (Ideal.toIntClamped (-(2 ^ (32 - 1) : Nat)) ((2 ^ (32 - 1) : Nat) - 1) (((⌊r⌋ : ℤ) : ℝ) : EReal))).toNat < 128
  have hc : Ideal.toIntClamped (-(2 ^ (32 - 1) : Nat)) ((2 ^ (32 - 1) : Nat) - 1) (((⌊r⌋ : ℤ) : ℝ) : EReal) = ⌊r⌋ := by
    show max (-(2 ^ (32 - 1) : Nat) : ℤ) (min ((2 ^ (32 - 1) : Nat) - 1) (if 0 ≤ ((⌊r⌋ : ℤ) : ℝ) then ⌊((⌊r⌋ : ℤ) : ℝ)⌋ else ⌈((⌊r⌋ : ℤ) : ℝ)⌉)) = ⌊r⌋
    rw [Int.floor_intCast, Int.ceil_intCast, ite_self]
    norm_num
    omega
  rw [hc, BitVec.toNat_ofInt]
  omega

/-- The real 127 converts to the word 127. -/
theorem fptosi_127 : Ideal.fptosi 32 (Ideal.ofBits .f32 0x42FE0000#32) = 127#32 := by
  rw [ofBits_127]
  show BitVec.ofInt 32 (max (-(2 ^ (32 - 1) : Nat) : ℤ) (min ((2 ^ (32 - 1) : Nat) - 1) (if 0 ≤ (127 : ℝ) then ⌊(127 : ℝ)⌋ else ⌈(127 : ℝ)⌉))) = 127#32
  rw [if_pos (by norm_num)]
  have : ⌊(127 : ℝ)⌋ = 127 := by
    have := Int.floor_intCast (R := ℝ) 127
    simpa using this
  rw [this]
  decide

/-- One more than a word below 128, capped at 127, is a word below 128. -/
theorem minsi_succ_lt (a : BitVec 32) (h : a.toNat < 128) : (IntOp.minsi (IntOp.addi a 1#32) 127#32).toNat < 128 := by
  have ha : (IntOp.addi a 1#32).toNat = a.toNat + 1 := by
    show (a + 1#32).toNat = _
    rw [BitVec.toNat_add]; simp only [BitVec.toNat_ofNat]; omega
  rw [WordArith.toNat_minsi_of_lt _ _ (by rw [ha]; omega) (by decide), ha]
  have : (127#32 : BitVec 32).toNat = 127 := by decide
  omega

/-! ## Arrays: the grid coordinates are in range -/

section Ranges
variable [Cert.ReferenceIdeal.Facts]
open Cert.ReferenceIdeal Cert.ReferenceIdeal.Facts₀ Cert.ReferenceIdeal.Facts

/-- The low grid coordinates of any positions are words below 128. -/
theorem lowI_lt (v : FVec Ideal S100000x3 .f32) (j : S100000x3.Idx) :
    ((Cert.RChains.lowI (F := Ideal) (Cert.RChains.clip (F := Ideal) v) : IVec S100000x3 32) j).toNat < 128 := by
  show (Ideal.fptosi 32 (Ideal.liftRound Int.floor
    (min (Ideal.ofBits .f32 0x42FE0000#32) (max (Ideal.ofBits .f32 0x00000000#32) (v j))))).toNat < 128
  rw [ofBits_127, Ideal.ofBits_zero_f32]
  obtain ⟨r, h0, h1, hr⟩ := clip_real (v j)
  rw [hr]
  exact fptosi_floor_lt r h0 h1

/-- The high grid coordinates, min(low + 1, 127), are words below 128 when the low ones are. -/
theorem highI_lt (i : IVec S100000x3 32) (h : ∀ j, (i j).toNat < 128) (j : S100000x3.Idx) :
    ((Cert.RChains.highI (F := Ideal) i : IVec S100000x3 32) j).toNat < 128 := by
  show (IntOp.minsi (IntOp.addi (i j) 1#32) (Ideal.fptosi 32 (Ideal.ofBits .f32 0x42FE0000#32))).toNat < 128
  rw [fptosi_127]
  exact minsi_succ_lt _ (h j)

/-- Coordinate 0 of every vertex, read at vertex p. -/
theorem colI0_apply (i : IVec S100000x3 32) (p : Fin 100000) :
    (Cert.RChains.colI0 (F := Ideal) i : IVec S100000 32) (ix1 p) = i (ix2 p (0 : Fin 3)) := by
  unfold Cert.RChains.colI0
  refine (shapeCast_apply _ shapeCasts_S100000x1_S100000 (ix1 p) (ix2 p (0 : Fin 1)) ?_).trans ?_
  · rw [Shape.rowMajor_val_two, Shape.rowMajor_val_one]
    show p.val * 1 + 0 = p.val
    omega
  · exact extractStridedSlice_apply ![0, 0] i slices_S100000x3_S100000x1_0_0 (ix2 p (0 : Fin 1)) (ix2 p (0 : Fin 3))
      (fun a => match a with
        | ⟨0, _⟩ => by show p.val = 0 + p.val; omega
        | ⟨1, _⟩ => rfl)

theorem colI0_lt (i : IVec S100000x3 32) (h : ∀ j, (i j).toNat < 128) (p : Fin 100000) :
    ((Cert.RChains.colI0 (F := Ideal) i : IVec S100000 32) (ix1 p)).toNat < 128 := by
  rw [colI0_apply]; exact h _

/-- Coordinate 1 of every vertex, read at vertex p. -/
theorem colI1_apply (i : IVec S100000x3 32) (p : Fin 100000) :
    (Cert.RChains.colI1 (F := Ideal) i : IVec S100000 32) (ix1 p) = i (ix2 p (1 : Fin 3)) := by
  unfold Cert.RChains.colI1
  refine (shapeCast_apply _ shapeCasts_S100000x1_S100000 (ix1 p) (ix2 p (0 : Fin 1)) ?_).trans ?_
  · rw [Shape.rowMajor_val_two, Shape.rowMajor_val_one]
    show p.val * 1 + 0 = p.val
    omega
  · exact extractStridedSlice_apply ![0, 1] i slices_S100000x3_S100000x1_0_1 (ix2 p (0 : Fin 1)) (ix2 p (1 : Fin 3))
      (fun a => match a with
        | ⟨0, _⟩ => by show p.val = 0 + p.val; omega
        | ⟨1, _⟩ => rfl)

theorem colI1_lt (i : IVec S100000x3 32) (h : ∀ j, (i j).toNat < 128) (p : Fin 100000) :
    ((Cert.RChains.colI1 (F := Ideal) i : IVec S100000 32) (ix1 p)).toNat < 128 := by
  rw [colI1_apply]; exact h _

/-- Coordinate 2 of every vertex, read at vertex p. -/
theorem colI2_apply (i : IVec S100000x3 32) (p : Fin 100000) :
    (Cert.RChains.colI2 (F := Ideal) i : IVec S100000 32) (ix1 p) = i (ix2 p (2 : Fin 3)) := by
  unfold Cert.RChains.colI2
  refine (shapeCast_apply _ shapeCasts_S100000x1_S100000 (ix1 p) (ix2 p (0 : Fin 1)) ?_).trans ?_
  · rw [Shape.rowMajor_val_two, Shape.rowMajor_val_one]
    show p.val * 1 + 0 = p.val
    omega
  · exact extractStridedSlice_apply ![0, 2] i slices_S100000x3_S100000x1_0_2 (ix2 p (0 : Fin 1)) (ix2 p (2 : Fin 3))
      (fun a => match a with
        | ⟨0, _⟩ => by show p.val = 0 + p.val; omega
        | ⟨1, _⟩ => rfl)

theorem colI2_lt (i : IVec S100000x3 32) (h : ∀ j, (i j).toNat < 128) (p : Fin 100000) :
    ((Cert.RChains.colI2 (F := Ideal) i : IVec S100000 32) (ix1 p)).toNat < 128 := by
  rw [colI2_apply]; exact h _

end Ranges

/-! ## The corners and the whole feature array -/

section Feats
variable [Cert.KernelIdeal.Facts] [Cert.ReferenceIdeal.Facts]

/-- The two programs' corner fetches agree on coordinate vectors with entries in [0, 127]. -/
theorem chains_corner_eq (img : FVec Ideal Cert.ReferenceIdeal.S16x128x128x128 .f32) (x y z : IVec Cert.ReferenceIdeal.S100000 32)
    (hx : ∀ p : Fin 100000, (x (ix1 p)).toNat < 128) (hy : ∀ p : Fin 100000, (y (ix1 p)).toNat < 128)
    (hz : ∀ p : Fin 100000, (z (ix1 p)).toNat < 128) :
    Cert.KChains.corner (F := Ideal) (Cert.KChains.imgLast (F := Ideal) img) x y z = Cert.RChains.corner (F := Ideal) img x y z := by
  unfold Cert.KChains.corner Cert.KChains.imgLast Cert.RChains.corner
  exact corner_eq img x y z hx hy hz

/-- THE FEATURE ARRAYS AGREE: whatever the image and the vertex positions, the two programs compute the
    same [100000,19] array of per-vertex features. -/
theorem feats_eq (img : FVec Ideal Cert.ReferenceIdeal.S16x128x128x128 .f32) (v : FVec Ideal Cert.ReferenceIdeal.S100000x3 .f32) :
    Cert.KChains.feats (F := Ideal) img v = Cert.RChains.feats (F := Ideal) img v := by
  -- everything but the corner fetch is the same composition on the two sides
  have hclip : Cert.KChains.clip (F := Ideal) = Cert.RChains.clip (F := Ideal) := rfl
  have hlow : Cert.KChains.lowI (F := Ideal) = Cert.RChains.lowI (F := Ideal) := rfl
  have hhigh : Cert.KChains.highI (F := Ideal) = Cert.RChains.highI (F := Ideal) := rfl
  have hfrac : Cert.KChains.frac (F := Ideal) = Cert.RChains.frac (F := Ideal) := rfl
  have hI0 : Cert.KChains.colI0 (F := Ideal) = Cert.RChains.colI0 (F := Ideal) := rfl
  have hI1 : Cert.KChains.colI1 (F := Ideal) = Cert.RChains.colI1 (F := Ideal) := rfl
  have hI2 : Cert.KChains.colI2 (F := Ideal) = Cert.RChains.colI2 (F := Ideal) := rfl
  have hF0 : Cert.KChains.colF0 (F := Ideal) = Cert.RChains.colF0 (F := Ideal) := rfl
  have hF1 : Cert.KChains.colF1 (F := Ideal) = Cert.RChains.colF1 (F := Ideal) := rfl
  have hF2 : Cert.KChains.colF2 (F := Ideal) = Cert.RChains.colF2 (F := Ideal) := rfl
  have hmix : Cert.KChains.mix (F := Ideal) = Cert.RChains.mix (F := Ideal) := rfl
  have hjoin : Cert.KChains.join (F := Ideal) = Cert.RChains.join (F := Ideal) := rfl
  -- the grid coordinates are in range
  have hlo : ∀ j, ((Cert.RChains.lowI (F := Ideal) (Cert.RChains.clip (F := Ideal) v) : IVec Cert.ReferenceIdeal.S100000x3 32) j).toNat < 128 :=
    lowI_lt v
  have hhi : ∀ j, ((Cert.RChains.highI (F := Ideal) (Cert.RChains.lowI (F := Ideal) (Cert.RChains.clip (F := Ideal) v)) :
      IVec Cert.ReferenceIdeal.S100000x3 32) j).toNat < 128 := highI_lt _ hlo
  have x0 := colI0_lt _ hlo
  have y0 := colI1_lt _ hlo
  have z0 := colI2_lt _ hlo
  have x1 := colI0_lt _ hhi
  have y1 := colI1_lt _ hhi
  have z1 := colI2_lt _ hhi
  unfold Cert.KChains.feats Cert.RChains.feats
  simp only [hclip, hlow, hhigh, hfrac, hI0, hI1, hI2, hF0, hF1, hF2, hmix, hjoin]
  rw [chains_corner_eq img _ _ _ x0 y0 z0, chains_corner_eq img _ _ _ x0 y0 z1, chains_corner_eq img _ _ _ x0 y1 z0,
    chains_corner_eq img _ _ _ x0 y1 z1, chains_corner_eq img _ _ _ x1 y0 z0, chains_corner_eq img _ _ _ x1 y0 z1,
    chains_corner_eq img _ _ _ x1 y1 z0, chains_corner_eq img _ _ _ x1 y1 z1]

end Feats

end Cert.Tri
-- ==== Proof.Outs.lean ====
/-
  The whole computation, once per program, as one function of the sixteen argument arrays: the inverse degrees and the
  per-vertex features; three hidden layers, each fed the previous layer's output and its neighbour sums; the last layer,
  which moves the vertex positions. The two programs' versions differ only in how the features' corner rows are fetched
  (one function, by the trilinear-sampling bridge) and in format changes that are the identity on the extended reals.
-/
import proofs.«139037_j17609365914513_2_alg».proof.Proof.Spec
import proofs.«139037_j17609365914513_2_alg».proof.Proof.Bridge
import proofs.«139037_j17609365914513_2_alg».proof.Proof.TriFeats

noncomputable section

namespace Cert.Outs

open Idealize.ShloMosaic

variable [Cert.KernelIdeal.Facts] [Cert.ReferenceIdeal.Facts]

/-- The kernel program's result as a function of its arguments. -/
def outK (a0 : FVec Ideal Cert.ReferenceIdeal.S16x128x128x128 .f32) (a1 : FVec Ideal Cert.ReferenceIdeal.S100000x3 .f32) (a2 : IVec Cert.ReferenceIdeal.S1600000 32) (a3 : IVec Cert.ReferenceIdeal.S1600000 32) (a4 : FVec Ideal Cert.ReferenceIdeal.S19x32 .f32) (a5 : FVec Ideal Cert.ReferenceIdeal.S19x32 .f32) (a6 : FVec Ideal Cert.ReferenceIdeal.S32 .f32) (a7 : FVec Ideal Cert.ReferenceIdeal.S32x64 .f32) (a8 : FVec Ideal Cert.ReferenceIdeal.S32x64 .f32) (a9 : FVec Ideal Cert.ReferenceIdeal.S64 .f32) (a10 : FVec Ideal Cert.ReferenceIdeal.S64x64 .f32) (a11 : FVec Ideal Cert.ReferenceIdeal.S64x64 .f32) (a12 : FVec Ideal Cert.ReferenceIdeal.S64 .f32) (a13 : FVec Ideal Cert.ReferenceIdeal.S64x3 .f32) (a14 : FVec Ideal Cert.ReferenceIdeal.S64x3 .f32) (a15 : FVec Ideal Cert.ReferenceIdeal.S3 .f32) : FVec Ideal Cert.ReferenceIdeal.S100000x3 .f32 :=
  let inv := Cert.KChains.invDeg (F := Ideal) a3
  let f := Cert.KChains.feats (F := Ideal) a0 a1
  let h1 := Cert.Spec.hidden (din := 19) (dout := 32) f (Cert.KChains.agg19 (F := Ideal) f a2 a3) inv a4 a5 a6
  let h2 := Cert.Spec.hidden (din := 32) (dout := 64) h1 (Cert.KChains.agg32 (F := Ideal) h1 a2 a3) inv a7 a8 a9
  let h3 := Cert.Spec.hidden (din := 64) (dout := 64) h2 (Cert.KChains.agg64 (F := Ideal) h2 a2 a3) inv a10 a11 a12
  Cert.Spec.moved (din := 64) (dout := 3) a1 h3 (Cert.KChains.agg64 (F := Ideal) h3 a2 a3) inv a13 a14 a15

/-- The reference program's result as a function of its arguments. -/
def outR (a0 : FVec Ideal Cert.ReferenceIdeal.S16x128x128x128 .f32) (a1 : FVec Ideal Cert.ReferenceIdeal.S100000x3 .f32) (a2 : IVec Cert.ReferenceIdeal.S1600000 32) (a3 : IVec Cert.ReferenceIdeal.S1600000 32) (a4 : FVec Ideal Cert.ReferenceIdeal.S19x32 .f32) (a5 : FVec Ideal Cert.ReferenceIdeal.S19x32 .f32) (a6 : FVec Ideal Cert.ReferenceIdeal.S32 .f32) (a7 : FVec Ideal Cert.ReferenceIdeal.S32x64 .f32) (a8 : FVec Ideal Cert.ReferenceIdeal.S32x64 .f32) (a9 : FVec Ideal Cert.ReferenceIdeal.S64 .f32) (a10 : FVec Ideal Cert.ReferenceIdeal.S64x64 .f32) (a11 : FVec Ideal Cert.ReferenceIdeal.S64x64 .f32) (a12 : FVec Ideal Cert.ReferenceIdeal.S64 .f32) (a13 : FVec Ideal Cert.ReferenceIdeal.S64x3 .f32) (a14 : FVec Ideal Cert.ReferenceIdeal.S64x3 .f32) (a15 : FVec Ideal Cert.ReferenceIdeal.S3 .f32) : FVec Ideal Cert.ReferenceIdeal.S100000x3 .f32 :=
  let inv := Cert.RChains.invDeg (F := Ideal) a3
  let f := Cert.RChains.feats (F := Ideal) a0 a1
  let h1 := Cert.Spec.hidden (din := 19) (dout := 32) f (Cert.RChains.agg19 (F := Ideal) f a2 a3) inv a4 a5 a6
  let h2 := Cert.Spec.hidden (din := 32) (dout := 64) h1 (Cert.RChains.agg32 (F := Ideal) h1 a2 a3) inv a7 a8 a9
  let h3 := Cert.Spec.hidden (din := 64) (dout := 64) h2 (Cert.RChains.agg64 (F := Ideal) h2 a2 a3) inv a10 a11 a12
  Cert.Spec.moved (din := 64) (dout := 3) a1 h3 (Cert.RChains.agg64 (F := Ideal) h3 a2 a3) inv a13 a14 a15

/-- The two are one function of the arguments. -/
theorem out_eq (a0 : FVec Ideal Cert.ReferenceIdeal.S16x128x128x128 .f32) (a1 : FVec Ideal Cert.ReferenceIdeal.S100000x3 .f32) (a2 : IVec Cert.ReferenceIdeal.S1600000 32) (a3 : IVec Cert.ReferenceIdeal.S1600000 32) (a4 : FVec Ideal Cert.ReferenceIdeal.S19x32 .f32) (a5 : FVec Ideal Cert.ReferenceIdeal.S19x32 .f32) (a6 : FVec Ideal Cert.ReferenceIdeal.S32 .f32) (a7 : FVec Ideal Cert.ReferenceIdeal.S32x64 .f32) (a8 : FVec Ideal Cert.ReferenceIdeal.S32x64 .f32) (a9 : FVec Ideal Cert.ReferenceIdeal.S64 .f32) (a10 : FVec Ideal Cert.ReferenceIdeal.S64x64 .f32) (a11 : FVec Ideal Cert.ReferenceIdeal.S64x64 .f32) (a12 : FVec Ideal Cert.ReferenceIdeal.S64 .f32) (a13 : FVec Ideal Cert.ReferenceIdeal.S64x3 .f32) (a14 : FVec Ideal Cert.ReferenceIdeal.S64x3 .f32) (a15 : FVec Ideal Cert.ReferenceIdeal.S3 .f32) : outK a0 a1 a2 a3 a4 a5 a6 a7 a8 a9 a10 a11 a12 a13 a14 a15 = outR a0 a1 a2 a3 a4 a5 a6 a7 a8 a9 a10 a11 a12 a13 a14 a15 := by
  unfold outK outR
  simp only [Cert.Tri.feats_eq, Cert.Bridge.invDeg_eq, Cert.Bridge.agg19_eq, Cert.Bridge.agg32_eq, Cert.Bridge.agg64_eq]

end Cert.Outs

end
-- ==== Proof.KValue.lean ====
/-
  The kernel program's result as one function of its sixteen arguments. The program is ten segments: three stretches of
  host operations (the inverse degrees, the per-vertex features and their neighbour sums, the first bias row), then four
  regions, each but the last followed by a short stretch (the next layer's neighbour sums and bias row). Each region
  leaves in its output array the layer of the specification applied to the arrays it finds; each stretch's values are
  the named chains of host operations applied to what the stretch finds; a buffer no later segment writes is carried
  unchanged. Chaining these from the launch to the return gives the result array.
-/
import proofs.«139037_j17609365914513_2_alg».proof.Proof.FrameIdeal
import proofs.«139037_j17609365914513_2_alg».proof.Proof.KRegion0
import proofs.«139037_j17609365914513_2_alg».proof.Proof.KRegion1
import proofs.«139037_j17609365914513_2_alg».proof.Proof.KRegion2
import proofs.«139037_j17609365914513_2_alg».proof.Proof.KRegion3
import proofs.«139037_j17609365914513_2_alg».proof.Proof.KChains
import proofs.«139037_j17609365914513_2_alg».proof.Proof.KReadF
import proofs.«139037_j17609365914513_2_alg».proof.Proof.KReadS
import proofs.«139037_j17609365914513_2_alg».proof.Proof.KKeep
import proofs.«139037_j17609365914513_2_alg».proof.Proof.Outs
import Idealize.ShloMosaic.Lib.ValueLayout

set_option maxRecDepth 16384

noncomputable section

namespace Cert.KValue

open Cert.KernelIdeal Cert.KernelIdeal.Gen Cert.KernelIdeal.GenP
open Idealize.ShloMosaic Idealize.ShloMosaic.TcCoe Idealize.SL.Sem Idealize.ShloMosaic.ValueIdx

/-! ## A bias row read back as the bias vector -/

/-- A vector cast to a one-row array and read along that row is the vector. -/
theorem row_of_cast {a : ℕ} (b : (⟨1, ![a]⟩ : Shape).Idx → EReal) (h : (⟨1, ![a]⟩ : Shape).ShapeCasts ⟨2, ![1, a]⟩) :
    (fun i : (⟨1, ![a]⟩ : Shape).Idx => shapeCast ⟨2, ![1, a]⟩ b h (ix2 (0 : Fin 1) (i 0))) = b := by
  funext i
  exact (shapeCast_a_1a_apply b h (0 : Fin 1) (i 0)).trans (congrArg b (eq_ix1 i).symm)

/-! ## The first three stretches -/

section First
variable {F : FTy → Type} [FloatOps F]
variable (m : (ℓ : Loc nD τ sig) → Buf (Elt F) ℓ) (ρ : Dev nD → PrngReg) (c : Dev nD)

/-- The contents at region 0's entry are the launch contents after the first three stretches, the third cut into ten pieces. -/
theorem entry0_eq : W3 m ρ c = KRead.pval12 (W0 m ρ c) := by
  show StableHlo.after hostOps0_2 (StableHlo.after hostOps0_1 (StableHlo.after hostOps0 (W0 m ρ c))) = _
  rw [KRead.hostOps0_2_pieces]
  simp only [StableHlo.after_append]
  rfl

/-- The buffers the first three stretches write. -/
abbrev writtenFirst : List (Ref sig .tc) :=
  KRead.pW1 ++ (KRead.pW2 ++ (KRead.pW3 ++ (KRead.pW4 ++ (KRead.pW5 ++ (KRead.pW6 ++ (KRead.pW7 ++ (KRead.pW8 ++ (KRead.pW9 ++ (KRead.pW10 ++ (KRead.pW11 ++ KRead.pW12))))))))))

/-- A buffer they do not write holds at region 0's entry what it held at launch. -/
theorem first_kept (r : Ref sig .tc) (h : r ∉ writtenFirst) :
    W3 m ρ c (Proc.devRef .tc r) = W0 m ρ c (Proc.devRef .tc r) := by
  simp only [writtenFirst, List.mem_append, not_or] at h
  obtain ⟨h1, h2, h3, h4, h5, h6, h7, h8, h9, h10, h11, h12⟩ := h
  rw [entry0_eq]
  exact (KRead.pval12_keep _ r h12).trans ((KRead.pval11_keep _ r h11).trans ((KRead.pval10_keep _ r h10).trans
    ((KRead.pval9_keep _ r h9).trans ((KRead.pval8_keep _ r h8).trans ((KRead.pval7_keep _ r h7).trans
    ((KRead.pval6_keep _ r h6).trans ((KRead.pval5_keep _ r h5).trans ((KRead.pval4_keep _ r h4).trans
    ((KRead.pval3_keep _ r h3).trans ((KRead.pval2_keep _ r h2).trans (KRead.pval1_keep _ r h1)))))))))))

end First

/-! ## The layers as functions of the arguments -/

variable (m : (ℓ : Loc nD τ sig) → Buf (Elt Ideal) ℓ) (ρ : Dev nD → PrngReg) (c : Dev nD)

/-- The inverse degrees. -/
def inv : FVec Ideal S100000x1 .f32 := KChains.invDeg (F := Ideal) (m ((c : Thread nD τ).loc main_arg3))
/-- The per-vertex features. -/
def feat : FVec Ideal S100000x19 .f32 := KChains.feats (F := Ideal) (m ((c : Thread nD τ).loc main_arg0)) (m ((c : Thread nD τ).loc main_arg1))
/-- The first hidden layer. -/
def hid1 : FVec Ideal S100000x32 .f32 :=
  Spec.hidden (din := 19) (dout := 32) (feat m c) (KChains.agg19 (F := Ideal) (feat m c) (m ((c : Thread nD τ).loc main_arg2)) (m ((c : Thread nD τ).loc main_arg3))) (inv m c) (m ((c : Thread nD τ).loc main_arg4)) (m ((c : Thread nD τ).loc main_arg5)) (m ((c : Thread nD τ).loc main_arg6))
/-- The second hidden layer. -/
def hid2 : FVec Ideal S100000x64 .f32 :=
  Spec.hidden (din := 32) (dout := 64) (hid1 m c) (KChains.agg32 (F := Ideal) (hid1 m c) (m ((c : Thread nD τ).loc main_arg2)) (m ((c : Thread nD τ).loc main_arg3))) (inv m c) (m ((c : Thread nD τ).loc main_arg7)) (m ((c : Thread nD τ).loc main_arg8)) (m ((c : Thread nD τ).loc main_arg9))
/-- The third hidden layer. -/
def hid3 : FVec Ideal S100000x64 .f32 :=
  Spec.hidden (din := 64) (dout := 64) (hid2 m c) (KChains.agg64 (F := Ideal) (hid2 m c) (m ((c : Thread nD τ).loc main_arg2)) (m ((c : Thread nD τ).loc main_arg3))) (inv m c) (m ((c : Thread nD τ).loc main_arg10)) (m ((c : Thread nD τ).loc main_arg11)) (m ((c : Thread nD τ).loc main_arg12))

/-! ## Region 0's entry -/

theorem entry0_feat : W3 m ρ c (Proc.devRef .tc main_v191) = feat m c := by
  rw [entry0_eq]; exact KRead.pval12_main_v191 (W0 m ρ c)
theorem entry0_agg : W3 m ρ c (Proc.devRef .tc main_v203) = KChains.agg19 (F := Ideal) (feat m c) (m ((c : Thread nD τ).loc main_arg2)) (m ((c : Thread nD τ).loc main_arg3)) := by
  rw [entry0_eq]; exact KRead.pval12_main_v203 (W0 m ρ c)
theorem entry0_inv : W3 m ρ c (Proc.devRef .tc main_v8) = inv m c := by
  rw [entry0_eq]; exact KRead.pval12_main_v8 (W0 m ρ c)
theorem entry0_ws : W3 m ρ c (Proc.devRef .tc main_arg4) = (m ((c : Thread nD τ).loc main_arg4)) := by
  rw [entry0_eq]; exact KRead.pval12_main_arg4 (W0 m ρ c)
theorem entry0_wn : W3 m ρ c (Proc.devRef .tc main_arg5) = (m ((c : Thread nD τ).loc main_arg5)) := by
  rw [entry0_eq]; exact KRead.pval12_main_arg5 (W0 m ρ c)
theorem entry0_brow : W3 m ρ c (Proc.devRef .tc main_v204) = KChains.bias0 (F := Ideal) (m ((c : Thread nD τ).loc main_arg6)) := by
  rw [entry0_eq]; exact KRead.pval12_main_v204 (W0 m ρ c)

/-! ## Region 0's exit -/

theorem exit0 : W4 m ρ c (Proc.devRef .tc main_v205) = hid1 m c := by
  refine ((W4_arr m ρ c 6).trans (Cert.KRegion.region0_value (V3 m ρ) c)).trans ?_
  show Spec.hidden (din := 19) (dout := 32) (W3 m ρ c (Proc.devRef .tc main_v191) : S100000x19.Idx → EReal) (W3 m ρ c (Proc.devRef .tc main_v203) : S100000x19.Idx → EReal)
      (W3 m ρ c (Proc.devRef .tc main_v8) : S100000x1.Idx → EReal) (W3 m ρ c (Proc.devRef .tc main_arg4) : S19x32.Idx → EReal) (W3 m ρ c (Proc.devRef .tc main_arg5) : S19x32.Idx → EReal)
      (fun i => (W3 m ρ c (Proc.devRef .tc main_v204) : S1x32.Idx → EReal) (ix2 (0 : Fin 1) (i 0))) = _
  rw [entry0_feat m ρ c, entry0_agg m ρ c, entry0_inv m ρ c, entry0_ws m ρ c, entry0_wn m ρ c, entry0_brow m ρ c]
  exact congrArg (Spec.hidden (din := 19) (dout := 32) (feat m c) (KChains.agg19 (F := Ideal) (feat m c) (m ((c : Thread nD τ).loc main_arg2)) (m ((c : Thread nD τ).loc main_arg3))) (inv m c) (m ((c : Thread nD τ).loc main_arg4)) (m ((c : Thread nD τ).loc main_arg5)))
    (row_of_cast (m ((c : Thread nD τ).loc main_arg6)) shapeCasts_S32_S1x32)

/-! ## Region 1's entry -/

theorem entry1_x : W5 m ρ c (Proc.devRef .tc main_v205) = hid1 m c :=
  (keep1 (W4 m ρ c) main_v205 (by decide)).trans (exit0 m ρ c)
theorem entry1_agg : W5 m ρ c (Proc.devRef .tc main_v217) = KChains.agg32 (F := Ideal) (hid1 m c) (m ((c : Thread nD τ).loc main_arg2)) (m ((c : Thread nD τ).loc main_arg3)) := by
  refine (KRead.hostOps1_main_v217 (W4 m ρ c)).trans ?_
  rw [exit0 m ρ c, ((W4_of_ne m ρ c main_arg2 (by decide)).trans (first_kept m ρ c main_arg2 (by decide))), ((W4_of_ne m ρ c main_arg3 (by decide)).trans (first_kept m ρ c main_arg3 (by decide)))]
theorem entry1_inv : W5 m ρ c (Proc.devRef .tc main_v8) = inv m c :=
  ((keep1 (W4 m ρ c) main_v8 (by decide)).trans ((input0 m ρ c 2 rfl).trans (entry0_inv m ρ c)))
theorem entry1_ws : W5 m ρ c (Proc.devRef .tc main_arg7) = (m ((c : Thread nD τ).loc main_arg7)) :=
  ((keep1 (W4 m ρ c) main_arg7 (by decide)).trans ((W4_of_ne m ρ c main_arg7 (by decide)).trans (first_kept m ρ c main_arg7 (by decide))))
theorem entry1_wn : W5 m ρ c (Proc.devRef .tc main_arg8) = (m ((c : Thread nD τ).loc main_arg8)) :=
  ((keep1 (W4 m ρ c) main_arg8 (by decide)).trans ((W4_of_ne m ρ c main_arg8 (by decide)).trans (first_kept m ρ c main_arg8 (by decide))))
theorem entry1_brow : W5 m ρ c (Proc.devRef .tc main_v218) = KChains.bias1 (F := Ideal) (m ((c : Thread nD τ).loc main_arg9)) := by
  refine (KRead.hostOps1_main_v218 (W4 m ρ c)).trans ?_
  rw [((W4_of_ne m ρ c main_arg9 (by decide)).trans (first_kept m ρ c main_arg9 (by decide)))]

/-! ## Region 1's exit -/

theorem exit1 : W6 m ρ c (Proc.devRef .tc main_v219) = hid2 m c := by
  refine ((W6_arr m ρ c 6).trans (Cert.KRegion.region1_value (V5 m ρ) c)).trans ?_
  show Spec.hidden (din := 32) (dout := 64) (W5 m ρ c (Proc.devRef .tc main_v205) : S100000x32.Idx → EReal) (W5 m ρ c (Proc.devRef .tc main_v217) : S100000x32.Idx → EReal)
      (W5 m ρ c (Proc.devRef .tc main_v8) : S100000x1.Idx → EReal) (W5 m ρ c (Proc.devRef .tc main_arg7) : S32x64.Idx → EReal) (W5 m ρ c (Proc.devRef .tc main_arg8) : S32x64.Idx → EReal)
      (fun i => (W5 m ρ c (Proc.devRef .tc main_v218) : S1x64.Idx → EReal) (ix2 (0 : Fin 1) (i 0))) = _
  rw [entry1_x m ρ c, entry1_agg m ρ c, entry1_inv m ρ c, entry1_ws m ρ c, entry1_wn m ρ c, entry1_brow m ρ c]
  exact congrArg (Spec.hidden (din := 32) (dout := 64) (hid1 m c) (KChains.agg32 (F := Ideal) (hid1 m c) (m ((c : Thread nD τ).loc main_arg2)) (m ((c : Thread nD τ).loc main_arg3))) (inv m c) (m ((c : Thread nD τ).loc main_arg7)) (m ((c : Thread nD τ).loc main_arg8)))
    (row_of_cast (m ((c : Thread nD τ).loc main_arg9)) shapeCasts_S64_S1x64)

/-! ## Region 2's entry -/

theorem entry2_x : W7 m ρ c (Proc.devRef .tc main_v219) = hid2 m c :=
  (keep2 (W6 m ρ c) main_v219 (by decide)).trans (exit1 m ρ c)
theorem entry2_agg : W7 m ρ c (Proc.devRef .tc main_v231) = KChains.agg64 (F := Ideal) (hid2 m c) (m ((c : Thread nD τ).loc main_arg2)) (m ((c : Thread nD τ).loc main_arg3)) := by
  refine (KRead.hostOps2_main_v231 (W6 m ρ c)).trans ?_
  rw [exit1 m ρ c, ((W6_of_ne m ρ c main_arg2 (by decide)).trans ((keep1 (W4 m ρ c) main_arg2 (by decide)).trans ((W4_of_ne m ρ c main_arg2 (by decide)).trans (first_kept m ρ c main_arg2 (by decide))))), ((W6_of_ne m ρ c main_arg3 (by decide)).trans ((keep1 (W4 m ρ c) main_arg3 (by decide)).trans ((W4_of_ne m ρ c main_arg3 (by decide)).trans (first_kept m ρ c main_arg3 (by decide)))))]
theorem entry2_inv : W7 m ρ c (Proc.devRef .tc main_v8) = inv m c :=
  ((keep2 (W6 m ρ c) main_v8 (by decide)).trans ((input1 m ρ c 2 rfl).trans ((keep1 (W4 m ρ c) main_v8 (by decide)).trans ((input0 m ρ c 2 rfl).trans (entry0_inv m ρ c)))))
theorem entry2_ws : W7 m ρ c (Proc.devRef .tc main_arg10) = (m ((c : Thread nD τ).loc main_arg10)) :=
  ((keep2 (W6 m ρ c) main_arg10 (by decide)).trans ((W6_of_ne m ρ c main_arg10 (by decide)).trans ((keep1 (W4 m ρ c) main_arg10 (by decide)).trans ((W4_of_ne m ρ c main_arg10 (by decide)).trans (first_kept m ρ c main_arg10 (by decide))))))
theorem entry2_wn : W7 m ρ c (Proc.devRef .tc main_arg11) = (m ((c : Thread nD τ).loc main_arg11)) :=
  ((keep2 (W6 m ρ c) main_arg11 (by decide)).trans ((W6_of_ne m ρ c main_arg11 (by decide)).trans ((keep1 (W4 m ρ c) main_arg11 (by decide)).trans ((W4_of_ne m ρ c main_arg11 (by decide)).trans (first_kept m ρ c main_arg11 (by decide))))))
theorem entry2_brow : W7 m ρ c (Proc.devRef .tc main_v232) = KChains.bias2 (F := Ideal) (m ((c : Thread nD τ).loc main_arg12)) := by
  refine (KRead.hostOps2_main_v232 (W6 m ρ c)).trans ?_
  rw [((W6_of_ne m ρ c main_arg12 (by decide)).trans ((keep1 (W4 m ρ c) main_arg12 (by decide)).trans ((W4_of_ne m ρ c main_arg12 (by decide)).trans (first_kept m ρ c main_arg12 (by decide)))))]

/-! ## Region 2's exit -/

theorem exit2 : W8 m ρ c (Proc.devRef .tc main_v233) = hid3 m c := by
  refine ((W8_arr m ρ c 6).trans (Cert.KRegion.region2_value (V7 m ρ) c)).trans ?_
  show Spec.hidden (din := 64) (dout := 64) (W7 m ρ c (Proc.devRef .tc main_v219) : S100000x64.Idx → EReal) (W7 m ρ c (Proc.devRef .tc main_v231) : S100000x64.Idx → EReal)
      (W7 m ρ c (Proc.devRef .tc main_v8) : S100000x1.Idx → EReal) (W7 m ρ c (Proc.devRef .tc main_arg10) : S64x64.Idx → EReal) (W7 m ρ c (Proc.devRef .tc main_arg11) : S64x64.Idx → EReal)
      (fun i => (W7 m ρ c (Proc.devRef .tc main_v232) : S1x64.Idx → EReal) (ix2 (0 : Fin 1) (i 0))) = _
  rw [entry2_x m ρ c, entry2_agg m ρ c, entry2_inv m ρ c, entry2_ws m ρ c, entry2_wn m ρ c, entry2_brow m ρ c]
  exact congrArg (Spec.hidden (din := 64) (dout := 64) (hid2 m c) (KChains.agg64 (F := Ideal) (hid2 m c) (m ((c : Thread nD τ).loc main_arg2)) (m ((c : Thread nD τ).loc main_arg3))) (inv m c) (m ((c : Thread nD τ).loc main_arg10)) (m ((c : Thread nD τ).loc main_arg11)))
    (row_of_cast (m ((c : Thread nD τ).loc main_arg12)) shapeCasts_S64_S1x64)

/-! ## Region 3's entry -/

theorem entry3_x : W9 m ρ c (Proc.devRef .tc main_v233) = hid3 m c :=
  (keep3 (W8 m ρ c) main_v233 (by decide)).trans (exit2 m ρ c)
theorem entry3_agg : W9 m ρ c (Proc.devRef .tc main_v245) = KChains.agg64 (F := Ideal) (hid3 m c) (m ((c : Thread nD τ).loc main_arg2)) (m ((c : Thread nD τ).loc main_arg3)) := by
  refine (KRead.hostOps3_main_v245 (W8 m ρ c)).trans ?_
  rw [exit2 m ρ c, ((W8_of_ne m ρ c main_arg2 (by decide)).trans ((keep2 (W6 m ρ c) main_arg2 (by decide)).trans ((W6_of_ne m ρ c main_arg2 (by decide)).trans ((keep1 (W4 m ρ c) main_arg2 (by decide)).trans ((W4_of_ne m ρ c main_arg2 (by decide)).trans (first_kept m ρ c main_arg2 (by decide))))))), ((W8_of_ne m ρ c main_arg3 (by decide)).trans ((keep2 (W6 m ρ c) main_arg3 (by decide)).trans ((W6_of_ne m ρ c main_arg3 (by decide)).trans ((keep1 (W4 m ρ c) main_arg3 (by decide)).trans ((W4_of_ne m ρ c main_arg3 (by decide)).trans (first_kept m ρ c main_arg3 (by decide)))))))]
theorem entry3_inv : W9 m ρ c (Proc.devRef .tc main_v8) = inv m c :=
  ((keep3 (W8 m ρ c) main_v8 (by decide)).trans ((input2 m ρ c 2 rfl).trans ((keep2 (W6 m ρ c) main_v8 (by decide)).trans ((input1 m ρ c 2 rfl).trans ((keep1 (W4 m ρ c) main_v8 (by decide)).trans ((input0 m ρ c 2 rfl).trans (entry0_inv m ρ c)))))))
theorem entry3_ws : W9 m ρ c (Proc.devRef .tc main_arg13) = (m ((c : Thread nD τ).loc main_arg13)) :=
  ((keep3 (W8 m ρ c) main_arg13 (by decide)).trans ((W8_of_ne m ρ c main_arg13 (by decide)).trans ((keep2 (W6 m ρ c) main_arg13 (by decide)).trans ((W6_of_ne m ρ c main_arg13 (by decide)).trans ((keep1 (W4 m ρ c) main_arg13 (by decide)).trans ((W4_of_ne m ρ c main_arg13 (by decide)).trans (first_kept m ρ c main_arg13 (by decide))))))))
theorem entry3_wn : W9 m ρ c (Proc.devRef .tc main_arg14) = (m ((c : Thread nD τ).loc main_arg14)) :=
  ((keep3 (W8 m ρ c) main_arg14 (by decide)).trans ((W8_of_ne m ρ c main_arg14 (by decide)).trans ((keep2 (W6 m ρ c) main_arg14 (by decide)).trans ((W6_of_ne m ρ c main_arg14 (by decide)).trans ((keep1 (W4 m ρ c) main_arg14 (by decide)).trans ((W4_of_ne m ρ c main_arg14 (by decide)).trans (first_kept m ρ c main_arg14 (by decide))))))))
theorem entry3_brow : W9 m ρ c (Proc.devRef .tc main_v246) = KChains.bias3 (F := Ideal) (m ((c : Thread nD τ).loc main_arg15)) := by
  refine (KRead.hostOps3_main_v246 (W8 m ρ c)).trans ?_
  rw [((W8_of_ne m ρ c main_arg15 (by decide)).trans ((keep2 (W6 m ρ c) main_arg15 (by decide)).trans ((W6_of_ne m ρ c main_arg15 (by decide)).trans ((keep1 (W4 m ρ c) main_arg15 (by decide)).trans ((W4_of_ne m ρ c main_arg15 (by decide)).trans (first_kept m ρ c main_arg15 (by decide)))))))]
theorem entry3_v : W9 m ρ c (Proc.devRef .tc main_arg1) = (m ((c : Thread nD τ).loc main_arg1)) :=
  ((keep3 (W8 m ρ c) main_arg1 (by decide)).trans ((W8_of_ne m ρ c main_arg1 (by decide)).trans ((keep2 (W6 m ρ c) main_arg1 (by decide)).trans ((W6_of_ne m ρ c main_arg1 (by decide)).trans ((keep1 (W4 m ρ c) main_arg1 (by decide)).trans ((W4_of_ne m ρ c main_arg1 (by decide)).trans (first_kept m ρ c main_arg1 (by decide))))))))

/-! ## The result -/

/-- The result array at the program's return, over the layers. -/
theorem result_layers : W10 m ρ c (Proc.devRef .tc main_v247)
    = Spec.moved (din := 64) (dout := 3) (m ((c : Thread nD τ).loc main_arg1)) (hid3 m c) (KChains.agg64 (F := Ideal) (hid3 m c) (m ((c : Thread nD τ).loc main_arg2)) (m ((c : Thread nD τ).loc main_arg3))) (inv m c) (m ((c : Thread nD τ).loc main_arg13)) (m ((c : Thread nD τ).loc main_arg14)) (m ((c : Thread nD τ).loc main_arg15)) := by
  refine ((W10_arr m ρ c 7).trans (Cert.KRegion.region3_value (V9 m ρ) c)).trans ?_
  show Spec.moved (din := 64) (dout := 3) (W9 m ρ c (Proc.devRef .tc main_arg1) : S100000x3.Idx → EReal) (W9 m ρ c (Proc.devRef .tc main_v233) : S100000x64.Idx → EReal) (W9 m ρ c (Proc.devRef .tc main_v245) : S100000x64.Idx → EReal)
      (W9 m ρ c (Proc.devRef .tc main_v8) : S100000x1.Idx → EReal) (W9 m ρ c (Proc.devRef .tc main_arg13) : S64x3.Idx → EReal) (W9 m ρ c (Proc.devRef .tc main_arg14) : S64x3.Idx → EReal)
      (fun i => (W9 m ρ c (Proc.devRef .tc main_v246) : S1x3.Idx → EReal) (ix2 (0 : Fin 1) (i 0))) = _
  rw [entry3_v m ρ c, entry3_x m ρ c, entry3_agg m ρ c, entry3_inv m ρ c, entry3_ws m ρ c, entry3_wn m ρ c, entry3_brow m ρ c]
  exact congrArg (Spec.moved (din := 64) (dout := 3) (m ((c : Thread nD τ).loc main_arg1)) (hid3 m c) (KChains.agg64 (F := Ideal) (hid3 m c) (m ((c : Thread nD τ).loc main_arg2)) (m ((c : Thread nD τ).loc main_arg3))) (inv m c) (m ((c : Thread nD τ).loc main_arg13)) (m ((c : Thread nD τ).loc main_arg14)))
    (row_of_cast (m ((c : Thread nD τ).loc main_arg15)) shapeCasts_S3_S1x3)

/-- The result array at the program's return is the kernel program's function of the sixteen arguments. -/
theorem kernel_value [Cert.ReferenceIdeal.Facts] : W10 m ρ c (Proc.devRef .tc main_v247)
    = Cert.Outs.outK (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15)) :=
  (result_layers m ρ c).trans rfl

end Cert.KValue

end
-- ==== Proof.RefOps.lean ====
/-
  The reference program as a straight line. Its body is 412 statements, printed in seven windows; four of them call a
  local function (the clip of the vertex positions; LeakyReLU after each hidden layer, which itself calls a select), and
  a call runs the callee's operations on the call's own buffers. Listed here, window by window, are the operations in
  order with every call replaced by its callee's operations, and the fact that each window is the sequence of its list.
  The run of a straight line of host operations then ends with every buffer at the fold of the operations over the
  launch memory.
-/
import proofs.«139037_j17609365914513_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the reference program's body, in order (65 of them). -/
abbrev ops0 : List (HloOp τ sig (Elt F)) :=
  [ StableHlo.nullary main_cst (constant S3 .f32 0x42FE0000#32),
    StableHlo.nullary main_cst_0 (constant S_ .f32 0x3F800000#32),
    StableHlo.unary main_cst_0 main_v0 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v1 (broadcastInDim S100000 ![] bcast_S_S100000 : (⟨S_, .f32⟩ : BufTy).Contents (Elt F) → (⟨S100000, .f32⟩ : BufTy).Contents (Elt F)),
    StableHlo.unary main_arg3 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x3F800000#32),
    StableHlo.unary main_cst_3 main_v6 (broadcastInDim S100000 ![] bcast_S_S100000 : (⟨S_, .f32⟩ : BufTy).Contents (Elt F) → (⟨S100000, .f32⟩ : BufTy).Contents (Elt F)),
    StableHlo.binary main_v6 main_v5 main_v7 (Host.divf : (⟨S100000, .f32⟩ : BufTy).Contents (Elt F) → (⟨S100000, .f32⟩ : BufTy).Contents (Elt F) → (⟨S100000, .f32⟩ : BufTy).Contents (Elt F)),
    StableHlo.unary main_v7 main_v8 (broadcastInDim S100000x1 ![0] bcast_S100000_S100000x1_0 : (⟨S100000, .f32⟩ : BufTy).Contents (Elt F) → (⟨S100000x1, .f32⟩ : BufTy).Contents (Elt F)),
    StableHlo.nullary main_cst_4 (constant S_ .f32 0x00000000#32),
    StableHlo.TRef.unary (.of main_cst_4 : StableHlo.TRef sig ⟨S_, .f32⟩) main_call0.v0 id,
    StableHlo.TRef.unary main_call0.v0 main_call0.v1 (broadcastInDim S100000x3 ![] bcast_S_S100000x3),
    StableHlo.TRef.binary main_call0.v1 (.of main_arg1 : StableHlo.TRef sig ⟨S100000x3, .f32⟩) main_call0.v2 maximumf,
    StableHlo.TRef.unary (.of main_cst : StableHlo.TRef sig ⟨S3, .f32⟩) main_call0.v3 (broadcastInDim S1x3 ![1] bcast_S3_S1x3_1),
    StableHlo.TRef.unary main_call0.v3 main_call0.v4 (broadcastInDim S100000x3 ![0, 1] bcast_S1x3_S100000x3_0_1),
    StableHlo.TRef.binary main_call0.v4 main_call0.v2 main_call0.v5 minimumf,
    StableHlo.unary main_v9 main_v10 (Host.floor : (⟨S100000x3, .f32⟩ : BufTy).Contents (Elt F) → (⟨S100000x3, .f32⟩ : BufTy).Contents (Elt F)),
    StableHlo.unary main_v10 main_v11 (fptosi 32 : (⟨S100000x3, .f32⟩ : BufTy).Contents (Elt F) → (⟨S100000x3, .i32⟩ : BufTy).Contents (Elt F)),
    StableHlo.nullary main_c (constantI S_ 32 1#32),
    StableHlo.unary main_c main_v12 (broadcastInDim S100000x3 ![] bcast_S_S100000x3 : (⟨S_, .i32⟩ : BufTy).Contents (Elt F) → (⟨S100000x3, .i32⟩ : BufTy).Contents (Elt F)),
    StableHlo.binary main_v11 main_v12 main_v13 (addi : (⟨S100000x3, .i32⟩ : BufTy).Contents (Elt F) → (⟨S100000x3, .i32⟩ : BufTy).Contents (Elt F) → (⟨S100000x3, .i32⟩ : BufTy).Contents (Elt F)),
    StableHlo.unary main_cst main_v14 (fptosi 32 : (⟨S3, .f32⟩ : BufTy).Contents (Elt F) → (⟨S3, .i32⟩ : BufTy).Contents (Elt F)),
    StableHlo.unary main_v14 main_v15 (broadcastInDim S1x3 ![1] bcast_S3_S1x3_1 : (⟨S3, .i32⟩ : BufTy).Contents (Elt F) → (⟨S1x3, .i32⟩ : BufTy).Contents (Elt F)),
    StableHlo.unary main_v15 main_v16 (broadcastInDim S100000x3 ![0, 1] bcast_S1x3_S100000x3_0_1 : (⟨S1x3, .i32⟩ : BufTy).Contents (Elt F) → (⟨S100000x3, .i32⟩ : BufTy).Contents (Elt F)),
    StableHlo.binary main_v13 main_v16 main_v17 (minsi : (⟨S100000x3, .i32⟩ : BufTy).Contents (Elt F) → (⟨S100000x3, .i32⟩ : BufTy).Contents (Elt F) → (⟨S100000x3, .i32⟩ : BufTy).Contents (Elt F)),
    StableHlo.binary main_v9 main_v10 main_v18 (subf : (⟨S100000x3, .f32⟩ : BufTy).Contents (Elt F) → (⟨S100000x3, .f32⟩ : BufTy).Contents (Elt F) → (⟨S100000x3, .f32⟩ : BufTy).Contents (Elt F)),
    StableHlo.unary main_v11 main_v19 ((extractStridedSlice S100000x1 ![0, 0] · slices_S100000x3_S100000x1_0_0) : (⟨S100000x3, .i32⟩ : BufTy).Contents (Elt F) → (⟨S100000x1, .i32⟩ : BufTy).Contents (Elt F)),
    StableHlo.reshape main_v19 main_v20 rfl shapeCasts_S100000x1_S100000,
    StableHlo.unary main_v11 main_v21 ((extractStridedSlice S100000x1 ![0, 1] · slices_S100000x3_S100000x1_0_1) : (⟨S100000x3, .i32⟩ : BufTy).Contents (Elt F) → (⟨S100000x1, .i32⟩ : BufTy).Contents (Elt F)),
    StableHlo.reshape main_v21 main_v22 rfl shapeCasts_S100000x1_S100000,
    StableHlo.unary main_v11 main_v23 ((extractStridedSlice S100000x1 ![0, 2] · slices_S100000x3_S100000x1_0_2) : (⟨S100000x3, .i32⟩ : BufTy).Contents (Elt F) → (⟨S100000x1, .i32⟩ : BufTy).Contents (Elt F)),
    StableHlo.reshape main_v23 main_v24 rfl shapeCasts_S100000x1_S100000,
    StableHlo.unary main_v17 main_v25 ((extractStridedSlice S100000x1 ![0, 0] · slices_S100000x3_S100000x1_0_0) : (⟨S100000x3, .i32⟩ : BufTy).Contents (Elt F) → (⟨S100000x1, .i32⟩ : BufTy).Contents (Elt F)),
    StableHlo.reshape main_v25 main_v26 rfl shapeCasts_S100000x1_S100000,
    StableHlo.unary main_v17 main_v27 ((extractStridedSlice S100000x1 ![0, 1] · slices_S100000x3_S100000x1_0_1) : (⟨S100000x3, .i32⟩ : BufTy).Contents (Elt F) → (⟨S100000x1, .i32⟩ : BufTy).Contents (Elt F)),
    StableHlo.reshape main_v27 main_v28 rfl shapeCasts_S100000x1_S100000,
    StableHlo.unary main_v17 main_v29 ((extractStridedSlice S100000x1 ![0, 2] · slices_S100000x3_S100000x1_0_2) : (⟨S100000x3, .i32⟩ : BufTy).Contents (Elt F) → (⟨S100000x1, .i32⟩ : BufTy).Contents (Elt F)),
    StableHlo.reshape main_v29 main_v30 rfl shapeCasts_S100000x1_S100000,
    StableHlo.unary main_v18 main_v31 ((extractStridedSlice S100000x1 ![0, 0] · slices_S100000x3_S100000x1_0_0) : (⟨S100000x3, .f32⟩ : BufTy).Contents (Elt F) → (⟨S100000x1, .f32⟩ : BufTy).Contents (Elt F)),
    StableHlo.unary main_v18 main_v32 ((extractStridedSlice S100000x1 ![0, 1] · slices_S100000x3_S100000x1_0_1) : (⟨S100000x3, .f32⟩ : BufTy).Contents (Elt F) → (⟨S100000x1, .f32⟩ : BufTy).Contents (Elt F)),
    StableHlo.unary main_v18 main_v33 ((extractStridedSlice S100000x1 ![0, 2] · slices_S100000x3_S100000x1_0_2) : (⟨S100000x3, .f32⟩ : BufTy).Contents (Elt F) → (⟨S100000x1, .f32⟩ : BufTy).Contents (Elt F)),
    StableHlo.nullary main_c_5 (constantI S_ 32 0#32),
    StableHlo.unary main_c_5 main_v34 (broadcastInDim S100000 ![] bcast_S_S100000 : (⟨S_, .i32⟩ : BufTy).Contents (Elt F) → (⟨S100000, .i32⟩ : BufTy).Contents (Elt F)),
    StableHlo.binary main_v20 main_v34 main_v35 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 128#32),
    StableHlo.unary main_c_6 main_v36 (broadcastInDim S100000 ![] bcast_S_S100000 : (⟨S_, .i32⟩ : BufTy).Contents (Elt F) → (⟨S100000, .i32⟩ : BufTy).Contents (Elt F)),
    StableHlo.binary main_v20 main_v36 main_v37 (addi : (⟨S100000, .i32⟩ : BufTy).Contents (Elt F) → (⟨S100000, .i32⟩ : BufTy).Contents (Elt F) → (⟨S100000, .i32⟩ : BufTy).Contents (Elt F)),
    StableHlo.ternary main_v35 main_v37 main_v20 main_v38 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_7 (constantI S_ 32 0#32),
    StableHlo.unary main_c_7 main_v39 (broadcastInDim S100000 ![] bcast_S_S100000 : (⟨S_, .i32⟩ : BufTy).Contents (Elt F) → (⟨S100000, .i32⟩ : BufTy).Contents (Elt F)),
    StableHlo.binary main_v22 main_v39 main_v40 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 128#32),
    StableHlo.unary main_c_8 main_v41 (broadcastInDim S100000 ![] bcast_S_S100000 : (⟨S_, .i32⟩ : BufTy).Contents (Elt F) → (⟨S100000, .i32⟩ : BufTy).Contents (Elt F)),
    StableHlo.binary main_v22 main_v41 main_v42 (addi : (⟨S100000, .i32⟩ : BufTy).Contents (Elt F) → (⟨S100000, .i32⟩ : BufTy).Contents (Elt F) → (⟨S100000, .i32⟩ : BufTy).Contents (Elt F)),
    StableHlo.ternary main_v40 main_v42 main_v22 main_v43 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_9 (constantI S_ 32 0#32),
    StableHlo.unary main_c_9 main_v44 (broadcastInDim S100000 ![] bcast_S_S100000 : (⟨S_, .i32⟩ : BufTy).Contents (Elt F) → (⟨S100000, .i32⟩ : BufTy).Contents (Elt F)),
    StableHlo.binary main_v24 main_v44 main_v45 (cmpi .slt : (⟨S100000, .i32⟩ : BufTy).Contents (Elt F) → (⟨S100000, .i32⟩ : BufTy).Contents (Elt F) → (⟨S100000, .i1⟩ : BufTy).Contents (Elt F)),
    StableHlo.nullary main_c_10 (constantI S_ 32 128#32),
    StableHlo.unary main_c_10 main_v46 (broadcastInDim S100000 ![] bcast_S_S100000 : (⟨S_, .i32⟩ : BufTy).Contents (Elt F) → (⟨S100000, .i32⟩ : BufTy).Contents (Elt F)) ]

/-- The operations of window 1 of the reference program's body, in order (60 of them). -/
abbrev ops1 : List (HloOp τ sig (Elt F)) :=
  [ StableHlo.binary main_v24 main_v46 main_v47 (addi : (⟨S100000, .i32⟩ : BufTy).Contents (Elt F) → (⟨S100000, .i32⟩ : BufTy).Contents (Elt F) → (⟨S100000, .i32⟩ : BufTy).Contents (Elt F)),
    StableHlo.ternary main_v45 main_v47 main_v24 main_v48 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v38 main_v49 (broadcastInDim S100000x1 ![0] bcast_S100000_S100000x1_0 : (⟨S100000, .i32⟩ : BufTy).Contents (Elt F) → (⟨S100000x1, .i32⟩ : BufTy).Contents (Elt F)),
    StableHlo.unary main_v43 main_v50 (broadcastInDim S100000x1 ![0] bcast_S100000_S100000x1_0 : (⟨S100000, .i32⟩ : BufTy).Contents (Elt F) → (⟨S100000x1, .i32⟩ : BufTy).Contents (Elt F)),
    StableHlo.unary main_v48 main_v51 (broadcastInDim S100000x1 ![0] bcast_S100000_S100000x1_0 : (⟨S100000, .i32⟩ : BufTy).Contents (Elt F) → (⟨S100000x1, .i32⟩ : BufTy).Contents (Elt F)),
    StableHlo.nary ![main_v49, main_v50, main_v51] main_v52 (fun u => concatenate S100000x3 1 [⟨S100000x1, u 0⟩, ⟨S100000x1, u 1⟩, ⟨S100000x1, u 2⟩] concatenates_S100000x1_S100000x1_S100000x1_S100000x3_d1),
    StableHlo.binary main_arg0 main_v52 main_v53 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v53 main_v54 ((transpose S100000x16 [1, 0] · transposes_S16x100000_S100000x16_1_0) : (⟨S16x100000, .f32⟩ : BufTy).Contents (Elt F) → (⟨S100000x16, .f32⟩ : BufTy).Contents (Elt F)),
    StableHlo.nullary main_cst_11 (constant S_ .f32 0x3F800000#32),
    StableHlo.unary main_cst_11 main_v55 (broadcastInDim S100000x1 ![] bcast_S_S100000x1 : (⟨S_, .f32⟩ : BufTy).Contents (Elt F) → (⟨S100000x1, .f32⟩ : BufTy).Contents (Elt F)),
    StableHlo.binary main_v55 main_v33 main_v56 (subf : (⟨S100000x1, .f32⟩ : BufTy).Contents (Elt F) → (⟨S100000x1, .f32⟩ : BufTy).Contents (Elt F) → (⟨S100000x1, .f32⟩ : BufTy).Contents (Elt F)),
    StableHlo.unary main_v56 main_v57 (broadcastInDim S100000x16 ![0, 1] bcast_S100000x1_S100000x16_0_1 : (⟨S100000x1, .f32⟩ : BufTy).Contents (Elt F) → (⟨S100000x16, .f32⟩ : BufTy).Contents (Elt F)),
    StableHlo.binary main_v54 main_v57 main_v58 (mulf : (⟨S100000x16, .f32⟩ : BufTy).Contents (Elt F) → (⟨S100000x16, .f32⟩ : BufTy).Contents (Elt F) → (⟨S100000x16, .f32⟩ : BufTy).Contents (Elt F)),
    StableHlo.nullary main_c_12 (constantI S_ 32 0#32),
    StableHlo.unary main_c_12 main_v59 (broadcastInDim S100000 ![] bcast_S_S100000 : (⟨S_, .i32⟩ : BufTy).Contents (Elt F) → (⟨S100000, .i32⟩ : BufTy).Contents (Elt F)),
    StableHlo.binary main_v20 main_v59 main_v60 (cmpi .slt : (⟨S100000, .i32⟩ : BufTy).Contents (Elt F) → (⟨S100000, .i32⟩ : BufTy).Contents (Elt F) → (⟨S100000, .i1⟩ : BufTy).Contents (Elt F)),
    StableHlo.nullary main_c_13 (constantI S_ 32 128#32),
    StableHlo.unary main_c_13 main_v61 (broadcastInDim S100000 ![] bcast_S_S100000 : (⟨S_, .i32⟩ : BufTy).Contents (Elt F) → (⟨S100000, .i32⟩ : BufTy).Contents (Elt F)),
    StableHlo.binary main_v20 main_v61 main_v62 (addi : (⟨S100000, .i32⟩ : BufTy).Contents (Elt F) → (⟨S100000, .i32⟩ : BufTy).Contents (Elt F) → (⟨S100000, .i32⟩ : BufTy).Contents (Elt F)),
    StableHlo.ternary main_v60 main_v62 main_v20 main_v63 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_14 (constantI S_ 32 0#32),
    StableHlo.unary main_c_14 main_v64 (broadcastInDim S100000 ![] bcast_S_S100000 : (⟨S_, .i32⟩ : BufTy).Contents (Elt F) → (⟨S100000, .i32⟩ : BufTy).Contents (Elt F)),
    StableHlo.binary main_v22 main_v64 main_v65 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 128#32),
    StableHlo.unary main_c_15 main_v66 (broadcastInDim S100000 ![] bcast_S_S100000 : (⟨S_, .i32⟩ : BufTy).Contents (Elt F) → (⟨S100000, .i32⟩ : BufTy).Contents (Elt F)),
    StableHlo.binary main_v22 main_v66 main_v67 (addi : (⟨S100000, .i32⟩ : BufTy).Contents (Elt F) → (⟨S100000, .i32⟩ : BufTy).Contents (Elt F) → (⟨S100000, .i32⟩ : BufTy).Contents (Elt F)),
    StableHlo.ternary main_v65 main_v67 main_v22 main_v68 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_16 (constantI S_ 32 0#32),
    StableHlo.unary main_c_16 main_v69 (broadcastInDim S100000 ![] bcast_S_S100000 : (⟨S_, .i32⟩ : BufTy).Contents (Elt F) → (⟨S100000, .i32⟩ : BufTy).Contents (Elt F)),
    StableHlo.binary main_v30 main_v69 main_v70 (cmpi .slt : (⟨S100000, .i32⟩ : BufTy).Contents (Elt F) → (⟨S100000, .i32⟩ : BufTy).Contents (Elt F) → (⟨S100000, .i1⟩ : BufTy).Contents (Elt F)),
    StableHlo.nullary main_c_17 (constantI S_ 32 128#32),
    StableHlo.unary main_c_17 main_v71 (broadcastInDim S100000 ![] bcast_S_S100000 : (⟨S_, .i32⟩ : BufTy).Contents (Elt F) → (⟨S100000, .i32⟩ : BufTy).Contents (Elt F)),
    StableHlo.binary main_v30 main_v71 main_v72 (addi : (⟨S100000, .i32⟩ : BufTy).Contents (Elt F) → (⟨S100000, .i32⟩ : BufTy).Contents (Elt F) → (⟨S100000, .i32⟩ : BufTy).Contents (Elt F)),
    StableHlo.ternary main_v70 main_v72 main_v30 main_v73 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v63 main_v74 (broadcastInDim S100000x1 ![0] bcast_S100000_S100000x1_0 : (⟨S100000, .i32⟩ : BufTy).Contents (Elt F) → (⟨S100000x1, .i32⟩ : BufTy).Contents (Elt F)),
    StableHlo.unary main_v68 main_v75 (broadcastInDim S100000x1 ![0] bcast_S100000_S100000x1_0 : (⟨S100000, .i32⟩ : BufTy).Contents (Elt F) → (⟨S100000x1, .i32⟩ : BufTy).Contents (Elt F)),
    StableHlo.unary main_v73 main_v76 (broadcastInDim S100000x1 ![0] bcast_S100000_S100000x1_0 : (⟨S100000, .i32⟩ : BufTy).Contents (Elt F) → (⟨S100000x1, .i32⟩ : BufTy).Contents (Elt F)),
    StableHlo.nary ![main_v74, main_v75, main_v76] main_v77 (fun u => concatenate S100000x3 1 [⟨S100000x1, u 0⟩, ⟨S100000x1, u 1⟩, ⟨S100000x1, u 2⟩] concatenates_S100000x1_S100000x1_S100000x1_S100000x3_d1),
    StableHlo.binary main_arg0 main_v77 main_v78 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v78 main_v79 ((transpose S100000x16 [1, 0] · transposes_S16x100000_S100000x16_1_0) : (⟨S16x100000, .f32⟩ : BufTy).Contents (Elt F) → (⟨S100000x16, .f32⟩ : BufTy).Contents (Elt F)),
    StableHlo.unary main_v33 main_v80 (broadcastInDim S100000x16 ![0, 1] bcast_S100000x1_S100000x16_0_1 : (⟨S100000x1, .f32⟩ : BufTy).Contents (Elt F) → (⟨S100000x16, .f32⟩ : BufTy).Contents (Elt F)),
    StableHlo.binary main_v79 main_v80 main_v81 (mulf : (⟨S100000x16, .f32⟩ : BufTy).Contents (Elt F) → (⟨S100000x16, .f32⟩ : BufTy).Contents (Elt F) → (⟨S100000x16, .f32⟩ : BufTy).Contents (Elt F)),
    StableHlo.binary main_v58 main_v81 main_v82 (addf : (⟨S100000x16, .f32⟩ : BufTy).Contents (Elt F) → (⟨S100000x16, .f32⟩ : BufTy).Contents (Elt F) → (⟨S100000x16, .f32⟩ : BufTy).Contents (Elt F)),
    StableHlo.nullary main_c_18 (constantI S_ 32 0#32),
    StableHlo.unary main_c_18 main_v83 (broadcastInDim S100000 ![] bcast_S_S100000 : (⟨S_, .i32⟩ : BufTy).Contents (Elt F) → (⟨S100000, .i32⟩ : BufTy).Contents (Elt F)),
    StableHlo.binary main_v20 main_v83 main_v84 (cmpi .slt : (⟨S100000, .i32⟩ : BufTy).Contents (Elt F) → (⟨S100000, .i32⟩ : BufTy).Contents (Elt F) → (⟨S100000, .i1⟩ : BufTy).Contents (Elt F)),
    StableHlo.nullary main_c_19 (constantI S_ 32 128#32),
    StableHlo.unary main_c_19 main_v85 (broadcastInDim S100000 ![] bcast_S_S100000 : (⟨S_, .i32⟩ : BufTy).Contents (Elt F) → (⟨S100000, .i32⟩ : BufTy).Contents (Elt F)),
    StableHlo.binary main_v20 main_v85 main_v86 (addi : (⟨S100000, .i32⟩ : BufTy).Contents (Elt F) → (⟨S100000, .i32⟩ : BufTy).Contents (Elt F) → (⟨S100000, .i32⟩ : BufTy).Contents (Elt F)),
    StableHlo.ternary main_v84 main_v86 main_v20 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_20 (constantI S_ 32 0#32),
    StableHlo.unary main_c_20 main_v88 (broadcastInDim S100000 ![] bcast_S_S100000 : (⟨S_, .i32⟩ : BufTy).Contents (Elt F) → (⟨S100000, .i32⟩ : BufTy).Contents (Elt F)),
    StableHlo.binary main_v28 main_v88 main_v89 (cmpi .slt : (⟨S100000, .i32⟩ : BufTy).Contents (Elt F) → (⟨S100000, .i32⟩ : BufTy).Contents (Elt F) → (⟨S100000, .i1⟩ : BufTy).Contents (Elt F)),
    StableHlo.nullary main_c_21 (constantI S_ 32 128#32),
    StableHlo.unary main_c_21 main_v90 (broadcastInDim S100000 ![] bcast_S_S100000 : (⟨S_, .i32⟩ : BufTy).Contents (Elt F) → (⟨S100000, .i32⟩ : BufTy).Contents (Elt F)),
    StableHlo.binary main_v28 main_v90 main_v91 (addi : (⟨S100000, .i32⟩ : BufTy).Contents (Elt F) → (⟨S100000, .i32⟩ : BufTy).Contents (Elt F) → (⟨S100000, .i32⟩ : BufTy).Contents (Elt F)),
    StableHlo.ternary main_v89 main_v91 main_v28 main_v92 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_22 (constantI S_ 32 0#32),
    StableHlo.unary main_c_22 main_v93 (broadcastInDim S100000 ![] bcast_S_S100000 : (⟨S_, .i32⟩ : BufTy).Contents (Elt F) → (⟨S100000, .i32⟩ : BufTy).Contents (Elt F)),
    StableHlo.binary main_v24 main_v93 main_v94 (cmpi .slt : (⟨S100000, .i32⟩ : BufTy).Contents (Elt F) → (⟨S100000, .i32⟩ : BufTy).Contents (Elt F) → (⟨S100000, .i1⟩ : BufTy).Contents (Elt F)) ]

/-- The operations of window 2 of the reference program's body, in order (60 of them). -/
abbrev ops2 : List (HloOp τ sig (Elt F)) :=
  [ StableHlo.nullary main_c_23 (constantI S_ 32 128#32),
    StableHlo.unary main_c_23 main_v95 (broadcastInDim S100000 ![] bcast_S_S100000 : (⟨S_, .i32⟩ : BufTy).Contents (Elt F) → (⟨S100000, .i32⟩ : BufTy).Contents (Elt F)),
    StableHlo.binary main_v24 main_v95 main_v96 (addi : (⟨S100000, .i32⟩ : BufTy).Contents (Elt F) → (⟨S100000, .i32⟩ : BufTy).Contents (Elt F) → (⟨S100000, .i32⟩ : BufTy).Contents (Elt F)),
    StableHlo.ternary main_v94 main_v96 main_v24 main_v97 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v87 main_v98 (broadcastInDim S100000x1 ![0] bcast_S100000_S100000x1_0 : (⟨S100000, .i32⟩ : BufTy).Contents (Elt F) → (⟨S100000x1, .i32⟩ : BufTy).Contents (Elt F)),
    StableHlo.unary main_v92 main_v99 (broadcastInDim S100000x1 ![0] bcast_S100000_S100000x1_0 : (⟨S100000, .i32⟩ : BufTy).Contents (Elt F) → (⟨S100000x1, .i32⟩ : BufTy).Contents (Elt F)),
    StableHlo.unary main_v97 main_v100 (broadcastInDim S100000x1 ![0] bcast_S100000_S100000x1_0 : (⟨S100000, .i32⟩ : BufTy).Contents (Elt F) → (⟨S100000x1, .i32⟩ : BufTy).Contents (Elt F)),
    StableHlo.nary ![main_v98, main_v99, main_v100] main_v101 (fun u => concatenate S100000x3 1 [⟨S100000x1, u 0⟩, ⟨S100000x1, u 1⟩, ⟨S100000x1, u 2⟩] concatenates_S100000x1_S100000x1_S100000x1_S100000x3_d1),
    StableHlo.binary main_arg0 main_v101 main_v102 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v102 main_v103 ((transpose S100000x16 [1, 0] · transposes_S16x100000_S100000x16_1_0) : (⟨S16x100000, .f32⟩ : BufTy).Contents (Elt F) → (⟨S100000x16, .f32⟩ : BufTy).Contents (Elt F)),
    StableHlo.nullary main_cst_24 (constant S_ .f32 0x3F800000#32),
    StableHlo.unary main_cst_24 main_v104 (broadcastInDim S100000x1 ![] bcast_S_S100000x1 : (⟨S_, .f32⟩ : BufTy).Contents (Elt F) → (⟨S100000x1, .f32⟩ : BufTy).Contents (Elt F)),
    StableHlo.binary main_v104 main_v33 main_v105 (subf : (⟨S100000x1, .f32⟩ : BufTy).Contents (Elt F) → (⟨S100000x1, .f32⟩ : BufTy).Contents (Elt F) → (⟨S100000x1, .f32⟩ : BufTy).Contents (Elt F)),
    StableHlo.unary main_v105 main_v106 (broadcastInDim S100000x16 ![0, 1] bcast_S100000x1_S100000x16_0_1 : (⟨S100000x1, .f32⟩ : BufTy).Contents (Elt F) → (⟨S100000x16, .f32⟩ : BufTy).Contents (Elt F)),
    StableHlo.binary main_v103 main_v106 main_v107 (mulf : (⟨S100000x16, .f32⟩ : BufTy).Contents (Elt F) → (⟨S100000x16, .f32⟩ : BufTy).Contents (Elt F) → (⟨S100000x16, .f32⟩ : BufTy).Contents (Elt F)),
    StableHlo.nullary main_c_25 (constantI S_ 32 0#32),
    StableHlo.unary main_c_25 main_v108 (broadcastInDim S100000 ![] bcast_S_S100000 : (⟨S_, .i32⟩ : BufTy).Contents (Elt F) → (⟨S100000, .i32⟩ : BufTy).Contents (Elt F)),
    StableHlo.binary main_v20 main_v108 main_v109 (cmpi .slt : (⟨S100000, .i32⟩ : BufTy).Contents (Elt F) → (⟨S100000, .i32⟩ : BufTy).Contents (Elt F) → (⟨S100000, .i1⟩ : BufTy).Contents (Elt F)),
    StableHlo.nullary main_c_26 (constantI S_ 32 128#32),
    StableHlo.unary main_c_26 main_v110 (broadcastInDim S100000 ![] bcast_S_S100000 : (⟨S_, .i32⟩ : BufTy).Contents (Elt F) → (⟨S100000, .i32⟩ : BufTy).Contents (Elt F)),
    StableHlo.binary main_v20 main_v110 main_v111 (addi : (⟨S100000, .i32⟩ : BufTy).Contents (Elt F) → (⟨S100000, .i32⟩ : BufTy).Contents (Elt F) → (⟨S100000, .i32⟩ : BufTy).Contents (Elt F)),
    StableHlo.ternary main_v109 main_v111 main_v20 main_v112 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_27 (constantI S_ 32 0#32),
    StableHlo.unary main_c_27 main_v113 (broadcastInDim S100000 ![] bcast_S_S100000 : (⟨S_, .i32⟩ : BufTy).Contents (Elt F) → (⟨S100000, .i32⟩ : BufTy).Contents (Elt F)),
    StableHlo.binary main_v28 main_v113 main_v114 (cmpi .slt : (⟨S100000, .i32⟩ : BufTy).Contents (Elt F) → (⟨S100000, .i32⟩ : BufTy).Contents (Elt F) → (⟨S100000, .i1⟩ : BufTy).Contents (Elt F)),
    StableHlo.nullary main_c_28 (constantI S_ 32 128#32),
    StableHlo.unary main_c_28 main_v115 (broadcastInDim S100000 ![] bcast_S_S100000 : (⟨S_, .i32⟩ : BufTy).Contents (Elt F) → (⟨S100000, .i32⟩ : BufTy).Contents (Elt F)),
    StableHlo.binary main_v28 main_v115 main_v116 (addi : (⟨S100000, .i32⟩ : BufTy).Contents (Elt F) → (⟨S100000, .i32⟩ : BufTy).Contents (Elt F) → (⟨S100000, .i32⟩ : BufTy).Contents (Elt F)),
    StableHlo.ternary main_v114 main_v116 main_v28 main_v117 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_29 (constantI S_ 32 0#32),
    StableHlo.unary main_c_29 main_v118 (broadcastInDim S100000 ![] bcast_S_S100000 : (⟨S_, .i32⟩ : BufTy).Contents (Elt F) → (⟨S100000, .i32⟩ : BufTy).Contents (Elt F)),
    StableHlo.binary main_v30 main_v118 main_v119 (cmpi .slt : (⟨S100000, .i32⟩ : BufTy).Contents (Elt F) → (⟨S100000, .i32⟩ : BufTy).Contents (Elt F) → (⟨S100000, .i1⟩ : BufTy).Contents (Elt F)),
    StableHlo.nullary main_c_30 (constantI S_ 32 128#32),
    StableHlo.unary main_c_30 main_v120 (broadcastInDim S100000 ![] bcast_S_S100000 : (⟨S_, .i32⟩ : BufTy).Contents (Elt F) → (⟨S100000, .i32⟩ : BufTy).Contents (Elt F)),
    StableHlo.binary main_v30 main_v120 main_v121 (addi : (⟨S100000, .i32⟩ : BufTy).Contents (Elt F) → (⟨S100000, .i32⟩ : BufTy).Contents (Elt F) → (⟨S100000, .i32⟩ : BufTy).Contents (Elt F)),
    StableHlo.ternary main_v119 main_v121 main_v30 main_v122 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v112 main_v123 (broadcastInDim S100000x1 ![0] bcast_S100000_S100000x1_0 : (⟨S100000, .i32⟩ : BufTy).Contents (Elt F) → (⟨S100000x1, .i32⟩ : BufTy).Contents (Elt F)),
    StableHlo.unary main_v117 main_v124 (broadcastInDim S100000x1 ![0] bcast_S100000_S100000x1_0 : (⟨S100000, .i32⟩ : BufTy).Contents (Elt F) → (⟨S100000x1, .i32⟩ : BufTy).Contents (Elt F)),
    StableHlo.unary main_v122 main_v125 (broadcastInDim S100000x1 ![0] bcast_S100000_S100000x1_0 : (⟨S100000, .i32⟩ : BufTy).Contents (Elt F) → (⟨S100000x1, .i32⟩ : BufTy).Contents (Elt F)),
    StableHlo.nary ![main_v123, main_v124, main_v125] main_v126 (fun u => concatenate S100000x3 1 [⟨S100000x1, u 0⟩, ⟨S100000x1, u 1⟩, ⟨S100000x1, u 2⟩] concatenates_S100000x1_S100000x1_S100000x1_S100000x3_d1),
    StableHlo.binary main_arg0 main_v126 main_v127 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v127 main_v128 ((transpose S100000x16 [1, 0] · transposes_S16x100000_S100000x16_1_0) : (⟨S16x100000, .f32⟩ : BufTy).Contents (Elt F) → (⟨S100000x16, .f32⟩ : BufTy).Contents (Elt F)),
    StableHlo.unary main_v33 main_v129 (broadcastInDim S100000x16 ![0, 1] bcast_S100000x1_S100000x16_0_1 : (⟨S100000x1, .f32⟩ : BufTy).Contents (Elt F) → (⟨S100000x16, .f32⟩ : BufTy).Contents (Elt F)),
    StableHlo.binary main_v128 main_v129 main_v130 (mulf : (⟨S100000x16, .f32⟩ : BufTy).Contents (Elt F) → (⟨S100000x16, .f32⟩ : BufTy).Contents (Elt F) → (⟨S100000x16, .f32⟩ : BufTy).Contents (Elt F)),
    StableHlo.binary main_v107 main_v130 main_v131 (addf : (⟨S100000x16, .f32⟩ : BufTy).Contents (Elt F) → (⟨S100000x16, .f32⟩ : BufTy).Contents (Elt F) → (⟨S100000x16, .f32⟩ : BufTy).Contents (Elt F)),
    StableHlo.nullary main_c_31 (constantI S_ 32 0#32),
    StableHlo.unary main_c_31 main_v132 (broadcastInDim S100000 ![] bcast_S_S100000 : (⟨S_, .i32⟩ : BufTy).Contents (Elt F) → (⟨S100000, .i32⟩ : BufTy).Contents (Elt F)),
    StableHlo.binary main_v26 main_v132 main_v133 (cmpi .slt : (⟨S100000, .i32⟩ : BufTy).Contents (Elt F) → (⟨S100000, .i32⟩ : BufTy).Contents (Elt F) → (⟨S100000, .i1⟩ : BufTy).Contents (Elt F)),
    StableHlo.nullary main_c_32 (constantI S_ 32 128#32),
    StableHlo.unary main_c_32 main_v134 (broadcastInDim S100000 ![] bcast_S_S100000 : (⟨S_, .i32⟩ : BufTy).Contents (Elt F) → (⟨S100000, .i32⟩ : BufTy).Contents (Elt F)),
    StableHlo.binary main_v26 main_v134 main_v135 (addi : (⟨S100000, .i32⟩ : BufTy).Contents (Elt F) → (⟨S100000, .i32⟩ : BufTy).Contents (Elt F) → (⟨S100000, .i32⟩ : BufTy).Contents (Elt F)),
    StableHlo.ternary main_v133 main_v135 main_v26 main_v136 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_33 (constantI S_ 32 0#32),
    StableHlo.unary main_c_33 main_v137 (broadcastInDim S100000 ![] bcast_S_S100000 : (⟨S_, .i32⟩ : BufTy).Contents (Elt F) → (⟨S100000, .i32⟩ : BufTy).Contents (Elt F)),
    StableHlo.binary main_v22 main_v137 main_v138 (cmpi .slt : (⟨S100000, .i32⟩ : BufTy).Contents (Elt F) → (⟨S100000, .i32⟩ : BufTy).Contents (Elt F) → (⟨S100000, .i1⟩ : BufTy).Contents (Elt F)),
    StableHlo.nullary main_c_34 (constantI S_ 32 128#32),
    StableHlo.unary main_c_34 main_v139 (broadcastInDim S100000 ![] bcast_S_S100000 : (⟨S_, .i32⟩ : BufTy).Contents (Elt F) → (⟨S100000, .i32⟩ : BufTy).Contents (Elt F)),
    StableHlo.binary main_v22 main_v139 main_v140 (addi : (⟨S100000, .i32⟩ : BufTy).Contents (Elt F) → (⟨S100000, .i32⟩ : BufTy).Contents (Elt F) → (⟨S100000, .i32⟩ : BufTy).Contents (Elt F)),
    StableHlo.ternary main_v138 main_v140 main_v22 main_v141 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_35 (constantI S_ 32 0#32) ]

/-- The operations of window 3 of the reference program's body, in order (60 of them). -/
abbrev ops3 : List (HloOp τ sig (Elt F)) :=
  [ StableHlo.unary main_c_35 main_v142 (broadcastInDim S100000 ![] bcast_S_S100000 : (⟨S_, .i32⟩ : BufTy).Contents (Elt F) → (⟨S100000, .i32⟩ : BufTy).Contents (Elt F)),
    StableHlo.binary main_v24 main_v142 main_v143 (cmpi .slt : (⟨S100000, .i32⟩ : BufTy).Contents (Elt F) → (⟨S100000, .i32⟩ : BufTy).Contents (Elt F) → (⟨S100000, .i1⟩ : BufTy).Contents (Elt F)),
    StableHlo.nullary main_c_36 (constantI S_ 32 128#32),
    StableHlo.unary main_c_36 main_v144 (broadcastInDim S100000 ![] bcast_S_S100000 : (⟨S_, .i32⟩ : BufTy).Contents (Elt F) → (⟨S100000, .i32⟩ : BufTy).Contents (Elt F)),
    StableHlo.binary main_v24 main_v144 main_v145 (addi : (⟨S100000, .i32⟩ : BufTy).Contents (Elt F) → (⟨S100000, .i32⟩ : BufTy).Contents (Elt F) → (⟨S100000, .i32⟩ : BufTy).Contents (Elt F)),
    StableHlo.ternary main_v143 main_v145 main_v24 main_v146 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v136 main_v147 (broadcastInDim S100000x1 ![0] bcast_S100000_S100000x1_0 : (⟨S100000, .i32⟩ : BufTy).Contents (Elt F) → (⟨S100000x1, .i32⟩ : BufTy).Contents (Elt F)),
    StableHlo.unary main_v141 main_v148 (broadcastInDim S100000x1 ![0] bcast_S100000_S100000x1_0 : (⟨S100000, .i32⟩ : BufTy).Contents (Elt F) → (⟨S100000x1, .i32⟩ : BufTy).Contents (Elt F)),
    StableHlo.unary main_v146 main_v149 (broadcastInDim S100000x1 ![0] bcast_S100000_S100000x1_0 : (⟨S100000, .i32⟩ : BufTy).Contents (Elt F) → (⟨S100000x1, .i32⟩ : BufTy).Contents (Elt F)),
    StableHlo.nary ![main_v147, main_v148, main_v149] main_v150 (fun u => concatenate S100000x3 1 [⟨S100000x1, u 0⟩, ⟨S100000x1, u 1⟩, ⟨S100000x1, u 2⟩] concatenates_S100000x1_S100000x1_S100000x1_S100000x3_d1),
    StableHlo.binary main_arg0 main_v150 main_v151 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v151 main_v152 ((transpose S100000x16 [1, 0] · transposes_S16x100000_S100000x16_1_0) : (⟨S16x100000, .f32⟩ : BufTy).Contents (Elt F) → (⟨S100000x16, .f32⟩ : BufTy).Contents (Elt F)),
    StableHlo.nullary main_cst_37 (constant S_ .f32 0x3F800000#32),
    StableHlo.unary main_cst_37 main_v153 (broadcastInDim S100000x1 ![] bcast_S_S100000x1 : (⟨S_, .f32⟩ : BufTy).Contents (Elt F) → (⟨S100000x1, .f32⟩ : BufTy).Contents (Elt F)),
    StableHlo.binary main_v153 main_v33 main_v154 (subf : (⟨S100000x1, .f32⟩ : BufTy).Contents (Elt F) → (⟨S100000x1, .f32⟩ : BufTy).Contents (Elt F) → (⟨S100000x1, .f32⟩ : BufTy).Contents (Elt F)),
    StableHlo.unary main_v154 main_v155 (broadcastInDim S100000x16 ![0, 1] bcast_S100000x1_S100000x16_0_1 : (⟨S100000x1, .f32⟩ : BufTy).Contents (Elt F) → (⟨S100000x16, .f32⟩ : BufTy).Contents (Elt F)),
    StableHlo.binary main_v152 main_v155 main_v156 (mulf : (⟨S100000x16, .f32⟩ : BufTy).Contents (Elt F) → (⟨S100000x16, .f32⟩ : BufTy).Contents (Elt F) → (⟨S100000x16, .f32⟩ : BufTy).Contents (Elt F)),
    StableHlo.nullary main_c_38 (constantI S_ 32 0#32),
    StableHlo.unary main_c_38 main_v157 (broadcastInDim S100000 ![] bcast_S_S100000 : (⟨S_, .i32⟩ : BufTy).Contents (Elt F) → (⟨S100000, .i32⟩ : BufTy).Contents (Elt F)),
    StableHlo.binary main_v26 main_v157 main_v158 (cmpi .slt : (⟨S100000, .i32⟩ : BufTy).Contents (Elt F) → (⟨S100000, .i32⟩ : BufTy).Contents (Elt F) → (⟨S100000, .i1⟩ : BufTy).Contents (Elt F)),
    StableHlo.nullary main_c_39 (constantI S_ 32 128#32),
    StableHlo.unary main_c_39 main_v159 (broadcastInDim S100000 ![] bcast_S_S100000 : (⟨S_, .i32⟩ : BufTy).Contents (Elt F) → (⟨S100000, .i32⟩ : BufTy).Contents (Elt F)),
    StableHlo.binary main_v26 main_v159 main_v160 (addi : (⟨S100000, .i32⟩ : BufTy).Contents (Elt F) → (⟨S100000, .i32⟩ : BufTy).Contents (Elt F) → (⟨S100000, .i32⟩ : BufTy).Contents (Elt F)),
    StableHlo.ternary main_v158 main_v160 main_v26 main_v161 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_40 (constantI S_ 32 0#32),
    StableHlo.unary main_c_40 main_v162 (broadcastInDim S100000 ![] bcast_S_S100000 : (⟨S_, .i32⟩ : BufTy).Contents (Elt F) → (⟨S100000, .i32⟩ : BufTy).Contents (Elt F)),
    StableHlo.binary main_v22 main_v162 main_v163 (cmpi .slt : (⟨S100000, .i32⟩ : BufTy).Contents (Elt F) → (⟨S100000, .i32⟩ : BufTy).Contents (Elt F) → (⟨S100000, .i1⟩ : BufTy).Contents (Elt F)),
    StableHlo.nullary main_c_41 (constantI S_ 32 128#32),
    StableHlo.unary main_c_41 main_v164 (broadcastInDim S100000 ![] bcast_S_S100000 : (⟨S_, .i32⟩ : BufTy).Contents (Elt F) → (⟨S100000, .i32⟩ : BufTy).Contents (Elt F)),
    StableHlo.binary main_v22 main_v164 main_v165 (addi : (⟨S100000, .i32⟩ : BufTy).Contents (Elt F) → (⟨S100000, .i32⟩ : BufTy).Contents (Elt F) → (⟨S100000, .i32⟩ : BufTy).Contents (Elt F)),
    StableHlo.ternary main_v163 main_v165 main_v22 main_v166 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_42 (constantI S_ 32 0#32),
    StableHlo.unary main_c_42 main_v167 (broadcastInDim S100000 ![] bcast_S_S100000 : (⟨S_, .i32⟩ : BufTy).Contents (Elt F) → (⟨S100000, .i32⟩ : BufTy).Contents (Elt F)),
    StableHlo.binary main_v30 main_v167 main_v168 (cmpi .slt : (⟨S100000, .i32⟩ : BufTy).Contents (Elt F) → (⟨S100000, .i32⟩ : BufTy).Contents (Elt F) → (⟨S100000, .i1⟩ : BufTy).Contents (Elt F)),
    StableHlo.nullary main_c_43 (constantI S_ 32 128#32),
    StableHlo.unary main_c_43 main_v169 (broadcastInDim S100000 ![] bcast_S_S100000 : (⟨S_, .i32⟩ : BufTy).Contents (Elt F) → (⟨S100000, .i32⟩ : BufTy).Contents (Elt F)),
    StableHlo.binary main_v30 main_v169 main_v170 (addi : (⟨S100000, .i32⟩ : BufTy).Contents (Elt F) → (⟨S100000, .i32⟩ : BufTy).Contents (Elt F) → (⟨S100000, .i32⟩ : BufTy).Contents (Elt F)),
    StableHlo.ternary main_v168 main_v170 main_v30 main_v171 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v161 main_v172 (broadcastInDim S100000x1 ![0] bcast_S100000_S100000x1_0 : (⟨S100000, .i32⟩ : BufTy).Contents (Elt F) → (⟨S100000x1, .i32⟩ : BufTy).Contents (Elt F)),
    StableHlo.unary main_v166 main_v173 (broadcastInDim S100000x1 ![0] bcast_S100000_S100000x1_0 : (⟨S100000, .i32⟩ : BufTy).Contents (Elt F) → (⟨S100000x1, .i32⟩ : BufTy).Contents (Elt F)),
    StableHlo.unary main_v171 main_v174 (broadcastInDim S100000x1 ![0] bcast_S100000_S100000x1_0 : (⟨S100000, .i32⟩ : BufTy).Contents (Elt F) → (⟨S100000x1, .i32⟩ : BufTy).Contents (Elt F)),
    StableHlo.nary ![main_v172, main_v173, main_v174] main_v175 (fun u => concatenate S100000x3 1 [⟨S100000x1, u 0⟩, ⟨S100000x1, u 1⟩, ⟨S100000x1, u 2⟩] concatenates_S100000x1_S100000x1_S100000x1_S100000x3_d1),
    StableHlo.binary main_arg0 main_v175 main_v176 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v176 main_v177 ((transpose S100000x16 [1, 0] · transposes_S16x100000_S100000x16_1_0) : (⟨S16x100000, .f32⟩ : BufTy).Contents (Elt F) → (⟨S100000x16, .f32⟩ : BufTy).Contents (Elt F)),
    StableHlo.unary main_v33 main_v178 (broadcastInDim S100000x16 ![0, 1] bcast_S100000x1_S100000x16_0_1 : (⟨S100000x1, .f32⟩ : BufTy).Contents (Elt F) → (⟨S100000x16, .f32⟩ : BufTy).Contents (Elt F)),
    StableHlo.binary main_v177 main_v178 main_v179 (mulf : (⟨S100000x16, .f32⟩ : BufTy).Contents (Elt F) → (⟨S100000x16, .f32⟩ : BufTy).Contents (Elt F) → (⟨S100000x16, .f32⟩ : BufTy).Contents (Elt F)),
    StableHlo.binary main_v156 main_v179 main_v180 (addf : (⟨S100000x16, .f32⟩ : BufTy).Contents (Elt F) → (⟨S100000x16, .f32⟩ : BufTy).Contents (Elt F) → (⟨S100000x16, .f32⟩ : BufTy).Contents (Elt F)),
    StableHlo.nullary main_c_44 (constantI S_ 32 0#32),
    StableHlo.unary main_c_44 main_v181 (broadcastInDim S100000 ![] bcast_S_S100000 : (⟨S_, .i32⟩ : BufTy).Contents (Elt F) → (⟨S100000, .i32⟩ : BufTy).Contents (Elt F)),
    StableHlo.binary main_v26 main_v181 main_v182 (cmpi .slt : (⟨S100000, .i32⟩ : BufTy).Contents (Elt F) → (⟨S100000, .i32⟩ : BufTy).Contents (Elt F) → (⟨S100000, .i1⟩ : BufTy).Contents (Elt F)),
    StableHlo.nullary main_c_45 (constantI S_ 32 128#32),
    StableHlo.unary main_c_45 main_v183 (broadcastInDim S100000 ![] bcast_S_S100000 : (⟨S_, .i32⟩ : BufTy).Contents (Elt F) → (⟨S100000, .i32⟩ : BufTy).Contents (Elt F)),
    StableHlo.binary main_v26 main_v183 main_v184 (addi : (⟨S100000, .i32⟩ : BufTy).Contents (Elt F) → (⟨S100000, .i32⟩ : BufTy).Contents (Elt F) → (⟨S100000, .i32⟩ : BufTy).Contents (Elt F)),
    StableHlo.ternary main_v182 main_v184 main_v26 main_v185 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_46 (constantI S_ 32 0#32),
    StableHlo.unary main_c_46 main_v186 (broadcastInDim S100000 ![] bcast_S_S100000 : (⟨S_, .i32⟩ : BufTy).Contents (Elt F) → (⟨S100000, .i32⟩ : BufTy).Contents (Elt F)),
    StableHlo.binary main_v28 main_v186 main_v187 (cmpi .slt : (⟨S100000, .i32⟩ : BufTy).Contents (Elt F) → (⟨S100000, .i32⟩ : BufTy).Contents (Elt F) → (⟨S100000, .i1⟩ : BufTy).Contents (Elt F)),
    StableHlo.nullary main_c_47 (constantI S_ 32 128#32),
    StableHlo.unary main_c_47 main_v188 (broadcastInDim S100000 ![] bcast_S_S100000 : (⟨S_, .i32⟩ : BufTy).Contents (Elt F) → (⟨S100000, .i32⟩ : BufTy).Contents (Elt F)),
    StableHlo.binary main_v28 main_v188 main_v189 (addi : (⟨S100000, .i32⟩ : BufTy).Contents (Elt F) → (⟨S100000, .i32⟩ : BufTy).Contents (Elt F) → (⟨S100000, .i32⟩ : BufTy).Contents (Elt F)) ]

/-- The operations of window 4 of the reference program's body, in order (60 of them). -/
abbrev ops4 : List (HloOp τ sig (Elt F)) :=
  [ StableHlo.ternary main_v187 main_v189 main_v28 main_v190 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_48 (constantI S_ 32 0#32),
    StableHlo.unary main_c_48 main_v191 (broadcastInDim S100000 ![] bcast_S_S100000 : (⟨S_, .i32⟩ : BufTy).Contents (Elt F) → (⟨S100000, .i32⟩ : BufTy).Contents (Elt F)),
    StableHlo.binary main_v24 main_v191 main_v192 (cmpi .slt : (⟨S100000, .i32⟩ : BufTy).Contents (Elt F) → (⟨S100000, .i32⟩ : BufTy).Contents (Elt F) → (⟨S100000, .i1⟩ : BufTy).Contents (Elt F)),
    StableHlo.nullary main_c_49 (constantI S_ 32 128#32),
    StableHlo.unary main_c_49 main_v193 (broadcastInDim S100000 ![] bcast_S_S100000 : (⟨S_, .i32⟩ : BufTy).Contents (Elt F) → (⟨S100000, .i32⟩ : BufTy).Contents (Elt F)),
    StableHlo.binary main_v24 main_v193 main_v194 (addi : (⟨S100000, .i32⟩ : BufTy).Contents (Elt F) → (⟨S100000, .i32⟩ : BufTy).Contents (Elt F) → (⟨S100000, .i32⟩ : BufTy).Contents (Elt F)),
    StableHlo.ternary main_v192 main_v194 main_v24 main_v195 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v185 main_v196 (broadcastInDim S100000x1 ![0] bcast_S100000_S100000x1_0 : (⟨S100000, .i32⟩ : BufTy).Contents (Elt F) → (⟨S100000x1, .i32⟩ : BufTy).Contents (Elt F)),
    StableHlo.unary main_v190 main_v197 (broadcastInDim S100000x1 ![0] bcast_S100000_S100000x1_0 : (⟨S100000, .i32⟩ : BufTy).Contents (Elt F) → (⟨S100000x1, .i32⟩ : BufTy).Contents (Elt F)),
    StableHlo.unary main_v195 main_v198 (broadcastInDim S100000x1 ![0] bcast_S100000_S100000x1_0 : (⟨S100000, .i32⟩ : BufTy).Contents (Elt F) → (⟨S100000x1, .i32⟩ : BufTy).Contents (Elt F)),
    StableHlo.nary ![main_v196, main_v197, main_v198] main_v199 (fun u => concatenate S100000x3 1 [⟨S100000x1, u 0⟩, ⟨S100000x1, u 1⟩, ⟨S100000x1, u 2⟩] concatenates_S100000x1_S100000x1_S100000x1_S100000x3_d1),
    StableHlo.binary main_arg0 main_v199 main_v200 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v200 main_v201 ((transpose S100000x16 [1, 0] · transposes_S16x100000_S100000x16_1_0) : (⟨S16x100000, .f32⟩ : BufTy).Contents (Elt F) → (⟨S100000x16, .f32⟩ : BufTy).Contents (Elt F)),
    StableHlo.nullary main_cst_50 (constant S_ .f32 0x3F800000#32),
    StableHlo.unary main_cst_50 main_v202 (broadcastInDim S100000x1 ![] bcast_S_S100000x1 : (⟨S_, .f32⟩ : BufTy).Contents (Elt F) → (⟨S100000x1, .f32⟩ : BufTy).Contents (Elt F)),
    StableHlo.binary main_v202 main_v33 main_v203 (subf : (⟨S100000x1, .f32⟩ : BufTy).Contents (Elt F) → (⟨S100000x1, .f32⟩ : BufTy).Contents (Elt F) → (⟨S100000x1, .f32⟩ : BufTy).Contents (Elt F)),
    StableHlo.unary main_v203 main_v204 (broadcastInDim S100000x16 ![0, 1] bcast_S100000x1_S100000x16_0_1 : (⟨S100000x1, .f32⟩ : BufTy).Contents (Elt F) → (⟨S100000x16, .f32⟩ : BufTy).Contents (Elt F)),
    StableHlo.binary main_v201 main_v204 main_v205 (mulf : (⟨S100000x16, .f32⟩ : BufTy).Contents (Elt F) → (⟨S100000x16, .f32⟩ : BufTy).Contents (Elt F) → (⟨S100000x16, .f32⟩ : BufTy).Contents (Elt F)),
    StableHlo.nullary main_c_51 (constantI S_ 32 0#32),
    StableHlo.unary main_c_51 main_v206 (broadcastInDim S100000 ![] bcast_S_S100000 : (⟨S_, .i32⟩ : BufTy).Contents (Elt F) → (⟨S100000, .i32⟩ : BufTy).Contents (Elt F)),
    StableHlo.binary main_v26 main_v206 main_v207 (cmpi .slt : (⟨S100000, .i32⟩ : BufTy).Contents (Elt F) → (⟨S100000, .i32⟩ : BufTy).Contents (Elt F) → (⟨S100000, .i1⟩ : BufTy).Contents (Elt F)),
    StableHlo.nullary main_c_52 (constantI S_ 32 128#32),
    StableHlo.unary main_c_52 main_v208 (broadcastInDim S100000 ![] bcast_S_S100000 : (⟨S_, .i32⟩ : BufTy).Contents (Elt F) → (⟨S100000, .i32⟩ : BufTy).Contents (Elt F)),
    StableHlo.binary main_v26 main_v208 main_v209 (addi : (⟨S100000, .i32⟩ : BufTy).Contents (Elt F) → (⟨S100000, .i32⟩ : BufTy).Contents (Elt F) → (⟨S100000, .i32⟩ : BufTy).Contents (Elt F)),
    StableHlo.ternary main_v207 main_v209 main_v26 main_v210 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_53 (constantI S_ 32 0#32),
    StableHlo.unary main_c_53 main_v211 (broadcastInDim S100000 ![] bcast_S_S100000 : (⟨S_, .i32⟩ : BufTy).Contents (Elt F) → (⟨S100000, .i32⟩ : BufTy).Contents (Elt F)),
    StableHlo.binary main_v28 main_v211 main_v212 (cmpi .slt : (⟨S100000, .i32⟩ : BufTy).Contents (Elt F) → (⟨S100000, .i32⟩ : BufTy).Contents (Elt F) → (⟨S100000, .i1⟩ : BufTy).Contents (Elt F)),
    StableHlo.nullary main_c_54 (constantI S_ 32 128#32),
    StableHlo.unary main_c_54 main_v213 (broadcastInDim S100000 ![] bcast_S_S100000 : (⟨S_, .i32⟩ : BufTy).Contents (Elt F) → (⟨S100000, .i32⟩ : BufTy).Contents (Elt F)),
    StableHlo.binary main_v28 main_v213 main_v214 (addi : (⟨S100000, .i32⟩ : BufTy).Contents (Elt F) → (⟨S100000, .i32⟩ : BufTy).Contents (Elt F) → (⟨S100000, .i32⟩ : BufTy).Contents (Elt F)),
    StableHlo.ternary main_v212 main_v214 main_v28 main_v215 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_55 (constantI S_ 32 0#32),
    StableHlo.unary main_c_55 main_v216 (broadcastInDim S100000 ![] bcast_S_S100000 : (⟨S_, .i32⟩ : BufTy).Contents (Elt F) → (⟨S100000, .i32⟩ : BufTy).Contents (Elt F)),
    StableHlo.binary main_v30 main_v216 main_v217 (cmpi .slt : (⟨S100000, .i32⟩ : BufTy).Contents (Elt F) → (⟨S100000, .i32⟩ : BufTy).Contents (Elt F) → (⟨S100000, .i1⟩ : BufTy).Contents (Elt F)),
    StableHlo.nullary main_c_56 (constantI S_ 32 128#32),
    StableHlo.unary main_c_56 main_v218 (broadcastInDim S100000 ![] bcast_S_S100000 : (⟨S_, .i32⟩ : BufTy).Contents (Elt F) → (⟨S100000, .i32⟩ : BufTy).Contents (Elt F)),
    StableHlo.binary main_v30 main_v218 main_v219 (addi : (⟨S100000, .i32⟩ : BufTy).Contents (Elt F) → (⟨S100000, .i32⟩ : BufTy).Contents (Elt F) → (⟨S100000, .i32⟩ : BufTy).Contents (Elt F)),
    StableHlo.ternary main_v217 main_v219 main_v30 main_v220 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v210 main_v221 (broadcastInDim S100000x1 ![0] bcast_S100000_S100000x1_0 : (⟨S100000, .i32⟩ : BufTy).Contents (Elt F) → (⟨S100000x1, .i32⟩ : BufTy).Contents (Elt F)),
    StableHlo.unary main_v215 main_v222 (broadcastInDim S100000x1 ![0] bcast_S100000_S100000x1_0 : (⟨S100000, .i32⟩ : BufTy).Contents (Elt F) → (⟨S100000x1, .i32⟩ : BufTy).Contents (Elt F)),
    StableHlo.unary main_v220 main_v223 (broadcastInDim S100000x1 ![0] bcast_S100000_S100000x1_0 : (⟨S100000, .i32⟩ : BufTy).Contents (Elt F) → (⟨S100000x1, .i32⟩ : BufTy).Contents (Elt F)),
    StableHlo.nary ![main_v221, main_v222, main_v223] main_v224 (fun u => concatenate S100000x3 1 [⟨S100000x1, u 0⟩, ⟨S100000x1, u 1⟩, ⟨S100000x1, u 2⟩] concatenates_S100000x1_S100000x1_S100000x1_S100000x3_d1),
    StableHlo.binary main_arg0 main_v224 main_v225 ((fun x i => Host.gather gather_S16x128x128x128_S100000x3_S16x100000_0_123_n_n_123_1_16111 x i) : (⟨S16x128x128x128, .f32⟩ : BufTy).Contents (Elt F) → (⟨S100000x3, .i32⟩ : BufTy).Contents (Elt F) → (⟨S16x100000, .f32⟩ : BufTy).Contents (Elt F)),
    StableHlo.unary main_v225 main_v226 ((transpose S100000x16 [1, 0] · transposes_S16x100000_S100000x16_1_0) : (⟨S16x100000, .f32⟩ : BufTy).Contents (Elt F) → (⟨S100000x16, .f32⟩ : BufTy).Contents (Elt F)),
    StableHlo.unary main_v33 main_v227 (broadcastInDim S100000x16 ![0, 1] bcast_S100000x1_S100000x16_0_1 : (⟨S100000x1, .f32⟩ : BufTy).Contents (Elt F) → (⟨S100000x16, .f32⟩ : BufTy).Contents (Elt F)),
    StableHlo.binary main_v226 main_v227 main_v228 (mulf : (⟨S100000x16, .f32⟩ : BufTy).Contents (Elt F) → (⟨S100000x16, .f32⟩ : BufTy).Contents (Elt F) → (⟨S100000x16, .f32⟩ : BufTy).Contents (Elt F)),
    StableHlo.binary main_v205 main_v228 main_v229 (addf : (⟨S100000x16, .f32⟩ : BufTy).Contents (Elt F) → (⟨S100000x16, .f32⟩ : BufTy).Contents (Elt F) → (⟨S100000x16, .f32⟩ : BufTy).Contents (Elt F)),
    StableHlo.nullary main_cst_57 (constant S_ .f32 0x3F800000#32),
    StableHlo.unary main_cst_57 main_v230 (broadcastInDim S100000x1 ![] bcast_S_S100000x1 : (⟨S_, .f32⟩ : BufTy).Contents (Elt F) → (⟨S100000x1, .f32⟩ : BufTy).Contents (Elt F)),
    StableHlo.binary main_v230 main_v32 main_v231 (subf : (⟨S100000x1, .f32⟩ : BufTy).Contents (Elt F) → (⟨S100000x1, .f32⟩ : BufTy).Contents (Elt F) → (⟨S100000x1, .f32⟩ : BufTy).Contents (Elt F)),
    StableHlo.unary main_v231 main_v232 (broadcastInDim S100000x16 ![0, 1] bcast_S100000x1_S100000x16_0_1 : (⟨S100000x1, .f32⟩ : BufTy).Contents (Elt F) → (⟨S100000x16, .f32⟩ : BufTy).Contents (Elt F)),
    StableHlo.binary main_v82 main_v232 main_v233 (mulf : (⟨S100000x16, .f32⟩ : BufTy).Contents (Elt F) → (⟨S100000x16, .f32⟩ : BufTy).Contents (Elt F) → (⟨S100000x16, .f32⟩ : BufTy).Contents (Elt F)),
    StableHlo.unary main_v32 main_v234 (broadcastInDim S100000x16 ![0, 1] bcast_S100000x1_S100000x16_0_1 : (⟨S100000x1, .f32⟩ : BufTy).Contents (Elt F) → (⟨S100000x16, .f32⟩ : BufTy).Contents (Elt F)),
    StableHlo.binary main_v131 main_v234 main_v235 (mulf : (⟨S100000x16, .f32⟩ : BufTy).Contents (Elt F) → (⟨S100000x16, .f32⟩ : BufTy).Contents (Elt F) → (⟨S100000x16, .f32⟩ : BufTy).Contents (Elt F)),
    StableHlo.binary main_v233 main_v235 main_v236 (addf : (⟨S100000x16, .f32⟩ : BufTy).Contents (Elt F) → (⟨S100000x16, .f32⟩ : BufTy).Contents (Elt F) → (⟨S100000x16, .f32⟩ : BufTy).Contents (Elt F)),
    StableHlo.nullary main_cst_58 (constant S_ .f32 0x3F800000#32),
    StableHlo.unary main_cst_58 main_v237 (broadcastInDim S100000x1 ![] bcast_S_S100000x1 : (⟨S_, .f32⟩ : BufTy).Contents (Elt F) → (⟨S100000x1, .f32⟩ : BufTy).Contents (Elt F)),
    StableHlo.binary main_v237 main_v31 main_v238 (subf : (⟨S100000x1, .f32⟩ : BufTy).Contents (Elt F) → (⟨S100000x1, .f32⟩ : BufTy).Contents (Elt F) → (⟨S100000x1, .f32⟩ : BufTy).Contents (Elt F)) ]

/-- The operations of window 5 of the reference program's body, in order (66 of them). -/
abbrev ops5 : List (HloOp τ sig (Elt F)) :=
  [ StableHlo.unary main_v238 main_v239 (broadcastInDim S100000x16 ![0, 1] bcast_S100000x1_S100000x16_0_1 : (⟨S100000x1, .f32⟩ : BufTy).Contents (Elt F) → (⟨S100000x16, .f32⟩ : BufTy).Contents (Elt F)),
    StableHlo.binary main_v236 main_v239 main_v240 (mulf : (⟨S100000x16, .f32⟩ : BufTy).Contents (Elt F) → (⟨S100000x16, .f32⟩ : BufTy).Contents (Elt F) → (⟨S100000x16, .f32⟩ : BufTy).Contents (Elt F)),
    StableHlo.nullary main_cst_59 (constant S_ .f32 0x3F800000#32),
    StableHlo.unary main_cst_59 main_v241 (broadcastInDim S100000x1 ![] bcast_S_S100000x1 : (⟨S_, .f32⟩ : BufTy).Contents (Elt F) → (⟨S100000x1, .f32⟩ : BufTy).Contents (Elt F)),
    StableHlo.binary main_v241 main_v32 main_v242 (subf : (⟨S100000x1, .f32⟩ : BufTy).Contents (Elt F) → (⟨S100000x1, .f32⟩ : BufTy).Contents (Elt F) → (⟨S100000x1, .f32⟩ : BufTy).Contents (Elt F)),
    StableHlo.unary main_v242 main_v243 (broadcastInDim S100000x16 ![0, 1] bcast_S100000x1_S100000x16_0_1 : (⟨S100000x1, .f32⟩ : BufTy).Contents (Elt F) → (⟨S100000x16, .f32⟩ : BufTy).Contents (Elt F)),
    StableHlo.binary main_v180 main_v243 main_v244 (mulf : (⟨S100000x16, .f32⟩ : BufTy).Contents (Elt F) → (⟨S100000x16, .f32⟩ : BufTy).Contents (Elt F) → (⟨S100000x16, .f32⟩ : BufTy).Contents (Elt F)),
    StableHlo.unary main_v32 main_v245 (broadcastInDim S100000x16 ![0, 1] bcast_S100000x1_S100000x16_0_1 : (⟨S100000x1, .f32⟩ : BufTy).Contents (Elt F) → (⟨S100000x16, .f32⟩ : BufTy).Contents (Elt F)),
    StableHlo.binary main_v229 main_v245 main_v246 (mulf : (⟨S100000x16, .f32⟩ : BufTy).Contents (Elt F) → (⟨S100000x16, .f32⟩ : BufTy).Contents (Elt F) → (⟨S100000x16, .f32⟩ : BufTy).Contents (Elt F)),
    StableHlo.binary main_v244 main_v246 main_v247 (addf : (⟨S100000x16, .f32⟩ : BufTy).Contents (Elt F) → (⟨S100000x16, .f32⟩ : BufTy).Contents (Elt F) → (⟨S100000x16, .f32⟩ : BufTy).Contents (Elt F)),
    StableHlo.unary main_v31 main_v248 (broadcastInDim S100000x16 ![0, 1] bcast_S100000x1_S100000x16_0_1 : (⟨S100000x1, .f32⟩ : BufTy).Contents (Elt F) → (⟨S100000x16, .f32⟩ : BufTy).Contents (Elt F)),
    StableHlo.binary main_v247 main_v248 main_v249 (mulf : (⟨S100000x16, .f32⟩ : BufTy).Contents (Elt F) → (⟨S100000x16, .f32⟩ : BufTy).Contents (Elt F) → (⟨S100000x16, .f32⟩ : BufTy).Contents (Elt F)),
    StableHlo.binary main_v240 main_v249 main_v250 (addf : (⟨S100000x16, .f32⟩ : BufTy).Contents (Elt F) → (⟨S100000x16, .f32⟩ : BufTy).Contents (Elt F) → (⟨S100000x16, .f32⟩ : BufTy).Contents (Elt F)),
    StableHlo.nullary main_cst_60 (constant S_ .f32 0x43000000#32),
    StableHlo.unary main_cst_60 main_v251 (broadcastInDim S100000x3 ![] bcast_S_S100000x3 : (⟨S_, .f32⟩ : BufTy).Contents (Elt F) → (⟨S100000x3, .f32⟩ : BufTy).Contents (Elt F)),
    StableHlo.binary main_arg1 main_v251 main_v252 (Host.divf : (⟨S100000x3, .f32⟩ : BufTy).Contents (Elt F) → (⟨S100000x3, .f32⟩ : BufTy).Contents (Elt F) → (⟨S100000x3, .f32⟩ : BufTy).Contents (Elt F)),
    StableHlo.binary main_v252 main_v250 main_v253 ((fun a b => concatenate S100000x19 1 [⟨S100000x3, a⟩, ⟨S100000x16, b⟩] concatenates_S100000x3_S100000x16_S100000x19_d1) : (⟨S100000x3, .f32⟩ : BufTy).Contents (Elt F) → (⟨S100000x16, .f32⟩ : BufTy).Contents (Elt F) → (⟨S100000x19, .f32⟩ : BufTy).Contents (Elt F)),
    StableHlo.nullary main_c_61 (constantI S_ 32 0#32),
    StableHlo.unary main_c_61 main_v254 (broadcastInDim S1600000 ![] bcast_S_S1600000 : (⟨S_, .i32⟩ : BufTy).Contents (Elt F) → (⟨S1600000, .i32⟩ : BufTy).Contents (Elt F)),
    StableHlo.binary main_arg2 main_v254 main_v255 (cmpi .slt : (⟨S1600000, .i32⟩ : BufTy).Contents (Elt F) → (⟨S1600000, .i32⟩ : BufTy).Contents (Elt F) → (⟨S1600000, .i1⟩ : BufTy).Contents (Elt F)),
    StableHlo.nullary main_c_62 (constantI S_ 32 100000#32),
    StableHlo.unary main_c_62 main_v256 (broadcastInDim S1600000 ![] bcast_S_S1600000 : (⟨S_, .i32⟩ : BufTy).Contents (Elt F) → (⟨S1600000, .i32⟩ : BufTy).Contents (Elt F)),
    StableHlo.binary main_arg2 main_v256 main_v257 (addi : (⟨S1600000, .i32⟩ : BufTy).Contents (Elt F) → (⟨S1600000, .i32⟩ : BufTy).Contents (Elt F) → (⟨S1600000, .i32⟩ : BufTy).Contents (Elt F)),
    StableHlo.ternary main_v255 main_v257 main_arg2 main_v258 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v258 main_v259 (broadcastInDim S1600000x1 ![0] bcast_S1600000_S1600000x1_0 : (⟨S1600000, .i32⟩ : BufTy).Contents (Elt F) → (⟨S1600000x1, .i32⟩ : BufTy).Contents (Elt F)),
    StableHlo.binary main_v253 main_v259 main_v260 ((fun x i => Host.gather gather_S100000x19_S1600000x1_S1600000x19_1_0_n_n_0_1_119 x i) : (⟨S100000x19, .f32⟩ : BufTy).Contents (Elt F) → (⟨S1600000x1, .i32⟩ : BufTy).Contents (Elt F) → (⟨S1600000x19, .f32⟩ : BufTy).Contents (Elt F)),
    StableHlo.nullary main_cst_63 (constant S_ .f32 0x00000000#32),
    StableHlo.unary main_cst_63 main_v261 (broadcastInDim S100000x19 ![] bcast_S_S100000x19 : (⟨S_, .f32⟩ : BufTy).Contents (Elt F) → (⟨S100000x19, .f32⟩ : BufTy).Contents (Elt F)),
    StableHlo.unary main_arg3 main_v262 (broadcastInDim S1600000x1 ![0] bcast_S1600000_S1600000x1_0 : (⟨S1600000, .i32⟩ : BufTy).Contents (Elt F) → (⟨S1600000x1, .i32⟩ : BufTy).Contents (Elt F)),
    StableHlo.ternary main_v261 main_v262 main_v260 main_v263 ((fun x i u => Host.scatterAdd scatter_S100000x19_S1600000x1_S1600000x19_1_0_0_1 x i u) : (⟨S100000x19, .f32⟩ : BufTy).Contents (Elt F) → (⟨S1600000x1, .i32⟩ : BufTy).Contents (Elt F) → (⟨S1600000x19, .f32⟩ : BufTy).Contents (Elt F) → (⟨S100000x19, .f32⟩ : BufTy).Contents (Elt F)),
    StableHlo.unary main_v8 main_v264 (broadcastInDim S100000x19 ![0, 1] bcast_S100000x1_S100000x19_0_1 : (⟨S100000x1, .f32⟩ : BufTy).Contents (Elt F) → (⟨S100000x19, .f32⟩ : BufTy).Contents (Elt F)),
    StableHlo.binary main_v263 main_v264 main_v265 (mulf : (⟨S100000x19, .f32⟩ : BufTy).Contents (Elt F) → (⟨S100000x19, .f32⟩ : BufTy).Contents (Elt F) → (⟨S100000x19, .f32⟩ : BufTy).Contents (Elt F)),
    StableHlo.binary main_v253 main_arg4 main_v266 ((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)),
    StableHlo.binary main_v265 main_arg5 main_v267 ((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)),
    StableHlo.binary main_v266 main_v267 main_v268 (addf : (⟨S100000x32, .f32⟩ : BufTy).Contents (Elt F) → (⟨S100000x32, .f32⟩ : BufTy).Contents (Elt F) → (⟨S100000x32, .f32⟩ : BufTy).Contents (Elt F)),
    StableHlo.unary main_arg6 main_v269 (broadcastInDim S1x32 ![1] bcast_S32_S1x32_1 : (⟨S32, .f32⟩ : BufTy).Contents (Elt F) → (⟨S1x32, .f32⟩ : BufTy).Contents (Elt F)),
    StableHlo.unary main_v269 main_v270 (broadcastInDim S100000x32 ![0, 1] bcast_S1x32_S100000x32_0_1 : (⟨S1x32, .f32⟩ : BufTy).Contents (Elt F) → (⟨S100000x32, .f32⟩ : BufTy).Contents (Elt F)),
    StableHlo.binary main_v268 main_v270 main_v271 (addf : (⟨S100000x32, .f32⟩ : BufTy).Contents (Elt F) → (⟨S100000x32, .f32⟩ : BufTy).Contents (Elt F) → (⟨S100000x32, .f32⟩ : BufTy).Contents (Elt F)),
    StableHlo.nullary main_cst_64 (constant S_ .f32 0x3E99999A#32),
    StableHlo.TRef.nullary main_call1.cst (constant S_ .f32 0x00000000#32),
    StableHlo.TRef.unary main_call1.cst main_call1.v0 (broadcastInDim S100000x32 ![] bcast_S_S100000x32),
    StableHlo.TRef.binary (.of main_v271 : StableHlo.TRef sig ⟨S100000x32, .f32⟩) main_call1.v0 main_call1.v1 (cmpf .oge),
    StableHlo.TRef.unary (.of main_cst_64 : StableHlo.TRef sig ⟨S_, .f32⟩) main_call1.v2 id,
    StableHlo.TRef.unary main_call1.v2 main_call1.v3 (broadcastInDim S100000x32 ![] bcast_S_S100000x32),
    StableHlo.TRef.binary main_call1.v3 (.of main_v271 : StableHlo.TRef sig ⟨S100000x32, .f32⟩) main_call1.v4 mulf,
    StableHlo.TRef.ternary main_call1.v1 (.of main_v271 : StableHlo.TRef sig ⟨S100000x32, .f32⟩) main_call1.v4 main_call1.call0.v0 select,
    StableHlo.nullary main_c_65 (constantI S_ 32 0#32),
    StableHlo.unary main_c_65 main_v273 (broadcastInDim S1600000 ![] bcast_S_S1600000 : (⟨S_, .i32⟩ : BufTy).Contents (Elt F) → (⟨S1600000, .i32⟩ : BufTy).Contents (Elt F)),
    StableHlo.binary main_arg2 main_v273 main_v274 (cmpi .slt : (⟨S1600000, .i32⟩ : BufTy).Contents (Elt F) → (⟨S1600000, .i32⟩ : BufTy).Contents (Elt F) → (⟨S1600000, .i1⟩ : BufTy).Contents (Elt F)),
    StableHlo.nullary main_c_66 (constantI S_ 32 100000#32),
    StableHlo.unary main_c_66 main_v275 (broadcastInDim S1600000 ![] bcast_S_S1600000 : (⟨S_, .i32⟩ : BufTy).Contents (Elt F) → (⟨S1600000, .i32⟩ : BufTy).Contents (Elt F)),
    StableHlo.binary main_arg2 main_v275 main_v276 (addi : (⟨S1600000, .i32⟩ : BufTy).Contents (Elt F) → (⟨S1600000, .i32⟩ : BufTy).Contents (Elt F) → (⟨S1600000, .i32⟩ : BufTy).Contents (Elt F)),
    StableHlo.ternary main_v274 main_v276 main_arg2 main_v277 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v277 main_v278 (broadcastInDim S1600000x1 ![0] bcast_S1600000_S1600000x1_0 : (⟨S1600000, .i32⟩ : BufTy).Contents (Elt F) → (⟨S1600000x1, .i32⟩ : BufTy).Contents (Elt F)),
    StableHlo.binary main_v272 main_v278 main_v279 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_67 (constant S_ .f32 0x00000000#32),
    StableHlo.unary main_cst_67 main_v280 (broadcastInDim S100000x32 ![] bcast_S_S100000x32 : (⟨S_, .f32⟩ : BufTy).Contents (Elt F) → (⟨S100000x32, .f32⟩ : BufTy).Contents (Elt F)),
    StableHlo.unary main_arg3 main_v281 (broadcastInDim S1600000x1 ![0] bcast_S1600000_S1600000x1_0 : (⟨S1600000, .i32⟩ : BufTy).Contents (Elt F) → (⟨S1600000x1, .i32⟩ : BufTy).Contents (Elt F)),
    StableHlo.ternary main_v280 main_v281 main_v279 main_v282 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_v8 main_v283 (broadcastInDim S100000x32 ![0, 1] bcast_S100000x1_S100000x32_0_1 : (⟨S100000x1, .f32⟩ : BufTy).Contents (Elt F) → (⟨S100000x32, .f32⟩ : BufTy).Contents (Elt F)),
    StableHlo.binary main_v282 main_v283 main_v284 (mulf : (⟨S100000x32, .f32⟩ : BufTy).Contents (Elt F) → (⟨S100000x32, .f32⟩ : BufTy).Contents (Elt F) → (⟨S100000x32, .f32⟩ : BufTy).Contents (Elt F)),
    StableHlo.binary main_v272 main_arg7 main_v285 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v284 main_arg8 main_v286 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v285 main_v286 main_v287 (addf : (⟨S100000x64, .f32⟩ : BufTy).Contents (Elt F) → (⟨S100000x64, .f32⟩ : BufTy).Contents (Elt F) → (⟨S100000x64, .f32⟩ : BufTy).Contents (Elt F)),
    StableHlo.unary main_arg9 main_v288 (broadcastInDim S1x64 ![1] bcast_S64_S1x64_1 : (⟨S64, .f32⟩ : BufTy).Contents (Elt F) → (⟨S1x64, .f32⟩ : BufTy).Contents (Elt F)),
    StableHlo.unary main_v288 main_v289 (broadcastInDim S100000x64 ![0, 1] bcast_S1x64_S100000x64_0_1 : (⟨S1x64, .f32⟩ : BufTy).Contents (Elt F) → (⟨S100000x64, .f32⟩ : BufTy).Contents (Elt F)) ]

/-- The operations of window 6 of the reference program's body, in order (63 of them). -/
abbrev ops6 : List (HloOp τ sig (Elt F)) :=
  [ StableHlo.binary main_v287 main_v289 main_v290 (addf : (⟨S100000x64, .f32⟩ : BufTy).Contents (Elt F) → (⟨S100000x64, .f32⟩ : BufTy).Contents (Elt F) → (⟨S100000x64, .f32⟩ : BufTy).Contents (Elt F)),
    StableHlo.nullary main_cst_68 (constant S_ .f32 0x3E99999A#32),
    StableHlo.TRef.nullary main_call2.cst (constant S_ .f32 0x00000000#32),
    StableHlo.TRef.unary main_call2.cst main_call2.v0 (broadcastInDim S100000x64 ![] bcast_S_S100000x64),
    StableHlo.TRef.binary (.of main_v290 : StableHlo.TRef sig ⟨S100000x64, .f32⟩) main_call2.v0 main_call2.v1 (cmpf .oge),
    StableHlo.TRef.unary (.of main_cst_68 : StableHlo.TRef sig ⟨S_, .f32⟩) main_call2.v2 id,
    StableHlo.TRef.unary main_call2.v2 main_call2.v3 (broadcastInDim S100000x64 ![] bcast_S_S100000x64),
    StableHlo.TRef.binary main_call2.v3 (.of main_v290 : StableHlo.TRef sig ⟨S100000x64, .f32⟩) main_call2.v4 mulf,
    StableHlo.TRef.ternary main_call2.v1 (.of main_v290 : StableHlo.TRef sig ⟨S100000x64, .f32⟩) main_call2.v4 main_call2.call0.v0 select,
    StableHlo.nullary main_c_69 (constantI S_ 32 0#32),
    StableHlo.unary main_c_69 main_v292 (broadcastInDim S1600000 ![] bcast_S_S1600000 : (⟨S_, .i32⟩ : BufTy).Contents (Elt F) → (⟨S1600000, .i32⟩ : BufTy).Contents (Elt F)),
    StableHlo.binary main_arg2 main_v292 main_v293 (cmpi .slt : (⟨S1600000, .i32⟩ : BufTy).Contents (Elt F) → (⟨S1600000, .i32⟩ : BufTy).Contents (Elt F) → (⟨S1600000, .i1⟩ : BufTy).Contents (Elt F)),
    StableHlo.nullary main_c_70 (constantI S_ 32 100000#32),
    StableHlo.unary main_c_70 main_v294 (broadcastInDim S1600000 ![] bcast_S_S1600000 : (⟨S_, .i32⟩ : BufTy).Contents (Elt F) → (⟨S1600000, .i32⟩ : BufTy).Contents (Elt F)),
    StableHlo.binary main_arg2 main_v294 main_v295 (addi : (⟨S1600000, .i32⟩ : BufTy).Contents (Elt F) → (⟨S1600000, .i32⟩ : BufTy).Contents (Elt F) → (⟨S1600000, .i32⟩ : BufTy).Contents (Elt F)),
    StableHlo.ternary main_v293 main_v295 main_arg2 main_v296 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v296 main_v297 (broadcastInDim S1600000x1 ![0] bcast_S1600000_S1600000x1_0 : (⟨S1600000, .i32⟩ : BufTy).Contents (Elt F) → (⟨S1600000x1, .i32⟩ : BufTy).Contents (Elt F)),
    StableHlo.binary main_v291 main_v297 main_v298 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_71 (constant S_ .f32 0x00000000#32),
    StableHlo.unary main_cst_71 main_v299 (broadcastInDim S100000x64 ![] bcast_S_S100000x64 : (⟨S_, .f32⟩ : BufTy).Contents (Elt F) → (⟨S100000x64, .f32⟩ : BufTy).Contents (Elt F)),
    StableHlo.unary main_arg3 main_v300 (broadcastInDim S1600000x1 ![0] bcast_S1600000_S1600000x1_0 : (⟨S1600000, .i32⟩ : BufTy).Contents (Elt F) → (⟨S1600000x1, .i32⟩ : BufTy).Contents (Elt F)),
    StableHlo.ternary main_v299 main_v300 main_v298 main_v301 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v302 (broadcastInDim S100000x64 ![0, 1] bcast_S100000x1_S100000x64_0_1 : (⟨S100000x1, .f32⟩ : BufTy).Contents (Elt F) → (⟨S100000x64, .f32⟩ : BufTy).Contents (Elt F)),
    StableHlo.binary main_v301 main_v302 main_v303 (mulf : (⟨S100000x64, .f32⟩ : BufTy).Contents (Elt F) → (⟨S100000x64, .f32⟩ : BufTy).Contents (Elt F) → (⟨S100000x64, .f32⟩ : BufTy).Contents (Elt F)),
    StableHlo.binary main_v291 main_arg10 main_v304 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v303 main_arg11 main_v305 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v304 main_v305 main_v306 (addf : (⟨S100000x64, .f32⟩ : BufTy).Contents (Elt F) → (⟨S100000x64, .f32⟩ : BufTy).Contents (Elt F) → (⟨S100000x64, .f32⟩ : BufTy).Contents (Elt F)),
    StableHlo.unary main_arg12 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S100000x64 ![0, 1] bcast_S1x64_S100000x64_0_1 : (⟨S1x64, .f32⟩ : BufTy).Contents (Elt F) → (⟨S100000x64, .f32⟩ : BufTy).Contents (Elt F)),
    StableHlo.binary main_v306 main_v308 main_v309 (addf : (⟨S100000x64, .f32⟩ : BufTy).Contents (Elt F) → (⟨S100000x64, .f32⟩ : BufTy).Contents (Elt F) → (⟨S100000x64, .f32⟩ : BufTy).Contents (Elt F)),
    StableHlo.nullary main_cst_72 (constant S_ .f32 0x3E99999A#32),
    StableHlo.TRef.nullary main_call3.cst (constant S_ .f32 0x00000000#32),
    StableHlo.TRef.unary main_call3.cst main_call3.v0 (broadcastInDim S100000x64 ![] bcast_S_S100000x64),
    StableHlo.TRef.binary (.of main_v309 : StableHlo.TRef sig ⟨S100000x64, .f32⟩) main_call3.v0 main_call3.v1 (cmpf .oge),
    StableHlo.TRef.unary (.of main_cst_72 : StableHlo.TRef sig ⟨S_, .f32⟩) main_call3.v2 id,
    StableHlo.TRef.unary main_call3.v2 main_call3.v3 (broadcastInDim S100000x64 ![] bcast_S_S100000x64),
    StableHlo.TRef.binary main_call3.v3 (.of main_v309 : StableHlo.TRef sig ⟨S100000x64, .f32⟩) main_call3.v4 mulf,
    StableHlo.TRef.ternary main_call3.v1 (.of main_v309 : StableHlo.TRef sig ⟨S100000x64, .f32⟩) main_call3.v4 main_call3.call0.v0 select,
    StableHlo.nullary main_c_73 (constantI S_ 32 0#32),
    StableHlo.unary main_c_73 main_v311 (broadcastInDim S1600000 ![] bcast_S_S1600000 : (⟨S_, .i32⟩ : BufTy).Contents (Elt F) → (⟨S1600000, .i32⟩ : BufTy).Contents (Elt F)),
    StableHlo.binary main_arg2 main_v311 main_v312 (cmpi .slt : (⟨S1600000, .i32⟩ : BufTy).Contents (Elt F) → (⟨S1600000, .i32⟩ : BufTy).Contents (Elt F) → (⟨S1600000, .i1⟩ : BufTy).Contents (Elt F)),
    StableHlo.nullary main_c_74 (constantI S_ 32 100000#32),
    StableHlo.unary main_c_74 main_v313 (broadcastInDim S1600000 ![] bcast_S_S1600000 : (⟨S_, .i32⟩ : BufTy).Contents (Elt F) → (⟨S1600000, .i32⟩ : BufTy).Contents (Elt F)),
    StableHlo.binary main_arg2 main_v313 main_v314 (addi : (⟨S1600000, .i32⟩ : BufTy).Contents (Elt F) → (⟨S1600000, .i32⟩ : BufTy).Contents (Elt F) → (⟨S1600000, .i32⟩ : BufTy).Contents (Elt F)),
    StableHlo.ternary main_v312 main_v314 main_arg2 main_v315 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v315 main_v316 (broadcastInDim S1600000x1 ![0] bcast_S1600000_S1600000x1_0 : (⟨S1600000, .i32⟩ : BufTy).Contents (Elt F) → (⟨S1600000x1, .i32⟩ : BufTy).Contents (Elt F)),
    StableHlo.binary main_v310 main_v316 main_v317 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_75 (constant S_ .f32 0x00000000#32),
    StableHlo.unary main_cst_75 main_v318 (broadcastInDim S100000x64 ![] bcast_S_S100000x64 : (⟨S_, .f32⟩ : BufTy).Contents (Elt F) → (⟨S100000x64, .f32⟩ : BufTy).Contents (Elt F)),
    StableHlo.unary main_arg3 main_v319 (broadcastInDim S1600000x1 ![0] bcast_S1600000_S1600000x1_0 : (⟨S1600000, .i32⟩ : BufTy).Contents (Elt F) → (⟨S1600000x1, .i32⟩ : BufTy).Contents (Elt F)),
    StableHlo.ternary main_v318 main_v319 main_v317 main_v320 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v321 (broadcastInDim S100000x64 ![0, 1] bcast_S100000x1_S100000x64_0_1 : (⟨S100000x1, .f32⟩ : BufTy).Contents (Elt F) → (⟨S100000x64, .f32⟩ : BufTy).Contents (Elt F)),
    StableHlo.binary main_v320 main_v321 main_v322 (mulf : (⟨S100000x64, .f32⟩ : BufTy).Contents (Elt F) → (⟨S100000x64, .f32⟩ : BufTy).Contents (Elt F) → (⟨S100000x64, .f32⟩ : BufTy).Contents (Elt F)),
    StableHlo.binary main_v310 main_arg13 main_v323 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    StableHlo.binary main_v322 main_arg14 main_v324 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    StableHlo.binary main_v323 main_v324 main_v325 (addf : (⟨S100000x3, .f32⟩ : BufTy).Contents (Elt F) → (⟨S100000x3, .f32⟩ : BufTy).Contents (Elt F) → (⟨S100000x3, .f32⟩ : BufTy).Contents (Elt F)),
    StableHlo.unary main_arg15 main_v326 (broadcastInDim S1x3 ![1] bcast_S3_S1x3_1 : (⟨S3, .f32⟩ : BufTy).Contents (Elt F) → (⟨S1x3, .f32⟩ : BufTy).Contents (Elt F)),
    StableHlo.unary main_v326 main_v327 (broadcastInDim S100000x3 ![0, 1] bcast_S1x3_S100000x3_0_1 : (⟨S1x3, .f32⟩ : BufTy).Contents (Elt F) → (⟨S100000x3, .f32⟩ : BufTy).Contents (Elt F)),
    StableHlo.binary main_v325 main_v327 main_v328 (addf : (⟨S100000x3, .f32⟩ : BufTy).Contents (Elt F) → (⟨S100000x3, .f32⟩ : BufTy).Contents (Elt F) → (⟨S100000x3, .f32⟩ : BufTy).Contents (Elt F)),
    StableHlo.nullary main_cst_76 (constant S_ .f32 0x3DCCCCCD#32),
    StableHlo.unary main_cst_76 main_v329 (broadcastInDim S100000x3 ![] bcast_S_S100000x3 : (⟨S_, .f32⟩ : BufTy).Contents (Elt F) → (⟨S100000x3, .f32⟩ : BufTy).Contents (Elt F)),
    StableHlo.binary main_v329 main_v328 main_v330 (mulf : (⟨S100000x3, .f32⟩ : BufTy).Contents (Elt F) → (⟨S100000x3, .f32⟩ : BufTy).Contents (Elt F) → (⟨S100000x3, .f32⟩ : BufTy).Contents (Elt F)),
    StableHlo.binary main_arg1 main_v330 main_v331 (addf : (⟨S100000x3, .f32⟩ : BufTy).Contents (Elt F) → (⟨S100000x3, .f32⟩ : BufTy).Contents (Elt F) → (⟨S100000x3, .f32⟩ : BufTy).Contents (Elt F)) ]

/-- All the operations of the body, in order. -/
abbrev ops : List (HloOp τ sig (Elt F)) :=
  ops0 ++ (ops1 ++ (ops2 ++ (ops3 ++ (ops4 ++ (ops5 ++ (ops6))))))

set_option maxRecDepth 8192 in
set_option maxHeartbeats 4000000 in
/-- Window 0 is the sequence of its operations: its calls unfold to their callees' operations, and sequencing reassociates. -/
theorem main_part0_eq (c : Dev nD) : main_part0 (F := F) c = seq ops0 := by
  simp only [main_part0, fn_clip.body, seq, bind_assoc, pure_bind]
  all_goals rfl

set_option maxRecDepth 8192 in
set_option maxHeartbeats 4000000 in
/-- Window 1 is the sequence of its operations. -/
theorem main_part1_eq (c : Dev nD) : main_part1 (F := F) c = seq ops1 := rfl

set_option maxRecDepth 8192 in
set_option maxHeartbeats 4000000 in
/-- Window 2 is the sequence of its operations. -/
theorem main_part2_eq (c : Dev nD) : main_part2 (F := F) c = seq ops2 := rfl

set_option maxRecDepth 8192 in
set_option maxHeartbeats 4000000 in
/-- Window 3 is the sequence of its operations. -/
theorem main_part3_eq (c : Dev nD) : main_part3 (F := F) c = seq ops3 := rfl

set_option maxRecDepth 8192 in
set_option maxHeartbeats 4000000 in
/-- Window 4 is the sequence of its operations. -/
theorem main_part4_eq (c : Dev nD) : main_part4 (F := F) c = seq ops4 := rfl

set_option maxRecDepth 8192 in
set_option maxHeartbeats 4000000 in
/-- Window 5 is the sequence of its operations: its calls unfold to their callees' operations, and sequencing reassociates. -/
theorem main_part5_eq (c : Dev nD) : main_part5 (F := F) c = seq ops5 := by
  simp only [main_part5, fn_leaky_relu.body, fn_where.body, seq, bind_assoc, pure_bind]
  all_goals rfl

set_option maxRecDepth 8192 in
set_option maxHeartbeats 4000000 in
/-- Window 6 is the sequence of its operations: its calls unfold to their callees' operations, and sequencing reassociates. -/
theorem main_part6_eq (c : Dev nD) : main_part6 (F := F) c = seq ops6 := by
  simp only [main_part6, fn_leaky_relu_0.body, fn_where_1.body, seq, bind_assoc, pure_bind]
  all_goals rfl

set_option maxRecDepth 8192 in
/-- The body is the sequence of all its operations. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of window 0 touches TensorCore buffers only. -/
theorem ops0_sub : (ops0 : List (HloOp τ sig (Elt F))).Forall fun op => op.bufs ⊆ tcRefs τ sig :=
  ⟨nullary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxRecDepth 8192 in
/-- Every operation of window 1 touches TensorCore buffers only. -/
theorem ops1_sub : (ops1 : List (HloOp τ sig (Elt F))).Forall fun op => op.bufs ⊆ tcRefs τ sig :=
  ⟨binary_bufs_sub .., ternary_bufs_sub .., unary_bufs_sub .., unary_bufs_sub .., unary_bufs_sub .., nary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxRecDepth 8192 in
/-- Every operation of window 2 touches TensorCore buffers only. -/
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., unary_bufs_sub .., unary_bufs_sub .., nary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩

set_option maxRecDepth 8192 in
/-- Every operation of window 3 touches TensorCore buffers only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

set_option maxRecDepth 8192 in
/-- Every operation of window 4 touches TensorCore buffers only. -/
theorem ops4_sub : (ops4 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub ..⟩

set_option maxRecDepth 8192 in
/-- Every operation of window 5 touches TensorCore buffers only. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub ..⟩

set_option maxRecDepth 8192 in
/-- Every operation of window 6 touches TensorCore buffers only. -/
theorem ops6_sub : (ops6 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h]

/-- From any memory with zero counters every weakly fair execution of the reference program terminates, nothing faulting,
    and every TensorCore buffer ends at the fold of the body's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefKeep4.lean ====
/-
  Window 4 of the reference program's body writes 60 buffers, each once. Listed here are those buffers, the fact
  that every operation of the window writes only into the list, and its consequence: a buffer outside the list holds
  after the window what it held before.
-/
import proofs.«139037_j17609365914513_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers window 4 writes, in order. -/
abbrev ops4_W : List (Ref sig .tc) :=
  [main_v190, main_c_48, main_v191, main_v192, main_c_49, main_v193, main_v194, main_v195, main_v196, main_v197, main_v198, main_v199, main_v200, main_v201, main_cst_50, main_v202, main_v203, main_v204, main_v205, main_c_51, main_v206, main_v207, main_c_52, main_v208, main_v209, main_v210, main_c_53, main_v211, main_v212, main_c_54, main_v213, main_v214, main_v215, main_c_55, main_v216, main_v217, main_c_56, main_v218, main_v219, main_v220, main_v221, main_v222, main_v223, main_v224, main_v225, main_v226, main_v227, main_v228, main_v229, main_cst_57, main_v230, main_v231, main_v232, main_v233, main_v234, main_v235, main_v236, main_cst_58, main_v237, main_v238]

set_option maxRecDepth 8192 in
/-- Every operation of window 4 writes into that list. -/
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer window 4 does not write keeps its contents through it. -/
theorem keep4 (W : Valuation τ sig (Elt F)) (r : Ref sig .tc) (h : r ∉ ops4_W) :
    after ops4 W (Proc.devRef .tc r) = W (Proc.devRef .tc r) :=
  after_of_writes_sub ops4 W ops4_writes h

end Cert.RefRun

end
-- ==== Proof.RefKeep3.lean ====
/-
  Window 3 of the reference program's body writes 60 buffers, each once. Listed here are those buffers, the fact
  that every operation of the window writes only into the list, and its consequence: a buffer outside the list holds
  after the window what it held before.
-/
import proofs.«139037_j17609365914513_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers window 3 writes, in order. -/
abbrev ops3_W : List (Ref sig .tc) :=
  [main_v142, main_v143, main_c_36, main_v144, main_v145, main_v146, main_v147, main_v148, main_v149, main_v150, main_v151, main_v152, main_cst_37, main_v153, main_v154, main_v155, main_v156, main_c_38, main_v157, main_v158, main_c_39, main_v159, main_v160, main_v161, main_c_40, main_v162, main_v163, main_c_41, main_v164, main_v165, main_v166, main_c_42, main_v167, main_v168, main_c_43, main_v169, main_v170, main_v171, main_v172, main_v173, main_v174, main_v175, main_v176, main_v177, main_v178, main_v179, main_v180, main_c_44, main_v181, main_v182, main_c_45, main_v183, main_v184, main_v185, main_c_46, main_v186, main_v187, main_c_47, main_v188, main_v189]

set_option maxRecDepth 8192 in
/-- Every operation of window 3 writes into that list. -/
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer window 3 does not write keeps its contents through it. -/
theorem keep3 (W : Valuation τ sig (Elt F)) (r : Ref sig .tc) (h : r ∉ ops3_W) :
    after ops3 W (Proc.devRef .tc r) = W (Proc.devRef .tc r) :=
  after_of_writes_sub ops3 W ops3_writes h

end Cert.RefRun

end
-- ==== Proof.RefKeep2.lean ====
/-
  Window 2 of the reference program's body writes 60 buffers, each once. Listed here are those buffers, the fact
  that every operation of the window writes only into the list, and its consequence: a buffer outside the list holds
  after the window what it held before.
-/
import proofs.«139037_j17609365914513_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers window 2 writes, in order. -/
abbrev ops2_W : List (Ref sig .tc) :=
  [main_c_23, main_v95, main_v96, main_v97, main_v98, main_v99, main_v100, main_v101, main_v102, main_v103, main_cst_24, main_v104, main_v105, main_v106, main_v107, main_c_25, main_v108, main_v109, main_c_26, main_v110, main_v111, main_v112, main_c_27, main_v113, main_v114, main_c_28, main_v115, main_v116, main_v117, main_c_29, main_v118, main_v119, main_c_30, main_v120, main_v121, main_v122, main_v123, main_v124, main_v125, main_v126, main_v127, main_v128, main_v129, main_v130, main_v131, main_c_31, main_v132, main_v133, main_c_32, main_v134, main_v135, main_v136, main_c_33, main_v137, main_v138, main_c_34, main_v139, main_v140, main_v141, main_c_35]

set_option maxRecDepth 8192 in
/-- Every operation of window 2 writes into that list. -/
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer window 2 does not write keeps its contents through it. -/
theorem keep2 (W : Valuation τ sig (Elt F)) (r : Ref sig .tc) (h : r ∉ ops2_W) :
    after ops2 W (Proc.devRef .tc r) = W (Proc.devRef .tc r) :=
  after_of_writes_sub ops2 W ops2_writes h

end Cert.RefRun

end
-- ==== Proof.RefKeep1.lean ====
/-
  Window 1 of the reference program's body writes 60 buffers, each once. Listed here are those buffers, the fact
  that every operation of the window writes only into the list, and its consequence: a buffer outside the list holds
  after the window what it held before.
-/
import proofs.«139037_j17609365914513_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers window 1 writes, in order. -/
abbrev ops1_W : List (Ref sig .tc) :=
  [main_v47, main_v48, main_v49, main_v50, main_v51, main_v52, main_v53, main_v54, main_cst_11, main_v55, main_v56, main_v57, main_v58, main_c_12, main_v59, main_v60, main_c_13, main_v61, main_v62, main_v63, main_c_14, main_v64, main_v65, main_c_15, main_v66, main_v67, main_v68, main_c_16, main_v69, main_v70, main_c_17, main_v71, main_v72, main_v73, main_v74, main_v75, main_v76, main_v77, main_v78, main_v79, main_v80, main_v81, main_v82, main_c_18, main_v83, main_v84, main_c_19, main_v85, main_v86, main_v87, main_c_20, main_v88, main_v89, main_c_21, main_v90, main_v91, main_v92, main_c_22, main_v93, main_v94]

set_option maxRecDepth 8192 in
/-- Every operation of window 1 writes into that list. -/
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer window 1 does not write keeps its contents through it. -/
theorem keep1 (W : Valuation τ sig (Elt F)) (r : Ref sig .tc) (h : r ∉ ops1_W) :
    after ops1 W (Proc.devRef .tc r) = W (Proc.devRef .tc r) :=
  after_of_writes_sub ops1 W ops1_writes h

end Cert.RefRun

end
-- ==== Proof.RefKeep0.lean ====
/-
  Window 0 of the reference program's body writes 65 buffers, each once. Listed here are those buffers, the fact
  that every operation of the window writes only into the list, and its consequence: a buffer outside the list holds
  after the window what it held before.
-/
import proofs.«139037_j17609365914513_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers window 0 writes, in order. -/
abbrev ops0_W : List (Ref sig .tc) :=
  [main_cst, main_cst_0, main_v0, main_cst_1, main_v1, main_v2, main_v3, main_cst_2, main_v4, main_v5, main_cst_3, main_v6, main_v7, main_v8, main_cst_4, main_call0.v0.ref, main_call0.v1.ref, main_call0.v2.ref, main_call0.v3.ref, main_call0.v4.ref, main_call0.v5.ref, main_v10, main_v11, main_c, main_v12, main_v13, main_v14, main_v15, main_v16, main_v17, main_v18, main_v19, main_v20, main_v21, main_v22, main_v23, main_v24, main_v25, main_v26, main_v27, main_v28, main_v29, main_v30, main_v31, main_v32, main_v33, main_c_5, main_v34, main_v35, main_c_6, main_v36, main_v37, main_v38, main_c_7, main_v39, main_v40, main_c_8, main_v41, main_v42, main_v43, main_c_9, main_v44, main_v45, main_c_10, main_v46]

set_option maxRecDepth 8192 in
/-- Every operation of window 0 writes into that list. -/
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer window 0 does not write keeps its contents through it. -/
theorem keep0 (W : Valuation τ sig (Elt F)) (r : Ref sig .tc) (h : r ∉ ops0_W) :
    after ops0 W (Proc.devRef .tc r) = W (Proc.devRef .tc r) :=
  after_of_writes_sub ops0 W ops0_writes h

end Cert.RefRun

end
-- ==== Proof.RefVal0.lean ====
/-
  The buffer contents after window 0 of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefKeep0
import proofs.«139037_j17609365914513_2_alg».proof.Proof.RChains

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The inverse degrees, from the edges' destinations. -/
def rInv (V0 : Valuation τ sig (Elt F)) : (⟨S100000x1, .f32⟩ : BufTy).Contents (Elt F) := Cert.RChains.invDeg (V0 (Proc.devRef .tc main_arg3))
/-- The feature rows, from the image and the vertex positions. -/
def rF (V0 : Valuation τ sig (Elt F)) : (⟨S100000x19, .f32⟩ : BufTy).Contents (Elt F) := Cert.RChains.feats (V0 (Proc.devRef .tc main_arg0)) (V0 (Proc.devRef .tc main_arg1))
/-- The first hidden layer's activations. -/
def rH1 (V0 : Valuation τ sig (Elt F)) : (⟨S100000x32, .f32⟩ : BufTy).Contents (Elt F) :=
  Cert.RChains.layer0 (rF V0) (Cert.RChains.agg19 (rF V0) (V0 (Proc.devRef .tc main_arg2)) (V0 (Proc.devRef .tc main_arg3))) (rInv V0) (V0 (Proc.devRef .tc main_arg4)) (V0 (Proc.devRef .tc main_arg5)) (V0 (Proc.devRef .tc main_arg6))
/-- The second hidden layer's activations. -/
def rH2 (V0 : Valuation τ sig (Elt F)) : (⟨S100000x64, .f32⟩ : BufTy).Contents (Elt F) :=
  Cert.RChains.layer1 (rH1 V0) (Cert.RChains.agg32 (rH1 V0) (V0 (Proc.devRef .tc main_arg2)) (V0 (Proc.devRef .tc main_arg3))) (rInv V0) (V0 (Proc.devRef .tc main_arg7)) (V0 (Proc.devRef .tc main_arg8)) (V0 (Proc.devRef .tc main_arg9))
/-- The third hidden layer's activations. -/
def rH3 (V0 : Valuation τ sig (Elt F)) : (⟨S100000x64, .f32⟩ : BufTy).Contents (Elt F) :=
  Cert.RChains.layer2 (rH2 V0) (Cert.RChains.agg64 (rH2 V0) (V0 (Proc.devRef .tc main_arg2)) (V0 (Proc.devRef .tc main_arg3))) (rInv V0) (V0 (Proc.devRef .tc main_arg10)) (V0 (Proc.devRef .tc main_arg11)) (V0 (Proc.devRef .tc main_arg12))
/-- The moved vertex positions: the program's result. -/
def rOut (V0 : Valuation τ sig (Elt F)) : (⟨S100000x3, .f32⟩ : BufTy).Contents (Elt F) :=
  Cert.RChains.last (V0 (Proc.devRef .tc main_arg1)) (rH3 V0) (Cert.RChains.agg64 (rH3 V0) (V0 (Proc.devRef .tc main_arg2)) (V0 (Proc.devRef .tc main_arg3))) (rInv V0) (V0 (Proc.devRef .tc main_arg13)) (V0 (Proc.devRef .tc main_arg14)) (V0 (Proc.devRef .tc main_arg15))

/-- The buffer contents before the first window. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl
theorem val0_main_arg7 (V0 : Valuation τ sig (Elt F)) : val0 V0 (no_index (Proc.devRef .tc main_arg7)) = (V0 (Proc.devRef .tc main_arg7)) := rfl
theorem val0_main_arg8 (V0 : Valuation τ sig (Elt F)) : val0 V0 (no_index (Proc.devRef .tc main_arg8)) = (V0 (Proc.devRef .tc main_arg8)) := rfl
theorem val0_main_arg9 (V0 : Valuation τ sig (Elt F)) : val0 V0 (no_index (Proc.devRef .tc main_arg9)) = (V0 (Proc.devRef .tc main_arg9)) := rfl
theorem val0_main_arg10 (V0 : Valuation τ sig (Elt F)) : val0 V0 (no_index (Proc.devRef .tc main_arg10)) = (V0 (Proc.devRef .tc main_arg10)) := rfl
theorem val0_main_arg11 (V0 : Valuation τ sig (Elt F)) : val0 V0 (no_index (Proc.devRef .tc main_arg11)) = (V0 (Proc.devRef .tc main_arg11)) := rfl
theorem val0_main_arg12 (V0 : Valuation τ sig (Elt F)) : val0 V0 (no_index (Proc.devRef .tc main_arg12)) = (V0 (Proc.devRef .tc main_arg12)) := rfl
theorem val0_main_arg13 (V0 : Valuation τ sig (Elt F)) : val0 V0 (no_index (Proc.devRef .tc main_arg13)) = (V0 (Proc.devRef .tc main_arg13)) := rfl
theorem val0_main_arg14 (V0 : Valuation τ sig (Elt F)) : val0 V0 (no_index (Proc.devRef .tc main_arg14)) = (V0 (Proc.devRef .tc main_arg14)) := rfl
theorem val0_main_arg15 (V0 : Valuation τ sig (Elt F)) : val0 V0 (no_index (Proc.devRef .tc main_arg15)) = (V0 (Proc.devRef .tc main_arg15)) := rfl

/-- The buffer contents after windows 0 … 0. -/
def val1 (V0 : Valuation τ sig (Elt F)) : Valuation τ sig (Elt F) := after ops0 (val0 V0)
/-- A buffer window 0 does not write keeps its contents through it. -/
theorem val1_keep (V0 : Valuation τ sig (Elt F)) (r : Ref sig .tc) (h : r ∉ ops0_W) :
    val1 V0 (Proc.devRef .tc r) = val0 V0 (Proc.devRef .tc r) :=
  keep0 (val0 V0) r h

theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_arg2 (V0 : Valuation τ sig (Elt F)) : val1 V0 (no_index (Proc.devRef .tc main_arg2)) = (V0 (Proc.devRef .tc main_arg2)) :=
  (val1_keep V0 main_arg2 (by decide)).trans (val0_main_arg2 V0)
theorem val1_main_arg3 (V0 : Valuation τ sig (Elt F)) : val1 V0 (no_index (Proc.devRef .tc main_arg3)) = (V0 (Proc.devRef .tc main_arg3)) :=
  (val1_keep V0 main_arg3 (by decide)).trans (val0_main_arg3 V0)
theorem val1_main_arg4 (V0 : Valuation τ sig (Elt F)) : val1 V0 (no_index (Proc.devRef .tc main_arg4)) = (V0 (Proc.devRef .tc main_arg4)) :=
  (val1_keep V0 main_arg4 (by decide)).trans (val0_main_arg4 V0)
theorem val1_main_arg5 (V0 : Valuation τ sig (Elt F)) : val1 V0 (no_index (Proc.devRef .tc main_arg5)) = (V0 (Proc.devRef .tc main_arg5)) :=
  (val1_keep V0 main_arg5 (by decide)).trans (val0_main_arg5 V0)
theorem val1_main_arg6 (V0 : Valuation τ sig (Elt F)) : val1 V0 (no_index (Proc.devRef .tc main_arg6)) = (V0 (Proc.devRef .tc main_arg6)) :=
  (val1_keep V0 main_arg6 (by decide)).trans (val0_main_arg6 V0)
theorem val1_main_arg7 (V0 : Valuation τ sig (Elt F)) : val1 V0 (no_index (Proc.devRef .tc main_arg7)) = (V0 (Proc.devRef .tc main_arg7)) :=
  (val1_keep V0 main_arg7 (by decide)).trans (val0_main_arg7 V0)
theorem val1_main_arg8 (V0 : Valuation τ sig (Elt F)) : val1 V0 (no_index (Proc.devRef .tc main_arg8)) = (V0 (Proc.devRef .tc main_arg8)) :=
  (val1_keep V0 main_arg8 (by decide)).trans (val0_main_arg8 V0)
theorem val1_main_arg9 (V0 : Valuation τ sig (Elt F)) : val1 V0 (no_index (Proc.devRef .tc main_arg9)) = (V0 (Proc.devRef .tc main_arg9)) :=
  (val1_keep V0 main_arg9 (by decide)).trans (val0_main_arg9 V0)
theorem val1_main_arg10 (V0 : Valuation τ sig (Elt F)) : val1 V0 (no_index (Proc.devRef .tc main_arg10)) = (V0 (Proc.devRef .tc main_arg10)) :=
  (val1_keep V0 main_arg10 (by decide)).trans (val0_main_arg10 V0)
theorem val1_main_arg11 (V0 : Valuation τ sig (Elt F)) : val1 V0 (no_index (Proc.devRef .tc main_arg11)) = (V0 (Proc.devRef .tc main_arg11)) :=
  (val1_keep V0 main_arg11 (by decide)).trans (val0_main_arg11 V0)
theorem val1_main_arg12 (V0 : Valuation τ sig (Elt F)) : val1 V0 (no_index (Proc.devRef .tc main_arg12)) = (V0 (Proc.devRef .tc main_arg12)) :=
  (val1_keep V0 main_arg12 (by decide)).trans (val0_main_arg12 V0)
theorem val1_main_arg13 (V0 : Valuation τ sig (Elt F)) : val1 V0 (no_index (Proc.devRef .tc main_arg13)) = (V0 (Proc.devRef .tc main_arg13)) :=
  (val1_keep V0 main_arg13 (by decide)).trans (val0_main_arg13 V0)
theorem val1_main_arg14 (V0 : Valuation τ sig (Elt F)) : val1 V0 (no_index (Proc.devRef .tc main_arg14)) = (V0 (Proc.devRef .tc main_arg14)) :=
  (val1_keep V0 main_arg14 (by decide)).trans (val0_main_arg14 V0)
theorem val1_main_arg15 (V0 : Valuation τ sig (Elt F)) : val1 V0 (no_index (Proc.devRef .tc main_arg15)) = (V0 (Proc.devRef .tc main_arg15)) :=
  (val1_keep V0 main_arg15 (by decide)).trans (val0_main_arg15 V0)
set_option maxHeartbeats 2000000 in
theorem val1_main_v8 (V0 : Valuation τ sig (Elt F)) : val1 V0 (no_index (Proc.devRef .tc main_v8)) = (rInv V0) := by
  unfold val1
  simp only [ops0]
  after_results_simp
  simp only [val0_main_arg3] <;> rfl
set_option maxHeartbeats 2000000 in
theorem val1_main_v20 (V0 : Valuation τ sig (Elt F)) : val1 V0 (no_index (Proc.devRef .tc main_v20)) = (Cert.RChains.colI0 (Cert.RChains.lowI (Cert.RChains.clip (V0 (Proc.devRef .tc main_arg1))))) := by
  unfold val1
  simp only [ops0]
  after_results_simp
  simp only [val0_main_arg1] <;> rfl
set_option maxHeartbeats 2000000 in
theorem val1_main_v22 (V0 : Valuation τ sig (Elt F)) : val1 V0 (no_index (Proc.devRef .tc main_v22)) = (Cert.RChains.colI1 (Cert.RChains.lowI (Cert.RChains.clip (V0 (Proc.devRef .tc main_arg1))))) := by
  unfold val1
  simp only [ops0]
  after_results_simp
  simp only [val0_main_arg1] <;> rfl
set_option maxHeartbeats 2000000 in
theorem val1_main_v24 (V0 : Valuation τ sig (Elt F)) : val1 V0 (no_index (Proc.devRef .tc main_v24)) = (Cert.RChains.colI2 (Cert.RChains.lowI (Cert.RChains.clip (V0 (Proc.devRef .tc main_arg1))))) := by
  unfold val1
  simp only [ops0]
  after_results_simp
  simp only [val0_main_arg1] <;> rfl
set_option maxHeartbeats 2000000 in
theorem val1_main_v26 (V0 : Valuation τ sig (Elt F)) : val1 V0 (no_index (Proc.devRef .tc main_v26)) = (Cert.RChains.colI0 (Cert.RChains.highI (Cert.RChains.lowI (Cert.RChains.clip (V0 (Proc.devRef .tc main_arg1)))))) := by
  unfold val1
  simp only [ops0]
  after_results_simp
  simp only [val0_main_arg1] <;> rfl
set_option maxHeartbeats 2000000 in
theorem val1_main_v28 (V0 : Valuation τ sig (Elt F)) : val1 V0 (no_index (Proc.devRef .tc main_v28)) = (Cert.RChains.colI1 (Cert.RChains.highI (Cert.RChains.lowI (Cert.RChains.clip (V0 (Proc.devRef .tc main_arg1)))))) := by
  unfold val1
  simp only [ops0]
  after_results_simp
  simp only [val0_main_arg1] <;> rfl
set_option maxHeartbeats 2000000 in
theorem val1_main_v30 (V0 : Valuation τ sig (Elt F)) : val1 V0 (no_index (Proc.devRef .tc main_v30)) = (Cert.RChains.colI2 (Cert.RChains.highI (Cert.RChains.lowI (Cert.RChains.clip (V0 (Proc.devRef .tc main_arg1)))))) := by
  unfold val1
  simp only [ops0]
  after_results_simp
  simp only [val0_main_arg1] <;> rfl
set_option maxHeartbeats 2000000 in
theorem val1_main_v31 (V0 : Valuation τ sig (Elt F)) : val1 V0 (no_index (Proc.devRef .tc main_v31)) = (Cert.RChains.colF0 (Cert.RChains.frac (Cert.RChains.clip (V0 (Proc.devRef .tc main_arg1))))) := by
  unfold val1
  simp only [ops0]
  after_results_simp
  simp only [val0_main_arg1] <;> rfl
set_option maxHeartbeats 2000000 in
theorem val1_main_v32 (V0 : Valuation τ sig (Elt F)) : val1 V0 (no_index (Proc.devRef .tc main_v32)) = (Cert.RChains.colF1 (Cert.RChains.frac (Cert.RChains.clip (V0 (Proc.devRef .tc main_arg1))))) := by
  unfold val1
  simp only [ops0]
  after_results_simp
  simp only [val0_main_arg1] <;> rfl
set_option maxHeartbeats 2000000 in
theorem val1_main_v33 (V0 : Valuation τ sig (Elt F)) : val1 V0 (no_index (Proc.devRef .tc main_v33)) = (Cert.RChains.colF2 (Cert.RChains.frac (Cert.RChains.clip (V0 (Proc.devRef .tc main_arg1))))) := by
  unfold val1
  simp only [ops0]
  after_results_simp
  simp only [val0_main_arg1] <;> rfl
set_option maxHeartbeats 2000000 in
theorem val1_main_v38 (V0 : Valuation τ sig (Elt F)) : val1 V0 (no_index (Proc.devRef .tc main_v38)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI0 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI0 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32)))) (Cert.RChains.colI0 (Cert.RChains.lowI (Cert.RChains.clip (V0 (Proc.devRef .tc main_arg1)))))) := by
  unfold val1
  simp only [ops0]
  after_results_simp
  simp only [val0_main_arg1] <;> rfl
set_option maxHeartbeats 2000000 in
theorem val1_main_v43 (V0 : Valuation τ sig (Elt F)) : val1 V0 (no_index (Proc.devRef .tc main_v43)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI1 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI1 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32)))) (Cert.RChains.colI1 (Cert.RChains.lowI (Cert.RChains.clip (V0 (Proc.devRef .tc main_arg1)))))) := by
  unfold val1
  simp only [ops0]
  after_results_simp
  simp only [val0_main_arg1] <;> rfl
set_option maxHeartbeats 2000000 in
theorem val1_main_v45 (V0 : Valuation τ sig (Elt F)) : val1 V0 (no_index (Proc.devRef .tc main_v45)) = ((cmpi .slt : (⟨S100000, .i32⟩ : BufTy).Contents (Elt F) → (⟨S100000, .i32⟩ : BufTy).Contents (Elt F) → (⟨S100000, .i1⟩ : BufTy).Contents (Elt F)) (Cert.RChains.colI2 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 0#32)))) := by
  unfold val1
  simp only [ops0]
  after_results_simp
  simp only [val0_main_arg1] <;> rfl
set_option maxHeartbeats 2000000 in
theorem val1_main_v46 (V0 : Valuation τ sig (Elt F)) : val1 V0 (no_index (Proc.devRef .tc main_v46)) = ((broadcastInDim S100000 ![] bcast_S_S100000 : (⟨S_, .i32⟩ : BufTy).Contents (Elt F) → (⟨S100000, .i32⟩ : BufTy).Contents (Elt F)) ((constantI S_ 32 128#32))) := by
  unfold val1
  simp only [ops0]
  after_results_simp
  all_goals rfl

end Cert.RefRun

end
-- ==== Proof.RefVal1.lean ====
/-
  The buffer contents after window 1 of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefKeep1
import proofs.«139037_j17609365914513_2_alg».proof.Proof.RefVal0

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after windows 0 … 1. -/
def val2 (V0 : Valuation τ sig (Elt F)) : Valuation τ sig (Elt F) := after ops1 (val1 V0)
/-- A buffer window 1 does not write keeps its contents through it. -/
theorem val2_keep (V0 : Valuation τ sig (Elt F)) (r : Ref sig .tc) (h : r ∉ ops1_W) :
    val2 V0 (Proc.devRef .tc r) = val1 V0 (Proc.devRef .tc r) :=
  keep1 (val1 V0) r h

theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
theorem val2_main_arg4 (V0 : Valuation τ sig (Elt F)) : val2 V0 (no_index (Proc.devRef .tc main_arg4)) = (V0 (Proc.devRef .tc main_arg4)) :=
  (val2_keep V0 main_arg4 (by decide)).trans (val1_main_arg4 V0)
theorem val2_main_arg5 (V0 : Valuation τ sig (Elt F)) : val2 V0 (no_index (Proc.devRef .tc main_arg5)) = (V0 (Proc.devRef .tc main_arg5)) :=
  (val2_keep V0 main_arg5 (by decide)).trans (val1_main_arg5 V0)
theorem val2_main_arg6 (V0 : Valuation τ sig (Elt F)) : val2 V0 (no_index (Proc.devRef .tc main_arg6)) = (V0 (Proc.devRef .tc main_arg6)) :=
  (val2_keep V0 main_arg6 (by decide)).trans (val1_main_arg6 V0)
theorem val2_main_arg7 (V0 : Valuation τ sig (Elt F)) : val2 V0 (no_index (Proc.devRef .tc main_arg7)) = (V0 (Proc.devRef .tc main_arg7)) :=
  (val2_keep V0 main_arg7 (by decide)).trans (val1_main_arg7 V0)
theorem val2_main_arg8 (V0 : Valuation τ sig (Elt F)) : val2 V0 (no_index (Proc.devRef .tc main_arg8)) = (V0 (Proc.devRef .tc main_arg8)) :=
  (val2_keep V0 main_arg8 (by decide)).trans (val1_main_arg8 V0)
theorem val2_main_arg9 (V0 : Valuation τ sig (Elt F)) : val2 V0 (no_index (Proc.devRef .tc main_arg9)) = (V0 (Proc.devRef .tc main_arg9)) :=
  (val2_keep V0 main_arg9 (by decide)).trans (val1_main_arg9 V0)
theorem val2_main_arg10 (V0 : Valuation τ sig (Elt F)) : val2 V0 (no_index (Proc.devRef .tc main_arg10)) = (V0 (Proc.devRef .tc main_arg10)) :=
  (val2_keep V0 main_arg10 (by decide)).trans (val1_main_arg10 V0)
theorem val2_main_arg11 (V0 : Valuation τ sig (Elt F)) : val2 V0 (no_index (Proc.devRef .tc main_arg11)) = (V0 (Proc.devRef .tc main_arg11)) :=
  (val2_keep V0 main_arg11 (by decide)).trans (val1_main_arg11 V0)
theorem val2_main_arg12 (V0 : Valuation τ sig (Elt F)) : val2 V0 (no_index (Proc.devRef .tc main_arg12)) = (V0 (Proc.devRef .tc main_arg12)) :=
  (val2_keep V0 main_arg12 (by decide)).trans (val1_main_arg12 V0)
theorem val2_main_arg13 (V0 : Valuation τ sig (Elt F)) : val2 V0 (no_index (Proc.devRef .tc main_arg13)) = (V0 (Proc.devRef .tc main_arg13)) :=
  (val2_keep V0 main_arg13 (by decide)).trans (val1_main_arg13 V0)
theorem val2_main_arg14 (V0 : Valuation τ sig (Elt F)) : val2 V0 (no_index (Proc.devRef .tc main_arg14)) = (V0 (Proc.devRef .tc main_arg14)) :=
  (val2_keep V0 main_arg14 (by decide)).trans (val1_main_arg14 V0)
theorem val2_main_arg15 (V0 : Valuation τ sig (Elt F)) : val2 V0 (no_index (Proc.devRef .tc main_arg15)) = (V0 (Proc.devRef .tc main_arg15)) :=
  (val2_keep V0 main_arg15 (by decide)).trans (val1_main_arg15 V0)
theorem val2_main_v8 (V0 : Valuation τ sig (Elt F)) : val2 V0 (no_index (Proc.devRef .tc main_v8)) = (rInv V0) :=
  (val2_keep V0 main_v8 (by decide)).trans (val1_main_v8 V0)
theorem val2_main_v20 (V0 : Valuation τ sig (Elt F)) : val2 V0 (no_index (Proc.devRef .tc main_v20)) = (Cert.RChains.colI0 (Cert.RChains.lowI (Cert.RChains.clip (V0 (Proc.devRef .tc main_arg1))))) :=
  (val2_keep V0 main_v20 (by decide)).trans (val1_main_v20 V0)
theorem val2_main_v22 (V0 : Valuation τ sig (Elt F)) : val2 V0 (no_index (Proc.devRef .tc main_v22)) = (Cert.RChains.colI1 (Cert.RChains.lowI (Cert.RChains.clip (V0 (Proc.devRef .tc main_arg1))))) :=
  (val2_keep V0 main_v22 (by decide)).trans (val1_main_v22 V0)
theorem val2_main_v24 (V0 : Valuation τ sig (Elt F)) : val2 V0 (no_index (Proc.devRef .tc main_v24)) = (Cert.RChains.colI2 (Cert.RChains.lowI (Cert.RChains.clip (V0 (Proc.devRef .tc main_arg1))))) :=
  (val2_keep V0 main_v24 (by decide)).trans (val1_main_v24 V0)
theorem val2_main_v26 (V0 : Valuation τ sig (Elt F)) : val2 V0 (no_index (Proc.devRef .tc main_v26)) = (Cert.RChains.colI0 (Cert.RChains.highI (Cert.RChains.lowI (Cert.RChains.clip (V0 (Proc.devRef .tc main_arg1)))))) :=
  (val2_keep V0 main_v26 (by decide)).trans (val1_main_v26 V0)
theorem val2_main_v28 (V0 : Valuation τ sig (Elt F)) : val2 V0 (no_index (Proc.devRef .tc main_v28)) = (Cert.RChains.colI1 (Cert.RChains.highI (Cert.RChains.lowI (Cert.RChains.clip (V0 (Proc.devRef .tc main_arg1)))))) :=
  (val2_keep V0 main_v28 (by decide)).trans (val1_main_v28 V0)
theorem val2_main_v30 (V0 : Valuation τ sig (Elt F)) : val2 V0 (no_index (Proc.devRef .tc main_v30)) = (Cert.RChains.colI2 (Cert.RChains.highI (Cert.RChains.lowI (Cert.RChains.clip (V0 (Proc.devRef .tc main_arg1)))))) :=
  (val2_keep V0 main_v30 (by decide)).trans (val1_main_v30 V0)
theorem val2_main_v31 (V0 : Valuation τ sig (Elt F)) : val2 V0 (no_index (Proc.devRef .tc main_v31)) = (Cert.RChains.colF0 (Cert.RChains.frac (Cert.RChains.clip (V0 (Proc.devRef .tc main_arg1))))) :=
  (val2_keep V0 main_v31 (by decide)).trans (val1_main_v31 V0)
theorem val2_main_v32 (V0 : Valuation τ sig (Elt F)) : val2 V0 (no_index (Proc.devRef .tc main_v32)) = (Cert.RChains.colF1 (Cert.RChains.frac (Cert.RChains.clip (V0 (Proc.devRef .tc main_arg1))))) :=
  (val2_keep V0 main_v32 (by decide)).trans (val1_main_v32 V0)
theorem val2_main_v33 (V0 : Valuation τ sig (Elt F)) : val2 V0 (no_index (Proc.devRef .tc main_v33)) = (Cert.RChains.colF2 (Cert.RChains.frac (Cert.RChains.clip (V0 (Proc.devRef .tc main_arg1))))) :=
  (val2_keep V0 main_v33 (by decide)).trans (val1_main_v33 V0)
set_option maxHeartbeats 2000000 in
theorem val2_main_v82 (V0 : Valuation τ sig (Elt F)) : val2 V0 (no_index (Proc.devRef .tc main_v82)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) := by
  unfold val2
  simp only [ops1]
  after_results_simp
  try dsimp only [Matrix.cons_val]
  try after_results_simp
  simp only [val1_main_v33, val1_main_v30, val1_main_v22, val1_main_v20, val1_main_arg0, val1_main_v24, val1_main_v46, val1_main_v45, val1_main_v43, val1_main_v38] <;> rfl
set_option maxHeartbeats 2000000 in
theorem val2_main_v87 (V0 : Valuation τ sig (Elt F)) : val2 V0 (no_index (Proc.devRef .tc main_v87)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI0 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI0 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32)))) (Cert.RChains.colI0 (Cert.RChains.lowI (Cert.RChains.clip (V0 (Proc.devRef .tc main_arg1)))))) := by
  unfold val2
  simp only [ops1]
  after_results_simp
  try dsimp only [Matrix.cons_val]
  try after_results_simp
  simp only [val1_main_v20] <;> rfl
set_option maxHeartbeats 2000000 in
theorem val2_main_v92 (V0 : Valuation τ sig (Elt F)) : val2 V0 (no_index (Proc.devRef .tc main_v92)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI1 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI1 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 128#32)))) (Cert.RChains.colI1 (Cert.RChains.highI (Cert.RChains.lowI (Cert.RChains.clip (V0 (Proc.devRef .tc main_arg1))))))) := by
  unfold val2
  simp only [ops1]
  after_results_simp
  try dsimp only [Matrix.cons_val]
  try after_results_simp
  simp only [val1_main_v28] <;> rfl
set_option maxHeartbeats 2000000 in
theorem val2_main_v94 (V0 : Valuation τ sig (Elt F)) : val2 V0 (no_index (Proc.devRef .tc main_v94)) = ((cmpi .slt : (⟨S100000, .i32⟩ : BufTy).Contents (Elt F) → (⟨S100000, .i32⟩ : BufTy).Contents (Elt F) → (⟨S100000, .i1⟩ : BufTy).Contents (Elt F)) (Cert.RChains.colI2 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 0#32)))) := by
  unfold val2
  simp only [ops1]
  after_results_simp
  try dsimp only [Matrix.cons_val]
  try after_results_simp
  simp only [val1_main_v24] <;> rfl

end Cert.RefRun

end
-- ==== Proof.RefVal2.lean ====
/-
  The buffer contents after window 2 of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefKeep2
import proofs.«139037_j17609365914513_2_alg».proof.Proof.RefVal1

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after windows 0 … 2. -/
def val3 (V0 : Valuation τ sig (Elt F)) : Valuation τ sig (Elt F) := after ops2 (val2 V0)
/-- A buffer window 2 does not write keeps its contents through it. -/
theorem val3_keep (V0 : Valuation τ sig (Elt F)) (r : Ref sig .tc) (h : r ∉ ops2_W) :
    val3 V0 (Proc.devRef .tc r) = val2 V0 (Proc.devRef .tc r) :=
  keep2 (val2 V0) r h

theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
theorem val3_main_arg4 (V0 : Valuation τ sig (Elt F)) : val3 V0 (no_index (Proc.devRef .tc main_arg4)) = (V0 (Proc.devRef .tc main_arg4)) :=
  (val3_keep V0 main_arg4 (by decide)).trans (val2_main_arg4 V0)
theorem val3_main_arg5 (V0 : Valuation τ sig (Elt F)) : val3 V0 (no_index (Proc.devRef .tc main_arg5)) = (V0 (Proc.devRef .tc main_arg5)) :=
  (val3_keep V0 main_arg5 (by decide)).trans (val2_main_arg5 V0)
theorem val3_main_arg6 (V0 : Valuation τ sig (Elt F)) : val3 V0 (no_index (Proc.devRef .tc main_arg6)) = (V0 (Proc.devRef .tc main_arg6)) :=
  (val3_keep V0 main_arg6 (by decide)).trans (val2_main_arg6 V0)
theorem val3_main_arg7 (V0 : Valuation τ sig (Elt F)) : val3 V0 (no_index (Proc.devRef .tc main_arg7)) = (V0 (Proc.devRef .tc main_arg7)) :=
  (val3_keep V0 main_arg7 (by decide)).trans (val2_main_arg7 V0)
theorem val3_main_arg8 (V0 : Valuation τ sig (Elt F)) : val3 V0 (no_index (Proc.devRef .tc main_arg8)) = (V0 (Proc.devRef .tc main_arg8)) :=
  (val3_keep V0 main_arg8 (by decide)).trans (val2_main_arg8 V0)
theorem val3_main_arg9 (V0 : Valuation τ sig (Elt F)) : val3 V0 (no_index (Proc.devRef .tc main_arg9)) = (V0 (Proc.devRef .tc main_arg9)) :=
  (val3_keep V0 main_arg9 (by decide)).trans (val2_main_arg9 V0)
theorem val3_main_arg10 (V0 : Valuation τ sig (Elt F)) : val3 V0 (no_index (Proc.devRef .tc main_arg10)) = (V0 (Proc.devRef .tc main_arg10)) :=
  (val3_keep V0 main_arg10 (by decide)).trans (val2_main_arg10 V0)
theorem val3_main_arg11 (V0 : Valuation τ sig (Elt F)) : val3 V0 (no_index (Proc.devRef .tc main_arg11)) = (V0 (Proc.devRef .tc main_arg11)) :=
  (val3_keep V0 main_arg11 (by decide)).trans (val2_main_arg11 V0)
theorem val3_main_arg12 (V0 : Valuation τ sig (Elt F)) : val3 V0 (no_index (Proc.devRef .tc main_arg12)) = (V0 (Proc.devRef .tc main_arg12)) :=
  (val3_keep V0 main_arg12 (by decide)).trans (val2_main_arg12 V0)
theorem val3_main_arg13 (V0 : Valuation τ sig (Elt F)) : val3 V0 (no_index (Proc.devRef .tc main_arg13)) = (V0 (Proc.devRef .tc main_arg13)) :=
  (val3_keep V0 main_arg13 (by decide)).trans (val2_main_arg13 V0)
theorem val3_main_arg14 (V0 : Valuation τ sig (Elt F)) : val3 V0 (no_index (Proc.devRef .tc main_arg14)) = (V0 (Proc.devRef .tc main_arg14)) :=
  (val3_keep V0 main_arg14 (by decide)).trans (val2_main_arg14 V0)
theorem val3_main_arg15 (V0 : Valuation τ sig (Elt F)) : val3 V0 (no_index (Proc.devRef .tc main_arg15)) = (V0 (Proc.devRef .tc main_arg15)) :=
  (val3_keep V0 main_arg15 (by decide)).trans (val2_main_arg15 V0)
theorem val3_main_v8 (V0 : Valuation τ sig (Elt F)) : val3 V0 (no_index (Proc.devRef .tc main_v8)) = (rInv V0) :=
  (val3_keep V0 main_v8 (by decide)).trans (val2_main_v8 V0)
theorem val3_main_v22 (V0 : Valuation τ sig (Elt F)) : val3 V0 (no_index (Proc.devRef .tc main_v22)) = (Cert.RChains.colI1 (Cert.RChains.lowI (Cert.RChains.clip (V0 (Proc.devRef .tc main_arg1))))) :=
  (val3_keep V0 main_v22 (by decide)).trans (val2_main_v22 V0)
theorem val3_main_v24 (V0 : Valuation τ sig (Elt F)) : val3 V0 (no_index (Proc.devRef .tc main_v24)) = (Cert.RChains.colI2 (Cert.RChains.lowI (Cert.RChains.clip (V0 (Proc.devRef .tc main_arg1))))) :=
  (val3_keep V0 main_v24 (by decide)).trans (val2_main_v24 V0)
theorem val3_main_v26 (V0 : Valuation τ sig (Elt F)) : val3 V0 (no_index (Proc.devRef .tc main_v26)) = (Cert.RChains.colI0 (Cert.RChains.highI (Cert.RChains.lowI (Cert.RChains.clip (V0 (Proc.devRef .tc main_arg1)))))) :=
  (val3_keep V0 main_v26 (by decide)).trans (val2_main_v26 V0)
theorem val3_main_v28 (V0 : Valuation τ sig (Elt F)) : val3 V0 (no_index (Proc.devRef .tc main_v28)) = (Cert.RChains.colI1 (Cert.RChains.highI (Cert.RChains.lowI (Cert.RChains.clip (V0 (Proc.devRef .tc main_arg1)))))) :=
  (val3_keep V0 main_v28 (by decide)).trans (val2_main_v28 V0)
theorem val3_main_v30 (V0 : Valuation τ sig (Elt F)) : val3 V0 (no_index (Proc.devRef .tc main_v30)) = (Cert.RChains.colI2 (Cert.RChains.highI (Cert.RChains.lowI (Cert.RChains.clip (V0 (Proc.devRef .tc main_arg1)))))) :=
  (val3_keep V0 main_v30 (by decide)).trans (val2_main_v30 V0)
theorem val3_main_v31 (V0 : Valuation τ sig (Elt F)) : val3 V0 (no_index (Proc.devRef .tc main_v31)) = (Cert.RChains.colF0 (Cert.RChains.frac (Cert.RChains.clip (V0 (Proc.devRef .tc main_arg1))))) :=
  (val3_keep V0 main_v31 (by decide)).trans (val2_main_v31 V0)
theorem val3_main_v32 (V0 : Valuation τ sig (Elt F)) : val3 V0 (no_index (Proc.devRef .tc main_v32)) = (Cert.RChains.colF1 (Cert.RChains.frac (Cert.RChains.clip (V0 (Proc.devRef .tc main_arg1))))) :=
  (val3_keep V0 main_v32 (by decide)).trans (val2_main_v32 V0)
theorem val3_main_v33 (V0 : Valuation τ sig (Elt F)) : val3 V0 (no_index (Proc.devRef .tc main_v33)) = (Cert.RChains.colF2 (Cert.RChains.frac (Cert.RChains.clip (V0 (Proc.devRef .tc main_arg1))))) :=
  (val3_keep V0 main_v33 (by decide)).trans (val2_main_v33 V0)
theorem val3_main_v82 (V0 : Valuation τ sig (Elt F)) : val3 V0 (no_index (Proc.devRef .tc main_v82)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) :=
  (val3_keep V0 main_v82 (by decide)).trans (val2_main_v82 V0)
set_option maxHeartbeats 2000000 in
theorem val3_main_v131 (V0 : Valuation τ sig (Elt F)) : val3 V0 (no_index (Proc.devRef .tc main_v131)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.highI (Cert.RChains.lowI (Cert.RChains.clip (V0 (Proc.devRef .tc main_arg1)))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.highI (Cert.RChains.lowI (Cert.RChains.clip (V0 (Proc.devRef .tc main_arg1)))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) := by
  unfold val3
  simp only [ops2]
  after_results_simp
  try dsimp only [Matrix.cons_val]
  try after_results_simp
  simp only [val2_main_v33, val2_main_v30, val2_main_v28, val2_main_v20, val2_main_arg0, val2_main_v24, val2_main_v94, val2_main_v92, val2_main_v87] <;> rfl
set_option maxHeartbeats 2000000 in
theorem val3_main_v136 (V0 : Valuation τ sig (Elt F)) : val3 V0 (no_index (Proc.devRef .tc main_v136)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI0 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI0 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 128#32)))) (Cert.RChains.colI0 (Cert.RChains.highI (Cert.RChains.lowI (Cert.RChains.clip (V0 (Proc.devRef .tc main_arg1))))))) := by
  unfold val3
  simp only [ops2]
  after_results_simp
  try dsimp only [Matrix.cons_val]
  try after_results_simp
  simp only [val2_main_v26] <;> rfl
set_option maxHeartbeats 2000000 in
theorem val3_main_v141 (V0 : Valuation τ sig (Elt F)) : val3 V0 (no_index (Proc.devRef .tc main_v141)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI1 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI1 (Cert.RChains.lowI (Cert.RChains.clip (V0 (Proc.devRef .tc main_arg1))))) ((broadcastInDim S100000 ![] bcast_S_S100000 : (⟨S_, .i32⟩ : BufTy).Contents (Elt F) → (⟨S100000, .i32⟩ : BufTy).Contents (Elt F)) ((constantI S_ 32 128#32)))) (Cert.RChains.colI1 (Cert.RChains.lowI (Cert.RChains.clip (V0 (Proc.devRef .tc main_arg1)))))) := by
  unfold val3
  simp only [ops2]
  after_results_simp
  try dsimp only [Matrix.cons_val]
  try after_results_simp
  simp only [val2_main_v22] <;> rfl
set_option maxHeartbeats 2000000 in
theorem val3_main_c_35 (V0 : Valuation τ sig (Elt F)) : val3 V0 (no_index (Proc.devRef .tc main_c_35)) = ((constantI S_ 32 0#32)) := by
  unfold val3
  simp only [ops2]
  after_results_simp
  try dsimp only [Matrix.cons_val]
  try after_results_simp
  all_goals rfl

end Cert.RefRun

end
-- ==== Proof.RefVal3.lean ====
/-
  The buffer contents after window 3 of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefKeep3
import proofs.«139037_j17609365914513_2_alg».proof.Proof.RefVal2

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after windows 0 … 3. -/
def val4 (V0 : Valuation τ sig (Elt F)) : Valuation τ sig (Elt F) := after ops3 (val3 V0)
/-- A buffer window 3 does not write keeps its contents through it. -/
theorem val4_keep (V0 : Valuation τ sig (Elt F)) (r : Ref sig .tc) (h : r ∉ ops3_W) :
    val4 V0 (Proc.devRef .tc r) = val3 V0 (Proc.devRef .tc r) :=
  keep3 (val3 V0) r h

theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_arg4 (V0 : Valuation τ sig (Elt F)) : val4 V0 (no_index (Proc.devRef .tc main_arg4)) = (V0 (Proc.devRef .tc main_arg4)) :=
  (val4_keep V0 main_arg4 (by decide)).trans (val3_main_arg4 V0)
theorem val4_main_arg5 (V0 : Valuation τ sig (Elt F)) : val4 V0 (no_index (Proc.devRef .tc main_arg5)) = (V0 (Proc.devRef .tc main_arg5)) :=
  (val4_keep V0 main_arg5 (by decide)).trans (val3_main_arg5 V0)
theorem val4_main_arg6 (V0 : Valuation τ sig (Elt F)) : val4 V0 (no_index (Proc.devRef .tc main_arg6)) = (V0 (Proc.devRef .tc main_arg6)) :=
  (val4_keep V0 main_arg6 (by decide)).trans (val3_main_arg6 V0)
theorem val4_main_arg7 (V0 : Valuation τ sig (Elt F)) : val4 V0 (no_index (Proc.devRef .tc main_arg7)) = (V0 (Proc.devRef .tc main_arg7)) :=
  (val4_keep V0 main_arg7 (by decide)).trans (val3_main_arg7 V0)
theorem val4_main_arg8 (V0 : Valuation τ sig (Elt F)) : val4 V0 (no_index (Proc.devRef .tc main_arg8)) = (V0 (Proc.devRef .tc main_arg8)) :=
  (val4_keep V0 main_arg8 (by decide)).trans (val3_main_arg8 V0)
theorem val4_main_arg9 (V0 : Valuation τ sig (Elt F)) : val4 V0 (no_index (Proc.devRef .tc main_arg9)) = (V0 (Proc.devRef .tc main_arg9)) :=
  (val4_keep V0 main_arg9 (by decide)).trans (val3_main_arg9 V0)
theorem val4_main_arg10 (V0 : Valuation τ sig (Elt F)) : val4 V0 (no_index (Proc.devRef .tc main_arg10)) = (V0 (Proc.devRef .tc main_arg10)) :=
  (val4_keep V0 main_arg10 (by decide)).trans (val3_main_arg10 V0)
theorem val4_main_arg11 (V0 : Valuation τ sig (Elt F)) : val4 V0 (no_index (Proc.devRef .tc main_arg11)) = (V0 (Proc.devRef .tc main_arg11)) :=
  (val4_keep V0 main_arg11 (by decide)).trans (val3_main_arg11 V0)
theorem val4_main_arg12 (V0 : Valuation τ sig (Elt F)) : val4 V0 (no_index (Proc.devRef .tc main_arg12)) = (V0 (Proc.devRef .tc main_arg12)) :=
  (val4_keep V0 main_arg12 (by decide)).trans (val3_main_arg12 V0)
theorem val4_main_arg13 (V0 : Valuation τ sig (Elt F)) : val4 V0 (no_index (Proc.devRef .tc main_arg13)) = (V0 (Proc.devRef .tc main_arg13)) :=
  (val4_keep V0 main_arg13 (by decide)).trans (val3_main_arg13 V0)
theorem val4_main_arg14 (V0 : Valuation τ sig (Elt F)) : val4 V0 (no_index (Proc.devRef .tc main_arg14)) = (V0 (Proc.devRef .tc main_arg14)) :=
  (val4_keep V0 main_arg14 (by decide)).trans (val3_main_arg14 V0)
theorem val4_main_arg15 (V0 : Valuation τ sig (Elt F)) : val4 V0 (no_index (Proc.devRef .tc main_arg15)) = (V0 (Proc.devRef .tc main_arg15)) :=
  (val4_keep V0 main_arg15 (by decide)).trans (val3_main_arg15 V0)
theorem val4_main_v8 (V0 : Valuation τ sig (Elt F)) : val4 V0 (no_index (Proc.devRef .tc main_v8)) = (rInv V0) :=
  (val4_keep V0 main_v8 (by decide)).trans (val3_main_v8 V0)
theorem val4_main_v24 (V0 : Valuation τ sig (Elt F)) : val4 V0 (no_index (Proc.devRef .tc main_v24)) = (Cert.RChains.colI2 (Cert.RChains.lowI (Cert.RChains.clip (V0 (Proc.devRef .tc main_arg1))))) :=
  (val4_keep V0 main_v24 (by decide)).trans (val3_main_v24 V0)
theorem val4_main_v26 (V0 : Valuation τ sig (Elt F)) : val4 V0 (no_index (Proc.devRef .tc main_v26)) = (Cert.RChains.colI0 (Cert.RChains.highI (Cert.RChains.lowI (Cert.RChains.clip (V0 (Proc.devRef .tc main_arg1)))))) :=
  (val4_keep V0 main_v26 (by decide)).trans (val3_main_v26 V0)
theorem val4_main_v28 (V0 : Valuation τ sig (Elt F)) : val4 V0 (no_index (Proc.devRef .tc main_v28)) = (Cert.RChains.colI1 (Cert.RChains.highI (Cert.RChains.lowI (Cert.RChains.clip (V0 (Proc.devRef .tc main_arg1)))))) :=
  (val4_keep V0 main_v28 (by decide)).trans (val3_main_v28 V0)
theorem val4_main_v30 (V0 : Valuation τ sig (Elt F)) : val4 V0 (no_index (Proc.devRef .tc main_v30)) = (Cert.RChains.colI2 (Cert.RChains.highI (Cert.RChains.lowI (Cert.RChains.clip (V0 (Proc.devRef .tc main_arg1)))))) :=
  (val4_keep V0 main_v30 (by decide)).trans (val3_main_v30 V0)
theorem val4_main_v31 (V0 : Valuation τ sig (Elt F)) : val4 V0 (no_index (Proc.devRef .tc main_v31)) = (Cert.RChains.colF0 (Cert.RChains.frac (Cert.RChains.clip (V0 (Proc.devRef .tc main_arg1))))) :=
  (val4_keep V0 main_v31 (by decide)).trans (val3_main_v31 V0)
theorem val4_main_v32 (V0 : Valuation τ sig (Elt F)) : val4 V0 (no_index (Proc.devRef .tc main_v32)) = (Cert.RChains.colF1 (Cert.RChains.frac (Cert.RChains.clip (V0 (Proc.devRef .tc main_arg1))))) :=
  (val4_keep V0 main_v32 (by decide)).trans (val3_main_v32 V0)
theorem val4_main_v33 (V0 : Valuation τ sig (Elt F)) : val4 V0 (no_index (Proc.devRef .tc main_v33)) = (Cert.RChains.colF2 (Cert.RChains.frac (Cert.RChains.clip (V0 (Proc.devRef .tc main_arg1))))) :=
  (val4_keep V0 main_v33 (by decide)).trans (val3_main_v33 V0)
theorem val4_main_v82 (V0 : Valuation τ sig (Elt F)) : val4 V0 (no_index (Proc.devRef .tc main_v82)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) :=
  (val4_keep V0 main_v82 (by decide)).trans (val3_main_v82 V0)
theorem val4_main_v131 (V0 : Valuation τ sig (Elt F)) : val4 V0 (no_index (Proc.devRef .tc main_v131)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.highI (Cert.RChains.lowI (Cert.RChains.clip (V0 (Proc.devRef .tc main_arg1)))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.highI (Cert.RChains.lowI (Cert.RChains.clip (V0 (Proc.devRef .tc main_arg1)))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) :=
  (val4_keep V0 main_v131 (by decide)).trans (val3_main_v131 V0)
set_option maxHeartbeats 2000000 in
theorem val4_main_v180 (V0 : Valuation τ sig (Elt F)) : val4 V0 (no_index (Proc.devRef .tc main_v180)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.highI (Cert.RChains.lowI (Cert.RChains.clip (V0 (Proc.devRef .tc main_arg1)))))) (Cert.RChains.colI1 (Cert.RChains.lowI (Cert.RChains.clip (V0 (Proc.devRef .tc main_arg1))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.highI (Cert.RChains.lowI (Cert.RChains.clip (V0 (Proc.devRef .tc main_arg1)))))) (Cert.RChains.colI1 (Cert.RChains.lowI (Cert.RChains.clip (V0 (Proc.devRef .tc main_arg1))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) := by
  unfold val4
  simp only [ops3]
  after_results_simp
  try dsimp only [Matrix.cons_val]
  try after_results_simp
  simp only [val3_main_v33, val3_main_v30, val3_main_v22, val3_main_v26, val3_main_arg0, val3_main_v24, val3_main_c_35, val3_main_v141, val3_main_v136] <;> rfl
set_option maxHeartbeats 2000000 in
theorem val4_main_v185 (V0 : Valuation τ sig (Elt F)) : val4 V0 (no_index (Proc.devRef .tc main_v185)) = ((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ((cmpi .slt : (⟨S100000, .i32⟩ : BufTy).Contents (Elt F) → (⟨S100000, .i32⟩ : BufTy).Contents (Elt F) → (⟨S100000, .i1⟩ : BufTy).Contents (Elt F)) (Cert.RChains.colI0 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 0#32)))) ((addi : (⟨S100000, .i32⟩ : BufTy).Contents (Elt F) → (⟨S100000, .i32⟩ : BufTy).Contents (Elt F) → (⟨S100000, .i32⟩ : BufTy).Contents (Elt F)) (Cert.RChains.colI0 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 128#32)))) (Cert.RChains.colI0 (Cert.RChains.highI (Cert.RChains.lowI (Cert.RChains.clip (V0 (Proc.devRef .tc main_arg1))))))) := by
  unfold val4
  simp only [ops3]
  after_results_simp
  try dsimp only [Matrix.cons_val]
  try after_results_simp
  simp only [val3_main_v26] <;> rfl
set_option maxHeartbeats 2000000 in
theorem val4_main_v187 (V0 : Valuation τ sig (Elt F)) : val4 V0 (no_index (Proc.devRef .tc main_v187)) = ((cmpi .slt : (⟨S100000, .i32⟩ : BufTy).Contents (Elt F) → (⟨S100000, .i32⟩ : BufTy).Contents (Elt F) → (⟨S100000, .i1⟩ : BufTy).Contents (Elt F)) (Cert.RChains.colI1 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 0#32)))) := by
  unfold val4
  simp only [ops3]
  after_results_simp
  try dsimp only [Matrix.cons_val]
  try after_results_simp
  simp only [val3_main_v28] <;> rfl
set_option maxHeartbeats 2000000 in
theorem val4_main_v189 (V0 : Valuation τ sig (Elt F)) : val4 V0 (no_index (Proc.devRef .tc main_v189)) = ((addi : (⟨S100000, .i32⟩ : BufTy).Contents (Elt F) → (⟨S100000, .i32⟩ : BufTy).Contents (Elt F) → (⟨S100000, .i32⟩ : BufTy).Contents (Elt F)) (Cert.RChains.colI1 (Cert.RChains.highI (Cert.RChains.lowI (Cert.RChains.clip (V0 (Proc.devRef .tc main_arg1)))))) ((broadcastInDim S100000 ![] bcast_S_S100000 : (⟨S_, .i32⟩ : BufTy).Contents (Elt F) → (⟨S100000, .i32⟩ : BufTy).Contents (Elt F)) ((constantI S_ 32 128#32)))) := by
  unfold val4
  simp only [ops3]
  after_results_simp
  try dsimp only [Matrix.cons_val]
  try after_results_simp
  simp only [val3_main_v28] <;> rfl

end Cert.RefRun

end
-- ==== Proof.RefVal4.lean ====
/-
  The buffer contents after window 4 of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefKeep4
import proofs.«139037_j17609365914513_2_alg».proof.Proof.RefVal3

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after windows 0 … 4. -/
def val5 (V0 : Valuation τ sig (Elt F)) : Valuation τ sig (Elt F) := after ops4 (val4 V0)
/-- A buffer window 4 does not write keeps its contents through it. -/
theorem val5_keep (V0 : Valuation τ sig (Elt F)) (r : Ref sig .tc) (h : r ∉ ops4_W) :
    val5 V0 (Proc.devRef .tc r) = val4 V0 (Proc.devRef .tc r) :=
  keep4 (val4 V0) r h

theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_arg4 (V0 : Valuation τ sig (Elt F)) : val5 V0 (no_index (Proc.devRef .tc main_arg4)) = (V0 (Proc.devRef .tc main_arg4)) :=
  (val5_keep V0 main_arg4 (by decide)).trans (val4_main_arg4 V0)
theorem val5_main_arg5 (V0 : Valuation τ sig (Elt F)) : val5 V0 (no_index (Proc.devRef .tc main_arg5)) = (V0 (Proc.devRef .tc main_arg5)) :=
  (val5_keep V0 main_arg5 (by decide)).trans (val4_main_arg5 V0)
theorem val5_main_arg6 (V0 : Valuation τ sig (Elt F)) : val5 V0 (no_index (Proc.devRef .tc main_arg6)) = (V0 (Proc.devRef .tc main_arg6)) :=
  (val5_keep V0 main_arg6 (by decide)).trans (val4_main_arg6 V0)
theorem val5_main_arg7 (V0 : Valuation τ sig (Elt F)) : val5 V0 (no_index (Proc.devRef .tc main_arg7)) = (V0 (Proc.devRef .tc main_arg7)) :=
  (val5_keep V0 main_arg7 (by decide)).trans (val4_main_arg7 V0)
theorem val5_main_arg8 (V0 : Valuation τ sig (Elt F)) : val5 V0 (no_index (Proc.devRef .tc main_arg8)) = (V0 (Proc.devRef .tc main_arg8)) :=
  (val5_keep V0 main_arg8 (by decide)).trans (val4_main_arg8 V0)
theorem val5_main_arg9 (V0 : Valuation τ sig (Elt F)) : val5 V0 (no_index (Proc.devRef .tc main_arg9)) = (V0 (Proc.devRef .tc main_arg9)) :=
  (val5_keep V0 main_arg9 (by decide)).trans (val4_main_arg9 V0)
theorem val5_main_arg10 (V0 : Valuation τ sig (Elt F)) : val5 V0 (no_index (Proc.devRef .tc main_arg10)) = (V0 (Proc.devRef .tc main_arg10)) :=
  (val5_keep V0 main_arg10 (by decide)).trans (val4_main_arg10 V0)
theorem val5_main_arg11 (V0 : Valuation τ sig (Elt F)) : val5 V0 (no_index (Proc.devRef .tc main_arg11)) = (V0 (Proc.devRef .tc main_arg11)) :=
  (val5_keep V0 main_arg11 (by decide)).trans (val4_main_arg11 V0)
theorem val5_main_arg12 (V0 : Valuation τ sig (Elt F)) : val5 V0 (no_index (Proc.devRef .tc main_arg12)) = (V0 (Proc.devRef .tc main_arg12)) :=
  (val5_keep V0 main_arg12 (by decide)).trans (val4_main_arg12 V0)
theorem val5_main_arg13 (V0 : Valuation τ sig (Elt F)) : val5 V0 (no_index (Proc.devRef .tc main_arg13)) = (V0 (Proc.devRef .tc main_arg13)) :=
  (val5_keep V0 main_arg13 (by decide)).trans (val4_main_arg13 V0)
theorem val5_main_arg14 (V0 : Valuation τ sig (Elt F)) : val5 V0 (no_index (Proc.devRef .tc main_arg14)) = (V0 (Proc.devRef .tc main_arg14)) :=
  (val5_keep V0 main_arg14 (by decide)).trans (val4_main_arg14 V0)
theorem val5_main_arg15 (V0 : Valuation τ sig (Elt F)) : val5 V0 (no_index (Proc.devRef .tc main_arg15)) = (V0 (Proc.devRef .tc main_arg15)) :=
  (val5_keep V0 main_arg15 (by decide)).trans (val4_main_arg15 V0)
theorem val5_main_v8 (V0 : Valuation τ sig (Elt F)) : val5 V0 (no_index (Proc.devRef .tc main_v8)) = (rInv V0) :=
  (val5_keep V0 main_v8 (by decide)).trans (val4_main_v8 V0)
theorem val5_main_v31 (V0 : Valuation τ sig (Elt F)) : val5 V0 (no_index (Proc.devRef .tc main_v31)) = (Cert.RChains.colF0 (Cert.RChains.frac (Cert.RChains.clip (V0 (Proc.devRef .tc main_arg1))))) :=
  (val5_keep V0 main_v31 (by decide)).trans (val4_main_v31 V0)
theorem val5_main_v32 (V0 : Valuation τ sig (Elt F)) : val5 V0 (no_index (Proc.devRef .tc main_v32)) = (Cert.RChains.colF1 (Cert.RChains.frac (Cert.RChains.clip (V0 (Proc.devRef .tc main_arg1))))) :=
  (val5_keep V0 main_v32 (by decide)).trans (val4_main_v32 V0)
theorem val5_main_v180 (V0 : Valuation τ sig (Elt F)) : val5 V0 (no_index (Proc.devRef .tc main_v180)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.highI (Cert.RChains.lowI (Cert.RChains.clip (V0 (Proc.devRef .tc main_arg1)))))) (Cert.RChains.colI1 (Cert.RChains.lowI (Cert.RChains.clip (V0 (Proc.devRef .tc main_arg1))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.highI (Cert.RChains.lowI (Cert.RChains.clip (V0 (Proc.devRef .tc main_arg1)))))) (Cert.RChains.colI1 (Cert.RChains.lowI (Cert.RChains.clip (V0 (Proc.devRef .tc main_arg1))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) :=
  (val5_keep V0 main_v180 (by decide)).trans (val4_main_v180 V0)
set_option maxHeartbeats 2000000 in
theorem val5_main_v229 (V0 : Valuation τ sig (Elt F)) : val5 V0 (no_index (Proc.devRef .tc main_v229)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.highI (Cert.RChains.lowI (Cert.RChains.clip (V0 (Proc.devRef .tc main_arg1)))))) (Cert.RChains.colI1 (Cert.RChains.highI (Cert.RChains.lowI (Cert.RChains.clip (V0 (Proc.devRef .tc main_arg1)))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.highI (Cert.RChains.lowI (Cert.RChains.clip (V0 (Proc.devRef .tc main_arg1)))))) (Cert.RChains.colI1 (Cert.RChains.highI (Cert.RChains.lowI (Cert.RChains.clip (V0 (Proc.devRef .tc main_arg1)))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) := by
  unfold val5
  simp only [ops4]
  after_results_simp
  try dsimp only [Matrix.cons_val]
  try after_results_simp
  simp only [val4_main_v33, val4_main_v30, val4_main_v28, val4_main_v26, val4_main_arg0, val4_main_v24, val4_main_v189, val4_main_v187, val4_main_v185] <;> rfl
set_option maxHeartbeats 2000000 in
theorem val5_main_v236 (V0 : Valuation τ sig (Elt F)) : val5 V0 (no_index (Proc.devRef .tc main_v236)) = ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.lowI (Cert.RChains.clip (V0 (Proc.devRef .tc main_arg1))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF1 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) ((addf : (⟨S100000x16, .f32⟩ : BufTy).Contents (Elt F) → (⟨S100000x16, .f32⟩ : BufTy).Contents (Elt F) → (⟨S100000x16, .f32⟩ : BufTy).Contents (Elt F)) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.highI (Cert.RChains.lowI (Cert.RChains.clip (V0 (Proc.devRef .tc main_arg1)))))) (Cert.RChains.colI2 (Cert.RChains.lowI (Cert.RChains.clip (V0 (Proc.devRef .tc main_arg1)))))) ((broadcastInDim S100000x16 ![0, 1] bcast_S100000x1_S100000x16_0_1 : (⟨S100000x1, .f32⟩ : BufTy).Contents (Elt F) → (⟨S100000x16, .f32⟩ : BufTy).Contents (Elt F)) ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF2 (Cert.RChains.frac (Cert.RChains.clip (V0 (Proc.devRef .tc main_arg1)))))))) ((mulf : (⟨S100000x16, .f32⟩ : BufTy).Contents (Elt F) → (⟨S100000x16, .f32⟩ : BufTy).Contents (Elt F) → (⟨S100000x16, .f32⟩ : BufTy).Contents (Elt F)) (Cert.RChains.corner (V0 (Proc.devRef .tc main_arg0)) (Cert.RChains.colI0 (Cert.RChains.lowI (Cert.RChains.clip (V0 (Proc.devRef .tc main_arg1))))) (Cert.RChains.colI1 (Cert.RChains.highI (Cert.RChains.lowI (Cert.RChains.clip (V0 (Proc.devRef .tc main_arg1)))))) (Cert.RChains.colI2 (Cert.RChains.highI (Cert.RChains.lowI (Cert.RChains.clip (V0 (Proc.devRef .tc main_arg1))))))) ((broadcastInDim S100000x16 ![0, 1] bcast_S100000x1_S100000x16_0_1 : (⟨S100000x1, .f32⟩ : BufTy).Contents (Elt F) → (⟨S100000x16, .f32⟩ : BufTy).Contents (Elt F)) (Cert.RChains.colF2 (Cert.RChains.frac (Cert.RChains.clip (V0 (Proc.devRef .tc main_arg1)))))))) ((broadcastInDim S100000x16 ![0, 1] bcast_S100000x1_S100000x16_0_1 : (⟨S100000x1, .f32⟩ : BufTy).Contents (Elt F) → (⟨S100000x16, .f32⟩ : BufTy).Contents (Elt F)) (Cert.RChains.colF1 (Cert.RChains.frac (Cert.RChains.clip (V0 (Proc.devRef .tc main_arg1)))))))) := by
  unfold val5
  simp only [ops4]
  after_results_simp
  try dsimp only [Matrix.cons_val]
  try after_results_simp
  simp only [val4_main_v32, val4_main_v131, val4_main_v82] <;> rfl
set_option maxHeartbeats 2000000 in
theorem val5_main_v238 (V0 : Valuation τ sig (Elt F)) : val5 V0 (no_index (Proc.devRef .tc main_v238)) = ((subf : (⟨S100000x1, .f32⟩ : BufTy).Contents (Elt F) → (⟨S100000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) ((constant S_ .f32 0x3F800000#32))) (Cert.RChains.colF0 (Cert.RChains.frac (Cert.RChains.clip (V0 (Proc.devRef .tc main_arg1)))))) := by
  unfold val5
  simp only [ops4]
  after_results_simp
  try dsimp only [Matrix.cons_val]
  try after_results_simp
  simp only [val4_main_v31] <;> rfl

end Cert.RefRun

end
-- ==== Proof.RefVal5a.lean ====
/-
  The buffer contents after piece 5a of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefVal4

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of piece 5a, in order (17 of them). -/
abbrev ops5a : List (HloOp τ sig (Elt F)) :=
  [ StableHlo.unary main_v238 main_v239 (broadcastInDim S100000x16 ![0, 1] bcast_S100000x1_S100000x16_0_1 : (⟨S100000x1, .f32⟩ : BufTy).Contents (Elt F) → (⟨S100000x16, .f32⟩ : BufTy).Contents (Elt F)),
    StableHlo.binary main_v236 main_v239 main_v240 (mulf : (⟨S100000x16, .f32⟩ : BufTy).Contents (Elt F) → (⟨S100000x16, .f32⟩ : BufTy).Contents (Elt F) → (⟨S100000x16, .f32⟩ : BufTy).Contents (Elt F)),
    StableHlo.nullary main_cst_59 (constant S_ .f32 0x3F800000#32),
    StableHlo.unary main_cst_59 main_v241 (broadcastInDim S100000x1 ![] bcast_S_S100000x1 : (⟨S_, .f32⟩ : BufTy).Contents (Elt F) → (⟨S100000x1, .f32⟩ : BufTy).Contents (Elt F)),
    StableHlo.binary main_v241 main_v32 main_v242 (subf : (⟨S100000x1, .f32⟩ : BufTy).Contents (Elt F) → (⟨S100000x1, .f32⟩ : BufTy).Contents (Elt F) → (⟨S100000x1, .f32⟩ : BufTy).Contents (Elt F)),
    StableHlo.unary main_v242 main_v243 (broadcastInDim S100000x16 ![0, 1] bcast_S100000x1_S100000x16_0_1 : (⟨S100000x1, .f32⟩ : BufTy).Contents (Elt F) → (⟨S100000x16, .f32⟩ : BufTy).Contents (Elt F)),
    StableHlo.binary main_v180 main_v243 main_v244 (mulf : (⟨S100000x16, .f32⟩ : BufTy).Contents (Elt F) → (⟨S100000x16, .f32⟩ : BufTy).Contents (Elt F) → (⟨S100000x16, .f32⟩ : BufTy).Contents (Elt F)),
    StableHlo.unary main_v32 main_v245 (broadcastInDim S100000x16 ![0, 1] bcast_S100000x1_S100000x16_0_1 : (⟨S100000x1, .f32⟩ : BufTy).Contents (Elt F) → (⟨S100000x16, .f32⟩ : BufTy).Contents (Elt F)),
    StableHlo.binary main_v229 main_v245 main_v246 (mulf : (⟨S100000x16, .f32⟩ : BufTy).Contents (Elt F) → (⟨S100000x16, .f32⟩ : BufTy).Contents (Elt F) → (⟨S100000x16, .f32⟩ : BufTy).Contents (Elt F)),
    StableHlo.binary main_v244 main_v246 main_v247 (addf : (⟨S100000x16, .f32⟩ : BufTy).Contents (Elt F) → (⟨S100000x16, .f32⟩ : BufTy).Contents (Elt F) → (⟨S100000x16, .f32⟩ : BufTy).Contents (Elt F)),
    StableHlo.unary main_v31 main_v248 (broadcastInDim S100000x16 ![0, 1] bcast_S100000x1_S100000x16_0_1 : (⟨S100000x1, .f32⟩ : BufTy).Contents (Elt F) → (⟨S100000x16, .f32⟩ : BufTy).Contents (Elt F)),
    StableHlo.binary main_v247 main_v248 main_v249 (mulf : (⟨S100000x16, .f32⟩ : BufTy).Contents (Elt F) → (⟨S100000x16, .f32⟩ : BufTy).Contents (Elt F) → (⟨S100000x16, .f32⟩ : BufTy).Contents (Elt F)),
    StableHlo.binary main_v240 main_v249 main_v250 (addf : (⟨S100000x16, .f32⟩ : BufTy).Contents (Elt F) → (⟨S100000x16, .f32⟩ : BufTy).Contents (Elt F) → (⟨S100000x16, .f32⟩ : BufTy).Contents (Elt F)),
    StableHlo.nullary main_cst_60 (constant S_ .f32 0x43000000#32),
    StableHlo.unary main_cst_60 main_v251 (broadcastInDim S100000x3 ![] bcast_S_S100000x3 : (⟨S_, .f32⟩ : BufTy).Contents (Elt F) → (⟨S100000x3, .f32⟩ : BufTy).Contents (Elt F)),
    StableHlo.binary main_arg1 main_v251 main_v252 (Host.divf : (⟨S100000x3, .f32⟩ : BufTy).Contents (Elt F) → (⟨S100000x3, .f32⟩ : BufTy).Contents (Elt F) → (⟨S100000x3, .f32⟩ : BufTy).Contents (Elt F)),
    StableHlo.binary main_v252 main_v250 main_v253 ((fun a b => concatenate S100000x19 1 [⟨S100000x3, a⟩, ⟨S100000x16, b⟩] concatenates_S100000x3_S100000x16_S100000x19_d1) : (⟨S100000x3, .f32⟩ : BufTy).Contents (Elt F) → (⟨S100000x16, .f32⟩ : BufTy).Contents (Elt F) → (⟨S100000x19, .f32⟩ : BufTy).Contents (Elt F)) ]

/-- The buffers piece 5a writes, in order. -/
abbrev ops5a_W : List (Ref sig .tc) :=
  [main_v239, main_v240, main_cst_59, main_v241, main_v242, main_v243, main_v244, main_v245, main_v246, main_v247, main_v248, main_v249, main_v250, main_cst_60, main_v251, main_v252, main_v253]

set_option maxRecDepth 8192 in
/-- Every operation of piece 5a writes into that list. -/
theorem ops5a_writes : (ops5a : List (HloOp τ sig (Elt F))).Forall fun op =>
    op.writes ⊆ (ops5a_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer piece 5a does not write keeps its contents through it. -/
theorem keep5a (W : Valuation τ sig (Elt F)) (r : Ref sig .tc) (h : r ∉ ops5a_W) :
    after ops5a W (Proc.devRef .tc r) = W (Proc.devRef .tc r) :=
  after_of_writes_sub ops5a W ops5a_writes h

/-- The buffer contents after piece 5a. -/
def val5a (V0 : Valuation τ sig (Elt F)) : Valuation τ sig (Elt F) := after ops5a (val5 V0)
/-- A buffer piece 5a does not write keeps its contents through it. -/
theorem val5a_keep (V0 : Valuation τ sig (Elt F)) (r : Ref sig .tc) (h : r ∉ ops5a_W) :
    val5a V0 (Proc.devRef .tc r) = val5 V0 (Proc.devRef .tc r) :=
  keep5a (val5 V0) r h

theorem val5a_main_arg0 (V0 : Valuation τ sig (Elt F)) : val5a V0 (no_index (Proc.devRef .tc main_arg0)) = (V0 (Proc.devRef .tc main_arg0)) :=
  (val5a_keep V0 main_arg0 (by decide)).trans (val5_main_arg0 V0)
theorem val5a_main_arg1 (V0 : Valuation τ sig (Elt F)) : val5a V0 (no_index (Proc.devRef .tc main_arg1)) = (V0 (Proc.devRef .tc main_arg1)) :=
  (val5a_keep V0 main_arg1 (by decide)).trans (val5_main_arg1 V0)
theorem val5a_main_arg2 (V0 : Valuation τ sig (Elt F)) : val5a V0 (no_index (Proc.devRef .tc main_arg2)) = (V0 (Proc.devRef .tc main_arg2)) :=
  (val5a_keep V0 main_arg2 (by decide)).trans (val5_main_arg2 V0)
theorem val5a_main_arg3 (V0 : Valuation τ sig (Elt F)) : val5a V0 (no_index (Proc.devRef .tc main_arg3)) = (V0 (Proc.devRef .tc main_arg3)) :=
  (val5a_keep V0 main_arg3 (by decide)).trans (val5_main_arg3 V0)
theorem val5a_main_arg4 (V0 : Valuation τ sig (Elt F)) : val5a V0 (no_index (Proc.devRef .tc main_arg4)) = (V0 (Proc.devRef .tc main_arg4)) :=
  (val5a_keep V0 main_arg4 (by decide)).trans (val5_main_arg4 V0)
theorem val5a_main_arg5 (V0 : Valuation τ sig (Elt F)) : val5a V0 (no_index (Proc.devRef .tc main_arg5)) = (V0 (Proc.devRef .tc main_arg5)) :=
  (val5a_keep V0 main_arg5 (by decide)).trans (val5_main_arg5 V0)
theorem val5a_main_arg6 (V0 : Valuation τ sig (Elt F)) : val5a V0 (no_index (Proc.devRef .tc main_arg6)) = (V0 (Proc.devRef .tc main_arg6)) :=
  (val5a_keep V0 main_arg6 (by decide)).trans (val5_main_arg6 V0)
theorem val5a_main_arg7 (V0 : Valuation τ sig (Elt F)) : val5a V0 (no_index (Proc.devRef .tc main_arg7)) = (V0 (Proc.devRef .tc main_arg7)) :=
  (val5a_keep V0 main_arg7 (by decide)).trans (val5_main_arg7 V0)
theorem val5a_main_arg8 (V0 : Valuation τ sig (Elt F)) : val5a V0 (no_index (Proc.devRef .tc main_arg8)) = (V0 (Proc.devRef .tc main_arg8)) :=
  (val5a_keep V0 main_arg8 (by decide)).trans (val5_main_arg8 V0)
theorem val5a_main_arg9 (V0 : Valuation τ sig (Elt F)) : val5a V0 (no_index (Proc.devRef .tc main_arg9)) = (V0 (Proc.devRef .tc main_arg9)) :=
  (val5a_keep V0 main_arg9 (by decide)).trans (val5_main_arg9 V0)
theorem val5a_main_arg10 (V0 : Valuation τ sig (Elt F)) : val5a V0 (no_index (Proc.devRef .tc main_arg10)) = (V0 (Proc.devRef .tc main_arg10)) :=
  (val5a_keep V0 main_arg10 (by decide)).trans (val5_main_arg10 V0)
theorem val5a_main_arg11 (V0 : Valuation τ sig (Elt F)) : val5a V0 (no_index (Proc.devRef .tc main_arg11)) = (V0 (Proc.devRef .tc main_arg11)) :=
  (val5a_keep V0 main_arg11 (by decide)).trans (val5_main_arg11 V0)
theorem val5a_main_arg12 (V0 : Valuation τ sig (Elt F)) : val5a V0 (no_index (Proc.devRef .tc main_arg12)) = (V0 (Proc.devRef .tc main_arg12)) :=
  (val5a_keep V0 main_arg12 (by decide)).trans (val5_main_arg12 V0)
theorem val5a_main_arg13 (V0 : Valuation τ sig (Elt F)) : val5a V0 (no_index (Proc.devRef .tc main_arg13)) = (V0 (Proc.devRef .tc main_arg13)) :=
  (val5a_keep V0 main_arg13 (by decide)).trans (val5_main_arg13 V0)
theorem val5a_main_arg14 (V0 : Valuation τ sig (Elt F)) : val5a V0 (no_index (Proc.devRef .tc main_arg14)) = (V0 (Proc.devRef .tc main_arg14)) :=
  (val5a_keep V0 main_arg14 (by decide)).trans (val5_main_arg14 V0)
theorem val5a_main_arg15 (V0 : Valuation τ sig (Elt F)) : val5a V0 (no_index (Proc.devRef .tc main_arg15)) = (V0 (Proc.devRef .tc main_arg15)) :=
  (val5a_keep V0 main_arg15 (by decide)).trans (val5_main_arg15 V0)
theorem val5a_main_v8 (V0 : Valuation τ sig (Elt F)) : val5a V0 (no_index (Proc.devRef .tc main_v8)) = (rInv V0) :=
  (val5a_keep V0 main_v8 (by decide)).trans (val5_main_v8 V0)
set_option maxHeartbeats 2000000 in
theorem val5a_main_v253 (V0 : Valuation τ sig (Elt F)) : val5a V0 (no_index (Proc.devRef .tc main_v253)) = (rF V0) := by
  unfold val5a
  simp only [ops5a]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try rw [val5_main_v31]
  try rw [val5_main_v32]
  try rw [val5_main_v229]
  try rw [val5_main_v180]
  try rw [val5_main_v238]
  try rw [val5_main_v236]
  try rw [val5_main_arg1]
  rfl

end Cert.RefRun

end
-- ==== Proof.RefVal5b.lean ====
/-
  The buffer contents after piece 5b of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefVal5a

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of piece 5b, in order (29 of them). -/
abbrev ops5b : List (HloOp τ sig (Elt F)) :=
  [ StableHlo.nullary main_c_61 (constantI S_ 32 0#32),
    StableHlo.unary main_c_61 main_v254 (broadcastInDim S1600000 ![] bcast_S_S1600000 : (⟨S_, .i32⟩ : BufTy).Contents (Elt F) → (⟨S1600000, .i32⟩ : BufTy).Contents (Elt F)),
    StableHlo.binary main_arg2 main_v254 main_v255 (cmpi .slt : (⟨S1600000, .i32⟩ : BufTy).Contents (Elt F) → (⟨S1600000, .i32⟩ : BufTy).Contents (Elt F) → (⟨S1600000, .i1⟩ : BufTy).Contents (Elt F)),
    StableHlo.nullary main_c_62 (constantI S_ 32 100000#32),
    StableHlo.unary main_c_62 main_v256 (broadcastInDim S1600000 ![] bcast_S_S1600000 : (⟨S_, .i32⟩ : BufTy).Contents (Elt F) → (⟨S1600000, .i32⟩ : BufTy).Contents (Elt F)),
    StableHlo.binary main_arg2 main_v256 main_v257 (addi : (⟨S1600000, .i32⟩ : BufTy).Contents (Elt F) → (⟨S1600000, .i32⟩ : BufTy).Contents (Elt F) → (⟨S1600000, .i32⟩ : BufTy).Contents (Elt F)),
    StableHlo.ternary main_v255 main_v257 main_arg2 main_v258 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v258 main_v259 (broadcastInDim S1600000x1 ![0] bcast_S1600000_S1600000x1_0 : (⟨S1600000, .i32⟩ : BufTy).Contents (Elt F) → (⟨S1600000x1, .i32⟩ : BufTy).Contents (Elt F)),
    StableHlo.binary main_v253 main_v259 main_v260 ((fun x i => Host.gather gather_S100000x19_S1600000x1_S1600000x19_1_0_n_n_0_1_119 x i) : (⟨S100000x19, .f32⟩ : BufTy).Contents (Elt F) → (⟨S1600000x1, .i32⟩ : BufTy).Contents (Elt F) → (⟨S1600000x19, .f32⟩ : BufTy).Contents (Elt F)),
    StableHlo.nullary main_cst_63 (constant S_ .f32 0x00000000#32),
    StableHlo.unary main_cst_63 main_v261 (broadcastInDim S100000x19 ![] bcast_S_S100000x19 : (⟨S_, .f32⟩ : BufTy).Contents (Elt F) → (⟨S100000x19, .f32⟩ : BufTy).Contents (Elt F)),
    StableHlo.unary main_arg3 main_v262 (broadcastInDim S1600000x1 ![0] bcast_S1600000_S1600000x1_0 : (⟨S1600000, .i32⟩ : BufTy).Contents (Elt F) → (⟨S1600000x1, .i32⟩ : BufTy).Contents (Elt F)),
    StableHlo.ternary main_v261 main_v262 main_v260 main_v263 ((fun x i u => Host.scatterAdd scatter_S100000x19_S1600000x1_S1600000x19_1_0_0_1 x i u) : (⟨S100000x19, .f32⟩ : BufTy).Contents (Elt F) → (⟨S1600000x1, .i32⟩ : BufTy).Contents (Elt F) → (⟨S1600000x19, .f32⟩ : BufTy).Contents (Elt F) → (⟨S100000x19, .f32⟩ : BufTy).Contents (Elt F)),
    StableHlo.unary main_v8 main_v264 (broadcastInDim S100000x19 ![0, 1] bcast_S100000x1_S100000x19_0_1 : (⟨S100000x1, .f32⟩ : BufTy).Contents (Elt F) → (⟨S100000x19, .f32⟩ : BufTy).Contents (Elt F)),
    StableHlo.binary main_v263 main_v264 main_v265 (mulf : (⟨S100000x19, .f32⟩ : BufTy).Contents (Elt F) → (⟨S100000x19, .f32⟩ : BufTy).Contents (Elt F) → (⟨S100000x19, .f32⟩ : BufTy).Contents (Elt F)),
    StableHlo.binary main_v253 main_arg4 main_v266 ((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)),
    StableHlo.binary main_v265 main_arg5 main_v267 ((fun l r => Host.dotGeneral dot_S100000x19_S19x32_S100000x32_1_0_0_1_n_n none l r) : (⟨S100000x19, .f32⟩ : BufTy).Contents (Elt F) → (⟨S19x32, .f32⟩ : BufTy).Contents (Elt F) → (⟨S100000x32, .f32⟩ : BufTy).Contents (Elt F)),
    StableHlo.binary main_v266 main_v267 main_v268 (addf : (⟨S100000x32, .f32⟩ : BufTy).Contents (Elt F) → (⟨S100000x32, .f32⟩ : BufTy).Contents (Elt F) → (⟨S100000x32, .f32⟩ : BufTy).Contents (Elt F)),
    StableHlo.unary main_arg6 main_v269 (broadcastInDim S1x32 ![1] bcast_S32_S1x32_1 : (⟨S32, .f32⟩ : BufTy).Contents (Elt F) → (⟨S1x32, .f32⟩ : BufTy).Contents (Elt F)),
    StableHlo.unary main_v269 main_v270 (broadcastInDim S100000x32 ![0, 1] bcast_S1x32_S100000x32_0_1 : (⟨S1x32, .f32⟩ : BufTy).Contents (Elt F) → (⟨S100000x32, .f32⟩ : BufTy).Contents (Elt F)),
    StableHlo.binary main_v268 main_v270 main_v271 (addf : (⟨S100000x32, .f32⟩ : BufTy).Contents (Elt F) → (⟨S100000x32, .f32⟩ : BufTy).Contents (Elt F) → (⟨S100000x32, .f32⟩ : BufTy).Contents (Elt F)),
    StableHlo.nullary main_cst_64 (constant S_ .f32 0x3E99999A#32),
    StableHlo.TRef.nullary main_call1.cst (constant S_ .f32 0x00000000#32),
    StableHlo.TRef.unary main_call1.cst main_call1.v0 (broadcastInDim S100000x32 ![] bcast_S_S100000x32),
    StableHlo.TRef.binary (.of main_v271 : StableHlo.TRef sig ⟨S100000x32, .f32⟩) main_call1.v0 main_call1.v1 (cmpf .oge),
    StableHlo.TRef.unary (.of main_cst_64 : StableHlo.TRef sig ⟨S_, .f32⟩) main_call1.v2 id,
    StableHlo.TRef.unary main_call1.v2 main_call1.v3 (broadcastInDim S100000x32 ![] bcast_S_S100000x32),
    StableHlo.TRef.binary main_call1.v3 (.of main_v271 : StableHlo.TRef sig ⟨S100000x32, .f32⟩) main_call1.v4 mulf,
    StableHlo.TRef.ternary main_call1.v1 (.of main_v271 : StableHlo.TRef sig ⟨S100000x32, .f32⟩) main_call1.v4 main_call1.call0.v0 select ]

/-- The buffers piece 5b writes, in order. -/
abbrev ops5b_W : List (Ref sig .tc) :=
  [main_c_61, main_v254, main_v255, main_c_62, main_v256, main_v257, main_v258, main_v259, main_v260, main_cst_63, main_v261, main_v262, main_v263, main_v264, main_v265, main_v266, main_v267, main_v268, main_v269, main_v270, main_v271, main_cst_64, main_call1_cst, main_call1_v0, main_call1_v1, main_call1_v2, main_call1_v3, main_call1_v4, main_v272]

set_option maxRecDepth 8192 in
/-- Every operation of piece 5b writes into that list. -/
theorem ops5b_writes : (ops5b : List (HloOp τ sig (Elt F))).Forall fun op =>
    op.writes ⊆ (ops5b_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer piece 5b does not write keeps its contents through it. -/
theorem keep5b (W : Valuation τ sig (Elt F)) (r : Ref sig .tc) (h : r ∉ ops5b_W) :
    after ops5b W (Proc.devRef .tc r) = W (Proc.devRef .tc r) :=
  after_of_writes_sub ops5b W ops5b_writes h

/-- The buffer contents after piece 5b. -/
def val5b (V0 : Valuation τ sig (Elt F)) : Valuation τ sig (Elt F) := after ops5b (val5a V0)
/-- A buffer piece 5b does not write keeps its contents through it. -/
theorem val5b_keep (V0 : Valuation τ sig (Elt F)) (r : Ref sig .tc) (h : r ∉ ops5b_W) :
    val5b V0 (Proc.devRef .tc r) = val5a V0 (Proc.devRef .tc r) :=
  keep5b (val5a V0) r h

theorem val5b_main_arg0 (V0 : Valuation τ sig (Elt F)) : val5b V0 (no_index (Proc.devRef .tc main_arg0)) = (V0 (Proc.devRef .tc main_arg0)) :=
  (val5b_keep V0 main_arg0 (by decide)).trans (val5a_main_arg0 V0)
theorem val5b_main_arg1 (V0 : Valuation τ sig (Elt F)) : val5b V0 (no_index (Proc.devRef .tc main_arg1)) = (V0 (Proc.devRef .tc main_arg1)) :=
  (val5b_keep V0 main_arg1 (by decide)).trans (val5a_main_arg1 V0)
theorem val5b_main_arg2 (V0 : Valuation τ sig (Elt F)) : val5b V0 (no_index (Proc.devRef .tc main_arg2)) = (V0 (Proc.devRef .tc main_arg2)) :=
  (val5b_keep V0 main_arg2 (by decide)).trans (val5a_main_arg2 V0)
theorem val5b_main_arg3 (V0 : Valuation τ sig (Elt F)) : val5b V0 (no_index (Proc.devRef .tc main_arg3)) = (V0 (Proc.devRef .tc main_arg3)) :=
  (val5b_keep V0 main_arg3 (by decide)).trans (val5a_main_arg3 V0)
theorem val5b_main_arg4 (V0 : Valuation τ sig (Elt F)) : val5b V0 (no_index (Proc.devRef .tc main_arg4)) = (V0 (Proc.devRef .tc main_arg4)) :=
  (val5b_keep V0 main_arg4 (by decide)).trans (val5a_main_arg4 V0)
theorem val5b_main_arg5 (V0 : Valuation τ sig (Elt F)) : val5b V0 (no_index (Proc.devRef .tc main_arg5)) = (V0 (Proc.devRef .tc main_arg5)) :=
  (val5b_keep V0 main_arg5 (by decide)).trans (val5a_main_arg5 V0)
theorem val5b_main_arg6 (V0 : Valuation τ sig (Elt F)) : val5b V0 (no_index (Proc.devRef .tc main_arg6)) = (V0 (Proc.devRef .tc main_arg6)) :=
  (val5b_keep V0 main_arg6 (by decide)).trans (val5a_main_arg6 V0)
theorem val5b_main_arg7 (V0 : Valuation τ sig (Elt F)) : val5b V0 (no_index (Proc.devRef .tc main_arg7)) = (V0 (Proc.devRef .tc main_arg7)) :=
  (val5b_keep V0 main_arg7 (by decide)).trans (val5a_main_arg7 V0)
theorem val5b_main_arg8 (V0 : Valuation τ sig (Elt F)) : val5b V0 (no_index (Proc.devRef .tc main_arg8)) = (V0 (Proc.devRef .tc main_arg8)) :=
  (val5b_keep V0 main_arg8 (by decide)).trans (val5a_main_arg8 V0)
theorem val5b_main_arg9 (V0 : Valuation τ sig (Elt F)) : val5b V0 (no_index (Proc.devRef .tc main_arg9)) = (V0 (Proc.devRef .tc main_arg9)) :=
  (val5b_keep V0 main_arg9 (by decide)).trans (val5a_main_arg9 V0)
theorem val5b_main_arg10 (V0 : Valuation τ sig (Elt F)) : val5b V0 (no_index (Proc.devRef .tc main_arg10)) = (V0 (Proc.devRef .tc main_arg10)) :=
  (val5b_keep V0 main_arg10 (by decide)).trans (val5a_main_arg10 V0)
theorem val5b_main_arg11 (V0 : Valuation τ sig (Elt F)) : val5b V0 (no_index (Proc.devRef .tc main_arg11)) = (V0 (Proc.devRef .tc main_arg11)) :=
  (val5b_keep V0 main_arg11 (by decide)).trans (val5a_main_arg11 V0)
theorem val5b_main_arg12 (V0 : Valuation τ sig (Elt F)) : val5b V0 (no_index (Proc.devRef .tc main_arg12)) = (V0 (Proc.devRef .tc main_arg12)) :=
  (val5b_keep V0 main_arg12 (by decide)).trans (val5a_main_arg12 V0)
theorem val5b_main_arg13 (V0 : Valuation τ sig (Elt F)) : val5b V0 (no_index (Proc.devRef .tc main_arg13)) = (V0 (Proc.devRef .tc main_arg13)) :=
  (val5b_keep V0 main_arg13 (by decide)).trans (val5a_main_arg13 V0)
theorem val5b_main_arg14 (V0 : Valuation τ sig (Elt F)) : val5b V0 (no_index (Proc.devRef .tc main_arg14)) = (V0 (Proc.devRef .tc main_arg14)) :=
  (val5b_keep V0 main_arg14 (by decide)).trans (val5a_main_arg14 V0)
theorem val5b_main_arg15 (V0 : Valuation τ sig (Elt F)) : val5b V0 (no_index (Proc.devRef .tc main_arg15)) = (V0 (Proc.devRef .tc main_arg15)) :=
  (val5b_keep V0 main_arg15 (by decide)).trans (val5a_main_arg15 V0)
theorem val5b_main_v8 (V0 : Valuation τ sig (Elt F)) : val5b V0 (no_index (Proc.devRef .tc main_v8)) = (rInv V0) :=
  (val5b_keep V0 main_v8 (by decide)).trans (val5a_main_v8 V0)
set_option maxHeartbeats 2000000 in
theorem val5b_main_v272 (V0 : Valuation τ sig (Elt F)) : val5b V0 (no_index (Proc.devRef .tc main_v272)) = (rH1 V0) := by
  unfold val5b
  simp only [ops5b]
  after_results_simp
  simp only [val5a_main_arg6, val5a_main_arg5, val5a_main_v8, val5a_main_arg2, val5a_main_v253, val5a_main_arg3, val5a_main_arg4] <;> rfl

end Cert.RefRun

end
-- ==== Proof.RefVal5c.lean ====
/-
  The buffer contents after piece 5c of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefVal5b

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of piece 5c, in order (20 of them). -/
abbrev ops5c : List (HloOp τ sig (Elt F)) :=
  [ StableHlo.nullary main_c_65 (constantI S_ 32 0#32),
    StableHlo.unary main_c_65 main_v273 (broadcastInDim S1600000 ![] bcast_S_S1600000 : (⟨S_, .i32⟩ : BufTy).Contents (Elt F) → (⟨S1600000, .i32⟩ : BufTy).Contents (Elt F)),
    StableHlo.binary main_arg2 main_v273 main_v274 (cmpi .slt : (⟨S1600000, .i32⟩ : BufTy).Contents (Elt F) → (⟨S1600000, .i32⟩ : BufTy).Contents (Elt F) → (⟨S1600000, .i1⟩ : BufTy).Contents (Elt F)),
    StableHlo.nullary main_c_66 (constantI S_ 32 100000#32),
    StableHlo.unary main_c_66 main_v275 (broadcastInDim S1600000 ![] bcast_S_S1600000 : (⟨S_, .i32⟩ : BufTy).Contents (Elt F) → (⟨S1600000, .i32⟩ : BufTy).Contents (Elt F)),
    StableHlo.binary main_arg2 main_v275 main_v276 (addi : (⟨S1600000, .i32⟩ : BufTy).Contents (Elt F) → (⟨S1600000, .i32⟩ : BufTy).Contents (Elt F) → (⟨S1600000, .i32⟩ : BufTy).Contents (Elt F)),
    StableHlo.ternary main_v274 main_v276 main_arg2 main_v277 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v277 main_v278 (broadcastInDim S1600000x1 ![0] bcast_S1600000_S1600000x1_0 : (⟨S1600000, .i32⟩ : BufTy).Contents (Elt F) → (⟨S1600000x1, .i32⟩ : BufTy).Contents (Elt F)),
    StableHlo.binary main_v272 main_v278 main_v279 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_67 (constant S_ .f32 0x00000000#32),
    StableHlo.unary main_cst_67 main_v280 (broadcastInDim S100000x32 ![] bcast_S_S100000x32 : (⟨S_, .f32⟩ : BufTy).Contents (Elt F) → (⟨S100000x32, .f32⟩ : BufTy).Contents (Elt F)),
    StableHlo.unary main_arg3 main_v281 (broadcastInDim S1600000x1 ![0] bcast_S1600000_S1600000x1_0 : (⟨S1600000, .i32⟩ : BufTy).Contents (Elt F) → (⟨S1600000x1, .i32⟩ : BufTy).Contents (Elt F)),
    StableHlo.ternary main_v280 main_v281 main_v279 main_v282 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_v8 main_v283 (broadcastInDim S100000x32 ![0, 1] bcast_S100000x1_S100000x32_0_1 : (⟨S100000x1, .f32⟩ : BufTy).Contents (Elt F) → (⟨S100000x32, .f32⟩ : BufTy).Contents (Elt F)),
    StableHlo.binary main_v282 main_v283 main_v284 (mulf : (⟨S100000x32, .f32⟩ : BufTy).Contents (Elt F) → (⟨S100000x32, .f32⟩ : BufTy).Contents (Elt F) → (⟨S100000x32, .f32⟩ : BufTy).Contents (Elt F)),
    StableHlo.binary main_v272 main_arg7 main_v285 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v284 main_arg8 main_v286 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v285 main_v286 main_v287 (addf : (⟨S100000x64, .f32⟩ : BufTy).Contents (Elt F) → (⟨S100000x64, .f32⟩ : BufTy).Contents (Elt F) → (⟨S100000x64, .f32⟩ : BufTy).Contents (Elt F)),
    StableHlo.unary main_arg9 main_v288 (broadcastInDim S1x64 ![1] bcast_S64_S1x64_1 : (⟨S64, .f32⟩ : BufTy).Contents (Elt F) → (⟨S1x64, .f32⟩ : BufTy).Contents (Elt F)),
    StableHlo.unary main_v288 main_v289 (broadcastInDim S100000x64 ![0, 1] bcast_S1x64_S100000x64_0_1 : (⟨S1x64, .f32⟩ : BufTy).Contents (Elt F) → (⟨S100000x64, .f32⟩ : BufTy).Contents (Elt F)) ]

/-- The buffers piece 5c writes, in order. -/
abbrev ops5c_W : List (Ref sig .tc) :=
  [main_c_65, main_v273, main_v274, main_c_66, main_v275, main_v276, main_v277, main_v278, main_v279, main_cst_67, main_v280, main_v281, main_v282, main_v283, main_v284, main_v285, main_v286, main_v287, main_v288, main_v289]

set_option maxRecDepth 8192 in
/-- Every operation of piece 5c writes into that list. -/
theorem ops5c_writes : (ops5c : List (HloOp τ sig (Elt F))).Forall fun op =>
    op.writes ⊆ (ops5c_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer piece 5c does not write keeps its contents through it. -/
theorem keep5c (W : Valuation τ sig (Elt F)) (r : Ref sig .tc) (h : r ∉ ops5c_W) :
    after ops5c W (Proc.devRef .tc r) = W (Proc.devRef .tc r) :=
  after_of_writes_sub ops5c W ops5c_writes h

/-- The buffer contents after piece 5c. -/
def val6 (V0 : Valuation τ sig (Elt F)) : Valuation τ sig (Elt F) := after ops5c (val5b V0)
/-- A buffer piece 5c does not write keeps its contents through it. -/
theorem val6_keep (V0 : Valuation τ sig (Elt F)) (r : Ref sig .tc) (h : r ∉ ops5c_W) :
    val6 V0 (Proc.devRef .tc r) = val5b V0 (Proc.devRef .tc r) :=
  keep5c (val5b V0) r h

theorem val6_main_arg0 (V0 : Valuation τ sig (Elt F)) : val6 V0 (no_index (Proc.devRef .tc main_arg0)) = (V0 (Proc.devRef .tc main_arg0)) :=
  (val6_keep V0 main_arg0 (by decide)).trans (val5b_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5b_main_arg1 V0)
theorem val6_main_arg2 (V0 : Valuation τ sig (Elt F)) : val6 V0 (no_index (Proc.devRef .tc main_arg2)) = (V0 (Proc.devRef .tc main_arg2)) :=
  (val6_keep V0 main_arg2 (by decide)).trans (val5b_main_arg2 V0)
theorem val6_main_arg3 (V0 : Valuation τ sig (Elt F)) : val6 V0 (no_index (Proc.devRef .tc main_arg3)) = (V0 (Proc.devRef .tc main_arg3)) :=
  (val6_keep V0 main_arg3 (by decide)).trans (val5b_main_arg3 V0)
theorem val6_main_arg4 (V0 : Valuation τ sig (Elt F)) : val6 V0 (no_index (Proc.devRef .tc main_arg4)) = (V0 (Proc.devRef .tc main_arg4)) :=
  (val6_keep V0 main_arg4 (by decide)).trans (val5b_main_arg4 V0)
theorem val6_main_arg5 (V0 : Valuation τ sig (Elt F)) : val6 V0 (no_index (Proc.devRef .tc main_arg5)) = (V0 (Proc.devRef .tc main_arg5)) :=
  (val6_keep V0 main_arg5 (by decide)).trans (val5b_main_arg5 V0)
theorem val6_main_arg6 (V0 : Valuation τ sig (Elt F)) : val6 V0 (no_index (Proc.devRef .tc main_arg6)) = (V0 (Proc.devRef .tc main_arg6)) :=
  (val6_keep V0 main_arg6 (by decide)).trans (val5b_main_arg6 V0)
theorem val6_main_arg7 (V0 : Valuation τ sig (Elt F)) : val6 V0 (no_index (Proc.devRef .tc main_arg7)) = (V0 (Proc.devRef .tc main_arg7)) :=
  (val6_keep V0 main_arg7 (by decide)).trans (val5b_main_arg7 V0)
theorem val6_main_arg8 (V0 : Valuation τ sig (Elt F)) : val6 V0 (no_index (Proc.devRef .tc main_arg8)) = (V0 (Proc.devRef .tc main_arg8)) :=
  (val6_keep V0 main_arg8 (by decide)).trans (val5b_main_arg8 V0)
theorem val6_main_arg9 (V0 : Valuation τ sig (Elt F)) : val6 V0 (no_index (Proc.devRef .tc main_arg9)) = (V0 (Proc.devRef .tc main_arg9)) :=
  (val6_keep V0 main_arg9 (by decide)).trans (val5b_main_arg9 V0)
theorem val6_main_arg10 (V0 : Valuation τ sig (Elt F)) : val6 V0 (no_index (Proc.devRef .tc main_arg10)) = (V0 (Proc.devRef .tc main_arg10)) :=
  (val6_keep V0 main_arg10 (by decide)).trans (val5b_main_arg10 V0)
theorem val6_main_arg11 (V0 : Valuation τ sig (Elt F)) : val6 V0 (no_index (Proc.devRef .tc main_arg11)) = (V0 (Proc.devRef .tc main_arg11)) :=
  (val6_keep V0 main_arg11 (by decide)).trans (val5b_main_arg11 V0)
theorem val6_main_arg12 (V0 : Valuation τ sig (Elt F)) : val6 V0 (no_index (Proc.devRef .tc main_arg12)) = (V0 (Proc.devRef .tc main_arg12)) :=
  (val6_keep V0 main_arg12 (by decide)).trans (val5b_main_arg12 V0)
theorem val6_main_arg13 (V0 : Valuation τ sig (Elt F)) : val6 V0 (no_index (Proc.devRef .tc main_arg13)) = (V0 (Proc.devRef .tc main_arg13)) :=
  (val6_keep V0 main_arg13 (by decide)).trans (val5b_main_arg13 V0)
theorem val6_main_arg14 (V0 : Valuation τ sig (Elt F)) : val6 V0 (no_index (Proc.devRef .tc main_arg14)) = (V0 (Proc.devRef .tc main_arg14)) :=
  (val6_keep V0 main_arg14 (by decide)).trans (val5b_main_arg14 V0)
theorem val6_main_arg15 (V0 : Valuation τ sig (Elt F)) : val6 V0 (no_index (Proc.devRef .tc main_arg15)) = (V0 (Proc.devRef .tc main_arg15)) :=
  (val6_keep V0 main_arg15 (by decide)).trans (val5b_main_arg15 V0)
theorem val6_main_v8 (V0 : Valuation τ sig (Elt F)) : val6 V0 (no_index (Proc.devRef .tc main_v8)) = (rInv V0) :=
  (val6_keep V0 main_v8 (by decide)).trans (val5b_main_v8 V0)
set_option maxHeartbeats 2000000 in
theorem val6_main_v287 (V0 : Valuation τ sig (Elt F)) : val6 V0 (no_index (Proc.devRef .tc main_v287)) = ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) (rH1 V0) (V0 (Proc.devRef .tc main_arg7))) (((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ((mulf : (⟨S100000x32, .f32⟩ : BufTy).Contents (Elt F) → (⟨S100000x32, .f32⟩ : BufTy).Contents (Elt F) → (⟨S100000x32, .f32⟩ : BufTy).Contents (Elt F)) (Cert.RChains.agg32 (rH1 V0) (V0 (Proc.devRef .tc main_arg2)) (V0 (Proc.devRef .tc main_arg3))) ((broadcastInDim S100000x32 ![0, 1] bcast_S100000x1_S100000x32_0_1 : (⟨S100000x1, .f32⟩ : BufTy).Contents (Elt F) → (⟨S100000x32, .f32⟩ : BufTy).Contents (Elt F)) (rInv V0))) (V0 (Proc.devRef .tc main_arg8)))) := by
  unfold val6
  simp only [ops5c]
  after_results_simp
  simp only [val5b_main_arg8, val5b_main_v8, val5b_main_arg2, val5b_main_v272, val5b_main_arg3, val5b_main_arg7] <;> rfl
set_option maxHeartbeats 2000000 in
theorem val6_main_v289 (V0 : Valuation τ sig (Elt F)) : val6 V0 (no_index (Proc.devRef .tc main_v289)) = ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) (V0 (Proc.devRef .tc main_arg9)))) := by
  unfold val6
  simp only [ops5c]
  after_results_simp
  simp only [val5b_main_arg9] <;> rfl

end Cert.RefRun

end
-- ==== Proof.RefVal6a.lean ====
/-
  The buffer contents after piece 6a of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefVal5c

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of piece 6a, in order (9 of them). -/
abbrev ops6a : List (HloOp τ sig (Elt F)) :=
  [ StableHlo.binary main_v287 main_v289 main_v290 (addf : (⟨S100000x64, .f32⟩ : BufTy).Contents (Elt F) → (⟨S100000x64, .f32⟩ : BufTy).Contents (Elt F) → (⟨S100000x64, .f32⟩ : BufTy).Contents (Elt F)),
    StableHlo.nullary main_cst_68 (constant S_ .f32 0x3E99999A#32),
    StableHlo.TRef.nullary main_call2.cst (constant S_ .f32 0x00000000#32),
    StableHlo.TRef.unary main_call2.cst main_call2.v0 (broadcastInDim S100000x64 ![] bcast_S_S100000x64),
    StableHlo.TRef.binary (.of main_v290 : StableHlo.TRef sig ⟨S100000x64, .f32⟩) main_call2.v0 main_call2.v1 (cmpf .oge),
    StableHlo.TRef.unary (.of main_cst_68 : StableHlo.TRef sig ⟨S_, .f32⟩) main_call2.v2 id,
    StableHlo.TRef.unary main_call2.v2 main_call2.v3 (broadcastInDim S100000x64 ![] bcast_S_S100000x64),
    StableHlo.TRef.binary main_call2.v3 (.of main_v290 : StableHlo.TRef sig ⟨S100000x64, .f32⟩) main_call2.v4 mulf,
    StableHlo.TRef.ternary main_call2.v1 (.of main_v290 : StableHlo.TRef sig ⟨S100000x64, .f32⟩) main_call2.v4 main_call2.call0.v0 select ]

/-- The buffers piece 6a writes, in order. -/
abbrev ops6a_W : List (Ref sig .tc) :=
  [main_v290, main_cst_68, main_call2_cst, main_call2_v0, main_call2_v1, main_call2_v2, main_call2_v3, main_call2_v4, main_v291]

set_option maxRecDepth 8192 in
/-- Every operation of piece 6a writes into that list. -/
theorem ops6a_writes : (ops6a : List (HloOp τ sig (Elt F))).Forall fun op =>
    op.writes ⊆ (ops6a_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer piece 6a does not write keeps its contents through it. -/
theorem keep6a (W : Valuation τ sig (Elt F)) (r : Ref sig .tc) (h : r ∉ ops6a_W) :
    after ops6a W (Proc.devRef .tc r) = W (Proc.devRef .tc r) :=
  after_of_writes_sub ops6a W ops6a_writes h

/-- The buffer contents after piece 6a. -/
def val6a (V0 : Valuation τ sig (Elt F)) : Valuation τ sig (Elt F) := after ops6a (val6 V0)
/-- A buffer piece 6a does not write keeps its contents through it. -/
theorem val6a_keep (V0 : Valuation τ sig (Elt F)) (r : Ref sig .tc) (h : r ∉ ops6a_W) :
    val6a V0 (Proc.devRef .tc r) = val6 V0 (Proc.devRef .tc r) :=
  keep6a (val6 V0) r h

theorem val6a_main_arg0 (V0 : Valuation τ sig (Elt F)) : val6a V0 (no_index (Proc.devRef .tc main_arg0)) = (V0 (Proc.devRef .tc main_arg0)) :=
  (val6a_keep V0 main_arg0 (by decide)).trans (val6_main_arg0 V0)
theorem val6a_main_arg1 (V0 : Valuation τ sig (Elt F)) : val6a V0 (no_index (Proc.devRef .tc main_arg1)) = (V0 (Proc.devRef .tc main_arg1)) :=
  (val6a_keep V0 main_arg1 (by decide)).trans (val6_main_arg1 V0)
theorem val6a_main_arg2 (V0 : Valuation τ sig (Elt F)) : val6a V0 (no_index (Proc.devRef .tc main_arg2)) = (V0 (Proc.devRef .tc main_arg2)) :=
  (val6a_keep V0 main_arg2 (by decide)).trans (val6_main_arg2 V0)
theorem val6a_main_arg3 (V0 : Valuation τ sig (Elt F)) : val6a V0 (no_index (Proc.devRef .tc main_arg3)) = (V0 (Proc.devRef .tc main_arg3)) :=
  (val6a_keep V0 main_arg3 (by decide)).trans (val6_main_arg3 V0)
theorem val6a_main_arg4 (V0 : Valuation τ sig (Elt F)) : val6a V0 (no_index (Proc.devRef .tc main_arg4)) = (V0 (Proc.devRef .tc main_arg4)) :=
  (val6a_keep V0 main_arg4 (by decide)).trans (val6_main_arg4 V0)
theorem val6a_main_arg5 (V0 : Valuation τ sig (Elt F)) : val6a V0 (no_index (Proc.devRef .tc main_arg5)) = (V0 (Proc.devRef .tc main_arg5)) :=
  (val6a_keep V0 main_arg5 (by decide)).trans (val6_main_arg5 V0)
theorem val6a_main_arg6 (V0 : Valuation τ sig (Elt F)) : val6a V0 (no_index (Proc.devRef .tc main_arg6)) = (V0 (Proc.devRef .tc main_arg6)) :=
  (val6a_keep V0 main_arg6 (by decide)).trans (val6_main_arg6 V0)
theorem val6a_main_arg7 (V0 : Valuation τ sig (Elt F)) : val6a V0 (no_index (Proc.devRef .tc main_arg7)) = (V0 (Proc.devRef .tc main_arg7)) :=
  (val6a_keep V0 main_arg7 (by decide)).trans (val6_main_arg7 V0)
theorem val6a_main_arg8 (V0 : Valuation τ sig (Elt F)) : val6a V0 (no_index (Proc.devRef .tc main_arg8)) = (V0 (Proc.devRef .tc main_arg8)) :=
  (val6a_keep V0 main_arg8 (by decide)).trans (val6_main_arg8 V0)
theorem val6a_main_arg9 (V0 : Valuation τ sig (Elt F)) : val6a V0 (no_index (Proc.devRef .tc main_arg9)) = (V0 (Proc.devRef .tc main_arg9)) :=
  (val6a_keep V0 main_arg9 (by decide)).trans (val6_main_arg9 V0)
theorem val6a_main_arg10 (V0 : Valuation τ sig (Elt F)) : val6a V0 (no_index (Proc.devRef .tc main_arg10)) = (V0 (Proc.devRef .tc main_arg10)) :=
  (val6a_keep V0 main_arg10 (by decide)).trans (val6_main_arg10 V0)
theorem val6a_main_arg11 (V0 : Valuation τ sig (Elt F)) : val6a V0 (no_index (Proc.devRef .tc main_arg11)) = (V0 (Proc.devRef .tc main_arg11)) :=
  (val6a_keep V0 main_arg11 (by decide)).trans (val6_main_arg11 V0)
theorem val6a_main_arg12 (V0 : Valuation τ sig (Elt F)) : val6a V0 (no_index (Proc.devRef .tc main_arg12)) = (V0 (Proc.devRef .tc main_arg12)) :=
  (val6a_keep V0 main_arg12 (by decide)).trans (val6_main_arg12 V0)
theorem val6a_main_arg13 (V0 : Valuation τ sig (Elt F)) : val6a V0 (no_index (Proc.devRef .tc main_arg13)) = (V0 (Proc.devRef .tc main_arg13)) :=
  (val6a_keep V0 main_arg13 (by decide)).trans (val6_main_arg13 V0)
theorem val6a_main_arg14 (V0 : Valuation τ sig (Elt F)) : val6a V0 (no_index (Proc.devRef .tc main_arg14)) = (V0 (Proc.devRef .tc main_arg14)) :=
  (val6a_keep V0 main_arg14 (by decide)).trans (val6_main_arg14 V0)
theorem val6a_main_arg15 (V0 : Valuation τ sig (Elt F)) : val6a V0 (no_index (Proc.devRef .tc main_arg15)) = (V0 (Proc.devRef .tc main_arg15)) :=
  (val6a_keep V0 main_arg15 (by decide)).trans (val6_main_arg15 V0)
theorem val6a_main_v8 (V0 : Valuation τ sig (Elt F)) : val6a V0 (no_index (Proc.devRef .tc main_v8)) = (rInv V0) :=
  (val6a_keep V0 main_v8 (by decide)).trans (val6_main_v8 V0)
set_option maxHeartbeats 2000000 in
theorem val6a_main_v291 (V0 : Valuation τ sig (Elt F)) : val6a V0 (no_index (Proc.devRef .tc main_v291)) = (rH2 V0) := by
  unfold val6a
  simp only [ops6a]
  after_results_simp
  simp only [val6_main_v289, val6_main_v287] <;> rfl

end Cert.RefRun

end
-- ==== Proof.RefVal6b.lean ====
/-
  The buffer contents after piece 6b of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefVal6a

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of piece 6b, in order (29 of them). -/
abbrev ops6b : List (HloOp τ sig (Elt F)) :=
  [ StableHlo.nullary main_c_69 (constantI S_ 32 0#32),
    StableHlo.unary main_c_69 main_v292 (broadcastInDim S1600000 ![] bcast_S_S1600000 : (⟨S_, .i32⟩ : BufTy).Contents (Elt F) → (⟨S1600000, .i32⟩ : BufTy).Contents (Elt F)),
    StableHlo.binary main_arg2 main_v292 main_v293 (cmpi .slt : (⟨S1600000, .i32⟩ : BufTy).Contents (Elt F) → (⟨S1600000, .i32⟩ : BufTy).Contents (Elt F) → (⟨S1600000, .i1⟩ : BufTy).Contents (Elt F)),
    StableHlo.nullary main_c_70 (constantI S_ 32 100000#32),
    StableHlo.unary main_c_70 main_v294 (broadcastInDim S1600000 ![] bcast_S_S1600000 : (⟨S_, .i32⟩ : BufTy).Contents (Elt F) → (⟨S1600000, .i32⟩ : BufTy).Contents (Elt F)),
    StableHlo.binary main_arg2 main_v294 main_v295 (addi : (⟨S1600000, .i32⟩ : BufTy).Contents (Elt F) → (⟨S1600000, .i32⟩ : BufTy).Contents (Elt F) → (⟨S1600000, .i32⟩ : BufTy).Contents (Elt F)),
    StableHlo.ternary main_v293 main_v295 main_arg2 main_v296 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v296 main_v297 (broadcastInDim S1600000x1 ![0] bcast_S1600000_S1600000x1_0 : (⟨S1600000, .i32⟩ : BufTy).Contents (Elt F) → (⟨S1600000x1, .i32⟩ : BufTy).Contents (Elt F)),
    StableHlo.binary main_v291 main_v297 main_v298 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_71 (constant S_ .f32 0x00000000#32),
    StableHlo.unary main_cst_71 main_v299 (broadcastInDim S100000x64 ![] bcast_S_S100000x64 : (⟨S_, .f32⟩ : BufTy).Contents (Elt F) → (⟨S100000x64, .f32⟩ : BufTy).Contents (Elt F)),
    StableHlo.unary main_arg3 main_v300 (broadcastInDim S1600000x1 ![0] bcast_S1600000_S1600000x1_0 : (⟨S1600000, .i32⟩ : BufTy).Contents (Elt F) → (⟨S1600000x1, .i32⟩ : BufTy).Contents (Elt F)),
    StableHlo.ternary main_v299 main_v300 main_v298 main_v301 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v302 (broadcastInDim S100000x64 ![0, 1] bcast_S100000x1_S100000x64_0_1 : (⟨S100000x1, .f32⟩ : BufTy).Contents (Elt F) → (⟨S100000x64, .f32⟩ : BufTy).Contents (Elt F)),
    StableHlo.binary main_v301 main_v302 main_v303 (mulf : (⟨S100000x64, .f32⟩ : BufTy).Contents (Elt F) → (⟨S100000x64, .f32⟩ : BufTy).Contents (Elt F) → (⟨S100000x64, .f32⟩ : BufTy).Contents (Elt F)),
    StableHlo.binary main_v291 main_arg10 main_v304 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v303 main_arg11 main_v305 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v304 main_v305 main_v306 (addf : (⟨S100000x64, .f32⟩ : BufTy).Contents (Elt F) → (⟨S100000x64, .f32⟩ : BufTy).Contents (Elt F) → (⟨S100000x64, .f32⟩ : BufTy).Contents (Elt F)),
    StableHlo.unary main_arg12 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S100000x64 ![0, 1] bcast_S1x64_S100000x64_0_1 : (⟨S1x64, .f32⟩ : BufTy).Contents (Elt F) → (⟨S100000x64, .f32⟩ : BufTy).Contents (Elt F)),
    StableHlo.binary main_v306 main_v308 main_v309 (addf : (⟨S100000x64, .f32⟩ : BufTy).Contents (Elt F) → (⟨S100000x64, .f32⟩ : BufTy).Contents (Elt F) → (⟨S100000x64, .f32⟩ : BufTy).Contents (Elt F)),
    StableHlo.nullary main_cst_72 (constant S_ .f32 0x3E99999A#32),
    StableHlo.TRef.nullary main_call3.cst (constant S_ .f32 0x00000000#32),
    StableHlo.TRef.unary main_call3.cst main_call3.v0 (broadcastInDim S100000x64 ![] bcast_S_S100000x64),
    StableHlo.TRef.binary (.of main_v309 : StableHlo.TRef sig ⟨S100000x64, .f32⟩) main_call3.v0 main_call3.v1 (cmpf .oge),
    StableHlo.TRef.unary (.of main_cst_72 : StableHlo.TRef sig ⟨S_, .f32⟩) main_call3.v2 id,
    StableHlo.TRef.unary main_call3.v2 main_call3.v3 (broadcastInDim S100000x64 ![] bcast_S_S100000x64),
    StableHlo.TRef.binary main_call3.v3 (.of main_v309 : StableHlo.TRef sig ⟨S100000x64, .f32⟩) main_call3.v4 mulf,
    StableHlo.TRef.ternary main_call3.v1 (.of main_v309 : StableHlo.TRef sig ⟨S100000x64, .f32⟩) main_call3.v4 main_call3.call0.v0 select ]

/-- The buffers piece 6b writes, in order. -/
abbrev ops6b_W : List (Ref sig .tc) :=
  [main_c_69, main_v292, main_v293, main_c_70, main_v294, main_v295, main_v296, main_v297, main_v298, main_cst_71, main_v299, main_v300, main_v301, main_v302, main_v303, main_v304, main_v305, main_v306, main_v307, main_v308, main_v309, main_cst_72, main_call3_cst, main_call3_v0, main_call3_v1, main_call3_v2, main_call3_v3, main_call3_v4, main_v310]

set_option maxRecDepth 8192 in
/-- Every operation of piece 6b writes into that list. -/
theorem ops6b_writes : (ops6b : List (HloOp τ sig (Elt F))).Forall fun op =>
    op.writes ⊆ (ops6b_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer piece 6b does not write keeps its contents through it. -/
theorem keep6b (W : Valuation τ sig (Elt F)) (r : Ref sig .tc) (h : r ∉ ops6b_W) :
    after ops6b W (Proc.devRef .tc r) = W (Proc.devRef .tc r) :=
  after_of_writes_sub ops6b W ops6b_writes h

/-- The buffer contents after piece 6b. -/
def val6b (V0 : Valuation τ sig (Elt F)) : Valuation τ sig (Elt F) := after ops6b (val6a V0)
/-- A buffer piece 6b does not write keeps its contents through it. -/
theorem val6b_keep (V0 : Valuation τ sig (Elt F)) (r : Ref sig .tc) (h : r ∉ ops6b_W) :
    val6b V0 (Proc.devRef .tc r) = val6a V0 (Proc.devRef .tc r) :=
  keep6b (val6a V0) r h

theorem val6b_main_arg0 (V0 : Valuation τ sig (Elt F)) : val6b V0 (no_index (Proc.devRef .tc main_arg0)) = (V0 (Proc.devRef .tc main_arg0)) :=
  (val6b_keep V0 main_arg0 (by decide)).trans (val6a_main_arg0 V0)
theorem val6b_main_arg1 (V0 : Valuation τ sig (Elt F)) : val6b V0 (no_index (Proc.devRef .tc main_arg1)) = (V0 (Proc.devRef .tc main_arg1)) :=
  (val6b_keep V0 main_arg1 (by decide)).trans (val6a_main_arg1 V0)
theorem val6b_main_arg2 (V0 : Valuation τ sig (Elt F)) : val6b V0 (no_index (Proc.devRef .tc main_arg2)) = (V0 (Proc.devRef .tc main_arg2)) :=
  (val6b_keep V0 main_arg2 (by decide)).trans (val6a_main_arg2 V0)
theorem val6b_main_arg3 (V0 : Valuation τ sig (Elt F)) : val6b V0 (no_index (Proc.devRef .tc main_arg3)) = (V0 (Proc.devRef .tc main_arg3)) :=
  (val6b_keep V0 main_arg3 (by decide)).trans (val6a_main_arg3 V0)
theorem val6b_main_arg4 (V0 : Valuation τ sig (Elt F)) : val6b V0 (no_index (Proc.devRef .tc main_arg4)) = (V0 (Proc.devRef .tc main_arg4)) :=
  (val6b_keep V0 main_arg4 (by decide)).trans (val6a_main_arg4 V0)
theorem val6b_main_arg5 (V0 : Valuation τ sig (Elt F)) : val6b V0 (no_index (Proc.devRef .tc main_arg5)) = (V0 (Proc.devRef .tc main_arg5)) :=
  (val6b_keep V0 main_arg5 (by decide)).trans (val6a_main_arg5 V0)
theorem val6b_main_arg6 (V0 : Valuation τ sig (Elt F)) : val6b V0 (no_index (Proc.devRef .tc main_arg6)) = (V0 (Proc.devRef .tc main_arg6)) :=
  (val6b_keep V0 main_arg6 (by decide)).trans (val6a_main_arg6 V0)
theorem val6b_main_arg7 (V0 : Valuation τ sig (Elt F)) : val6b V0 (no_index (Proc.devRef .tc main_arg7)) = (V0 (Proc.devRef .tc main_arg7)) :=
  (val6b_keep V0 main_arg7 (by decide)).trans (val6a_main_arg7 V0)
theorem val6b_main_arg8 (V0 : Valuation τ sig (Elt F)) : val6b V0 (no_index (Proc.devRef .tc main_arg8)) = (V0 (Proc.devRef .tc main_arg8)) :=
  (val6b_keep V0 main_arg8 (by decide)).trans (val6a_main_arg8 V0)
theorem val6b_main_arg9 (V0 : Valuation τ sig (Elt F)) : val6b V0 (no_index (Proc.devRef .tc main_arg9)) = (V0 (Proc.devRef .tc main_arg9)) :=
  (val6b_keep V0 main_arg9 (by decide)).trans (val6a_main_arg9 V0)
theorem val6b_main_arg10 (V0 : Valuation τ sig (Elt F)) : val6b V0 (no_index (Proc.devRef .tc main_arg10)) = (V0 (Proc.devRef .tc main_arg10)) :=
  (val6b_keep V0 main_arg10 (by decide)).trans (val6a_main_arg10 V0)
theorem val6b_main_arg11 (V0 : Valuation τ sig (Elt F)) : val6b V0 (no_index (Proc.devRef .tc main_arg11)) = (V0 (Proc.devRef .tc main_arg11)) :=
  (val6b_keep V0 main_arg11 (by decide)).trans (val6a_main_arg11 V0)
theorem val6b_main_arg12 (V0 : Valuation τ sig (Elt F)) : val6b V0 (no_index (Proc.devRef .tc main_arg12)) = (V0 (Proc.devRef .tc main_arg12)) :=
  (val6b_keep V0 main_arg12 (by decide)).trans (val6a_main_arg12 V0)
theorem val6b_main_arg13 (V0 : Valuation τ sig (Elt F)) : val6b V0 (no_index (Proc.devRef .tc main_arg13)) = (V0 (Proc.devRef .tc main_arg13)) :=
  (val6b_keep V0 main_arg13 (by decide)).trans (val6a_main_arg13 V0)
theorem val6b_main_arg14 (V0 : Valuation τ sig (Elt F)) : val6b V0 (no_index (Proc.devRef .tc main_arg14)) = (V0 (Proc.devRef .tc main_arg14)) :=
  (val6b_keep V0 main_arg14 (by decide)).trans (val6a_main_arg14 V0)
theorem val6b_main_arg15 (V0 : Valuation τ sig (Elt F)) : val6b V0 (no_index (Proc.devRef .tc main_arg15)) = (V0 (Proc.devRef .tc main_arg15)) :=
  (val6b_keep V0 main_arg15 (by decide)).trans (val6a_main_arg15 V0)
theorem val6b_main_v8 (V0 : Valuation τ sig (Elt F)) : val6b V0 (no_index (Proc.devRef .tc main_v8)) = (rInv V0) :=
  (val6b_keep V0 main_v8 (by decide)).trans (val6a_main_v8 V0)
set_option maxHeartbeats 2000000 in
theorem val6b_main_v310 (V0 : Valuation τ sig (Elt F)) : val6b V0 (no_index (Proc.devRef .tc main_v310)) = (rH3 V0) := by
  unfold val6b
  simp only [ops6b]
  after_results_simp
  simp only [val6a_main_arg12, val6a_main_arg11, val6a_main_v8, val6a_main_arg2, val6a_main_v291, val6a_main_arg3, val6a_main_arg10] <;> rfl

end Cert.RefRun

end
-- ==== Proof.RefVal6c.lean ====
/-
  The buffer contents after piece 6c of the reference program's body, from any contents at its start: for every buffer still
  read later, the term it holds, written with the named stages of the computation. A buffer an earlier window wrote is
  carried through unchanged (no window writes a buffer twice); a buffer this window writes is read off the fold of its operations.
-/
import proofs.«139037_j17609365914513_2_alg».proof.Proof.RefVal6b

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of piece 6c, in order (25 of them). -/
abbrev ops6c : List (HloOp τ sig (Elt F)) :=
  [ StableHlo.nullary main_c_73 (constantI S_ 32 0#32),
    StableHlo.unary main_c_73 main_v311 (broadcastInDim S1600000 ![] bcast_S_S1600000 : (⟨S_, .i32⟩ : BufTy).Contents (Elt F) → (⟨S1600000, .i32⟩ : BufTy).Contents (Elt F)),
    StableHlo.binary main_arg2 main_v311 main_v312 (cmpi .slt : (⟨S1600000, .i32⟩ : BufTy).Contents (Elt F) → (⟨S1600000, .i32⟩ : BufTy).Contents (Elt F) → (⟨S1600000, .i1⟩ : BufTy).Contents (Elt F)),
    StableHlo.nullary main_c_74 (constantI S_ 32 100000#32),
    StableHlo.unary main_c_74 main_v313 (broadcastInDim S1600000 ![] bcast_S_S1600000 : (⟨S_, .i32⟩ : BufTy).Contents (Elt F) → (⟨S1600000, .i32⟩ : BufTy).Contents (Elt F)),
    StableHlo.binary main_arg2 main_v313 main_v314 (addi : (⟨S1600000, .i32⟩ : BufTy).Contents (Elt F) → (⟨S1600000, .i32⟩ : BufTy).Contents (Elt F) → (⟨S1600000, .i32⟩ : BufTy).Contents (Elt F)),
    StableHlo.ternary main_v312 main_v314 main_arg2 main_v315 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v315 main_v316 (broadcastInDim S1600000x1 ![0] bcast_S1600000_S1600000x1_0 : (⟨S1600000, .i32⟩ : BufTy).Contents (Elt F) → (⟨S1600000x1, .i32⟩ : BufTy).Contents (Elt F)),
    StableHlo.binary main_v310 main_v316 main_v317 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_75 (constant S_ .f32 0x00000000#32),
    StableHlo.unary main_cst_75 main_v318 (broadcastInDim S100000x64 ![] bcast_S_S100000x64 : (⟨S_, .f32⟩ : BufTy).Contents (Elt F) → (⟨S100000x64, .f32⟩ : BufTy).Contents (Elt F)),
    StableHlo.unary main_arg3 main_v319 (broadcastInDim S1600000x1 ![0] bcast_S1600000_S1600000x1_0 : (⟨S1600000, .i32⟩ : BufTy).Contents (Elt F) → (⟨S1600000x1, .i32⟩ : BufTy).Contents (Elt F)),
    StableHlo.ternary main_v318 main_v319 main_v317 main_v320 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v321 (broadcastInDim S100000x64 ![0, 1] bcast_S100000x1_S100000x64_0_1 : (⟨S100000x1, .f32⟩ : BufTy).Contents (Elt F) → (⟨S100000x64, .f32⟩ : BufTy).Contents (Elt F)),
    StableHlo.binary main_v320 main_v321 main_v322 (mulf : (⟨S100000x64, .f32⟩ : BufTy).Contents (Elt F) → (⟨S100000x64, .f32⟩ : BufTy).Contents (Elt F) → (⟨S100000x64, .f32⟩ : BufTy).Contents (Elt F)),
    StableHlo.binary main_v310 main_arg13 main_v323 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    StableHlo.binary main_v322 main_arg14 main_v324 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    StableHlo.binary main_v323 main_v324 main_v325 (addf : (⟨S100000x3, .f32⟩ : BufTy).Contents (Elt F) → (⟨S100000x3, .f32⟩ : BufTy).Contents (Elt F) → (⟨S100000x3, .f32⟩ : BufTy).Contents (Elt F)),
    StableHlo.unary main_arg15 main_v326 (broadcastInDim S1x3 ![1] bcast_S3_S1x3_1 : (⟨S3, .f32⟩ : BufTy).Contents (Elt F) → (⟨S1x3, .f32⟩ : BufTy).Contents (Elt F)),
    StableHlo.unary main_v326 main_v327 (broadcastInDim S100000x3 ![0, 1] bcast_S1x3_S100000x3_0_1 : (⟨S1x3, .f32⟩ : BufTy).Contents (Elt F) → (⟨S100000x3, .f32⟩ : BufTy).Contents (Elt F)),
    StableHlo.binary main_v325 main_v327 main_v328 (addf : (⟨S100000x3, .f32⟩ : BufTy).Contents (Elt F) → (⟨S100000x3, .f32⟩ : BufTy).Contents (Elt F) → (⟨S100000x3, .f32⟩ : BufTy).Contents (Elt F)),
    StableHlo.nullary main_cst_76 (constant S_ .f32 0x3DCCCCCD#32),
    StableHlo.unary main_cst_76 main_v329 (broadcastInDim S100000x3 ![] bcast_S_S100000x3 : (⟨S_, .f32⟩ : BufTy).Contents (Elt F) → (⟨S100000x3, .f32⟩ : BufTy).Contents (Elt F)),
    StableHlo.binary main_v329 main_v328 main_v330 (mulf : (⟨S100000x3, .f32⟩ : BufTy).Contents (Elt F) → (⟨S100000x3, .f32⟩ : BufTy).Contents (Elt F) → (⟨S100000x3, .f32⟩ : BufTy).Contents (Elt F)),
    StableHlo.binary main_arg1 main_v330 main_v331 (addf : (⟨S100000x3, .f32⟩ : BufTy).Contents (Elt F) → (⟨S100000x3, .f32⟩ : BufTy).Contents (Elt F) → (⟨S100000x3, .f32⟩ : BufTy).Contents (Elt F)) ]

/-- The buffers piece 6c writes, in order. -/
abbrev ops6c_W : List (Ref sig .tc) :=
  [main_c_73, main_v311, main_v312, main_c_74, main_v313, main_v314, main_v315, main_v316, main_v317, main_cst_75, main_v318, main_v319, main_v320, main_v321, main_v322, main_v323, main_v324, main_v325, main_v326, main_v327, main_v328, main_cst_76, main_v329, main_v330, main_v331]

set_option maxRecDepth 8192 in
/-- Every operation of piece 6c writes into that list. -/
theorem ops6c_writes : (ops6c : List (HloOp τ sig (Elt F))).Forall fun op =>
    op.writes ⊆ (ops6c_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer piece 6c does not write keeps its contents through it. -/
theorem keep6c (W : Valuation τ sig (Elt F)) (r : Ref sig .tc) (h : r ∉ ops6c_W) :
    after ops6c W (Proc.devRef .tc r) = W (Proc.devRef .tc r) :=
  after_of_writes_sub ops6c W ops6c_writes h

/-- The buffer contents after piece 6c. -/
def val7 (V0 : Valuation τ sig (Elt F)) : Valuation τ sig (Elt F) := after ops6c (val6b V0)
/-- A buffer piece 6c does not write keeps its contents through it. -/
theorem val7_keep (V0 : Valuation τ sig (Elt F)) (r : Ref sig .tc) (h : r ∉ ops6c_W) :
    val7 V0 (Proc.devRef .tc r) = val6b V0 (Proc.devRef .tc r) :=
  keep6c (val6b V0) r h

theorem val7_main_arg0 (V0 : Valuation τ sig (Elt F)) : val7 V0 (no_index (Proc.devRef .tc main_arg0)) = (V0 (Proc.devRef .tc main_arg0)) :=
  (val7_keep V0 main_arg0 (by decide)).trans (val6b_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6b_main_arg1 V0)
theorem val7_main_arg2 (V0 : Valuation τ sig (Elt F)) : val7 V0 (no_index (Proc.devRef .tc main_arg2)) = (V0 (Proc.devRef .tc main_arg2)) :=
  (val7_keep V0 main_arg2 (by decide)).trans (val6b_main_arg2 V0)
theorem val7_main_arg3 (V0 : Valuation τ sig (Elt F)) : val7 V0 (no_index (Proc.devRef .tc main_arg3)) = (V0 (Proc.devRef .tc main_arg3)) :=
  (val7_keep V0 main_arg3 (by decide)).trans (val6b_main_arg3 V0)
theorem val7_main_arg4 (V0 : Valuation τ sig (Elt F)) : val7 V0 (no_index (Proc.devRef .tc main_arg4)) = (V0 (Proc.devRef .tc main_arg4)) :=
  (val7_keep V0 main_arg4 (by decide)).trans (val6b_main_arg4 V0)
theorem val7_main_arg5 (V0 : Valuation τ sig (Elt F)) : val7 V0 (no_index (Proc.devRef .tc main_arg5)) = (V0 (Proc.devRef .tc main_arg5)) :=
  (val7_keep V0 main_arg5 (by decide)).trans (val6b_main_arg5 V0)
theorem val7_main_arg6 (V0 : Valuation τ sig (Elt F)) : val7 V0 (no_index (Proc.devRef .tc main_arg6)) = (V0 (Proc.devRef .tc main_arg6)) :=
  (val7_keep V0 main_arg6 (by decide)).trans (val6b_main_arg6 V0)
theorem val7_main_arg7 (V0 : Valuation τ sig (Elt F)) : val7 V0 (no_index (Proc.devRef .tc main_arg7)) = (V0 (Proc.devRef .tc main_arg7)) :=
  (val7_keep V0 main_arg7 (by decide)).trans (val6b_main_arg7 V0)
theorem val7_main_arg8 (V0 : Valuation τ sig (Elt F)) : val7 V0 (no_index (Proc.devRef .tc main_arg8)) = (V0 (Proc.devRef .tc main_arg8)) :=
  (val7_keep V0 main_arg8 (by decide)).trans (val6b_main_arg8 V0)
theorem val7_main_arg9 (V0 : Valuation τ sig (Elt F)) : val7 V0 (no_index (Proc.devRef .tc main_arg9)) = (V0 (Proc.devRef .tc main_arg9)) :=
  (val7_keep V0 main_arg9 (by decide)).trans (val6b_main_arg9 V0)
theorem val7_main_arg10 (V0 : Valuation τ sig (Elt F)) : val7 V0 (no_index (Proc.devRef .tc main_arg10)) = (V0 (Proc.devRef .tc main_arg10)) :=
  (val7_keep V0 main_arg10 (by decide)).trans (val6b_main_arg10 V0)
theorem val7_main_arg11 (V0 : Valuation τ sig (Elt F)) : val7 V0 (no_index (Proc.devRef .tc main_arg11)) = (V0 (Proc.devRef .tc main_arg11)) :=
  (val7_keep V0 main_arg11 (by decide)).trans (val6b_main_arg11 V0)
theorem val7_main_arg12 (V0 : Valuation τ sig (Elt F)) : val7 V0 (no_index (Proc.devRef .tc main_arg12)) = (V0 (Proc.devRef .tc main_arg12)) :=
  (val7_keep V0 main_arg12 (by decide)).trans (val6b_main_arg12 V0)
theorem val7_main_arg13 (V0 : Valuation τ sig (Elt F)) : val7 V0 (no_index (Proc.devRef .tc main_arg13)) = (V0 (Proc.devRef .tc main_arg13)) :=
  (val7_keep V0 main_arg13 (by decide)).trans (val6b_main_arg13 V0)
theorem val7_main_arg14 (V0 : Valuation τ sig (Elt F)) : val7 V0 (no_index (Proc.devRef .tc main_arg14)) = (V0 (Proc.devRef .tc main_arg14)) :=
  (val7_keep V0 main_arg14 (by decide)).trans (val6b_main_arg14 V0)
theorem val7_main_arg15 (V0 : Valuation τ sig (Elt F)) : val7 V0 (no_index (Proc.devRef .tc main_arg15)) = (V0 (Proc.devRef .tc main_arg15)) :=
  (val7_keep V0 main_arg15 (by decide)).trans (val6b_main_arg15 V0)
set_option maxHeartbeats 2000000 in
theorem val7_main_v331 (V0 : Valuation τ sig (Elt F)) : val7 V0 (no_index (Proc.devRef .tc main_v331)) = (rOut V0) := by
  unfold val7
  simp only [ops6c]
  after_results_simp
  simp only [val6b_main_arg15, val6b_main_arg14, val6b_main_v8, val6b_main_arg2, val6b_main_v310, val6b_main_arg3, val6b_main_arg13, val6b_main_arg1] <;> rfl

end Cert.RefRun

end
-- ==== Proof.RefResult.lean ====
/-
  What the reference program's run leaves in its result buffer and in its arguments.

  The body is the seven windows one after the other, so the fold of all its operations is the fold of the seventh
  window over that of the first six; read window by window, the result buffer holds the last layer applied to the
  third hidden layer's activations, each layer fed by the one before and by its neighbour sums, the first by the
  sampled features; the sixteen arguments are written by no operation.
-/
import proofs.«139037_j17609365914513_2_alg».proof.Proof.RefVal6c

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 16384 in
/-- Window 5 is its three pieces in order. -/
theorem ops5_cut : (ops5 : List (HloOp τ sig (Elt F))) = ops5a ++ (ops5b ++ ops5c) := rfl

set_option maxRecDepth 16384 in
/-- Window 6 is its three pieces in order. -/
theorem ops6_cut : (ops6 : List (HloOp τ sig (Elt F))) = ops6a ++ (ops6b ++ ops6c) := rfl

/-- The fold of the whole body is the fold window by window, piece by piece. -/
theorem after_ops (V0 : Valuation τ sig (Elt F)) : after ops V0 = val7 V0 := by
  unfold ops
  rw [after_app, after_app, after_app, after_app, after_app, after_app, ops5_cut, ops6_cut,
    after_app, after_app, after_app, after_app]
  rfl

/-- The result buffer ends at the last layer of the stages' composition. -/
theorem result_eq (V0 : Valuation τ sig (Elt F)) : after ops V0 (Proc.devRef .tc main_v331) = rOut V0 := by
  rw [after_ops]; exact val7_main_v331 V0

/-- Argument 0 is never written. -/
theorem after_ops_main_arg0 (V0 : Valuation τ sig (Elt F)) :
    after ops V0 (Proc.devRef .tc main_arg0) = V0 (Proc.devRef .tc main_arg0) := by
  rw [after_ops]; exact val7_main_arg0 V0

/-- Argument 1 is never written. -/
theorem after_ops_main_arg1 (V0 : Valuation τ sig (Elt F)) :
    after ops V0 (Proc.devRef .tc main_arg1) = V0 (Proc.devRef .tc main_arg1) := by
  rw [after_ops]; exact val7_main_arg1 V0

/-- Argument 2 is never written. -/
theorem after_ops_main_arg2 (V0 : Valuation τ sig (Elt F)) :
    after ops V0 (Proc.devRef .tc main_arg2) = V0 (Proc.devRef .tc main_arg2) := by
  rw [after_ops]; exact val7_main_arg2 V0

/-- Argument 3 is never written. -/
theorem after_ops_main_arg3 (V0 : Valuation τ sig (Elt F)) :
    after ops V0 (Proc.devRef .tc main_arg3) = V0 (Proc.devRef .tc main_arg3) := by
  rw [after_ops]; exact val7_main_arg3 V0

/-- Argument 4 is never written. -/
theorem after_ops_main_arg4 (V0 : Valuation τ sig (Elt F)) :
    after ops V0 (Proc.devRef .tc main_arg4) = V0 (Proc.devRef .tc main_arg4) := by
  rw [after_ops]; exact val7_main_arg4 V0

/-- Argument 5 is never written. -/
theorem after_ops_main_arg5 (V0 : Valuation τ sig (Elt F)) :
    after ops V0 (Proc.devRef .tc main_arg5) = V0 (Proc.devRef .tc main_arg5) := by
  rw [after_ops]; exact val7_main_arg5 V0

/-- Argument 6 is never written. -/
theorem after_ops_main_arg6 (V0 : Valuation τ sig (Elt F)) :
    after ops V0 (Proc.devRef .tc main_arg6) = V0 (Proc.devRef .tc main_arg6) := by
  rw [after_ops]; exact val7_main_arg6 V0

/-- Argument 7 is never written. -/
theorem after_ops_main_arg7 (V0 : Valuation τ sig (Elt F)) :
    after ops V0 (Proc.devRef .tc main_arg7) = V0 (Proc.devRef .tc main_arg7) := by
  rw [after_ops]; exact val7_main_arg7 V0

/-- Argument 8 is never written. -/
theorem after_ops_main_arg8 (V0 : Valuation τ sig (Elt F)) :
    after ops V0 (Proc.devRef .tc main_arg8) = V0 (Proc.devRef .tc main_arg8) := by
  rw [after_ops]; exact val7_main_arg8 V0

/-- Argument 9 is never written. -/
theorem after_ops_main_arg9 (V0 : Valuation τ sig (Elt F)) :
    after ops V0 (Proc.devRef .tc main_arg9) = V0 (Proc.devRef .tc main_arg9) := by
  rw [after_ops]; exact val7_main_arg9 V0

/-- Argument 10 is never written. -/
theorem after_ops_main_arg10 (V0 : Valuation τ sig (Elt F)) :
    after ops V0 (Proc.devRef .tc main_arg10) = V0 (Proc.devRef .tc main_arg10) := by
  rw [after_ops]; exact val7_main_arg10 V0

/-- Argument 11 is never written. -/
theorem after_ops_main_arg11 (V0 : Valuation τ sig (Elt F)) :
    after ops V0 (Proc.devRef .tc main_arg11) = V0 (Proc.devRef .tc main_arg11) := by
  rw [after_ops]; exact val7_main_arg11 V0

/-- Argument 12 is never written. -/
theorem after_ops_main_arg12 (V0 : Valuation τ sig (Elt F)) :
    after ops V0 (Proc.devRef .tc main_arg12) = V0 (Proc.devRef .tc main_arg12) := by
  rw [after_ops]; exact val7_main_arg12 V0

/-- Argument 13 is never written. -/
theorem after_ops_main_arg13 (V0 : Valuation τ sig (Elt F)) :
    after ops V0 (Proc.devRef .tc main_arg13) = V0 (Proc.devRef .tc main_arg13) := by
  rw [after_ops]; exact val7_main_arg13 V0

/-- Argument 14 is never written. -/
theorem after_ops_main_arg14 (V0 : Valuation τ sig (Elt F)) :
    after ops V0 (Proc.devRef .tc main_arg14) = V0 (Proc.devRef .tc main_arg14) := by
  rw [after_ops]; exact val7_main_arg14 V0

/-- Argument 15 is never written. -/
theorem after_ops_main_arg15 (V0 : Valuation τ sig (Elt F)) :
    after ops V0 (Proc.devRef .tc main_arg15) = V0 (Proc.devRef .tc main_arg15) := by
  rw [after_ops]; exact val7_main_arg15 V0

end Cert.RefRun

end
-- ==== Proof.RefLayers.lean ====
/-
  The reference program's four layers, read index by index.

  Each layer of the reference computes the affine map  x · Wself + (nb scaled row by row) · Wnb + b  with two plain
  matrix products and two broadcasts, then (hidden layers) LeakyReLU as a select on "0 ≤ y", or (last layer) the
  residual step v + f32(0.1) · y.  At an index (p, q) a plain product is the finite sum over the contracted channel,
  the column broadcast of the inverse degrees reads row p's one entry, and the bias broadcast reads entry q; so the
  printed composition is the shared specification, entry by entry.
-/
import proofs.«139037_j17609365914513_2_alg».proof.ReferenceIdeal
import proofs.«139037_j17609365914513_2_alg».proof.Proof.Spec
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.RefLayers

open Cert.ReferenceIdeal Idealize.ShloMosaic Idealize.ShloMosaic.ValueIdx
open Cert.ReferenceIdeal.Facts₀ Cert.ReferenceIdeal.Facts

/-! ## One layer's affine part at an index, for any channel counts -/

section Generic
variable {din dout : Nat}

/-- The inverse degrees broadcast along the channels read, at (p, k), row p's one entry. -/
theorem invBroadcast_apply (hbi : (⟨2, ![100000, 1]⟩ : Shape).BroadcastsInDim ⟨2, ![100000, din]⟩ ![0, 1])
    (inv : FVec Ideal ⟨2, ![100000, 1]⟩ .f32) (p : Fin 100000) (k : Fin din) :
    broadcastInDim ⟨2, ![100000, din]⟩ ![0, 1] hbi inv (ix2 p k) = inv (ix2 p (0 : Fin 1)) := by
  refine broadcastInDim_apply ![0, 1] hbi inv (ix2 p k) (ix2 p (0 : Fin 1)) ?_
  intro a
  match a with
  | ⟨0, _⟩ => rfl
  | ⟨1, _⟩ => rfl

/-- The bias laid along every row reads, at (p, q), its entry q. -/
theorem biasBroadcast_apply (hb1 : (⟨1, ![dout]⟩ : Shape).BroadcastsInDim ⟨2, ![1, dout]⟩ ![1])
    (hb2 : (⟨2, ![1, dout]⟩ : Shape).BroadcastsInDim ⟨2, ![100000, dout]⟩ ![0, 1])
    (b : FVec Ideal ⟨1, ![dout]⟩ .f32) (p : Fin 100000) (q : Fin dout) :
    broadcastInDim ⟨2, ![100000, dout]⟩ ![0, 1] hb2 (broadcastInDim ⟨2, ![1, dout]⟩ ![1] hb1 b) (ix2 p q) = b (ix1 q) := by
  refine (broadcastInDim_oneRow_apply hb2 _ p q).trans ?_
  refine broadcastInDim_apply ![1] hb1 b (ix2 (0 : Fin 1) q) (ix1 q) ?_
  intro a
  match a with
  | ⟨0, _⟩ =>
    show q.val = if dout = 1 then 0 else q.val
    split_ifs with hd
    · have := q.isLt; omega
    · rfl

/-- The affine part of a layer, as the reference prints it over a plain product, is the specification's at (p, q). -/
theorem affine_apply (D : DotDims ⟨2, ![100000, din]⟩ ⟨2, ![din, dout]⟩ ⟨2, ![100000, dout]⟩)
    (hD : D = DotDims.plain 100000 din dout)
    (hbi : (⟨2, ![100000, 1]⟩ : Shape).BroadcastsInDim ⟨2, ![100000, din]⟩ ![0, 1])
    (hb1 : (⟨1, ![dout]⟩ : Shape).BroadcastsInDim ⟨2, ![1, dout]⟩ ![1])
    (hb2 : (⟨2, ![1, dout]⟩ : Shape).BroadcastsInDim ⟨2, ![100000, dout]⟩ ![0, 1])
    (h agg : FVec Ideal ⟨2, ![100000, din]⟩ .f32) (inv : FVec Ideal ⟨2, ![100000, 1]⟩ .f32)
    (ws wn : FVec Ideal ⟨2, ![din, dout]⟩ .f32) (b : FVec Ideal ⟨1, ![dout]⟩ .f32) (p : Fin 100000) (q : Fin dout) :
    addf (addf (Host.dotGeneral D none h ws)
          (Host.dotGeneral D none (mulf agg (broadcastInDim ⟨2, ![100000, din]⟩ ![0, 1] hbi inv)) wn))
        (broadcastInDim ⟨2, ![100000, dout]⟩ ![0, 1] hb2 (broadcastInDim ⟨2, ![1, dout]⟩ ![1] hb1 b)) (ix2 p q)
      = Cert.Spec.dense h agg inv ws wn b p q := by
  subst hD
  rw [addf_apply, addf_apply, StackMember.dotGeneral_plain_apply, StackMember.dotGeneral_plain_apply,
    biasBroadcast_apply]
  unfold Cert.Spec.dense
  refine congrArg (· + b (ix1 q)) (congrArg (_ + ·) (Finset.sum_congr rfl fun k _ => ?_))
  rw [mulf_apply, invBroadcast_apply]

end Generic

/-! ## LeakyReLU and the residual step at an entry -/

section Pointwise
variable {dout : Nat}

/-- The reference's LeakyReLU — a select on "0 ≤ y" between y and f32(0.3) · y — at an entry. -/
theorem leaky_apply (hz : (⟨0, ![]⟩ : Shape).BroadcastsInDim ⟨2, ![100000, dout]⟩ ![])
    (y : FVec Ideal ⟨2, ![100000, dout]⟩ .f32) (i : (⟨2, ![100000, dout]⟩ : Shape).Idx) :
    select (cmpf .oge y (broadcastInDim ⟨2, ![100000, dout]⟩ ![] hz (constant (F := Ideal) ⟨0, ![]⟩ .f32 0x00000000#32))) y
        (mulf (broadcastInDim ⟨2, ![100000, dout]⟩ ![] hz (id (constant (F := Ideal) ⟨0, ![]⟩ .f32 0x3E99999A#32))) y) i
      = Cert.Spec.lrelu (y i) := rfl

/-- The residual step v + f32(0.1) · y at an entry. -/
theorem step_apply (hz : (⟨0, ![]⟩ : Shape).BroadcastsInDim ⟨2, ![100000, dout]⟩ ![])
    (v y : FVec Ideal ⟨2, ![100000, dout]⟩ .f32) (i : (⟨2, ![100000, dout]⟩ : Shape).Idx) :
    addf v (mulf (broadcastInDim ⟨2, ![100000, dout]⟩ ![] hz (constant (F := Ideal) ⟨0, ![]⟩ .f32 0x3DCCCCCD#32)) y) i
      = v i + Ideal.ofBits .f32 0x3DCCCCCD#32 * y i := rfl

end Pointwise

/-! ## The four layers as the reference prints them -/

section Printed
variable {F : FTy → Type} [FloatOps F] [Cert.ReferenceIdeal.Facts]

/-- Layer 0's affine part (19 → 32 channels), the printed composition. -/
abbrev affine0 (h agg : FVec F S100000x19 .f32) (inv : FVec F S100000x1 .f32) (ws wn : FVec F S19x32 .f32)
    (b : FVec F S32 .f32) : FVec F S100000x32 .f32 :=
  addf (addf (Host.dotGeneral dot_S100000x19_S19x32_S100000x32_1_0_0_1_n_n none h ws)
      (Host.dotGeneral dot_S100000x19_S19x32_S100000x32_1_0_0_1_n_n none
        (mulf agg (broadcastInDim S100000x19 ![0, 1] bcast_S100000x1_S100000x19_0_1 inv)) wn))
    (broadcastInDim S100000x32 ![0, 1] bcast_S1x32_S100000x32_0_1 (broadcastInDim S1x32 ![1] bcast_S32_S1x32_1 b))

/-- Layer 1's affine part (32 → 64 channels), the printed composition. -/
abbrev affine1 (h agg : FVec F S100000x32 .f32) (inv : FVec F S100000x1 .f32) (ws wn : FVec F S32x64 .f32)
    (b : FVec F S64 .f32) : FVec F S100000x64 .f32 :=
  addf (addf (Host.dotGeneral dot_S100000x32_S32x64_S100000x64_1_0_0_1_n_n none h ws)
      (Host.dotGeneral dot_S100000x32_S32x64_S100000x64_1_0_0_1_n_n none
        (mulf agg (broadcastInDim S100000x32 ![0, 1] bcast_S100000x1_S100000x32_0_1 inv)) wn))
    (broadcastInDim S100000x64 ![0, 1] bcast_S1x64_S100000x64_0_1 (broadcastInDim S1x64 ![1] bcast_S64_S1x64_1 b))

/-- Layer 2's affine part (64 → 64 channels), the printed composition. -/
abbrev affine2 (h agg : FVec F S100000x64 .f32) (inv : FVec F S100000x1 .f32) (ws wn : FVec F S64x64 .f32)
    (b : FVec F S64 .f32) : FVec F S100000x64 .f32 :=
  addf (addf (Host.dotGeneral dot_S100000x64_S64x64_S100000x64_1_0_0_1_n_n none h ws)
      (Host.dotGeneral dot_S100000x64_S64x64_S100000x64_1_0_0_1_n_n none
        (mulf agg (broadcastInDim S100000x64 ![0, 1] bcast_S100000x1_S100000x64_0_1 inv)) wn))
    (broadcastInDim S100000x64 ![0, 1] bcast_S1x64_S100000x64_0_1 (broadcastInDim S1x64 ![1] bcast_S64_S1x64_1 b))

/-- The last layer's affine part (64 → 3 channels), the printed composition. -/
abbrev affine3 (h agg : FVec F S100000x64 .f32) (inv : FVec F S100000x1 .f32) (ws wn : FVec F S64x3 .f32)
    (b : FVec F S3 .f32) : FVec F S100000x3 .f32 :=
  addf (addf (Host.dotGeneral dot_S100000x64_S64x3_S100000x3_1_0_0_1_n_n none h ws)
      (Host.dotGeneral dot_S100000x64_S64x3_S100000x3_1_0_0_1_n_n none
        (mulf agg (broadcastInDim S100000x64 ![0, 1] bcast_S100000x1_S100000x64_0_1 inv)) wn))
    (broadcastInDim S100000x3 ![0, 1] bcast_S1x3_S100000x3_0_1 (broadcastInDim S1x3 ![1] bcast_S3_S1x3_1 b))

/-- LeakyReLU on 32 channels, the printed composition of the outlined function and its select. -/
abbrev leaky32 (y : FVec F S100000x32 .f32) : FVec F S100000x32 .f32 :=
  select (cmpf .oge y (broadcastInDim S100000x32 ![] bcast_S_S100000x32 (constant S_ .f32 0x00000000#32))) y
    (mulf (broadcastInDim S100000x32 ![] bcast_S_S100000x32 (id (constant S_ .f32 0x3E99999A#32))) y)

/-- LeakyReLU on 64 channels, the printed composition of the outlined function and its select. -/
abbrev leaky64 (y : FVec F S100000x64 .f32) : FVec F S100000x64 .f32 :=
  select (cmpf .oge y (broadcastInDim S100000x64 ![] bcast_S_S100000x64 (constant S_ .f32 0x00000000#32))) y
    (mulf (broadcastInDim S100000x64 ![] bcast_S_S100000x64 (id (constant S_ .f32 0x3E99999A#32))) y)

/-- The residual step on the three coordinates, the printed composition. -/
abbrev step3 (v y : FVec F S100000x3 .f32) : FVec F S100000x3 .f32 :=
  addf v (mulf (broadcastInDim S100000x3 ![] bcast_S_S100000x3 (constant S_ .f32 0x3DCCCCCD#32)) y)

end Printed

section AtIdeal
variable [Cert.ReferenceIdeal.Facts]

/-- Layer 0 of the reference is the specification's hidden layer. -/
theorem hidden0_eq (h agg : FVec Ideal S100000x19 .f32) (inv : FVec Ideal S100000x1 .f32) (ws wn : FVec Ideal S19x32 .f32)
    (b : FVec Ideal S32 .f32) :
    leaky32 (affine0 h agg inv ws wn b) = Cert.Spec.hidden h agg inv ws wn b := by
  funext i
  obtain ⟨p, q, rfl⟩ : ∃ (p : Fin 100000) (q : Fin 32), i = ix2 p q := ⟨i 0, i 1, eq_ix2 i⟩
  refine (leaky_apply bcast_S_S100000x32 _ (ix2 p q)).trans ?_
  unfold Cert.Spec.hidden
  exact congrArg Cert.Spec.lrelu (affine_apply _ rfl _ _ _ h agg inv ws wn b p q)

/-- Layer 1 of the reference is the specification's hidden layer. -/
theorem hidden1_eq (h agg : FVec Ideal S100000x32 .f32) (inv : FVec Ideal S100000x1 .f32) (ws wn : FVec Ideal S32x64 .f32)
    (b : FVec Ideal S64 .f32) :
    leaky64 (affine1 h agg inv ws wn b) = Cert.Spec.hidden h agg inv ws wn b := by
  funext i
  obtain ⟨p, q, rfl⟩ : ∃ (p : Fin 100000) (q : Fin 64), i = ix2 p q := ⟨i 0, i 1, eq_ix2 i⟩
  refine (leaky_apply bcast_S_S100000x64 _ (ix2 p q)).trans ?_
  unfold Cert.Spec.hidden
  exact congrArg Cert.Spec.lrelu (affine_apply _ rfl _ _ _ h agg inv ws wn b p q)

/-- Layer 2 of the reference is the specification's hidden layer. -/
theorem hidden2_eq (h agg : FVec Ideal S100000x64 .f32) (inv : FVec Ideal S100000x1 .f32) (ws wn : FVec Ideal S64x64 .f32)
    (b : FVec Ideal S64 .f32) :
    leaky64 (affine2 h agg inv ws wn b) = Cert.Spec.hidden h agg inv ws wn b := by
  funext i
  obtain ⟨p, q, rfl⟩ : ∃ (p : Fin 100000) (q : Fin 64), i = ix2 p q := ⟨i 0, i 1, eq_ix2 i⟩
  refine (leaky_apply bcast_S_S100000x64 _ (ix2 p q)).trans ?_
  unfold Cert.Spec.hidden
  exact congrArg Cert.Spec.lrelu (affine_apply _ rfl _ _ _ h agg inv ws wn b p q)

/-- The last layer of the reference is the specification's moved positions. -/
theorem moved_eq (v : FVec Ideal S100000x3 .f32) (h agg : FVec Ideal S100000x64 .f32) (inv : FVec Ideal S100000x1 .f32)
    (ws wn : FVec Ideal S64x3 .f32) (b : FVec Ideal S3 .f32) :
    step3 v (affine3 h agg inv ws wn b) = Cert.Spec.moved v h agg inv ws wn b := by
  funext i
  obtain ⟨p, q, rfl⟩ : ∃ (p : Fin 100000) (q : Fin 3), i = ix2 p q := ⟨i 0, i 1, eq_ix2 i⟩
  refine (step_apply bcast_S_S100000x3 v _ (ix2 p q)).trans ?_
  unfold Cert.Spec.moved
  exact congrArg (fun t => v (ix2 p q) + Ideal.ofBits .f32 0x3DCCCCCD#32 * t)
    (affine_apply _ rfl _ _ _ h agg inv ws wn b p q)

end AtIdeal

end Cert.RefLayers

end
-- ==== Proof.RefStages.lean ====
/-
  The named stages of the reference program against the layer forms and the specification.

  Each layer stage is, by definition, the affine part under LeakyReLU (or under the residual step); so at the extended
  reals each hidden layer is the specification's hidden layer and the last one the specification's moved positions.
-/
import proofs.«139037_j17609365914513_2_alg».proof.Proof.RChains
import proofs.«139037_j17609365914513_2_alg».proof.Proof.RefLayers

noncomputable section

namespace Cert.RefStages

open Cert.ReferenceIdeal Idealize.ShloMosaic
open Cert.RefLayers

section AnyValues
variable {F : FTy → Type} [FloatOps F] [Cert.ReferenceIdeal.Facts]

/-- The first hidden layer is LeakyReLU of its affine part. -/
theorem layer0_def (h agg : FVec F S100000x19 .f32) (inv : FVec F S100000x1 .f32) (ws wn : FVec F S19x32 .f32) (b : FVec F S32 .f32) :
    Cert.RChains.layer0 h agg inv ws wn b = leaky32 (affine0 h agg inv ws wn b) := rfl

/-- The second hidden layer is LeakyReLU of its affine part. -/
theorem layer1_def (h agg : FVec F S100000x32 .f32) (inv : FVec F S100000x1 .f32) (ws wn : FVec F S32x64 .f32) (b : FVec F S64 .f32) :
    Cert.RChains.layer1 h agg inv ws wn b = leaky64 (affine1 h agg inv ws wn b) := rfl

/-- The third hidden layer is LeakyReLU of its affine part. -/
theorem layer2_def (h agg : FVec F S100000x64 .f32) (inv : FVec F S100000x1 .f32) (ws wn : FVec F S64x64 .f32) (b : FVec F S64 .f32) :
    Cert.RChains.layer2 h agg inv ws wn b = leaky64 (affine2 h agg inv ws wn b) := rfl

/-- The last layer is the residual step of its affine part. -/
theorem last_def (v : FVec F S100000x3 .f32) (h agg : FVec F S100000x64 .f32) (inv : FVec F S100000x1 .f32) (ws wn : FVec F S64x3 .f32)
    (b : FVec F S3 .f32) :
    Cert.RChains.last v h agg inv ws wn b = step3 v (affine3 h agg inv ws wn b) := rfl

end AnyValues

section AtIdeal
variable [Cert.ReferenceIdeal.Facts]

/-- At the extended reals the first hidden layer is the specification's. -/
theorem layer0_eq (h agg : FVec Ideal S100000x19 .f32) (inv : FVec Ideal S100000x1 .f32) (ws wn : FVec Ideal S19x32 .f32)
    (b : FVec Ideal S32 .f32) : Cert.RChains.layer0 (F := Ideal) h agg inv ws wn b = Cert.Spec.hidden h agg inv ws wn b :=
  (layer0_def h agg inv ws wn b).trans (hidden0_eq h agg inv ws wn b)

/-- At the extended reals the second hidden layer is the specification's. -/
theorem layer1_eq (h agg : FVec Ideal S100000x32 .f32) (inv : FVec Ideal S100000x1 .f32) (ws wn : FVec Ideal S32x64 .f32)
    (b : FVec Ideal S64 .f32) : Cert.RChains.layer1 (F := Ideal) h agg inv ws wn b = Cert.Spec.hidden h agg inv ws wn b :=
  (layer1_def h agg inv ws wn b).trans (hidden1_eq h agg inv ws wn b)

/-- At the extended reals the third hidden layer is the specification's. -/
theorem layer2_eq (h agg : FVec Ideal S100000x64 .f32) (inv : FVec Ideal S100000x1 .f32) (ws wn : FVec Ideal S64x64 .f32)
    (b : FVec Ideal S64 .f32) : Cert.RChains.layer2 (F := Ideal) h agg inv ws wn b = Cert.Spec.hidden h agg inv ws wn b :=
  (layer2_def h agg inv ws wn b).trans (hidden2_eq h agg inv ws wn b)

/-- At the extended reals the last layer is the specification's moved positions. -/
theorem last_eq (v : FVec Ideal S100000x3 .f32) (h agg : FVec Ideal S100000x64 .f32) (inv : FVec Ideal S100000x1 .f32)
    (ws wn : FVec Ideal S64x3 .f32) (b : FVec Ideal S3 .f32) :
    Cert.RChains.last (F := Ideal) v h agg inv ws wn b = Cert.Spec.moved v h agg inv ws wn b :=
  (last_def v h agg inv ws wn b).trans (moved_eq v h agg inv ws wn b)

end AtIdeal

end Cert.RefStages

end
-- ==== Proof.RefSpec.lean ====
/-
  The reference program's result at the extended reals, in the specification's words.

  Each hidden-layer stage is the specification's hidden layer and the last stage the specification's moved positions;
  so the result buffer holds the moved positions of the third hidden layer's activations, each layer computed from the
  one before, its neighbour sums and the inverse degrees, the first from the sampled features.
-/
import proofs.«139037_j17609365914513_2_alg».proof.Proof.RefResult
import proofs.«139037_j17609365914513_2_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

/-- The first hidden layer's activations, by the specification. -/
def sH1 (V0 : Valuation τ sig (Elt Ideal)) : FVec Ideal S100000x32 .f32 :=
  Cert.Spec.hidden (din := 19) (dout := 32) (rF V0) (Cert.RChains.agg19 (F := Ideal) (rF V0) (V0 (Proc.devRef .tc main_arg2)) (V0 (Proc.devRef .tc main_arg3))) (rInv V0) (V0 (Proc.devRef .tc main_arg4)) (V0 (Proc.devRef .tc main_arg5)) (V0 (Proc.devRef .tc main_arg6))

/-- The second hidden layer's activations, by the specification. -/
def sH2 (V0 : Valuation τ sig (Elt Ideal)) : FVec Ideal S100000x64 .f32 :=
  Cert.Spec.hidden (din := 32) (dout := 64) (sH1 V0) (Cert.RChains.agg32 (F := Ideal) (sH1 V0) (V0 (Proc.devRef .tc main_arg2)) (V0 (Proc.devRef .tc main_arg3))) (rInv V0) (V0 (Proc.devRef .tc main_arg7)) (V0 (Proc.devRef .tc main_arg8)) (V0 (Proc.devRef .tc main_arg9))

/-- The third hidden layer's activations, by the specification. -/
def sH3 (V0 : Valuation τ sig (Elt Ideal)) : FVec Ideal S100000x64 .f32 :=
  Cert.Spec.hidden (din := 64) (dout := 64) (sH2 V0) (Cert.RChains.agg64 (F := Ideal) (sH2 V0) (V0 (Proc.devRef .tc main_arg2)) (V0 (Proc.devRef .tc main_arg3))) (rInv V0) (V0 (Proc.devRef .tc main_arg10)) (V0 (Proc.devRef .tc main_arg11)) (V0 (Proc.devRef .tc main_arg12))

/-- The moved positions, by the specification. -/
def sOut (V0 : Valuation τ sig (Elt Ideal)) : FVec Ideal S100000x3 .f32 :=
  Cert.Spec.moved (din := 64) (dout := 3) (V0 (Proc.devRef .tc main_arg1)) (sH3 V0) (Cert.RChains.agg64 (F := Ideal) (sH3 V0) (V0 (Proc.devRef .tc main_arg2)) (V0 (Proc.devRef .tc main_arg3))) (rInv V0) (V0 (Proc.devRef .tc main_arg13)) (V0 (Proc.devRef .tc main_arg14)) (V0 (Proc.devRef .tc main_arg15))

theorem rH1_eq (V0 : Valuation τ sig (Elt Ideal)) : rH1 V0 = sH1 V0 := by
  unfold rH1 sH1
  exact Cert.RefStages.layer0_eq _ _ _ _ _ _

theorem rH2_eq (V0 : Valuation τ sig (Elt Ideal)) : rH2 V0 = sH2 V0 := by
  unfold rH2 sH2
  rw [rH1_eq]
  exact Cert.RefStages.layer1_eq _ _ _ _ _ _

theorem rH3_eq (V0 : Valuation τ sig (Elt Ideal)) : rH3 V0 = sH3 V0 := by
  unfold rH3 sH3
  rw [rH2_eq]
  exact Cert.RefStages.layer2_eq _ _ _ _ _ _

theorem rOut_eq (V0 : Valuation τ sig (Elt Ideal)) : rOut V0 = sOut V0 := by
  unfold rOut sOut
  rw [rH3_eq]
  exact Cert.RefStages.last_eq _ _ _ _ _ _ _

/-- At the extended reals the result buffer ends at the specification's moved positions. -/
theorem result_spec (V0 : Valuation τ sig (Elt Ideal)) :
    after ops V0 (Proc.devRef .tc main_v331) = sOut V0 :=
  (result_eq V0).trans (rOut_eq V0)

/-- The same, with the stages spelt out one under the other. -/
theorem result_spec_let (V0 : Valuation τ sig (Elt Ideal)) :
    after ops V0 (Proc.devRef .tc main_v331) =
      (let inv := Cert.RChains.invDeg (F := Ideal) (V0 (Proc.devRef .tc main_arg3))
       let f := Cert.RChains.feats (F := Ideal) (V0 (Proc.devRef .tc main_arg0)) (V0 (Proc.devRef .tc main_arg1))
       let h1 := Cert.Spec.hidden (din := 19) (dout := 32) f (Cert.RChains.agg19 (F := Ideal) f (V0 (Proc.devRef .tc main_arg2)) (V0 (Proc.devRef .tc main_arg3))) inv (V0 (Proc.devRef .tc main_arg4)) (V0 (Proc.devRef .tc main_arg5)) (V0 (Proc.devRef .tc main_arg6))
       let h2 := Cert.Spec.hidden (din := 32) (dout := 64) h1 (Cert.RChains.agg32 (F := Ideal) h1 (V0 (Proc.devRef .tc main_arg2)) (V0 (Proc.devRef .tc main_arg3))) inv (V0 (Proc.devRef .tc main_arg7)) (V0 (Proc.devRef .tc main_arg8)) (V0 (Proc.devRef .tc main_arg9))
       let h3 := Cert.Spec.hidden (din := 64) (dout := 64) h2 (Cert.RChains.agg64 (F := Ideal) h2 (V0 (Proc.devRef .tc main_arg2)) (V0 (Proc.devRef .tc main_arg3))) inv (V0 (Proc.devRef .tc main_arg10)) (V0 (Proc.devRef .tc main_arg11)) (V0 (Proc.devRef .tc main_arg12))
       Cert.Spec.moved (din := 64) (dout := 3) (V0 (Proc.devRef .tc main_arg1)) h3 (Cert.RChains.agg64 (F := Ideal) h3 (V0 (Proc.devRef .tc main_arg2)) (V0 (Proc.devRef .tc main_arg3))) inv (V0 (Proc.devRef .tc main_arg13)) (V0 (Proc.devRef .tc main_arg14)) (V0 (Proc.devRef .tc main_arg15))) :=
  result_spec V0

end Cert.RefRun

end
-- ==== Proof.RefOut.lean ====
/-
  The reference program's result as the shared output function of the sixteen arguments.
-/
import proofs.«139037_j17609365914513_2_alg».proof.Proof.RefSpec
import proofs.«139037_j17609365914513_2_alg».proof.Proof.Outs

noncomputable section

namespace Cert.RefRun

open Cert.ReferenceIdeal Cert.ReferenceIdeal.Gen Idealize.ShloMosaic Idealize.ShloMosaic.TcCoe Idealize.SL.Sem Idealize.ShloMosaic.StableHlo

/-- At the extended reals the result buffer ends at the reference's output function of the arguments' launch contents. -/
theorem result_outR [Cert.KernelIdeal.Facts] [Cert.ReferenceIdeal.Facts] (V0 : Valuation τ sig (Elt Ideal)) :
    StableHlo.after Cert.RefRun.ops V0 (Proc.devRef .tc Cert.ReferenceIdeal.main_v331) =
      Cert.Outs.outR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  result_spec_let V0

end Cert.RefRun

end
-- ==== Proof.RefArgs.lean ====
/-
  The reference program leaves its sixteen argument arrays as it found them.

  The program is a straight line of 434 host operations, each writing exactly one buffer. Window by window, the
  buffers written are listed in order; none of them is an argument. A buffer that no operation of a line writes
  holds at the end what it held at the start, so every terminating run ends with the arguments unchanged.
-/
import proofs.«139037_j17609365914513_2_alg».proof.Proof.RefOps
import Idealize.ShloMosaic.Lib.StableHlo.Run

noncomputable section

namespace Cert.RefArgs

open Cert.ReferenceIdeal Cert.ReferenceIdeal.Gen Idealize.ShloMosaic Idealize.ShloMosaic.TcCoe Idealize.SL.Sem Idealize.ShloMosaic.StableHlo

variable {F : FTy → Type} [FloatOps F]

/-- The buffers that the operations of window 0 write, in order (65 of them). -/
abbrev ops0_W : List (Ref sig .tc) :=
  [main_cst, main_cst_0, main_v0, main_cst_1, main_v1, main_v2, main_v3, main_cst_2, main_v4, main_v5, main_cst_3, main_v6, main_v7, main_v8, main_cst_4, main_call0.v0.ref, main_call0.v1.ref, main_call0.v2.ref, main_call0.v3.ref, main_call0.v4.ref, main_call0.v5.ref, main_v10, main_v11, main_c, main_v12, main_v13, main_v14, main_v15, main_v16, main_v17, main_v18, main_v19, main_v20, main_v21, main_v22, main_v23, main_v24, main_v25, main_v26, main_v27, main_v28, main_v29, main_v30, main_v31, main_v32, main_v33, main_c_5, main_v34, main_v35, main_c_6, main_v36, main_v37, main_v38, main_c_7, main_v39, main_v40, main_c_8, main_v41, main_v42, main_v43, main_c_9, main_v44, main_v45, main_c_10, main_v46]
set_option maxRecDepth 8192 in
/-- Each operation of window 0 writes a buffer of that list. -/
theorem ops0_writes : (Cert.RefRun.ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of window 1 write, in order (60 of them). -/
abbrev ops1_W : List (Ref sig .tc) :=
  [main_v47, main_v48, main_v49, main_v50, main_v51, main_v52, main_v53, main_v54, main_cst_11, main_v55, main_v56, main_v57, main_v58, main_c_12, main_v59, main_v60, main_c_13, main_v61, main_v62, main_v63, main_c_14, main_v64, main_v65, main_c_15, main_v66, main_v67, main_v68, main_c_16, main_v69, main_v70, main_c_17, main_v71, main_v72, main_v73, main_v74, main_v75, main_v76, main_v77, main_v78, main_v79, main_v80, main_v81, main_v82, main_c_18, main_v83, main_v84, main_c_19, main_v85, main_v86, main_v87, main_c_20, main_v88, main_v89, main_c_21, main_v90, main_v91, main_v92, main_c_22, main_v93, main_v94]
set_option maxRecDepth 8192 in
/-- Each operation of window 1 writes a buffer of that list. -/
theorem ops1_writes : (Cert.RefRun.ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of window 2 write, in order (60 of them). -/
abbrev ops2_W : List (Ref sig .tc) :=
  [main_c_23, main_v95, main_v96, main_v97, main_v98, main_v99, main_v100, main_v101, main_v102, main_v103, main_cst_24, main_v104, main_v105, main_v106, main_v107, main_c_25, main_v108, main_v109, main_c_26, main_v110, main_v111, main_v112, main_c_27, main_v113, main_v114, main_c_28, main_v115, main_v116, main_v117, main_c_29, main_v118, main_v119, main_c_30, main_v120, main_v121, main_v122, main_v123, main_v124, main_v125, main_v126, main_v127, main_v128, main_v129, main_v130, main_v131, main_c_31, main_v132, main_v133, main_c_32, main_v134, main_v135, main_v136, main_c_33, main_v137, main_v138, main_c_34, main_v139, main_v140, main_v141, main_c_35]
set_option maxRecDepth 8192 in
/-- Each operation of window 2 writes a buffer of that list. -/
theorem ops2_writes : (Cert.RefRun.ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of window 3 write, in order (60 of them). -/
abbrev ops3_W : List (Ref sig .tc) :=
  [main_v142, main_v143, main_c_36, main_v144, main_v145, main_v146, main_v147, main_v148, main_v149, main_v150, main_v151, main_v152, main_cst_37, main_v153, main_v154, main_v155, main_v156, main_c_38, main_v157, main_v158, main_c_39, main_v159, main_v160, main_v161, main_c_40, main_v162, main_v163, main_c_41, main_v164, main_v165, main_v166, main_c_42, main_v167, main_v168, main_c_43, main_v169, main_v170, main_v171, main_v172, main_v173, main_v174, main_v175, main_v176, main_v177, main_v178, main_v179, main_v180, main_c_44, main_v181, main_v182, main_c_45, main_v183, main_v184, main_v185, main_c_46, main_v186, main_v187, main_c_47, main_v188, main_v189]
set_option maxRecDepth 8192 in
/-- Each operation of window 3 writes a buffer of that list. -/
theorem ops3_writes : (Cert.RefRun.ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of window 4 write, in order (60 of them). -/
abbrev ops4_W : List (Ref sig .tc) :=
  [main_v190, main_c_48, main_v191, main_v192, main_c_49, main_v193, main_v194, main_v195, main_v196, main_v197, main_v198, main_v199, main_v200, main_v201, main_cst_50, main_v202, main_v203, main_v204, main_v205, main_c_51, main_v206, main_v207, main_c_52, main_v208, main_v209, main_v210, main_c_53, main_v211, main_v212, main_c_54, main_v213, main_v214, main_v215, main_c_55, main_v216, main_v217, main_c_56, main_v218, main_v219, main_v220, main_v221, main_v222, main_v223, main_v224, main_v225, main_v226, main_v227, main_v228, main_v229, main_cst_57, main_v230, main_v231, main_v232, main_v233, main_v234, main_v235, main_v236, main_cst_58, main_v237, main_v238]
set_option maxRecDepth 8192 in
/-- Each operation of window 4 writes a buffer of that list. -/
theorem ops4_writes : (Cert.RefRun.ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of window 5 write, in order (66 of them). -/
abbrev ops5_W : List (Ref sig .tc) :=
  [main_v239, main_v240, main_cst_59, main_v241, main_v242, main_v243, main_v244, main_v245, main_v246, main_v247, main_v248, main_v249, main_v250, main_cst_60, main_v251, main_v252, main_v253, main_c_61, main_v254, main_v255, main_c_62, main_v256, main_v257, main_v258, main_v259, main_v260, main_cst_63, main_v261, main_v262, main_v263, main_v264, main_v265, main_v266, main_v267, main_v268, main_v269, main_v270, main_v271, main_cst_64, main_call1.cst.ref, main_call1.v0.ref, main_call1.v1.ref, main_call1.v2.ref, main_call1.v3.ref, main_call1.v4.ref, main_call1.call0.v0.ref, main_c_65, main_v273, main_v274, main_c_66, main_v275, main_v276, main_v277, main_v278, main_v279, main_cst_67, main_v280, main_v281, main_v282, main_v283, main_v284, main_v285, main_v286, main_v287, main_v288, main_v289]
set_option maxRecDepth 8192 in
/-- Each operation of window 5 writes a buffer of that list. -/
theorem ops5_writes : (Cert.RefRun.ops5 : List (HloOp τ sig (Elt F))).Forall fun op =>
    op.writes ⊆ (ops5_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of window 6 write, in order (63 of them). -/
abbrev ops6_W : List (Ref sig .tc) :=
  [main_v290, main_cst_68, main_call2.cst.ref, main_call2.v0.ref, main_call2.v1.ref, main_call2.v2.ref, main_call2.v3.ref, main_call2.v4.ref, main_call2.call0.v0.ref, main_c_69, main_v292, main_v293, main_c_70, main_v294, main_v295, main_v296, main_v297, main_v298, main_cst_71, main_v299, main_v300, main_v301, main_v302, main_v303, main_v304, main_v305, main_v306, main_v307, main_v308, main_v309, main_cst_72, main_call3.cst.ref, main_call3.v0.ref, main_call3.v1.ref, main_call3.v2.ref, main_call3.v3.ref, main_call3.v4.ref, main_call3.call0.v0.ref, main_c_73, main_v311, main_v312, main_c_74, main_v313, main_v314, main_v315, main_v316, main_v317, main_cst_75, main_v318, main_v319, main_v320, main_v321, main_v322, main_v323, main_v324, main_v325, main_v326, main_v327, main_v328, main_cst_76, main_v329, main_v330, main_v331]
set_option maxRecDepth 8192 in
/-- Each operation of window 6 writes a buffer of that list. -/
theorem ops6_writes : (Cert.RefRun.ops6 : List (HloOp τ sig (Elt F))).Forall fun op =>
    op.writes ⊆ (ops6_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- An operation of a list whose operations write inside `W` does not write a buffer outside `W`. -/
theorem not_mem_writes {W : List (Ref sig .tc)} {r : Ref sig .tc} {l : List (HloOp τ sig (Elt F))}
    (hW : l.Forall fun op => op.writes ⊆ (W.map (Proc.devRef (τ := τ) .tc)).toFinset) (hr : r ∉ W)
    (op : HloOp τ sig (Elt F)) (hop : op ∈ l) : (Proc.devRef .tc r : DevRef τ sig) ∉ op.writes := fun hb => by
  obtain ⟨y, hy, he⟩ := List.mem_map.mp (List.mem_toFinset.mp ((List.forall_iff_forall_mem.mp hW) op hop hb))
  exact hr (Proc.devRef_injective _ he ▸ hy)

/-- A buffer that no window writes holds after the whole body what it held before. -/
theorem keep (V0 : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) :
    after Cert.RefRun.ops V0 (Proc.devRef .tc r) = V0 (Proc.devRef .tc r) :=
  after_of_forall_not_mem _ V0 fun op hop => by
    simp only [Cert.RefRun.ops, List.mem_append] at hop
    rcases hop with h | h | h | h | h | h | h
    exacts [not_mem_writes ops0_writes h0 op h, not_mem_writes ops1_writes h1 op h, not_mem_writes ops2_writes h2 op h, not_mem_writes ops3_writes h3 op h, not_mem_writes ops4_writes h4 op h, not_mem_writes ops5_writes h5 op h, not_mem_writes ops6_writes h6 op h]

set_option maxRecDepth 8192 in
/-- Argument 0 is written by no operation. -/
theorem arg_keep_0 (V0 : Valuation τ sig (Elt F)) :
    after Cert.RefRun.ops V0 (Proc.devRef .tc main_arg0) = V0 (Proc.devRef .tc main_arg0) :=
  keep V0 main_arg0 (by decide) (by decide) (by decide) (by decide) (by decide) (by decide) (by decide)

set_option maxRecDepth 8192 in
/-- Argument 1 is written by no operation. -/
theorem arg_keep_1 (V0 : Valuation τ sig (Elt F)) :
    after Cert.RefRun.ops V0 (Proc.devRef .tc main_arg1) = V0 (Proc.devRef .tc main_arg1) :=
  keep V0 main_arg1 (by decide) (by decide) (by decide) (by decide) (by decide) (by decide) (by decide)

set_option maxRecDepth 8192 in
/-- Argument 2 is written by no operation. -/
theorem arg_keep_2 (V0 : Valuation τ sig (Elt F)) :
    after Cert.RefRun.ops V0 (Proc.devRef .tc main_arg2) = V0 (Proc.devRef .tc main_arg2) :=
  keep V0 main_arg2 (by decide) (by decide) (by decide) (by decide) (by decide) (by decide) (by decide)

set_option maxRecDepth 8192 in
/-- Argument 3 is written by no operation. -/
theorem arg_keep_3 (V0 : Valuation τ sig (Elt F)) :
    after Cert.RefRun.ops V0 (Proc.devRef .tc main_arg3) = V0 (Proc.devRef .tc main_arg3) :=
  keep V0 main_arg3 (by decide) (by decide) (by decide) (by decide) (by decide) (by decide) (by decide)

set_option maxRecDepth 8192 in
/-- Argument 4 is written by no operation. -/
theorem arg_keep_4 (V0 : Valuation τ sig (Elt F)) :
    after Cert.RefRun.ops V0 (Proc.devRef .tc main_arg4) = V0 (Proc.devRef .tc main_arg4) :=
  keep V0 main_arg4 (by decide) (by decide) (by decide) (by decide) (by decide) (by decide) (by decide)

set_option maxRecDepth 8192 in
/-- Argument 5 is written by no operation. -/
theorem arg_keep_5 (V0 : Valuation τ sig (Elt F)) :
    after Cert.RefRun.ops V0 (Proc.devRef .tc main_arg5) = V0 (Proc.devRef .tc main_arg5) :=
  keep V0 main_arg5 (by decide) (by decide) (by decide) (by decide) (by decide) (by decide) (by decide)

set_option maxRecDepth 8192 in
/-- Argument 6 is written by no operation. -/
theorem arg_keep_6 (V0 : Valuation τ sig (Elt F)) :
    after Cert.RefRun.ops V0 (Proc.devRef .tc main_arg6) = V0 (Proc.devRef .tc main_arg6) :=
  keep V0 main_arg6 (by decide) (by decide) (by decide) (by decide) (by decide) (by decide) (by decide)

set_option maxRecDepth 8192 in
/-- Argument 7 is written by no operation. -/
theorem arg_keep_7 (V0 : Valuation τ sig (Elt F)) :
    after Cert.RefRun.ops V0 (Proc.devRef .tc main_arg7) = V0 (Proc.devRef .tc main_arg7) :=
  keep V0 main_arg7 (by decide) (by decide) (by decide) (by decide) (by decide) (by decide) (by decide)

set_option maxRecDepth 8192 in
/-- Argument 8 is written by no operation. -/
theorem arg_keep_8 (V0 : Valuation τ sig (Elt F)) :
    after Cert.RefRun.ops V0 (Proc.devRef .tc main_arg8) = V0 (Proc.devRef .tc main_arg8) :=
  keep V0 main_arg8 (by decide) (by decide) (by decide) (by decide) (by decide) (by decide) (by decide)

set_option maxRecDepth 8192 in
/-- Argument 9 is written by no operation. -/
theorem arg_keep_9 (V0 : Valuation τ sig (Elt F)) :
    after Cert.RefRun.ops V0 (Proc.devRef .tc main_arg9) = V0 (Proc.devRef .tc main_arg9) :=
  keep V0 main_arg9 (by decide) (by decide) (by decide) (by decide) (by decide) (by decide) (by decide)

set_option maxRecDepth 8192 in
/-- Argument 10 is written by no operation. -/
theorem arg_keep_10 (V0 : Valuation τ sig (Elt F)) :
    after Cert.RefRun.ops V0 (Proc.devRef .tc main_arg10) = V0 (Proc.devRef .tc main_arg10) :=
  keep V0 main_arg10 (by decide) (by decide) (by decide) (by decide) (by decide) (by decide) (by decide)

set_option maxRecDepth 8192 in
/-- Argument 11 is written by no operation. -/
theorem arg_keep_11 (V0 : Valuation τ sig (Elt F)) :
    after Cert.RefRun.ops V0 (Proc.devRef .tc main_arg11) = V0 (Proc.devRef .tc main_arg11) :=
  keep V0 main_arg11 (by decide) (by decide) (by decide) (by decide) (by decide) (by decide) (by decide)

set_option maxRecDepth 8192 in
/-- Argument 12 is written by no operation. -/
theorem arg_keep_12 (V0 : Valuation τ sig (Elt F)) :
    after Cert.RefRun.ops V0 (Proc.devRef .tc main_arg12) = V0 (Proc.devRef .tc main_arg12) :=
  keep V0 main_arg12 (by decide) (by decide) (by decide) (by decide) (by decide) (by decide) (by decide)

set_option maxRecDepth 8192 in
/-- Argument 13 is written by no operation. -/
theorem arg_keep_13 (V0 : Valuation τ sig (Elt F)) :
    after Cert.RefRun.ops V0 (Proc.devRef .tc main_arg13) = V0 (Proc.devRef .tc main_arg13) :=
  keep V0 main_arg13 (by decide) (by decide) (by decide) (by decide) (by decide) (by decide) (by decide)

set_option maxRecDepth 8192 in
/-- Argument 14 is written by no operation. -/
theorem arg_keep_14 (V0 : Valuation τ sig (Elt F)) :
    after Cert.RefRun.ops V0 (Proc.devRef .tc main_arg14) = V0 (Proc.devRef .tc main_arg14) :=
  keep V0 main_arg14 (by decide) (by decide) (by decide) (by decide) (by decide) (by decide) (by decide)

set_option maxRecDepth 8192 in
/-- Argument 15 is written by no operation. -/
theorem arg_keep_15 (V0 : Valuation τ sig (Elt F)) :
    after Cert.RefRun.ops V0 (Proc.devRef .tc main_arg15) = V0 (Proc.devRef .tc main_arg15) :=
  keep V0 main_arg15 (by decide) (by decide) (by decide) (by decide) (by decide) (by decide) (by decide)

/-- From any memory with zero counters every weakly fair execution of the reference program terminates, nothing
    faulting, with the sixteen argument arrays holding what they held at the start. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c main_arg0).trans (arg_keep_0 (launchContents m c)),
     (h c main_arg1).trans (arg_keep_1 (launchContents m c)),
     (h c main_arg2).trans (arg_keep_2 (launchContents m c)),
     (h c main_arg3).trans (arg_keep_3 (launchContents m c)),
     (h c main_arg4).trans (arg_keep_4 (launchContents m c)),
     (h c main_arg5).trans (arg_keep_5 (launchContents m c)),
     (h c main_arg6).trans (arg_keep_6 (launchContents m c)),
     (h c main_arg7).trans (arg_keep_7 (launchContents m c)),
     (h c main_arg8).trans (arg_keep_8 (launchContents m c)),
     (h c main_arg9).trans (arg_keep_9 (launchContents m c)),
     (h c main_arg10).trans (arg_keep_10 (launchContents m c)),
     (h c main_arg11).trans (arg_keep_11 (launchContents m c)),
     (h c main_arg12).trans (arg_keep_12 (launchContents m c)),
     (h c main_arg13).trans (arg_keep_13 (launchContents m c)),
     (h c main_arg14).trans (arg_keep_14 (launchContents m c)),
     (h c main_arg15).trans (arg_keep_15 (launchContents m c))⟩)
    (Cert.RefRun.run_main m ρ)

end Cert.RefArgs

end
-- ==== Proof.lean ====
/-
  The certificate's claims. A mesh-deformation network moves 100000 vertices: per-vertex features are the position
  divided by 128 and the trilinear interpolation of a 16-channel 128³ image at the clipped position; three
  graph-convolution layers x·Wself + (neighbour sums scaled by 1/max(deg,1))·Wnb + b with LeakyReLU(0.3) follow, and a
  last layer moves the positions by f32(0.1) times its affine map. The kernel program computes each layer's dense part
  in a region tiled over 25 blocks of 4000 vertices and fetches the image's corner rows from a channel-last flattened copy
  by one flat row index; the reference is the plain array program with a four-axis gather. On the extended reals:
  · each region leaves in its output array the layer's whole-array function of its input arrays (a block's entry is the
    layer's entry at its vertex, the blocks cover the array);
  · the flat row index (x·128 + y)·128 + z of coordinates in 0 … 127 addresses, in the channel-last copy, the same image
    element as the coordinate triple does in the four-axis image, and the floor of a position clipped to [0, 127] is such
    a coordinate (so is its successor capped at 127);
  · a change of float format is the identity, so the neighbour sums and inverse degrees are the same functions.
  Hence both programs end with the same function `outK = outR` of their arguments. The frames: the two kernel programs'
  by the launch theorem over their segments, the reference's because no operation writes an argument.
-/
import proofs.«139037_j17609365914513_2_alg».proof.Defs
import proofs.«139037_j17609365914513_2_alg».proof.Proof.Gen.Kernel
import proofs.«139037_j17609365914513_2_alg».proof.Proof.FrameBits
import proofs.«139037_j17609365914513_2_alg».proof.Proof.Gen.KernelIdeal
import proofs.«139037_j17609365914513_2_alg».proof.Proof.FrameIdeal
import proofs.«139037_j17609365914513_2_alg».proof.Proof.KernelRun
import proofs.«139037_j17609365914513_2_alg».proof.Proof.KValue
import proofs.«139037_j17609365914513_2_alg».proof.Proof.Gen.ReferenceIdeal
import proofs.«139037_j17609365914513_2_alg».proof.Proof.RefOps
import proofs.«139037_j17609365914513_2_alg».proof.Proof.RefOut
import proofs.«139037_j17609365914513_2_alg».proof.Proof.RefArgs
import proofs.«139037_j17609365914513_2_alg».proof.Proof.Outs
import proofs.«139037_j17609365914513_2_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.GenP.frame m ρ

/-- The idealized kernel program runs and leaves its arguments as launched. -/
theorem frame_ki : Cert.frame_KernelIdeal := fun m ρ _ => Cert.KernelIdeal.GenP.frame m ρ

/-- The reference program runs and leaves its arguments as launched: none of its operations writes one. -/
theorem frame_ri : Cert.frame_ReferenceIdeal := fun m ρ _ => Cert.RefArgs.frame (F := Ideal) m ρ

/-- The ideal pass rewrote nothing. -/
theorem preserves : Cert.preserves_Kernel_KernelIdeal := trivial

/-- From memories agreeing on the arguments both idealized programs run and end with the same result array, the one
    function `outK` of the kernel program's arguments, their arguments unchanged. -/
theorem algebraic : Cert.algebraic_KernelIdeal_ReferenceIdeal := by
  intro m ρ m' ρ' _ hagree
  refine ⟨fun c => Cert.Outs.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run (Cert.KernelIdeal.defs (F := Ideal)) _ _).mono (fun r h c =>
      ⟨(h c Cert.KernelIdeal.main_v247 (by decide)).trans (Cert.KValue.kernel_value m ρ c),
       (h c Cert.KernelIdeal.main_arg0 (by decide)).trans (Cert.KernelIdeal.GenP.W10_main_arg0 m ρ c),
       (h c Cert.KernelIdeal.main_arg1 (by decide)).trans (Cert.KernelIdeal.GenP.W10_main_arg1 m ρ c),
       (h c Cert.KernelIdeal.main_arg2 (by decide)).trans (Cert.KernelIdeal.GenP.W10_main_arg2 m ρ c),
       (h c Cert.KernelIdeal.main_arg3 (by decide)).trans (Cert.KernelIdeal.GenP.W10_main_arg3 m ρ c),
       (h c Cert.KernelIdeal.main_arg4 (by decide)).trans (Cert.KernelIdeal.GenP.W10_main_arg4 m ρ c),
       (h c Cert.KernelIdeal.main_arg5 (by decide)).trans (Cert.KernelIdeal.GenP.W10_main_arg5 m ρ c),
       (h c Cert.KernelIdeal.main_arg6 (by decide)).trans (Cert.KernelIdeal.GenP.W10_main_arg6 m ρ c),
       (h c Cert.KernelIdeal.main_arg7 (by decide)).trans (Cert.KernelIdeal.GenP.W10_main_arg7 m ρ c),
       (h c Cert.KernelIdeal.main_arg8 (by decide)).trans (Cert.KernelIdeal.GenP.W10_main_arg8 m ρ c),
       (h c Cert.KernelIdeal.main_arg9 (by decide)).trans (Cert.KernelIdeal.GenP.W10_main_arg9 m ρ c),
       (h c Cert.KernelIdeal.main_arg10 (by decide)).trans (Cert.KernelIdeal.GenP.W10_main_arg10 m ρ c),
       (h c Cert.KernelIdeal.main_arg11 (by decide)).trans (Cert.KernelIdeal.GenP.W10_main_arg11 m ρ c),
       (h c Cert.KernelIdeal.main_arg12 (by decide)).trans (Cert.KernelIdeal.GenP.W10_main_arg12 m ρ c),
       (h c Cert.KernelIdeal.main_arg13 (by decide)).trans (Cert.KernelIdeal.GenP.W10_main_arg13 m ρ c),
       (h c Cert.KernelIdeal.main_arg14 (by decide)).trans (Cert.KernelIdeal.GenP.W10_main_arg14 m ρ c),
       (h c Cert.KernelIdeal.main_arg15 (by decide)).trans (Cert.KernelIdeal.GenP.W10_main_arg15 m ρ c)⟩)
      (Cert.KernelRun.run_fold m ρ)
  · refine (θ_run (Cert.ReferenceIdeal.defs (F := Ideal)) _ _).mono (fun r h c => ⟨?_, (h c Cert.ReferenceIdeal.main_arg0).trans (Cert.RefArgs.arg_keep_0 _),
       (h c Cert.ReferenceIdeal.main_arg1).trans (Cert.RefArgs.arg_keep_1 _),
       (h c Cert.ReferenceIdeal.main_arg2).trans (Cert.RefArgs.arg_keep_2 _),
       (h c Cert.ReferenceIdeal.main_arg3).trans (Cert.RefArgs.arg_keep_3 _),
       (h c Cert.ReferenceIdeal.main_arg4).trans (Cert.RefArgs.arg_keep_4 _),
       (h c Cert.ReferenceIdeal.main_arg5).trans (Cert.RefArgs.arg_keep_5 _),
       (h c Cert.ReferenceIdeal.main_arg6).trans (Cert.RefArgs.arg_keep_6 _),
       (h c Cert.ReferenceIdeal.main_arg7).trans (Cert.RefArgs.arg_keep_7 _),
       (h c Cert.ReferenceIdeal.main_arg8).trans (Cert.RefArgs.arg_keep_8 _),
       (h c Cert.ReferenceIdeal.main_arg9).trans (Cert.RefArgs.arg_keep_9 _),
       (h c Cert.ReferenceIdeal.main_arg10).trans (Cert.RefArgs.arg_keep_10 _),
       (h c Cert.ReferenceIdeal.main_arg11).trans (Cert.RefArgs.arg_keep_11 _),
       (h c Cert.ReferenceIdeal.main_arg12).trans (Cert.RefArgs.arg_keep_12 _),
       (h c Cert.ReferenceIdeal.main_arg13).trans (Cert.RefArgs.arg_keep_13 _),
       (h c Cert.ReferenceIdeal.main_arg14).trans (Cert.RefArgs.arg_keep_14 _),
       (h c Cert.ReferenceIdeal.main_arg15).trans (Cert.RefArgs.arg_keep_15 _)⟩)
      (Cert.RefRun.run_main m' ρ')
    rw [h c Cert.ReferenceIdeal.main_v331, Cert.RefRun.result_outR]
    obtain ⟨e0, e1, e2, e3, e4, e5, e6, e7, e8, e9, e10, e11, e12, e13, e14, e15⟩ := hagree c
    show Cert.Outs.outR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
    rw [e0, e1, e2, e3, e4, e5, e6, e7, e8, e9, e10, e11, e12, e13, e14, e15]
    exact (Cert.Outs.out_eq ..).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
